-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg6 : FVec F S3x64 .f32) (main_arg7 : FVec F S3x64 .f32) (main_arg8 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S3x64x64 .f32) (main_arg4 : FVec F S3x64 .f32) (main_arg5 : FVec F S3x64x64 .f32) (main_arg6 : FVec F S3x64 .f32) (main_arg7 : FVec F S3x64 .f32) (main_arg8 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S512x64 : Shape := ⟨2, ![512, 64]⟩
abbrev S100000x1 : Shape := ⟨2, ![100000, 1]⟩
abbrev S512x192 : Shape := ⟨2, ![512, 192]⟩

abbrev nBuf : Space → Nat
  | .hbm => 182
  | .vmem => 60
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S100000x64, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S100000x64, .f32⟩
  | 33 => ⟨S1x64x64, .f32⟩
  | 34 => ⟨S64x64, .f32⟩
  | 35 => ⟨S1x64, .f32⟩
  | 36 => ⟨S64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S1x64, .f32⟩
  | 43 => ⟨S100000x64, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S_, .f32⟩
  | 50 => ⟨S1x64, .f32⟩
  | 51 => ⟨S1x64, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S1x64, .f32⟩
  | 58 => ⟨S1x64, .f32⟩
  | 59 => ⟨S64, .f32⟩
  | 60 => ⟨S1x64, .f32⟩
  | 61 => ⟨S64, .f32⟩
  | 62 => ⟨S1x64, .f32⟩
  | 63 => ⟨S1x64, .f32⟩
  | 64 => ⟨S100000x64, .f32⟩
  | 65 => ⟨S_, .f32⟩
  | 66 => ⟨S100000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S100000x64, .f32⟩
  | 85 => ⟨S1x64x64, .f32⟩
  | 86 => ⟨S64x64, .f32⟩
  | 87 => ⟨S1x64, .f32⟩
  | 88 => ⟨S64, .f32⟩
  | 89 => ⟨S1x64x64, .f32⟩
  | 90 => ⟨S64x64, .f32⟩
  | 91 => ⟨S1x64, .f32⟩
  | 92 => ⟨S64, .f32⟩
  | 93 => ⟨S1x64, .f32⟩
  | 94 => ⟨S1x64, .f32⟩
  | 95 => ⟨S100000x64, .f32⟩
  | 96 => ⟨S1x64, .f32⟩
  | 97 => ⟨S1x64, .f32⟩
  | 98 => ⟨S_, .f32⟩
  | 99 => ⟨S1x64, .f32⟩
  | 100 => ⟨S1x64, .f32⟩
  | 101 => ⟨S_, .f32⟩
  | 102 => ⟨S1x64, .f32⟩
  | 103 => ⟨S1x64, .f32⟩
  | 104 => ⟨S1x64, .f32⟩
  | 105 => ⟨S1x64, .f32⟩
  | 106 => ⟨S_, .f32⟩
  | 107 => ⟨S1x64, .f32⟩
  | 108 => ⟨S1x64, .f32⟩
  | 109 => ⟨S1x64, .f32⟩
  | 110 => ⟨S1x64, .f32⟩
  | 111 => ⟨S64, .f32⟩
  | 112 => ⟨S1x64, .f32⟩
  | 113 => ⟨S64, .f32⟩
  | 114 => ⟨S1x64, .f32⟩
  | 115 => ⟨S1x64, .f32⟩
  | 116 => ⟨S100000x64, .f32⟩
  | 117 => ⟨S_, .f32⟩
  | 118 => ⟨S100000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x64, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S100000x64, .f32⟩
  | 9 => ⟨S1x64x64, .f32⟩
  | 10 => ⟨S64x64, .f32⟩
  | 11 => ⟨S1x64, .f32⟩
  | 12 => ⟨S64, .f32⟩
  | 13 => ⟨S1x64x64, .f32⟩
  | 14 => ⟨S64x64, .f32⟩
  | 15 => ⟨S1x64, .f32⟩
  | 16 => ⟨S64, .f32⟩
  | 17 => ⟨S1x64, .f32⟩
  | 18 => ⟨S1x64, .f32⟩
  | 19 => ⟨S100000x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S_, .f32⟩
  | 26 => ⟨S1x64, .f32⟩
  | 27 => ⟨S1x64, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S1x64, .f32⟩
  | 34 => ⟨S1x64, .f32⟩
  | 35 => ⟨S64, .f32⟩
  | 36 => ⟨S1x64, .f32⟩
  | 37 => ⟨S64, .f32⟩
  | 38 => ⟨S1x64, .f32⟩
  | 39 => ⟨S1x64, .f32⟩
  | 40 => ⟨S100000x64, .f32⟩
  | 41 => ⟨S_, .f32⟩
  | 42 => ⟨S512x64, .f32⟩
  | 43 => ⟨S100000x1, .i32⟩
  | 44 => ⟨S512x64, .f32⟩
  | 45 => ⟨S_, .f32⟩
  | 46 => ⟨S512x64, .f32⟩
  | 47 => ⟨S100000x1, .i32⟩
  | 48 => ⟨S512x64, .f32⟩
  | 49 => ⟨S_, .f32⟩
  | 50 => ⟨S512x64, .f32⟩
  | 51 => ⟨S100000x1, .i32⟩
  | 52 => ⟨S512x64, .f32⟩
  | 53 => ⟨S512x192, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71_0 : Ref sig .tc := ⟨.hbm, 95, rfl⟩
abbrev main_v71_1 : Ref sig .tc := ⟨.hbm, 96, rfl⟩
abbrev main_v71_2 : Ref sig .tc := ⟨.hbm, 97, rfl⟩
abbrev main_cst_11 : Ref sig .tc := ⟨.hbm, 98, rfl⟩
abbrev main_v72 : Ref sig .tc := ⟨.hbm, 99, rfl⟩
abbrev main_v73 : Ref sig .tc := ⟨.hbm, 100, rfl⟩
abbrev main_cst_12 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_c_15 : Ref sig .tc := ⟨.hbm, 119, rfl⟩
abbrev main_v89 : Ref sig .tc := ⟨.hbm, 120, rfl⟩
abbrev main_v90 : Ref sig .tc := ⟨.hbm, 121, rfl⟩
abbrev main_c_16 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_17 : Ref sig .tc := ⟨.hbm, 128, rfl⟩
abbrev main_v96 : Ref sig .tc := ⟨.hbm, 129, rfl⟩
abbrev main_v97 : Ref sig .tc := ⟨.hbm, 130, rfl⟩
abbrev main_c_18 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113_0 : Ref sig .tc := ⟨.hbm, 147, rfl⟩
abbrev main_v113_1 : Ref sig .tc := ⟨.hbm, 148, rfl⟩
abbrev main_v113_2 : Ref sig .tc := ⟨.hbm, 149, rfl⟩
abbrev main_cst_19 : Ref sig .tc := ⟨.hbm, 150, rfl⟩
abbrev main_v114 : Ref sig .tc := ⟨.hbm, 151, rfl⟩
abbrev main_v115 : Ref sig .tc := ⟨.hbm, 152, rfl⟩
abbrev main_cst_20 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_21 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_22 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_23 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_24 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  concatenates_S512x64_S512x64_S512x64_S512x192_d1 : Shape.Concatenates [S512x64, S512x64, S512x64] S512x192 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S512x64_S100000x1_S100000x64_1_0_0_1_wf : ScatterDims.WF S512x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v29_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v71_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v71_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v71_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v87) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v104) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v111) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v112) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v113_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v113_1) S1x64.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v113_2) S1x64.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v113_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v115) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v128) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v129) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S100000x1 : Shape := ⟨2, ![100000, 1]⟩
abbrev S512x192 : Shape := ⟨2, ![512, 192]⟩

abbrev nBuf : Space → Nat
  | .hbm => 257
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S100000x64, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S100000x64, .f32⟩
  | 33 => ⟨S100000x64, .f32⟩
  | 34 => ⟨S1x64x64, .f32⟩
  | 35 => ⟨S64x64, .f32⟩
  | 36 => ⟨S100000x64, .f32⟩
  | 37 => ⟨S1x64, .f32⟩
  | 38 => ⟨S64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S1x64x64, .f32⟩
  | 46 => ⟨S64x64, .f32⟩
  | 47 => ⟨S100000x64, .f32⟩
  | 48 => ⟨S1x64, .f32⟩
  | 49 => ⟨S64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S_, .f32⟩
  | 74 => ⟨S64, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S1x64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S100000x64, .f32⟩
  | 110 => ⟨S100000x64, .f32⟩
  | 111 => ⟨S1x64x64, .f32⟩
  | 112 => ⟨S64x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S1x64, .f32⟩
  | 126 => ⟨S64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S_, .f32⟩
  | 6 => ⟨S64, .f32⟩
  | 7 => ⟨S_, .f32⟩
  | 8 => ⟨S64, .f32⟩
  | 9 => ⟨S64, .f32⟩
  | 10 => ⟨S1x64, .f32⟩
  | 11 => ⟨S100000x64, .f32⟩
  | 12 => ⟨S100000x64, .f32⟩
  | 13 => ⟨S100000x64, .f32⟩
  | 14 => ⟨S_, .f32⟩
  | 15 => ⟨S64, .f32⟩
  | 16 => ⟨S_, .f32⟩
  | 17 => ⟨S64, .f32⟩
  | 18 => ⟨S64, .f32⟩
  | 19 => ⟨S1x64, .f32⟩
  | 20 => ⟨S100000x64, .f32⟩
  | 21 => ⟨S100000x64, .f32⟩
  | 22 => ⟨S_, .f32⟩
  | 23 => ⟨S64, .f32⟩
  | 24 => ⟨S64, .f32⟩
  | 25 => ⟨S64, .f32⟩
  | 26 => ⟨S1x64, .f32⟩
  | 27 => ⟨S100000x64, .f32⟩
  | 28 => ⟨S100000x64, .f32⟩
  | 29 => ⟨S1x64, .f32⟩
  | 30 => ⟨S64, .f32⟩
  | 31 => ⟨S1x64, .f32⟩
  | 32 => ⟨S100000x64, .f32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S1x64x64, .f32⟩
  | 72 => ⟨S64x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .f32⟩
  | 83 => ⟨S64, .f32⟩
  | 84 => ⟨S_, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S100000x64, .f32⟩
  | 91 => ⟨S_, .f32⟩
  | 92 => ⟨S64, .f32⟩
  | 93 => ⟨S_, .f32⟩
  | 94 => ⟨S64, .f32⟩
  | 95 => ⟨S64, .f32⟩
  | 96 => ⟨S1x64, .f32⟩
  | 97 => ⟨S100000x64, .f32⟩
  | 98 => ⟨S100000x64, .f32⟩
  | 99 => ⟨S_, .f32⟩
  | 100 => ⟨S64, .f32⟩
  | 101 => ⟨S64, .f32⟩
  | 102 => ⟨S64, .f32⟩
  | 103 => ⟨S1x64, .f32⟩
  | 104 => ⟨S100000x64, .f32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S100000x64, .f32⟩
  | 111 => ⟨S1x64, .f32⟩
  | 112 => ⟨S64, .f32⟩
  | 113 => ⟨S1x64, .f32⟩
  | 114 => ⟨S100000x64, .f32⟩
  | 115 => ⟨S100000x64, .f32⟩
  | 116 => ⟨S_, .f32⟩
  | 117 => ⟨S512x64, .f32⟩
  | 118 => ⟨S100000x1, .i32⟩
  | 119 => ⟨S512x64, .f32⟩
  | 120 => ⟨S_, .f32⟩
  | 121 => ⟨S512x64, .f32⟩
  | 122 => ⟨S100000x1, .i32⟩
  | 123 => ⟨S512x64, .f32⟩
  | 124 => ⟨S_, .f32⟩
  | 125 => ⟨S512x64, .f32⟩
  | 126 => ⟨S100000x1, .i32⟩
  | 127 => ⟨S512x64, .f32⟩
  | _ => ⟨S100000x64, .f32⟩

abbrev hbmTy0_2 (i : Nat) : BufTy := match i % 128 with
  | 0 => ⟨S512x192, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_c_9 : Ref sig .tc := ⟨.hbm, 92, rfl⟩
abbrev main_v68 : Ref sig .tc := ⟨.hbm, 93, rfl⟩
abbrev main_v69 : Ref sig .tc := ⟨.hbm, 94, rfl⟩
abbrev main_c_10 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_11 : Ref sig .tc := ⟨.hbm, 101, rfl⟩
abbrev main_v75 : Ref sig .tc := ⟨.hbm, 102, rfl⟩
abbrev main_v76 : Ref sig .tc := ⟨.hbm, 103, rfl⟩
abbrev main_c_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call2_cst : Ref sig .tc := ⟨.hbm, 119, rfl⟩
abbrev main_call2_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_call3_cst : Ref sig .tc := ⟨.hbm, 130, rfl⟩
abbrev main_call3_v0 : Ref sig .tc := ⟨.hbm, 131, rfl⟩
abbrev main_v100 : Ref sig .tc := ⟨.hbm, 132, rfl⟩
abbrev main_cst_13 : Ref sig .tc := ⟨.hbm, 133, rfl⟩
abbrev main_v101 : Ref sig .tc := ⟨.hbm, 134, rfl⟩
abbrev main_cst_14 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_15 : Ref sig .tc := ⟨.hbm, 142, rfl⟩
abbrev main_v108 : Ref sig .tc := ⟨.hbm, 143, rfl⟩
abbrev main_cst_16 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_17 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_18 : Ref sig .tc := ⟨.hbm, 167, rfl⟩
abbrev main_v130 : Ref sig .tc := ⟨.hbm, 168, rfl⟩
abbrev main_c_19 : Ref sig .tc := ⟨.hbm, 169, rfl⟩
abbrev main_v131 : Ref sig .tc := ⟨.hbm, 170, rfl⟩
abbrev main_v132 : Ref sig .tc := ⟨.hbm, 171, rfl⟩
abbrev main_c_20 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_c_21 : Ref sig .tc := ⟨.hbm, 178, rfl⟩
abbrev main_v138 : Ref sig .tc := ⟨.hbm, 179, rfl⟩
abbrev main_v139 : Ref sig .tc := ⟨.hbm, 180, rfl⟩
abbrev main_c_22 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_call4_cst : Ref sig .tc := ⟨.hbm, 196, rfl⟩
abbrev main_call4_v0 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_call5_cst : Ref sig .tc := ⟨.hbm, 207, rfl⟩
abbrev main_call5_v0 : Ref sig .tc := ⟨.hbm, 208, rfl⟩
abbrev main_v163 : Ref sig .tc := ⟨.hbm, 209, rfl⟩
abbrev main_cst_23 : Ref sig .tc := ⟨.hbm, 210, rfl⟩
abbrev main_v164 : Ref sig .tc := ⟨.hbm, 211, rfl⟩
abbrev main_cst_24 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_25 : Ref sig .tc := ⟨.hbm, 219, rfl⟩
abbrev main_v171 : Ref sig .tc := ⟨.hbm, 220, rfl⟩
abbrev main_cst_26 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_27 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_28 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_29 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_cst_30 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  concatenates_S512x64_S512x64_S512x64_S512x192_d1 : Shape.Concatenates [S512x64, S512x64, S512x64] S512x192 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf

class Facts : Prop extends Facts₀ where

variable [Facts]
-- ==== Proof.Kernel.MlpRun0.lean ====
/-
  The first kernel of a layer — the two-layer perceptron over a block of 5000 rows, with the running column sums of
  its result and of the result's squares — run on whole staging buffers, in its two control cases: at the first
  grid point the body clears the two running rows before it adds the block's column sums to them; at every later
  point it adds to what the point before left. Each case's run is stated as a subtype: the stores each output buffer
  ends with (last first), with the proof that the body run from the
  six input buffers at their contents reaches its continuation holding the inputs unchanged and each output buffer
  with exactly those stores written.
-/
import proofs.«149905_j3221225472297_1_alg».proof.Proof.Gen.Kernel.Launch
import proofs.«149905_j3221225472297_1_alg».proof.Proof.Gen.Kernel.Skeleton
import proofs.«149905_j3221225472297_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the grid coordinate. -/
abbrev first0 (i : grid0.Coords) : Prop :=
  (Scalar.cmpi .ne (Scalar.extui (Scalar.cmpi .eq (BitVec.ofNat 32 (i 0).val) 0#32)) 0#32) = 1#1

/-- It holds at point 0 only: decided over the twenty grid points. -/
theorem first0_iff : ∀ t : Fin cfg0.N, first0 (grid0.coords t) ↔ t.val % 20 = 0 :=
  (by decide +kernel : ∀ t : Fin grid0.N, first0 (grid0.coords t) ↔ t.val % 20 = 0)

set_option maxHeartbeats 4000000 in
/-- The body at the first point: the running rows cleared, then the block's hidden rows stored and their column sums added. -/
noncomputable def firstRun0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i)
    (x0 x1 : Vec F S5000x64 .f32) (x2 : Vec F S64x64 .f32) (x3 : Vec F S1x64 .f32) (x4 : Vec F S64x64 .f32) (x5 : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (first0 i) := ⟨hc⟩
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The body at a later point: the running rows (at `s`, `q`) are added to. -/
noncomputable def laterRun0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i)
    (x0 x1 : Vec F S5000x64 .f32) (x2 : Vec F S64x64 .f32) (x3 : Vec F S1x64 .f32) (x4 : Vec F S64x64 .f32) (x5 : Vec F S1x64 .f32) (s q : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (¬first0 i) := ⟨hc⟩
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.Kernel.MlpRegion0.lean ====
/-
  The frame half of a layer's first kernel region: the proof data of its pipeline of twenty grid points at any contents
  `V` of the TensorCore's buffers on entry. After the body at a point each input window's buffer holds its block of the
  arrays as entered; the output windows' buffers hold what the point's control case leaves: the hidden rows' buffer is
  rewritten at every point, the two running rows (column sums, column sums of squares) start from zero at the first
  point and are added to at every later one, so their contents are defined by recursion on the point.
-/
import proofs.«149905_j3221225472297_1_alg».proof.Proof.Kernel.MlpRun0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, fetched there or not (a window whose block index does
    not move is fetched at the first point only), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The staging buffers -/

abbrev VO0_6 : View sig .tc .vmem S5000x64 .f32 := (Memref.whole cc0_stg6_0 : Memref sig .tc .vmem S5000x64 .f32).view
abbrev VO0_7 : View sig .tc .vmem S1x64 .f32 := (Memref.whole cc0_stg7_0 : Memref sig .tc .vmem S1x64 .f32).view
abbrev VO0_8 : View sig .tc .vmem S1x64 .f32 := (Memref.whole cc0_stg8_0 : Memref sig .tc .vmem S1x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)

/-! ## Each case's stores cover each output buffer -/

theorem cover0_first_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i)
    (x0 x1 : Vec F S5000x64 .f32) (x2 : Vec F S64x64 .f32) (x3 : Vec F S1x64 .f32) (x4 : Vec F S64x64 .f32) (x5 : Vec F S1x64 .f32) (y : S5000x64.Idx) :
    ∃ pc ∈ (firstRun0 c i arg1 harg1 arg2 harg2 arg3 harg3 arg4 harg4 arg5 harg5 arg6 harg6 arg7 harg7 arg8 harg8 arg9 harg9 hc x0 x1 x2 x3 x4 x5).1.1, y ∈ pc.1.set :=
  View.cover_of_tiledL (firstRun0 c i arg1 harg1 arg2 harg2 arg3 harg3 arg4 harg4 arg5 harg5 arg6 harg6 arg7 harg7 arg8 harg8 arg9 harg9 hc x0 x1 x2 x3 x4 x5).1.1 S5000x64.size (by sl_kernel_rfl) y
theorem cover0_first_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun0 c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL (firstRun0 c i arg1 harg1 arg2 harg2 arg3 harg3 arg4 harg4 arg5 harg5 arg6 harg6 arg7 harg7 arg8 harg8 arg9 harg9 hc x0 x1 x2 x3 x4 x5).1.2.1 S1x64.size (by sl_kernel_rfl) y
theorem cover0_first_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun0 c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL (firstRun0 c i arg1 harg1 arg2 harg2 arg3 harg3 arg4 harg4 arg5 harg5 arg6 harg6 arg7 harg7 arg8 harg8 arg9 harg9 hc x0 x1 x2 x3 x4 x5).1.2.2 S1x64.size (by sl_kernel_rfl) y
theorem cover0_later_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i)
    (x0 x1 : Vec F S5000x64 .f32) (x2 : Vec F S64x64 .f32) (x3 : Vec F S1x64 .f32) (x4 : Vec F S64x64 .f32) (x5 : Vec F S1x64 .f32) (s q : Vec F S1x64 .f32) (y : S5000x64.Idx) :
    ∃ pc ∈ (laterRun0 c i arg1 harg1 arg2 harg2 arg3 harg3 arg4 harg4 arg5 harg5 arg6 harg6 arg7 harg7 arg8 harg8 arg9 harg9 hc x0 x1 x2 x3 x4 x5 s q).1.1, y ∈ pc.1.set :=
  View.cover_of_tiledL (laterRun0 c i arg1 harg1 arg2 harg2 arg3 harg3 arg4 harg4 arg5 harg5 arg6 harg6 arg7 harg7 arg8 harg8 arg9 harg9 hc x0 x1 x2 x3 x4 x5 s q).1.1 S5000x64.size (by sl_kernel_rfl) y
theorem cover0_later_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun0 c i arg1 harg1 arg2 harg2 arg3 harg3 arg4 harg4 arg5 harg5 arg6 harg6 arg7 harg7 arg8 harg8 arg9 harg9 hc x0 x1 x2 x3 x4 x5 s q).1.2.1, y ∈ pc.1.set :=
  View.cover_of_tiledL (laterRun0 c i arg1 harg1 arg2 harg2 arg3 harg3 arg4 harg4 arg5 harg5 arg6 harg6 arg7 harg7 arg8 harg8 arg9 harg9 hc x0 x1 x2 x3 x4 x5 s q).1.2.1 S1x64.size (by sl_kernel_rfl) y
theorem cover0_later_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun0 c i arg1 harg1 arg2 harg2 arg3 harg3 arg4 harg4 arg5 harg5 arg6 harg6 arg7 harg7 arg8 harg8 arg9 harg9 hc x0 x1 x2 x3 x4 x5 s q).1.2.2, y ∈ pc.1.set :=
  View.cover_of_tiledL (laterRun0 c i arg1 harg1 arg2 harg2 arg3 harg3 arg4 harg4 arg5 harg5 arg6 harg6 arg7 harg7 arg8 harg8 arg9 harg9 hc x0 x1 x2 x3 x4 x5 s q).1.2.2 S1x64.size (by sl_kernel_rfl) y

/-! ## What the outputs hold after each point -/

/-- What the first point's body leaves in the three output buffers: its stores read back. -/
def firstAt0 (c : Dev nD) (t : Fin cfg0.N) (h0 : t.val % 20 = 0) : Vec F S5000x64 .f32 × Vec F S1x64 .f32 × Vec F S1x64 .f32 :=
  (VO0_6.read (Elt F) (VO0_6.writes (Elt F) VO0_6.junk (firstRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t)).1.1),
   VO0_7.read (Elt F) (VO0_7.writes (Elt F) VO0_7.junk (firstRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t)).1.2.1),
   VO0_8.read (Elt F) (VO0_8.writes (Elt F) VO0_8.junk (firstRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t)).1.2.2))

/-- What a later point's body leaves, from the running rows `s`, `q` the point before left. -/
def laterAt0 (c : Dev nD) (t : Fin cfg0.N) (h0 : ¬t.val % 20 = 0) (s q : Vec F S1x64 .f32) : Vec F S5000x64 .f32 × Vec F S1x64 .f32 × Vec F S1x64 .f32 :=
  (VO0_6.read (Elt F) (VO0_6.writes (Elt F) VO0_6.junk (laterRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q).1.1),
   VO0_7.read (Elt F) (VO0_7.writes (Elt F) VO0_7.junk (laterRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q).1.2.1),
   VO0_8.read (Elt F) (VO0_8.writes (Elt F) VO0_8.junk (laterRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q).1.2.2))

/-- The accumulation: the three output buffers after the body at position `n`. -/
def outs0 (c : Dev nD) : (n : ℕ) → n < cfg0.N → Vec F S5000x64 .f32 × Vec F S1x64 .f32 × Vec F S1x64 .f32
  | 0, hn => firstAt0 V c ⟨0, hn⟩ (Nat.zero_mod _)
  | n + 1, hn =>
    if h0 : (n + 1) % 20 = 0 then firstAt0 V c ⟨n + 1, hn⟩ h0
    else laterAt0 V c ⟨n + 1, hn⟩ h0 (outs0 c n (Nat.lt_of_succ_lt hn)).2.1 (outs0 c n (Nat.lt_of_succ_lt hn)).2.2

theorem outs0_first (c : Dev nD) (t : Fin cfg0.N) (h0 : t.val % 20 = 0) :
    outs0 V c t.val t.isLt = firstAt0 V c t h0 := by
  obtain ⟨n, hn⟩ := t
  cases n with
  | zero => exact rfl
  | succ n => exact (dif_pos h0).trans rfl

theorem outs0_later (c : Dev nD) (t : Fin cfg0.N) (h0 : ¬t.val % 20 = 0) :
    outs0 V c t.val t.isLt = laterAt0 V c t h0 (outs0 V c (t.val - 1) (Nat.lt_of_le_of_lt (Nat.sub_le _ _) t.isLt)).2.1
      (outs0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at its
    block and the outputs' at `outs0`; the invariant is the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outs0 V c t.val t.isLt).1
    | ⟨7, _⟩ => (outs0 V c t.val t.isLt).2.1
    | ⟨8, _⟩ => (outs0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outs0 V c t.val t.isLt).1 := by dsimp only [dat0]
theorem after0_7 (c : Dev nD) (t : Fin cfg0.N) : (dat0 V c).after 7 t = (outs0 V c t.val t.isLt).2.1 := by dsimp only [dat0]
theorem after0_8 (c : Dev nD) (t : Fin cfg0.N) : (dat0 V c).after 8 t = (outs0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! At a later point the running rows' buffers hold what the body left at the point before: they are written back at the
    last point only. -/
theorem before0_7_later (c : Dev nD) (t : Fin cfg0.N) (h0 : ¬t.val % 20 = 0) (d) :
    (dat0 V c).before 7 t d = (outs0 V c (t.val - 1) (Nat.lt_of_le_of_lt (Nat.sub_le _ _) t.isLt)).2.1 := by
  have hN : t.val < 20 := lt_of_lt_of_eq t.isLt (show cfg0.N = 20 from N_0)
  rw [Dat.before_out_kept _ 7 rfl t (by omega) (Bool.eq_false_iff.mpr fun h => by have := (flush0_7 _).mp h; dsimp only at this; omega)
    (fun _ => rfl) (fun _ _ => rfl)]
  dsimp only [dat0]
theorem before0_8_later (c : Dev nD) (t : Fin cfg0.N) (h0 : ¬t.val % 20 = 0) (d) :
    (dat0 V c).before 8 t d = (outs0 V c (t.val - 1) (Nat.lt_of_le_of_lt (Nat.sub_le _ _) t.isLt)).2.2 := by
  have hN : t.val < 20 := lt_of_lt_of_eq t.isLt (show cfg0.N = 20 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4000000 in
/-- The body at any point: the inputs' buffers hold their blocks; the point is the first or a later one, and at a later one
    the running rows hold what the point before left; so that case's run applies; the invariant passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 20 := lt_of_lt_of_eq t.isLt (show cfg0.N = 20 from N_0)
  by_cases h0 : t.val % 20 = 0
  · rw [outs0_first V c t h0]
    unfold firstAt0
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstRun0 c (grid0.coords t) _ _ _ _ _ _ _ _ _ _ _ _ _ _ _ _ _ _ ((first0_iff t).mpr h0) (iblk0 V c 0 t) (iblk0 V c 1 t) (iblk0 V c 2 t) (iblk0 V c 3 t) (iblk0 V c 4 t) (iblk0 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover0_first_6 c _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover0_first_7 c _ _ _ _ _ _ _ _ _ _ _ _ _ _ _ _ _ _ _ _ _ _ _ _ _ _ y)
    unfold owns; iexists _; isplitr
    swap; · iexact H8
    ipureintro; exact View.read_writes_of_cover _ _ _ _ _ (fun y => cover0_first_8 c _ _ _ _ _ _ _ _ _ _ _ _ _ _ _ _ _ _ _ _ _ _ _ _ _ _ y)
  · rw [outs0_later V c t h0]
    simp only [before0_7_later V c t h0, before0_8_later V c t h0]
    unfold laterAt0
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((laterRun0 c (grid0.coords t) _ _ _ _ _ _ _ _ _ _ _ _ _ _ _ _ _ _ (fun h => h0 ((first0_iff t).mp h)) (iblk0 V c 0 t) (iblk0 V c 1 t) (iblk0 V c 2 t) (iblk0 V c 3 t) (iblk0 V c 4 t) (iblk0 V c 5 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover0_later_6 c _ _ _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover0_later_7 c _ _ _ _ _ _ _ _ _ _ _ _ _ _ _ _ _ _ _ _ _ _ _ _ _ _ _ _ y)
    unfold owns; iexists _; isplitr
    swap; · iexact H8
    ipureintro; exact View.read_writes_of_cover _ _ _ _ _ (fun y => cover0_later_8 c _ _ _ _ _ _ _ _ _ _ _ _ _ _ _ _ _ _ _ _ _ _ _ _ _ _ _ _ y)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.MlpRun2.lean ====
/-
  The first kernel of a layer — the two-layer perceptron over a block of 5000 rows, with the running column sums of
  its result and of the result's squares — run on whole staging buffers, in its two control cases: at the first
  grid point the body clears the two running rows before it adds the block's column sums to them; at every later
  point it adds to what the point before left. Each case's run is stated as a subtype: the stores each output buffer
  ends with (last first), with the proof that the body run from the
  six input buffers at their contents reaches its continuation holding the inputs unchanged and each output buffer
  with exactly those stores written.
-/
import proofs.«149905_j3221225472297_1_alg».proof.Proof.Gen.Kernel.Launch
import proofs.«149905_j3221225472297_1_alg».proof.Proof.Gen.Kernel.Skeleton
import proofs.«149905_j3221225472297_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the grid coordinate. -/
abbrev first2 (i : grid2.Coords) : Prop :=
  (Scalar.cmpi .ne (Scalar.extui (Scalar.cmpi .eq (BitVec.ofNat 32 (i 0).val) 0#32)) 0#32) = 1#1

/-- It holds at point 0 only: decided over the twenty grid points. -/
theorem first2_iff : ∀ t : Fin cfg2.N, first2 (grid2.coords t) ↔ t.val % 20 = 0 :=
  (by decide +kernel : ∀ t : Fin grid2.N, first2 (grid2.coords t) ↔ t.val % 20 = 0)

set_option maxHeartbeats 4000000 in
/-- The body at the first point: the running rows cleared, then the block's hidden rows stored and their column sums added. -/
noncomputable def firstRun2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i)
    (x0 x1 : Vec F S5000x64 .f32) (x2 : Vec F S64x64 .f32) (x3 : Vec F S1x64 .f32) (x4 : Vec F S64x64 .f32) (x5 : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (first2 i) := ⟨hc⟩
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The body at a later point: the running rows (at `s`, `q`) are added to. -/
noncomputable def laterRun2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i)
    (x0 x1 : Vec F S5000x64 .f32) (x2 : Vec F S64x64 .f32) (x3 : Vec F S1x64 .f32) (x4 : Vec F S64x64 .f32) (x5 : Vec F S1x64 .f32) (s q : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (¬first2 i) := ⟨hc⟩
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.Kernel.MlpRegion2.lean ====
/-
  The frame half of a layer's first kernel region: the proof data of its pipeline of twenty grid points at any contents
  `V` of the TensorCore's buffers on entry. After the body at a point each input window's buffer holds its block of the
  arrays as entered; the output windows' buffers hold what the point's control case leaves: the hidden rows' buffer is
  rewritten at every point, the two running rows (column sums, column sums of squares) start from zero at the first
  point and are added to at every later one, so their contents are defined by recursion on the point.
-/
import proofs.«149905_j3221225472297_1_alg».proof.Proof.Kernel.MlpRun2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current buffer holds its block at every point, fetched there or not (a window whose block index does
    not move is fetched at the first point only), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The staging buffers -/

abbrev VO2_6 : View sig .tc .vmem S5000x64 .f32 := (Memref.whole cc2_stg6_0 : Memref sig .tc .vmem S5000x64 .f32).view
abbrev VO2_7 : View sig .tc .vmem S1x64 .f32 := (Memref.whole cc2_stg7_0 : Memref sig .tc .vmem S1x64 .f32).view
abbrev VO2_8 : View sig .tc .vmem S1x64 .f32 := (Memref.whole cc2_stg8_0 : Memref sig .tc .vmem S1x64 .f32).view
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)

/-! ## Each case's stores cover each output buffer -/

theorem cover2_first_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i)
    (x0 x1 : Vec F S5000x64 .f32) (x2 : Vec F S64x64 .f32) (x3 : Vec F S1x64 .f32) (x4 : Vec F S64x64 .f32) (x5 : Vec F S1x64 .f32) (y : S5000x64.Idx) :
    ∃ pc ∈ (firstRun2 c i arg1 harg1 arg2 harg2 arg3 harg3 arg4 harg4 arg5 harg5 arg6 harg6 arg7 harg7 arg8 harg8 arg9 harg9 hc x0 x1 x2 x3 x4 x5).1.1, y ∈ pc.1.set :=
  View.cover_of_tiledL (firstRun2 c i arg1 harg1 arg2 harg2 arg3 harg3 arg4 harg4 arg5 harg5 arg6 harg6 arg7 harg7 arg8 harg8 arg9 harg9 hc x0 x1 x2 x3 x4 x5).1.1 S5000x64.size (by sl_kernel_rfl) y
theorem cover2_first_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun2 c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL (firstRun2 c i arg1 harg1 arg2 harg2 arg3 harg3 arg4 harg4 arg5 harg5 arg6 harg6 arg7 harg7 arg8 harg8 arg9 harg9 hc x0 x1 x2 x3 x4 x5).1.2.1 S1x64.size (by sl_kernel_rfl) y
theorem cover2_first_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun2 c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL (firstRun2 c i arg1 harg1 arg2 harg2 arg3 harg3 arg4 harg4 arg5 harg5 arg6 harg6 arg7 harg7 arg8 harg8 arg9 harg9 hc x0 x1 x2 x3 x4 x5).1.2.2 S1x64.size (by sl_kernel_rfl) y
theorem cover2_later_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i)
    (x0 x1 : Vec F S5000x64 .f32) (x2 : Vec F S64x64 .f32) (x3 : Vec F S1x64 .f32) (x4 : Vec F S64x64 .f32) (x5 : Vec F S1x64 .f32) (s q : Vec F S1x64 .f32) (y : S5000x64.Idx) :
    ∃ pc ∈ (laterRun2 c i arg1 harg1 arg2 harg2 arg3 harg3 arg4 harg4 arg5 harg5 arg6 harg6 arg7 harg7 arg8 harg8 arg9 harg9 hc x0 x1 x2 x3 x4 x5 s q).1.1, y ∈ pc.1.set :=
  View.cover_of_tiledL (laterRun2 c i arg1 harg1 arg2 harg2 arg3 harg3 arg4 harg4 arg5 harg5 arg6 harg6 arg7 harg7 arg8 harg8 arg9 harg9 hc x0 x1 x2 x3 x4 x5 s q).1.1 S5000x64.size (by sl_kernel_rfl) y
theorem cover2_later_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun2 c i arg1 harg1 arg2 harg2 arg3 harg3 arg4 harg4 arg5 harg5 arg6 harg6 arg7 harg7 arg8 harg8 arg9 harg9 hc x0 x1 x2 x3 x4 x5 s q).1.2.1, y ∈ pc.1.set :=
  View.cover_of_tiledL (laterRun2 c i arg1 harg1 arg2 harg2 arg3 harg3 arg4 harg4 arg5 harg5 arg6 harg6 arg7 harg7 arg8 harg8 arg9 harg9 hc x0 x1 x2 x3 x4 x5 s q).1.2.1 S1x64.size (by sl_kernel_rfl) y
theorem cover2_later_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun2 c i arg1 harg1 arg2 harg2 arg3 harg3 arg4 harg4 arg5 harg5 arg6 harg6 arg7 harg7 arg8 harg8 arg9 harg9 hc x0 x1 x2 x3 x4 x5 s q).1.2.2, y ∈ pc.1.set :=
  View.cover_of_tiledL (laterRun2 c i arg1 harg1 arg2 harg2 arg3 harg3 arg4 harg4 arg5 harg5 arg6 harg6 arg7 harg7 arg8 harg8 arg9 harg9 hc x0 x1 x2 x3 x4 x5 s q).1.2.2 S1x64.size (by sl_kernel_rfl) y

/-! ## What the outputs hold after each point -/

/-- What the first point's body leaves in the three output buffers: its stores read back. -/
def firstAt2 (c : Dev nD) (t : Fin cfg2.N) (h0 : t.val % 20 = 0) : Vec F S5000x64 .f32 × Vec F S1x64 .f32 × Vec F S1x64 .f32 :=
  (VO2_6.read (Elt F) (VO2_6.writes (Elt F) VO2_6.junk (firstRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t)).1.1),
   VO2_7.read (Elt F) (VO2_7.writes (Elt F) VO2_7.junk (firstRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t)).1.2.1),
   VO2_8.read (Elt F) (VO2_8.writes (Elt F) VO2_8.junk (firstRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t)).1.2.2))

/-- What a later point's body leaves, from the running rows `s`, `q` the point before left. -/
def laterAt2 (c : Dev nD) (t : Fin cfg2.N) (h0 : ¬t.val % 20 = 0) (s q : Vec F S1x64 .f32) : Vec F S5000x64 .f32 × Vec F S1x64 .f32 × Vec F S1x64 .f32 :=
  (VO2_6.read (Elt F) (VO2_6.writes (Elt F) VO2_6.junk (laterRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q).1.1),
   VO2_7.read (Elt F) (VO2_7.writes (Elt F) VO2_7.junk (laterRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q).1.2.1),
   VO2_8.read (Elt F) (VO2_8.writes (Elt F) VO2_8.junk (laterRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q).1.2.2))

/-- The accumulation: the three output buffers after the body at position `n`. -/
def outs2 (c : Dev nD) : (n : ℕ) → n < cfg2.N → Vec F S5000x64 .f32 × Vec F S1x64 .f32 × Vec F S1x64 .f32
  | 0, hn => firstAt2 V c ⟨0, hn⟩ (Nat.zero_mod _)
  | n + 1, hn =>
    if h0 : (n + 1) % 20 = 0 then firstAt2 V c ⟨n + 1, hn⟩ h0
    else laterAt2 V c ⟨n + 1, hn⟩ h0 (outs2 c n (Nat.lt_of_succ_lt hn)).2.1 (outs2 c n (Nat.lt_of_succ_lt hn)).2.2

theorem outs2_first (c : Dev nD) (t : Fin cfg2.N) (h0 : t.val % 20 = 0) :
    outs2 V c t.val t.isLt = firstAt2 V c t h0 := by
  obtain ⟨n, hn⟩ := t
  cases n with
  | zero => exact rfl
  | succ n => exact (dif_pos h0).trans rfl

theorem outs2_later (c : Dev nD) (t : Fin cfg2.N) (h0 : ¬t.val % 20 = 0) :
    outs2 V c t.val t.isLt = laterAt2 V c t h0 (outs2 V c (t.val - 1) (Nat.lt_of_le_of_lt (Nat.sub_le _ _) t.isLt)).2.1
      (outs2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at its
    block and the outputs' at `outs2`; the invariant is the scoped rest and the generator register, untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outs2 V c t.val t.isLt).1
    | ⟨7, _⟩ => (outs2 V c t.val t.isLt).2.1
    | ⟨8, _⟩ => (outs2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outs2 V c t.val t.isLt).1 := by dsimp only [dat2]
theorem after2_7 (c : Dev nD) (t : Fin cfg2.N) : (dat2 V c).after 7 t = (outs2 V c t.val t.isLt).2.1 := by dsimp only [dat2]
theorem after2_8 (c : Dev nD) (t : Fin cfg2.N) : (dat2 V c).after 8 t = (outs2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! At a later point the running rows' buffers hold what the body left at the point before: they are written back at the
    last point only. -/
theorem before2_7_later (c : Dev nD) (t : Fin cfg2.N) (h0 : ¬t.val % 20 = 0) (d) :
    (dat2 V c).before 7 t d = (outs2 V c (t.val - 1) (Nat.lt_of_le_of_lt (Nat.sub_le _ _) t.isLt)).2.1 := by
  have hN : t.val < 20 := lt_of_lt_of_eq t.isLt (show cfg2.N = 20 from N_2)
  rw [Dat.before_out_kept _ 7 rfl t (by omega) (Bool.eq_false_iff.mpr fun h => by have := (flush2_7 _).mp h; dsimp only at this; omega)
    (fun _ => rfl) (fun _ _ => rfl)]
  dsimp only [dat2]
theorem before2_8_later (c : Dev nD) (t : Fin cfg2.N) (h0 : ¬t.val % 20 = 0) (d) :
    (dat2 V c).before 8 t d = (outs2 V c (t.val - 1) (Nat.lt_of_le_of_lt (Nat.sub_le _ _) t.isLt)).2.2 := by
  have hN : t.val < 20 := lt_of_lt_of_eq t.isLt (show cfg2.N = 20 from N_2)
  rw [Dat.before_out_kept _ 8 rfl t (by omega) (Bool.eq_false_iff.mpr fun h => by have := (flush2_8 _).mp h; dsimp only at this; omega)
    (fun _ => rfl) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 4000000 in
/-- The body at any point: the inputs' buffers hold their blocks; the point is the first or a later one, and at a later one
    the running rows hold what the point before left; so that case's run applies; the invariant passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 20 := lt_of_lt_of_eq t.isLt (show cfg2.N = 20 from N_2)
  by_cases h0 : t.val % 20 = 0
  · rw [outs2_first V c t h0]
    unfold firstAt2
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstRun2 c (grid2.coords t) _ _ _ _ _ _ _ _ _ _ _ _ _ _ _ _ _ _ ((first2_iff t).mpr h0) (iblk2 V c 0 t) (iblk2 V c 1 t) (iblk2 V c 2 t) (iblk2 V c 3 t) (iblk2 V c 4 t) (iblk2 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover2_first_6 c _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover2_first_7 c _ _ _ _ _ _ _ _ _ _ _ _ _ _ _ _ _ _ _ _ _ _ _ _ _ _ y)
    unfold owns; iexists _; isplitr
    swap; · iexact H8
    ipureintro; exact View.read_writes_of_cover _ _ _ _ _ (fun y => cover2_first_8 c _ _ _ _ _ _ _ _ _ _ _ _ _ _ _ _ _ _ _ _ _ _ _ _ _ _ y)
  · rw [outs2_later V c t h0]
    simp only [before2_7_later V c t h0, before2_8_later V c t h0]
    unfold laterAt2
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((laterRun2 c (grid2.coords t) _ _ _ _ _ _ _ _ _ _ _ _ _ _ _ _ _ _ (fun h => h0 ((first2_iff t).mp h)) (iblk2 V c 0 t) (iblk2 V c 1 t) (iblk2 V c 2 t) (iblk2 V c 3 t) (iblk2 V c 4 t) (iblk2 V c 5 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover2_later_6 c _ _ _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover2_later_7 c _ _ _ _ _ _ _ _ _ _ _ _ _ _ _ _ _ _ _ _ _ _ _ _ _ _ _ _ y)
    unfold owns; iexists _; isplitr
    swap; · iexact H8
    ipureintro; exact View.read_writes_of_cover _ _ _ _ _ (fun y => cover2_later_8 c _ _ _ _ _ _ _ _ _ _ _ _ _ _ _ _ _ _ _ _ _ _ _ _ _ _ _ _ y)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.MlpRun4.lean ====
/-
  The first kernel of a layer — the two-layer perceptron over a block of 5000 rows, with the running column sums of
  its result and of the result's squares — run on whole staging buffers, in its two control cases: at the first
  grid point the body clears the two running rows before it adds the block's column sums to them; at every later
  point it adds to what the point before left. Each case's run is stated as a subtype: the stores each output buffer
  ends with (last first), with the proof that the body run from the
  six input buffers at their contents reaches its continuation holding the inputs unchanged and each output buffer
  with exactly those stores written.
-/
import proofs.«149905_j3221225472297_1_alg».proof.Proof.Gen.Kernel.Launch
import proofs.«149905_j3221225472297_1_alg».proof.Proof.Gen.Kernel.Skeleton
import proofs.«149905_j3221225472297_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the grid coordinate. -/
abbrev first4 (i : grid4.Coords) : Prop :=
  (Scalar.cmpi .ne (Scalar.extui (Scalar.cmpi .eq (BitVec.ofNat 32 (i 0).val) 0#32)) 0#32) = 1#1

/-- It holds at point 0 only: decided over the twenty grid points. -/
theorem first4_iff : ∀ t : Fin cfg4.N, first4 (grid4.coords t) ↔ t.val % 20 = 0 :=
  (by decide +kernel : ∀ t : Fin grid4.N, first4 (grid4.coords t) ↔ t.val % 20 = 0)

set_option maxHeartbeats 4000000 in
/-- The body at the first point: the running rows cleared, then the block's hidden rows stored and their column sums added. -/
noncomputable def firstRun4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i)
    (x0 x1 : Vec F S5000x64 .f32) (x2 : Vec F S64x64 .f32) (x3 : Vec F S1x64 .f32) (x4 : Vec F S64x64 .f32) (x5 : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (first4 i) := ⟨hc⟩
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The body at a later point: the running rows (at `s`, `q`) are added to. -/
noncomputable def laterRun4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i)
    (x0 x1 : Vec F S5000x64 .f32) (x2 : Vec F S64x64 .f32) (x3 : Vec F S1x64 .f32) (x4 : Vec F S64x64 .f32) (x5 : Vec F S1x64 .f32) (s q : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (¬first4 i) := ⟨hc⟩
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.Kernel.MlpRegion4.lean ====
/-
  The frame half of a layer's first kernel region: the proof data of its pipeline of twenty grid points at any contents
  `V` of the TensorCore's buffers on entry. After the body at a point each input window's buffer holds its block of the
  arrays as entered; the output windows' buffers hold what the point's control case leaves: the hidden rows' buffer is
  rewritten at every point, the two running rows (column sums, column sums of squares) start from zero at the first
  point and are added to at every later one, so their contents are defined by recursion on the point.
-/
import proofs.«149905_j3221225472297_1_alg».proof.Proof.Kernel.MlpRun4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current buffer holds its block at every point, fetched there or not (a window whose block index does
    not move is fetched at the first point only), for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The staging buffers -/

abbrev VO4_6 : View sig .tc .vmem S5000x64 .f32 := (Memref.whole cc4_stg6_0 : Memref sig .tc .vmem S5000x64 .f32).view
abbrev VO4_7 : View sig .tc .vmem S1x64 .f32 := (Memref.whole cc4_stg7_0 : Memref sig .tc .vmem S1x64 .f32).view
abbrev VO4_8 : View sig .tc .vmem S1x64 .f32 := (Memref.whole cc4_stg8_0 : Memref sig .tc .vmem S1x64 .f32).view
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)

/-! ## Each case's stores cover each output buffer -/

theorem cover4_first_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i)
    (x0 x1 : Vec F S5000x64 .f32) (x2 : Vec F S64x64 .f32) (x3 : Vec F S1x64 .f32) (x4 : Vec F S64x64 .f32) (x5 : Vec F S1x64 .f32) (y : S5000x64.Idx) :
    ∃ pc ∈ (firstRun4 c i arg1 harg1 arg2 harg2 arg3 harg3 arg4 harg4 arg5 harg5 arg6 harg6 arg7 harg7 arg8 harg8 arg9 harg9 hc x0 x1 x2 x3 x4 x5).1.1, y ∈ pc.1.set :=
  View.cover_of_tiledL (firstRun4 c i arg1 harg1 arg2 harg2 arg3 harg3 arg4 harg4 arg5 harg5 arg6 harg6 arg7 harg7 arg8 harg8 arg9 harg9 hc x0 x1 x2 x3 x4 x5).1.1 S5000x64.size (by sl_kernel_rfl) y
theorem cover4_first_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun4 c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL (firstRun4 c i arg1 harg1 arg2 harg2 arg3 harg3 arg4 harg4 arg5 harg5 arg6 harg6 arg7 harg7 arg8 harg8 arg9 harg9 hc x0 x1 x2 x3 x4 x5).1.2.1 S1x64.size (by sl_kernel_rfl) y
theorem cover4_first_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun4 c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL (firstRun4 c i arg1 harg1 arg2 harg2 arg3 harg3 arg4 harg4 arg5 harg5 arg6 harg6 arg7 harg7 arg8 harg8 arg9 harg9 hc x0 x1 x2 x3 x4 x5).1.2.2 S1x64.size (by sl_kernel_rfl) y
theorem cover4_later_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i)
    (x0 x1 : Vec F S5000x64 .f32) (x2 : Vec F S64x64 .f32) (x3 : Vec F S1x64 .f32) (x4 : Vec F S64x64 .f32) (x5 : Vec F S1x64 .f32) (s q : Vec F S1x64 .f32) (y : S5000x64.Idx) :
    ∃ pc ∈ (laterRun4 c i arg1 harg1 arg2 harg2 arg3 harg3 arg4 harg4 arg5 harg5 arg6 harg6 arg7 harg7 arg8 harg8 arg9 harg9 hc x0 x1 x2 x3 x4 x5 s q).1.1, y ∈ pc.1.set :=
  View.cover_of_tiledL (laterRun4 c i arg1 harg1 arg2 harg2 arg3 harg3 arg4 harg4 arg5 harg5 arg6 harg6 arg7 harg7 arg8 harg8 arg9 harg9 hc x0 x1 x2 x3 x4 x5 s q).1.1 S5000x64.size (by sl_kernel_rfl) y
theorem cover4_later_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun4 c i arg1 harg1 arg2 harg2 arg3 harg3 arg4 harg4 arg5 harg5 arg6 harg6 arg7 harg7 arg8 harg8 arg9 harg9 hc x0 x1 x2 x3 x4 x5 s q).1.2.1, y ∈ pc.1.set :=
  View.cover_of_tiledL (laterRun4 c i arg1 harg1 arg2 harg2 arg3 harg3 arg4 harg4 arg5 harg5 arg6 harg6 arg7 harg7 arg8 harg8 arg9 harg9 hc x0 x1 x2 x3 x4 x5 s q).1.2.1 S1x64.size (by sl_kernel_rfl) y
theorem cover4_later_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun4 c i arg1 harg1 arg2 harg2 arg3 harg3 arg4 harg4 arg5 harg5 arg6 harg6 arg7 harg7 arg8 harg8 arg9 harg9 hc x0 x1 x2 x3 x4 x5 s q).1.2.2, y ∈ pc.1.set :=
  View.cover_of_tiledL (laterRun4 c i arg1 harg1 arg2 harg2 arg3 harg3 arg4 harg4 arg5 harg5 arg6 harg6 arg7 harg7 arg8 harg8 arg9 harg9 hc x0 x1 x2 x3 x4 x5 s q).1.2.2 S1x64.size (by sl_kernel_rfl) y

/-! ## What the outputs hold after each point -/

/-- What the first point's body leaves in the three output buffers: its stores read back. -/
def firstAt4 (c : Dev nD) (t : Fin cfg4.N) (h0 : t.val % 20 = 0) : Vec F S5000x64 .f32 × Vec F S1x64 .f32 × Vec F S1x64 .f32 :=
  (VO4_6.read (Elt F) (VO4_6.writes (Elt F) VO4_6.junk (firstRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t)).1.1),
   VO4_7.read (Elt F) (VO4_7.writes (Elt F) VO4_7.junk (firstRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t)).1.2.1),
   VO4_8.read (Elt F) (VO4_8.writes (Elt F) VO4_8.junk (firstRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t)).1.2.2))

/-- What a later point's body leaves, from the running rows `s`, `q` the point before left. -/
def laterAt4 (c : Dev nD) (t : Fin cfg4.N) (h0 : ¬t.val % 20 = 0) (s q : Vec F S1x64 .f32) : Vec F S5000x64 .f32 × Vec F S1x64 .f32 × Vec F S1x64 .f32 :=
  (VO4_6.read (Elt F) (VO4_6.writes (Elt F) VO4_6.junk (laterRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q).1.1),
   VO4_7.read (Elt F) (VO4_7.writes (Elt F) VO4_7.junk (laterRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q).1.2.1),
   VO4_8.read (Elt F) (VO4_8.writes (Elt F) VO4_8.junk (laterRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q).1.2.2))

/-- The accumulation: the three output buffers after the body at position `n`. -/
def outs4 (c : Dev nD) : (n : ℕ) → n < cfg4.N → Vec F S5000x64 .f32 × Vec F S1x64 .f32 × Vec F S1x64 .f32
  | 0, hn => firstAt4 V c ⟨0, hn⟩ (Nat.zero_mod _)
  | n + 1, hn =>
    if h0 : (n + 1) % 20 = 0 then firstAt4 V c ⟨n + 1, hn⟩ h0
    else laterAt4 V c ⟨n + 1, hn⟩ h0 (outs4 c n (Nat.lt_of_succ_lt hn)).2.1 (outs4 c n (Nat.lt_of_succ_lt hn)).2.2

theorem outs4_first (c : Dev nD) (t : Fin cfg4.N) (h0 : t.val % 20 = 0) :
    outs4 V c t.val t.isLt = firstAt4 V c t h0 := by
  obtain ⟨n, hn⟩ := t
  cases n with
  | zero => exact rfl
  | succ n => exact (dif_pos h0).trans rfl

theorem outs4_later (c : Dev nD) (t : Fin cfg4.N) (h0 : ¬t.val % 20 = 0) :
    outs4 V c t.val t.isLt = laterAt4 V c t h0 (outs4 V c (t.val - 1) (Nat.lt_of_le_of_lt (Nat.sub_le _ _) t.isLt)).2.1
      (outs4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at its
    block and the outputs' at `outs4`; the invariant is the scoped rest and the generator register, untouched; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outs4 V c t.val t.isLt).1
    | ⟨7, _⟩ => (outs4 V c t.val t.isLt).2.1
    | ⟨8, _⟩ => (outs4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outs4 V c t.val t.isLt).1 := by dsimp only [dat4]
theorem after4_7 (c : Dev nD) (t : Fin cfg4.N) : (dat4 V c).after 7 t = (outs4 V c t.val t.isLt).2.1 := by dsimp only [dat4]
theorem after4_8 (c : Dev nD) (t : Fin cfg4.N) : (dat4 V c).after 8 t = (outs4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! At a later point the running rows' buffers hold what the body left at the point before: they are written back at the
    last point only. -/
theorem before4_7_later (c : Dev nD) (t : Fin cfg4.N) (h0 : ¬t.val % 20 = 0) (d) :
    (dat4 V c).before 7 t d = (outs4 V c (t.val - 1) (Nat.lt_of_le_of_lt (Nat.sub_le _ _) t.isLt)).2.1 := by
  have hN : t.val < 20 := lt_of_lt_of_eq t.isLt (show cfg4.N = 20 from N_4)
  rw [Dat.before_out_kept _ 7 rfl t (by omega) (Bool.eq_false_iff.mpr fun h => by have := (flush4_7 _).mp h; dsimp only at this; omega)
    (fun _ => rfl) (fun _ _ => rfl)]
  dsimp only [dat4]
theorem before4_8_later (c : Dev nD) (t : Fin cfg4.N) (h0 : ¬t.val % 20 = 0) (d) :
    (dat4 V c).before 8 t d = (outs4 V c (t.val - 1) (Nat.lt_of_le_of_lt (Nat.sub_le _ _) t.isLt)).2.2 := by
  have hN : t.val < 20 := lt_of_lt_of_eq t.isLt (show cfg4.N = 20 from N_4)
  rw [Dat.before_out_kept _ 8 rfl t (by omega) (Bool.eq_false_iff.mpr fun h => by have := (flush4_8 _).mp h; dsimp only at this; omega)
    (fun _ => rfl) (fun _ _ => rfl)]
  dsimp only [dat4]

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 4000000 in
/-- The body at any point: the inputs' buffers hold their blocks; the point is the first or a later one, and at a later one
    the running rows hold what the point before left; so that case's run applies; the invariant passes through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 20 := lt_of_lt_of_eq t.isLt (show cfg4.N = 20 from N_4)
  by_cases h0 : t.val % 20 = 0
  · rw [outs4_first V c t h0]
    unfold firstAt4
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstRun4 c (grid4.coords t) _ _ _ _ _ _ _ _ _ _ _ _ _ _ _ _ _ _ ((first4_iff t).mpr h0) (iblk4 V c 0 t) (iblk4 V c 1 t) (iblk4 V c 2 t) (iblk4 V c 3 t) (iblk4 V c 4 t) (iblk4 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover4_first_6 c _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover4_first_7 c _ _ _ _ _ _ _ _ _ _ _ _ _ _ _ _ _ _ _ _ _ _ _ _ _ _ y)
    unfold owns; iexists _; isplitr
    swap; · iexact H8
    ipureintro; exact View.read_writes_of_cover _ _ _ _ _ (fun y => cover4_first_8 c _ _ _ _ _ _ _ _ _ _ _ _ _ _ _ _ _ _ _ _ _ _ _ _ _ _ y)
  · rw [outs4_later V c t h0]
    simp only [before4_7_later V c t h0, before4_8_later V c t h0]
    unfold laterAt4
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((laterRun4 c (grid4.coords t) _ _ _ _ _ _ _ _ _ _ _ _ _ _ _ _ _ _ (fun h => h0 ((first4_iff t).mp h)) (iblk4 V c 0 t) (iblk4 V c 1 t) (iblk4 V c 2 t) (iblk4 V c 3 t) (iblk4 V c 4 t) (iblk4 V c 5 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover4_later_6 c _ _ _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover4_later_7 c _ _ _ _ _ _ _ _ _ _ _ _ _ _ _ _ _ _ _ _ _ _ _ _ _ _ _ _ y)
    unfold owns; iexists _; isplitr
    swap; · iexact H8
    ipureintro; exact View.read_writes_of_cover _ _ _ _ _ (fun y => cover4_later_8 c _ _ _ _ _ _ _ _ _ _ _ _ _ _ _ _ _ _ _ _ _ _ _ _ _ _ _ _ y)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.NormalizeRegion1.lean ====
/- The `normalize` kernel of pallas_call 1 (`cc1__bn_kernel`): the frame half of its region, at any float
   instance `F`, at a parameter `V` (the TensorCore's buffer contents when the region is entered).

   The kernel has six windows. Windows 0..4 are inputs: the block of 5000 rows of the activations `h` that
   starts at row 5000·t, and the four rows `mean`, `inv_std`, `gamma`, `beta` of shape [1,64], whose index
   maps are constant (so they are fetched at the first point only, and an unfetched point finds the block the
   point before left). Window 5 is the output: the same block of rows of `z`. The body loads every buffer
   whole, computes `(h - mean) * inv_std * gamma + beta` row by row, and stores the result whole into window 5's
   buffer.

   Contents: each window's block at a point (`iblk1`); what the body leaves in the output buffer as a function of
   the five input blocks (`out1_5`), and that it is the body's arithmetic `k1_pay1` of them (`out1_5_eq`); the
   body's triple (`sound_kernel1`); the pipeline's proof data (`dat1`) and the body obligation at every grid point
   (`body_obligation1`). -/
import proofs.«149905_j3221225472297_1_alg».proof.Proof.Gen.Kernel.Launch
import proofs.«149905_j3221225472297_1_alg».proof.Proof.Gen.Kernel.Skeleton
import proofs.«149905_j3221225472297_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rectangle of its array that the window's index map selects there,
    read off the array's contents when the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at EVERY point, whether the pipeline fetched it
    there or not: where it did not, the window's block index is the one of the point before, and the body left
    that point's block in place. This holds for any proof data over the region's arrays (`hA`) whose body keeps
    the input's block (`hafter`). None of the windows is clipped at the array's edge, and none has an idle point.
    For the activations (window 0) the index moves at every point, so every point fetches; for the four rows
    (windows 1..4) the index is constant and only the first point fetches. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The offsets of every access of the body are zero on both axes. -/
theorem zeros1 : (![0, 0] : Fin 2 → Nat) = fun _ => 0 := funext fun a => by fin_cases a <;> rfl

/-- The whole [5000,64] buffer: the rectangle of the body's load of the activations and of its one store. -/
abbrev rBlk1 : Rect S5000x64 := Rect.unit (s := S5000x64) ![0, 0] S5000x64.size inb_S5000x64_S5000x64_0_0

/-- The whole [1,64] buffer: the rectangle of the body's load of each of the four rows. -/
abbrev rRow1 : Rect S1x64 := Rect.unit (s := S1x64) ![0, 0] S1x64.size inb_S1x64_S1x64_0_0

/-! ## What the body leaves in the output window's buffer -/

/-- Window 5's staging buffer after the body, as a function of the five input buffers' contents: the body's one
    store, of its arithmetic `k1_pay1` over what its five loads read, laid over the buffer. -/
def out1_5 (x0 : Vec F S5000x64 .f32) (x1 x2 x3 x4 : Vec F S1x64 .f32) : Vec F S5000x64 .f32 :=
  View.canon [⟨rBlk1, k1_pay1 (View.ld x0 rBlk1) (View.ld x1 rRow1) (View.ld x2 rRow1) (View.ld x3 rRow1) (View.ld x4 rRow1)⟩]

/-- The store's rectangle is the whole buffer, so it covers every index of it. -/
theorem cover1_5 (p0 : Vec F S5000x64 .f32) (y : S5000x64.Idx) :
    ∃ pc ∈ ([⟨rBlk1, p0⟩] : List (View.Piece (Elt F) S5000x64 .f32)), y ∈ pc.1.set :=
  ⟨_, List.mem_singleton_self _, View.mem_set_unit_zero (S := S5000x64) zeros1 inb_S5000x64_S5000x64_0_0 y⟩

/-- Every load reads a whole buffer and the store writes the whole buffer, so what the body leaves is its
    arithmetic applied to the buffers' contents themselves:
    `out1_5 h mean inv_std gamma beta = (h - mean) * inv_std * gamma + beta`, as `k1_pay1` spells it. -/
theorem out1_5_eq (x0 : Vec F S5000x64 .f32) (x1 x2 x3 x4 : Vec F S1x64 .f32) :
    out1_5 x0 x1 x2 x3 x4 = k1_pay1 x0 x1 x2 x3 x4 := by
  unfold out1_5
  rw [View.canon_unit_zero (S := S5000x64) zeros1 inb_S5000x64_S5000x64_0_0]
  rw [View.ld_unit_zero (S := S5000x64) zeros1 inb_S5000x64_S5000x64_0_0 x0,
    View.ld_unit_zero (S := S1x64) zeros1 inb_S1x64_S1x64_0_0 x1,
    View.ld_unit_zero (S := S1x64) zeros1 inb_S1x64_S1x64_0_0 x2,
    View.ld_unit_zero (S := S1x64) zeros1 inb_S1x64_S1x64_0_0 x3,
    View.ld_unit_zero (S := S1x64) zeros1 inb_S1x64_S1x64_0_0 x4]

/-! ## The body's triple -/

set_option maxHeartbeats 1000000 in
/-- The kernel body, called on six whole staging buffers — the five inputs' at contents `x0 … x4`, the output's at
    anything —, runs without a fault to its continuation, which finds the inputs' buffers as they were and the
    output's at `out1_5 x0 … x4`. The body is a straight line of six loads and one store; its last load (of the
    output buffer) is not used. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays are the region-entry contents; after the body at point
    `t` every input's buffer still holds its block and the output's holds `out1_5` of the five input blocks; the
    invariant is the scoped buffers outside the windows and the core's random-number register, untouched; nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks (`before1_W`), so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.Kernel.NormalizeRegion3.lean ====
/- The `normalize` kernel of pallas_call 3 (`cc3__bn_kernel`): the frame half of its region, at any float
   instance `F`, at a parameter `V` (the TensorCore's buffer contents when the region is entered).

   The kernel has six windows. Windows 0..4 are inputs: the block of 5000 rows of the activations `h` that
   starts at row 5000·t, and the four rows `mean`, `inv_std`, `gamma`, `beta` of shape [1,64], whose index
   maps are constant (so they are fetched at the first point only, and an unfetched point finds the block the
   point before left). Window 5 is the output: the same block of rows of `z`. The body loads every buffer
   whole, computes `(h - mean) * inv_std * gamma + beta` row by row, and stores the result whole into window 5's
   buffer.

   Contents: each window's block at a point (`iblk3`); what the body leaves in the output buffer as a function of
   the five input blocks (`out3_5`), and that it is the body's arithmetic `k3_pay1` of them (`out3_5_eq`); the
   body's triple (`sound_kernel3`); the pipeline's proof data (`dat3`) and the body obligation at every grid point
   (`body_obligation3`). -/
import proofs.«149905_j3221225472297_1_alg».proof.Proof.Gen.Kernel.Launch
import proofs.«149905_j3221225472297_1_alg».proof.Proof.Gen.Kernel.Skeleton
import proofs.«149905_j3221225472297_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rectangle of its array that the window's index map selects there,
    read off the array's contents when the region is entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds the window's block at EVERY point, whether the pipeline fetched it
    there or not: where it did not, the window's block index is the one of the point before, and the body left
    that point's block in place. This holds for any proof data over the region's arrays (`hA`) whose body keeps
    the input's block (`hafter`). None of the windows is clipped at the array's edge, and none has an idle point.
    For the activations (window 0) the index moves at every point, so every point fetches; for the four rows
    (windows 1..4) the index is constant and only the first point fetches. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The offsets of every access of the body are zero on both axes. -/
theorem zeros3 : (![0, 0] : Fin 2 → Nat) = fun _ => 0 := funext fun a => by fin_cases a <;> rfl

/-- The whole [5000,64] buffer: the rectangle of the body's load of the activations and of its one store. -/
abbrev rBlk3 : Rect S5000x64 := Rect.unit (s := S5000x64) ![0, 0] S5000x64.size inb_S5000x64_S5000x64_0_0

/-- The whole [1,64] buffer: the rectangle of the body's load of each of the four rows. -/
abbrev rRow3 : Rect S1x64 := Rect.unit (s := S1x64) ![0, 0] S1x64.size inb_S1x64_S1x64_0_0

/-! ## What the body leaves in the output window's buffer -/

/-- Window 5's staging buffer after the body, as a function of the five input buffers' contents: the body's one
    store, of its arithmetic `k3_pay1` over what its five loads read, laid over the buffer. -/
def out3_5 (x0 : Vec F S5000x64 .f32) (x1 x2 x3 x4 : Vec F S1x64 .f32) : Vec F S5000x64 .f32 :=
  View.canon [⟨rBlk3, k3_pay1 (View.ld x0 rBlk3) (View.ld x1 rRow3) (View.ld x2 rRow3) (View.ld x3 rRow3) (View.ld x4 rRow3)⟩]

/-- The store's rectangle is the whole buffer, so it covers every index of it. -/
theorem cover3_5 (p0 : Vec F S5000x64 .f32) (y : S5000x64.Idx) :
    ∃ pc ∈ ([⟨rBlk3, p0⟩] : List (View.Piece (Elt F) S5000x64 .f32)), y ∈ pc.1.set :=
  ⟨_, List.mem_singleton_self _, View.mem_set_unit_zero (S := S5000x64) zeros3 inb_S5000x64_S5000x64_0_0 y⟩

/-- Every load reads a whole buffer and the store writes the whole buffer, so what the body leaves is its
    arithmetic applied to the buffers' contents themselves:
    `out3_5 h mean inv_std gamma beta = (h - mean) * inv_std * gamma + beta`, as `k3_pay1` spells it. -/
theorem out3_5_eq (x0 : Vec F S5000x64 .f32) (x1 x2 x3 x4 : Vec F S1x64 .f32) :
    out3_5 x0 x1 x2 x3 x4 = k3_pay1 x0 x1 x2 x3 x4 := by
  unfold out3_5
  rw [View.canon_unit_zero (S := S5000x64) zeros3 inb_S5000x64_S5000x64_0_0]
  rw [View.ld_unit_zero (S := S5000x64) zeros3 inb_S5000x64_S5000x64_0_0 x0,
    View.ld_unit_zero (S := S1x64) zeros3 inb_S1x64_S1x64_0_0 x1,
    View.ld_unit_zero (S := S1x64) zeros3 inb_S1x64_S1x64_0_0 x2,
    View.ld_unit_zero (S := S1x64) zeros3 inb_S1x64_S1x64_0_0 x3,
    View.ld_unit_zero (S := S1x64) zeros3 inb_S1x64_S1x64_0_0 x4]

/-! ## The body's triple -/

set_option maxHeartbeats 1000000 in
/-- The kernel body, called on six whole staging buffers — the five inputs' at contents `x0 … x4`, the output's at
    anything —, runs without a fault to its continuation, which finds the inputs' buffers as they were and the
    output's at `out3_5 x0 … x4`. The body is a straight line of six loads and one store; its last load (of the
    output buffer) is not used. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays are the region-entry contents; after the body at point
    `t` every input's buffer still holds its block and the output's holds `out3_5` of the five input blocks; the
    invariant is the scoped buffers outside the windows and the core's random-number register, untouched; nothing is owed; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`: the invariant, the core's debts, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks (`before3_W`), so the body's triple applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.Kernel.NormalizeRegion5.lean ====
/- The `normalize` kernel of pallas_call 5 (`cc5__bn_kernel`): the frame half of its region, at any float
   instance `F`, at a parameter `V` (the TensorCore's buffer contents when the region is entered).

   The kernel has six windows. Windows 0..4 are inputs: the block of 5000 rows of the activations `h` that
   starts at row 5000·t, and the four rows `mean`, `inv_std`, `gamma`, `beta` of shape [1,64], whose index
   maps are constant (so they are fetched at the first point only, and an unfetched point finds the block the
   point before left). Window 5 is the output: the same block of rows of `z`. The body loads every buffer
   whole, computes `(h - mean) * inv_std * gamma + beta` row by row, and stores the result whole into window 5's
   buffer.

   Contents: each window's block at a point (`iblk5`); what the body leaves in the output buffer as a function of
   the five input blocks (`out5_5`), and that it is the body's arithmetic `k5_pay1` of them (`out5_5_eq`); the
   body's triple (`sound_kernel5`); the pipeline's proof data (`dat5`) and the body obligation at every grid point
   (`body_obligation5`). -/
import proofs.«149905_j3221225472297_1_alg».proof.Proof.Gen.Kernel.Launch
import proofs.«149905_j3221225472297_1_alg».proof.Proof.Gen.Kernel.Skeleton
import proofs.«149905_j3221225472297_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rectangle of its array that the window's index map selects there,
    read off the array's contents when the region is entered. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds the window's block at EVERY point, whether the pipeline fetched it
    there or not: where it did not, the window's block index is the one of the point before, and the body left
    that point's block in place. This holds for any proof data over the region's arrays (`hA`) whose body keeps
    the input's block (`hafter`). None of the windows is clipped at the array's edge, and none has an idle point.
    For the activations (window 0) the index moves at every point, so every point fetches; for the four rows
    (windows 1..4) the index is constant and only the first point fetches. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The offsets of every access of the body are zero on both axes. -/
theorem zeros5 : (![0, 0] : Fin 2 → Nat) = fun _ => 0 := funext fun a => by fin_cases a <;> rfl

/-- The whole [5000,64] buffer: the rectangle of the body's load of the activations and of its one store. -/
abbrev rBlk5 : Rect S5000x64 := Rect.unit (s := S5000x64) ![0, 0] S5000x64.size inb_S5000x64_S5000x64_0_0

/-- The whole [1,64] buffer: the rectangle of the body's load of each of the four rows. -/
abbrev rRow5 : Rect S1x64 := Rect.unit (s := S1x64) ![0, 0] S1x64.size inb_S1x64_S1x64_0_0

/-! ## What the body leaves in the output window's buffer -/

/-- Window 5's staging buffer after the body, as a function of the five input buffers' contents: the body's one
    store, of its arithmetic `k5_pay1` over what its five loads read, laid over the buffer. -/
def out5_5 (x0 : Vec F S5000x64 .f32) (x1 x2 x3 x4 : Vec F S1x64 .f32) : Vec F S5000x64 .f32 :=
  View.canon [⟨rBlk5, k5_pay1 (View.ld x0 rBlk5) (View.ld x1 rRow5) (View.ld x2 rRow5) (View.ld x3 rRow5) (View.ld x4 rRow5)⟩]

/-- The store's rectangle is the whole buffer, so it covers every index of it. -/
theorem cover5_5 (p0 : Vec F S5000x64 .f32) (y : S5000x64.Idx) :
    ∃ pc ∈ ([⟨rBlk5, p0⟩] : List (View.Piece (Elt F) S5000x64 .f32)), y ∈ pc.1.set :=
  ⟨_, List.mem_singleton_self _, View.mem_set_unit_zero (S := S5000x64) zeros5 inb_S5000x64_S5000x64_0_0 y⟩

/-- Every load reads a whole buffer and the store writes the whole buffer, so what the body leaves is its
    arithmetic applied to the buffers' contents themselves:
    `out5_5 h mean inv_std gamma beta = (h - mean) * inv_std * gamma + beta`, as `k5_pay1` spells it. -/
theorem out5_5_eq (x0 : Vec F S5000x64 .f32) (x1 x2 x3 x4 : Vec F S1x64 .f32) :
    out5_5 x0 x1 x2 x3 x4 = k5_pay1 x0 x1 x2 x3 x4 := by
  unfold out5_5
  rw [View.canon_unit_zero (S := S5000x64) zeros5 inb_S5000x64_S5000x64_0_0]
  rw [View.ld_unit_zero (S := S5000x64) zeros5 inb_S5000x64_S5000x64_0_0 x0,
    View.ld_unit_zero (S := S1x64) zeros5 inb_S1x64_S1x64_0_0 x1,
    View.ld_unit_zero (S := S1x64) zeros5 inb_S1x64_S1x64_0_0 x2,
    View.ld_unit_zero (S := S1x64) zeros5 inb_S1x64_S1x64_0_0 x3,
    View.ld_unit_zero (S := S1x64) zeros5 inb_S1x64_S1x64_0_0 x4]

/-! ## The body's triple -/

set_option maxHeartbeats 1000000 in
/-- The kernel body, called on six whole staging buffers — the five inputs' at contents `x0 … x4`, the output's at
    anything —, runs without a fault to its continuation, which finds the inputs' buffers as they were and the
    output's at `out5_5 x0 … x4`. The body is a straight line of six loads and one store; its last load (of the
    output buffer) is not used. -/
theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of this pipeline on core `c`: the arrays are the region-entry contents; after the body at point
    `t` every input's buffer still holds its block and the output's holds `out5_5` of the five input blocks; the
    invariant is the scoped buffers outside the windows and the core's random-number register, untouched; nothing is owed; every share is full. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debts, and each window's current staging
    buffer at what the pipeline left in it, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks (`before5_W`), so the body's triple applies; the
    invariant and the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.Kernel.Segments.lean ====
/-
  @main from the launch to the return as a line of segments — a stretch of host operations, a kernel region, a stretch, … —
  with the contents of every unscoped buffer named at each boundary: after a stretch of host operations they are that
  stretch's operations folded over what it found, after a kernel region they are what it found with the region's output
  arrays at what its pipeline's write-backs leave. Every weakly fair execution of @main terminates without a fault, and the
  final memory holds every unscoped buffer at the last boundary's contents. Read at the argument arrays that is the frame
  claim (no host operation writes an argument and no region has one as an output); read at the result array it names the
  result.
-/
import proofs.«149905_j3221225472297_1_alg».proof.Proof.Kernel.MlpRegion0
import proofs.«149905_j3221225472297_1_alg».proof.Proof.Kernel.MlpRegion2
import proofs.«149905_j3221225472297_1_alg».proof.Proof.Kernel.MlpRegion4
import proofs.«149905_j3221225472297_1_alg».proof.Proof.Kernel.NormalizeRegion1
import proofs.«149905_j3221225472297_1_alg».proof.Proof.Kernel.NormalizeRegion3
import proofs.«149905_j3221225472297_1_alg».proof.Proof.Kernel.NormalizeRegion5
import proofs.«149905_j3221225472297_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the host operations before kernel region 0. -/
abbrev B1 : Dev nD → Valuation τ sig (Elt F) := fun c => StableHlo.after hostOps0 (B0 m ρ c)
/-- The same at the TensorCore's references: what region 0 is entered from. -/
abbrev E1 : (c : Dev nD) → (b : Ref sig .tc) → Buf (Elt F) ((c : Thread nD τ).loc b) := fun c b => B1 m ρ c b
/-- At region 0's exit: its arrays at what the pipeline leaves (an input as entered, an output with its write-backs folded
    in), every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (dat0 (E1 m ρ) c).arrAt w cfg0.N = E2 m ρ c (Pipeline.arrRef spec0 w) :=
  (B2_arr m ρ c w).symm
theorem rest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- A buffer that is no OUTPUT array of region 0 leaves it as it entered. -/
theorem B2_keep (c : Dev nD) (b : Ref sig .tc) (h : ∀ w, Pipeline.arrRef spec0 w = b → (cfg0.win w).isOut = false) :
    B2 m ρ c (Proc.devRef .tc b) = B1 m ρ c (Proc.devRef .tc b) := by
  by_cases hb : ∃ w, Pipeline.arrRef spec0 w = b
  · obtain ⟨w, rfl⟩ := hb
    exact (B2_arr m ρ c w).trans (((dat0 (E1 m ρ) c).arrAt_in w (h w rfl) _).trans (A_eq0 (E1 m ρ) c w))
  · exact B2_of_ne m ρ c b fun w e => hb ⟨w, e⟩
/-- A buffer the host operations before region 0 do not write passes them unchanged. -/
theorem B1_keep (c : Dev nD) (b : Ref sig .tc) (h : b ∉ hostOps0_W) :
    B1 m ρ c (Proc.devRef .tc b) = B0 m ρ c (Proc.devRef .tc b) :=
  StableHlo.after_of_writes_sub hostOps0 _ hostOps0_writes h
/-- After the host operations before kernel region 1. -/
abbrev B3 : Dev nD → Valuation τ sig (Elt F) := fun c => StableHlo.after hostOps1 (B2 m ρ c)
/-- The same at the TensorCore's references: what region 1 is entered from. -/
abbrev E3 : (c : Dev nD) → (b : Ref sig .tc) → Buf (Elt F) ((c : Thread nD τ).loc b) := fun c b => B3 m ρ c b
/-- At region 1's exit: its arrays at what the pipeline leaves (an input as entered, an output with its write-backs folded
    in), every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (dat1 (E3 m ρ) c).arrAt w cfg1.N = E4 m ρ c (Pipeline.arrRef spec1 w) :=
  (B4_arr m ρ c w).symm
theorem rest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- A buffer that is no OUTPUT array of region 1 leaves it as it entered. -/
theorem B4_keep (c : Dev nD) (b : Ref sig .tc) (h : ∀ w, Pipeline.arrRef spec1 w = b → (cfg1.win w).isOut = false) :
    B4 m ρ c (Proc.devRef .tc b) = B3 m ρ c (Proc.devRef .tc b) := by
  by_cases hb : ∃ w, Pipeline.arrRef spec1 w = b
  · obtain ⟨w, rfl⟩ := hb
    exact (B4_arr m ρ c w).trans (((dat1 (E3 m ρ) c).arrAt_in w (h w rfl) _).trans (A_eq1 (E3 m ρ) c w))
  · exact B4_of_ne m ρ c b fun w e => hb ⟨w, e⟩
/-- A buffer the host operations before region 1 do not write passes them unchanged. -/
theorem B3_keep (c : Dev nD) (b : Ref sig .tc) (h : b ∉ hostOps1_W) :
    B3 m ρ c (Proc.devRef .tc b) = B2 m ρ c (Proc.devRef .tc b) :=
  StableHlo.after_of_writes_sub hostOps1 _ hostOps1_writes h
/-- After the host operations before kernel region 2. -/
abbrev B5 : Dev nD → Valuation τ sig (Elt F) := fun c => StableHlo.after hostOps2 (B4 m ρ c)
/-- The same at the TensorCore's references: what region 2 is entered from. -/
abbrev E5 : (c : Dev nD) → (b : Ref sig .tc) → Buf (Elt F) ((c : Thread nD τ).loc b) := fun c b => B5 m ρ c b
/-- At region 2's exit: its arrays at what the pipeline leaves (an input as entered, an output with its write-backs folded
    in), every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem left2 (c : Dev nD) (w : Fin cfg2.W) : (dat2 (E5 m ρ) c).arrAt w cfg2.N = E6 m ρ c (Pipeline.arrRef spec2 w) :=
  (B6_arr m ρ c w).symm
theorem rest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- A buffer that is no OUTPUT array of region 2 leaves it as it entered. -/
theorem B6_keep (c : Dev nD) (b : Ref sig .tc) (h : ∀ w, Pipeline.arrRef spec2 w = b → (cfg2.win w).isOut = false) :
    B6 m ρ c (Proc.devRef .tc b) = B5 m ρ c (Proc.devRef .tc b) := by
  by_cases hb : ∃ w, Pipeline.arrRef spec2 w = b
  · obtain ⟨w, rfl⟩ := hb
    exact (B6_arr m ρ c w).trans (((dat2 (E5 m ρ) c).arrAt_in w (h w rfl) _).trans (A_eq2 (E5 m ρ) c w))
  · exact B6_of_ne m ρ c b fun w e => hb ⟨w, e⟩
/-- A buffer the host operations before region 2 do not write passes them unchanged. -/
theorem B5_keep (c : Dev nD) (b : Ref sig .tc) (h : b ∉ hostOps2_W) :
    B5 m ρ c (Proc.devRef .tc b) = B4 m ρ c (Proc.devRef .tc b) :=
  StableHlo.after_of_writes_sub hostOps2 _ hostOps2_writes h
/-- After the host operations before kernel region 3. -/
abbrev B7 : Dev nD → Valuation τ sig (Elt F) := fun c => StableHlo.after hostOps3 (B6 m ρ c)
/-- The same at the TensorCore's references: what region 3 is entered from. -/
abbrev E7 : (c : Dev nD) → (b : Ref sig .tc) → Buf (Elt F) ((c : Thread nD τ).loc b) := fun c b => B7 m ρ c b
/-- At region 3's exit: its arrays at what the pipeline leaves (an input as entered, an output with its write-backs folded
    in), every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem left3 (c : Dev nD) (w : Fin cfg3.W) : (dat3 (E7 m ρ) c).arrAt w cfg3.N = E8 m ρ c (Pipeline.arrRef spec3 w) :=
  (B8_arr m ρ c w).symm
theorem rest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)
/-- A buffer that is no OUTPUT array of region 3 leaves it as it entered. -/
theorem B8_keep (c : Dev nD) (b : Ref sig .tc) (h : ∀ w, Pipeline.arrRef spec3 w = b → (cfg3.win w).isOut = false) :
    B8 m ρ c (Proc.devRef .tc b) = B7 m ρ c (Proc.devRef .tc b) := by
  by_cases hb : ∃ w, Pipeline.arrRef spec3 w = b
  · obtain ⟨w, rfl⟩ := hb
    exact (B8_arr m ρ c w).trans (((dat3 (E7 m ρ) c).arrAt_in w (h w rfl) _).trans (A_eq3 (E7 m ρ) c w))
  · exact B8_of_ne m ρ c b fun w e => hb ⟨w, e⟩
/-- A buffer the host operations before region 3 do not write passes them unchanged. -/
theorem B7_keep (c : Dev nD) (b : Ref sig .tc) (h : b ∉ hostOps3_W) :
    B7 m ρ c (Proc.devRef .tc b) = B6 m ρ c (Proc.devRef .tc b) :=
  StableHlo.after_of_writes_sub hostOps3 _ hostOps3_writes h
/-- After the host operations before kernel region 4. -/
abbrev B9 : Dev nD → Valuation τ sig (Elt F) := fun c => StableHlo.after hostOps4 (B8 m ρ c)
/-- The same at the TensorCore's references: what region 4 is entered from. -/
abbrev E9 : (c : Dev nD) → (b : Ref sig .tc) → Buf (Elt F) ((c : Thread nD τ).loc b) := fun c b => B9 m ρ c b
/-- At region 4's exit: its arrays at what the pipeline leaves (an input as entered, an output with its write-backs folded
    in), every other buffer as entered. -/
def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev E10 : (c : Dev nD) → (b : Ref sig .tc) → Buf (Elt F) ((c : Thread nD τ).loc b) := fun c b => B10 m ρ c b
theorem left4 (c : Dev nD) (w : Fin cfg4.W) : (dat4 (E9 m ρ) c).arrAt w cfg4.N = E10 m ρ c (Pipeline.arrRef spec4 w) :=
  (B10_arr m ρ c w).symm
theorem rest4 (c : Dev nD) : ∀ b, b ∉ Finset.univ.image (Pipeline.arrRef spec4) → E10 m ρ c b = E9 m ρ c b :=
  fun b hb => B10_of_ne m ρ c b fun w e => hb (Finset.mem_image.mpr ⟨w, Finset.mem_univ _, e⟩)
/-- A buffer that is no OUTPUT array of region 4 leaves it as it entered. -/
theorem B10_keep (c : Dev nD) (b : Ref sig .tc) (h : ∀ w, Pipeline.arrRef spec4 w = b → (cfg4.win w).isOut = false) :
    B10 m ρ c (Proc.devRef .tc b) = B9 m ρ c (Proc.devRef .tc b) := by
  by_cases hb : ∃ w, Pipeline.arrRef spec4 w = b
  · obtain ⟨w, rfl⟩ := hb
    exact (B10_arr m ρ c w).trans (((dat4 (E9 m ρ) c).arrAt_in w (h w rfl) _).trans (A_eq4 (E9 m ρ) c w))
  · exact B10_of_ne m ρ c b fun w e => hb ⟨w, e⟩
/-- A buffer the host operations before region 4 do not write passes them unchanged. -/
theorem B9_keep (c : Dev nD) (b : Ref sig .tc) (h : b ∉ hostOps4_W) :
    B9 m ρ c (Proc.devRef .tc b) = B8 m ρ c (Proc.devRef .tc b) :=
  StableHlo.after_of_writes_sub hostOps4 _ hostOps4_writes h
/-- After the host operations before kernel region 5. -/
abbrev B11 : Dev nD → Valuation τ sig (Elt F) := fun c => StableHlo.after hostOps5 (B10 m ρ c)
/-- The same at the TensorCore's references: what region 5 is entered from. -/
abbrev E11 : (c : Dev nD) → (b : Ref sig .tc) → Buf (Elt F) ((c : Thread nD τ).loc b) := fun c b => B11 m ρ c b
/-- At region 5's exit: its arrays at what the pipeline leaves (an input as entered, an output with its write-backs folded
    in), every other buffer as entered. -/
def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev E12 : (c : Dev nD) → (b : Ref sig .tc) → Buf (Elt F) ((c : Thread nD τ).loc b) := fun c b => B12 m ρ c b
theorem left5 (c : Dev nD) (w : Fin cfg5.W) : (dat5 (E11 m ρ) c).arrAt w cfg5.N = E12 m ρ c (Pipeline.arrRef spec5 w) :=
  (B12_arr m ρ c w).symm
theorem rest5 (c : Dev nD) : ∀ b, b ∉ Finset.univ.image (Pipeline.arrRef spec5) → E12 m ρ c b = E11 m ρ c b :=
  fun b hb => B12_of_ne m ρ c b fun w e => hb (Finset.mem_image.mpr ⟨w, Finset.mem_univ _, e⟩)
/-- A buffer that is no OUTPUT array of region 5 leaves it as it entered. -/
theorem B12_keep (c : Dev nD) (b : Ref sig .tc) (h : ∀ w, Pipeline.arrRef spec5 w = b → (cfg5.win w).isOut = false) :
    B12 m ρ c (Proc.devRef .tc b) = B11 m ρ c (Proc.devRef .tc b) := by
  by_cases hb : ∃ w, Pipeline.arrRef spec5 w = b
  · obtain ⟨w, rfl⟩ := hb
    exact (B12_arr m ρ c w).trans (((dat5 (E11 m ρ) c).arrAt_in w (h w rfl) _).trans (A_eq5 (E11 m ρ) c w))
  · exact B12_of_ne m ρ c b fun w e => hb ⟨w, e⟩
/-- A buffer the host operations before region 5 do not write passes them unchanged. -/
theorem B11_keep (c : Dev nD) (b : Ref sig .tc) (h : b ∉ hostOps5_W) :
    B11 m ρ c (Proc.devRef .tc b) = B10 m ρ c (Proc.devRef .tc b) :=
  StableHlo.after_of_writes_sub hostOps5 _ hostOps5_writes h
/-- After the last host operations: the end of @main. -/
abbrev B13 : Dev nD → Valuation τ sig (Elt F) := fun c => StableHlo.after hostOps6 (B12 m ρ c)
theorem B13_keep (c : Dev nD) (b : Ref sig .tc) (h : b ∉ hostOps6_W) :
    B13 m ρ c (Proc.devRef .tc b) = B12 m ρ c (Proc.devRef .tc b) :=
  StableHlo.after_of_writes_sub hostOps6 _ hostOps6_writes h

/-- A buffer no host operation writes and no region has as an output array ends as launched. -/
theorem kept (c : Dev nD) (b : Ref sig .tc) (h0 : b ∉ hostOps0_W) (h1 : b ∉ hostOps1_W) (h2 : b ∉ hostOps2_W) (h3 : b ∉ hostOps3_W) (h4 : b ∉ hostOps4_W) (h5 : b ∉ hostOps5_W) (h6 : b ∉ hostOps6_W) (r0 : ∀ w, Pipeline.arrRef spec0 w = b → (cfg0.win w).isOut = false) (r1 : ∀ w, Pipeline.arrRef spec1 w = b → (cfg1.win w).isOut = false) (r2 : ∀ w, Pipeline.arrRef spec2 w = b → (cfg2.win w).isOut = false) (r3 : ∀ w, Pipeline.arrRef spec3 w = b → (cfg3.win w).isOut = false) (r4 : ∀ w, Pipeline.arrRef spec4 w = b → (cfg4.win w).isOut = false) (r5 : ∀ w, Pipeline.arrRef spec5 w = b → (cfg5.win w).isOut = false) :
    B13 m ρ c (Proc.devRef .tc b) = m ((c : Thread nD τ).loc b) :=
  (B13_keep m ρ c b h6).trans <| (B12_keep m ρ c b r5).trans <| (B11_keep m ρ c b h5).trans <| (B10_keep m ρ c b r4).trans <| (B9_keep m ρ c b h4).trans <| (B8_keep m ρ c b r3).trans <| (B7_keep m ρ c b h3).trans <| (B6_keep m ρ c b r2).trans <| (B5_keep m ρ c b h2).trans <| (B4_keep m ρ c b r1).trans <| (B3_keep m ρ c b h1).trans <| (B2_keep m ρ c b r0).trans <| (B1_keep m ρ c b h0).trans rfl

theorem B13_main_arg0 (c : Dev nD) : B13 m ρ c (Proc.devRef .tc main_arg0) = m ((c : Thread nD τ).loc main_arg0) :=
  kept m ρ c main_arg0 (by decide) (by decide) (by decide) (by decide) (by decide) (by decide) (by decide) (by decide) (by decide) (by decide) (by decide) (by decide) (by decide)
theorem B13_main_arg1 (c : Dev nD) : B13 m ρ c (Proc.devRef .tc main_arg1) = m ((c : Thread nD τ).loc main_arg1) :=
  kept m ρ c main_arg1 (by decide) (by decide) (by decide) (by decide) (by decide) (by decide) (by decide) (by decide) (by decide) (by decide) (by decide) (by decide) (by decide)
theorem B13_main_arg2 (c : Dev nD) : B13 m ρ c (Proc.devRef .tc main_arg2) = m ((c : Thread nD τ).loc main_arg2) :=
  kept m ρ c main_arg2 (by decide) (by decide) (by decide) (by decide) (by decide) (by decide) (by decide) (by decide) (by decide) (by decide) (by decide) (by decide) (by decide)
theorem B13_main_arg3 (c : Dev nD) : B13 m ρ c (Proc.devRef .tc main_arg3) = m ((c : Thread nD τ).loc main_arg3) :=
  kept m ρ c main_arg3 (by decide) (by decide) (by decide) (by decide) (by decide) (by decide) (by decide) (by decide) (by decide) (by decide) (by decide) (by decide) (by decide)
theorem B13_main_arg4 (c : Dev nD) : B13 m ρ c (Proc.devRef .tc main_arg4) = m ((c : Thread nD τ).loc main_arg4) :=
  kept m ρ c main_arg4 (by decide) (by decide) (by decide) (by decide) (by decide) (by decide) (by decide) (by decide) (by decide) (by decide) (by decide) (by decide) (by decide)
theorem B13_main_arg5 (c : Dev nD) : B13 m ρ c (Proc.devRef .tc main_arg5) = m ((c : Thread nD τ).loc main_arg5) :=
  kept m ρ c main_arg5 (by decide) (by decide) (by decide) (by decide) (by decide) (by decide) (by decide) (by decide) (by decide) (by decide) (by decide) (by decide) (by decide)
theorem B13_main_arg6 (c : Dev nD) : B13 m ρ c (Proc.devRef .tc main_arg6) = m ((c : Thread nD τ).loc main_arg6) :=
  kept m ρ c main_arg6 (by decide) (by decide) (by decide) (by decide) (by decide) (by decide) (by decide) (by decide) (by decide) (by decide) (by decide) (by decide) (by decide)
theorem B13_main_arg7 (c : Dev nD) : B13 m ρ c (Proc.devRef .tc main_arg7) = m ((c : Thread nD τ).loc main_arg7) :=
  kept m ρ c main_arg7 (by decide) (by decide) (by decide) (by decide) (by decide) (by decide) (by decide) (by decide) (by decide) (by decide) (by decide) (by decide) (by decide)
theorem B13_main_arg8 (c : Dev nD) : B13 m ρ c (Proc.devRef .tc main_arg8) = m ((c : Thread nD τ).loc main_arg8) :=
  kept m ρ c main_arg8 (by decide) (by decide) (by decide) (by decide) (by decide) (by decide) (by decide) (by decide) (by decide) (by decide) (by decide) (by decide) (by decide)

/-! ## The proof data family and the thread state -/

/-- No pipeline has a prefetched table. -/
abbrev noTables : (p : Fin 6) → (pcfgs (F := F) p).Adm := fun p => (cfgs p).toPCfg_adm
/-- Every pipeline's proof data, each at its region's entry contents. -/
def regionData : (p : Fin 6) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
abbrev 𝒱ₕ : Variants := Variants.none
abbrev Lₕ : GSem nD τ sig → Finset Unit := fun _ => ∅
abbrev lvₕ : GSem nD τ sig → Unit → ℕ := fun _ _ => 0
/-- What rides beside the buffers through every segment: the core's generator register at some state and its dues, none. -/
abbrev Rₕ (c : Dev nD) : sProp 𝕄 := iprop((∃ r, prngReg c r) ∗ ∃ W, owes (c : Thread nD τ) (0 : CellTallies nD τ sig Unit) W)
/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₕ Lₕ lvₕ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rₕ
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tlast (c : Dev nD) : sProp 𝕄 := iprop(StableHlo.held (c : Thread nD τ) (Pipeline.ucRefs τ sig) (B13 m ρ c) ∗ ∃ r, prngReg c r)

/-! ## The regions as segments -/

set_option backward.isDefEq.respectTransparency.types false in
/-- Kernel region 0 over the thread state: entered with every unscoped buffer at `B1`, left with them at `B2`. Its arrays
    are split out of the unscoped buffers and put back at the exit contents; the generator register goes into the pipeline's
    invariant and comes out; nothing is owed; the kernel has no semaphore of its own. -/
def region0 : Pipeline.RegionSeg (pcfgs (F := F)) noTables (regionData m ρ) () defs₀ 𝒱ₕ Lₕ lvₕ 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lₕ lvₕ 0 fun _ _ => rfl
  pre c := iprop(StableHlo.held (c : Thread nD τ) (Pipeline.ucRefs τ sig) (B1 m ρ c) ∗ Rₕ c)
  post c := iprop(StableHlo.held (c : Thread nD τ) (Pipeline.ucRefs τ sig) (B2 m ρ c) ∗ Rₕ c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (regionData m ρ) launch0.win launch0.arr_whole c
      ((regionData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionData m ρ) ((regionData m ρ 0 c).share_full fun _ => rfl)
      (E1 m ρ c) (E2 m ρ c) ((regionData m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at `B3`, left with them at `B4`. Its arrays
    are split out of the unscoped buffers and put back at the exit contents; the generator register goes into the pipeline's
    invariant and comes out; nothing is owed; the kernel has no semaphore of its own. -/
def region1 : Pipeline.RegionSeg (pcfgs (F := F)) noTables (regionData m ρ) () defs₀ 𝒱ₕ Lₕ lvₕ 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lₕ lvₕ 1 fun _ _ => rfl
  pre c := iprop(StableHlo.held (c : Thread nD τ) (Pipeline.ucRefs τ sig) (B3 m ρ c) ∗ Rₕ c)
  post c := iprop(StableHlo.held (c : Thread nD τ) (Pipeline.ucRefs τ sig) (B4 m ρ c) ∗ Rₕ c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (regionData m ρ) launch1.win launch1.arr_whole c
      ((regionData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionData m ρ) ((regionData m ρ 1 c).share_full fun _ => rfl)
      (E3 m ρ c) (E4 m ρ c) ((regionData m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered with every unscoped buffer at `B5`, left with them at `B6`. Its arrays
    are split out of the unscoped buffers and put back at the exit contents; the generator register goes into the pipeline's
    invariant and comes out; nothing is owed; the kernel has no semaphore of its own. -/
def region2 : Pipeline.RegionSeg (pcfgs (F := F)) noTables (regionData m ρ) () defs₀ 𝒱ₕ Lₕ lvₕ 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lₕ lvₕ 2 fun _ _ => rfl
  pre c := iprop(StableHlo.held (c : Thread nD τ) (Pipeline.ucRefs τ sig) (B5 m ρ c) ∗ Rₕ c)
  post c := iprop(StableHlo.held (c : Thread nD τ) (Pipeline.ucRefs τ sig) (B6 m ρ c) ∗ Rₕ c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) noTables (regionData m ρ) launch2.win launch2.arr_whole c
      ((regionData m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (regionData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (regionData m ρ) ((regionData m ρ 2 c).share_full fun _ => rfl)
      (E5 m ρ c) (E6 m ρ c) ((regionData m ρ 2 c).arrAt · cfg2.N) (left2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 3 over the thread state: entered with every unscoped buffer at `B7`, left with them at `B8`. Its arrays
    are split out of the unscoped buffers and put back at the exit contents; the generator register goes into the pipeline's
    invariant and comes out; nothing is owed; the kernel has no semaphore of its own. -/
def region3 : Pipeline.RegionSeg (pcfgs (F := F)) noTables (regionData m ρ) () defs₀ 𝒱ₕ Lₕ lvₕ 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lₕ lvₕ 3 fun _ _ => rfl
  pre c := iprop(StableHlo.held (c : Thread nD τ) (Pipeline.ucRefs τ sig) (B7 m ρ c) ∗ Rₕ c)
  post c := iprop(StableHlo.held (c : Thread nD τ) (Pipeline.ucRefs τ sig) (B8 m ρ c) ∗ Rₕ c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) noTables (regionData m ρ) launch3.win launch3.arr_whole c
      ((regionData m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (regionData m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (regionData m ρ) ((regionData m ρ 3 c).share_full fun _ => rfl)
      (E7 m ρ c) (E8 m ρ c) ((regionData m ρ 3 c).arrAt · cfg3.N) (left3 m ρ c) (rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 4 over the thread state: entered with every unscoped buffer at `B9`, left with them at `B10`. Its arrays
    are split out of the unscoped buffers and put back at the exit contents; the generator register goes into the pipeline's
    invariant and comes out; nothing is owed; the kernel has no semaphore of its own. -/
def region4 : Pipeline.RegionSeg (pcfgs (F := F)) noTables (regionData m ρ) () defs₀ 𝒱ₕ Lₕ lvₕ 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ Lₕ lvₕ 4 fun _ _ => rfl
  pre c := iprop(StableHlo.held (c : Thread nD τ) (Pipeline.ucRefs τ sig) (B9 m ρ c) ∗ Rₕ c)
  post c := iprop(StableHlo.held (c : Thread nD τ) (Pipeline.ucRefs τ sig) (B10 m ρ c) ∗ Rₕ c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) noTables (regionData m ρ) launch4.win launch4.arr_whole c
      ((regionData m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (regionData m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (regionData m ρ) ((regionData m ρ 4 c).share_full fun _ => rfl)
      (E9 m ρ c) (E10 m ρ c) ((regionData m ρ 4 c).arrAt · cfg4.N) (left4 m ρ c) (rest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 5 over the thread state: entered with every unscoped buffer at `B11`, left with them at `B12`. Its arrays
    are split out of the unscoped buffers and put back at the exit contents; the generator register goes into the pipeline's
    invariant and comes out; nothing is owed; the kernel has no semaphore of its own. -/
def region5 : Pipeline.RegionSeg (pcfgs (F := F)) noTables (regionData m ρ) () defs₀ 𝒱ₕ Lₕ lvₕ 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ Lₕ lvₕ 5 fun _ _ => rfl
  pre c := iprop(StableHlo.held (c : Thread nD τ) (Pipeline.ucRefs τ sig) (B11 m ρ c) ∗ Rₕ c)
  post c := iprop(StableHlo.held (c : Thread nD τ) (Pipeline.ucRefs τ sig) (B12 m ρ c) ∗ Rₕ c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) noTables (regionData m ρ) launch5.win launch5.arr_whole c
      ((regionData m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (regionData m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) noTables (Ix := Unit) (Name := ℕ) (U := UR sig nD τ) (Lvl := ℕ)
      launch5.win launch5.arr_whole c (regionData m ρ) ((regionData m ρ 5 c).share_full fun _ => rfl)
      (E11 m ρ c) (E12 m ρ c) ((regionData m ρ 5 c).arrAt · cfg5.N) (left5 m ρ c) (rest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and its run -/

abbrev segments : List (Pipeline.Seg (pcfgs (F := F)) noTables (regionData m ρ) () defs₀ 𝒱ₕ Lₕ lvₕ) :=
  [
    .host (hostSeg hostOps0 hostOps0_sub hostOps0_fresh (B0 m ρ)),
    .region (region0 m ρ),
    .host (hostSeg hostOps1 hostOps1_sub hostOps1_fresh (B2 m ρ)),
    .region (region1 m ρ),
    .host (hostSeg hostOps2 hostOps2_sub hostOps2_fresh (B4 m ρ)),
    .region (region2 m ρ),
    .host (hostSeg hostOps3 hostOps3_sub hostOps3_fresh (B6 m ρ)),
    .region (region3 m ρ),
    .host (hostSeg hostOps4 hostOps4_sub hostOps4_fresh (B8 m ρ)),
    .region (region4 m ρ),
    .host (hostSeg hostOps5 hostOps5_sub hostOps5_fresh (B10 m ρ)),
    .region (region5 m ρ),
    .host (hostSeg hostOps6 hostOps6_sub hostOps6_fresh (B12 m ρ)) ]

theorem main_segments (c : Dev nD) : main (F := F) c = Pipeline.Seg.run (segments m ρ) := (main_chain c).trans (by chain_rfl)

set_option backward.isDefEq.respectTransparency.types false in
/-- Every weakly fair execution of @main from `m` with zero counters terminates, nothing faulting, and the final memory holds
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B13 m ρ c b) :=
  Pipeline.θ_run_regions_kit (pcfgs (F := F)) noTables (regionData m ρ) () cellOf_inj emb₁ defs₀ 𝒱ₕ Lₕ lvₕ m ρ main (segments m ρ)
    (fun c Q => by rw [main_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rₕ c)) (Tₙ := Tlast m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (B13 m ρ c) ∗ Rₕ c)
          ⊢ iprop(Tlast m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach Lₕ lvₕ fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m ρ c b)
    (hfin := fun c s' => by
      iintro ⟨⟨Hh, -⟩, HSI⟩
      unfold StableHlo.held
      imodintro
      iapply (pointsTo_read_all (Pipeline.ucRefs τ sig) (fun b => (((c : Thread nD τ)).1, b)) (B13 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (B13_main_arg0 m ρ c),
    (h c _ (mem_uc main_arg1 (by decide))).trans (B13_main_arg1 m ρ c),
    (h c _ (mem_uc main_arg2 (by decide))).trans (B13_main_arg2 m ρ c),
    (h c _ (mem_uc main_arg3 (by decide))).trans (B13_main_arg3 m ρ c),
    (h c _ (mem_uc main_arg4 (by decide))).trans (B13_main_arg4 m ρ c),
    (h c _ (mem_uc main_arg5 (by decide))).trans (B13_main_arg5 m ρ c),
    (h c _ (mem_uc main_arg6 (by decide))).trans (B13_main_arg6 m ρ c),
    (h c _ (mem_uc main_arg7 (by decide))).trans (B13_main_arg7 m ρ c),
    (h c _ (mem_uc main_arg8 (by decide))).trans (B13_main_arg8 m ρ c)⟩) (run_all m ρ)

end Cert.Kernel.Hand

end
-- ==== Proof.KernelIdeal.MlpRun0.lean ====
/-
  The first kernel of a layer — the two-layer perceptron over a block of 5000 rows, with the running column sums of
  its result and of the result's squares — run on whole staging buffers, in its two control cases: at the first
  grid point the body clears the two running rows before it adds the block's column sums to them; at every later
  point it adds to what the point before left. Each case's run is stated as a subtype: the stores each output buffer
  ends with (last first), with the proof that the body run from the
  six input buffers at their contents reaches its continuation holding the inputs unchanged and each output buffer
  with exactly those stores written.
-/
import proofs.«149905_j3221225472297_1_alg».proof.Proof.Gen.KernelIdeal.Launch
import proofs.«149905_j3221225472297_1_alg».proof.Proof.Gen.KernelIdeal.Skeleton
import proofs.«149905_j3221225472297_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the grid coordinate. -/
abbrev first0 (i : grid0.Coords) : Prop :=
  (Scalar.cmpi .ne (Scalar.extui (Scalar.cmpi .eq (BitVec.ofNat 32 (i 0).val) 0#32)) 0#32) = 1#1

/-- It holds at point 0 only: decided over the twenty grid points. -/
theorem first0_iff : ∀ t : Fin cfg0.N, first0 (grid0.coords t) ↔ t.val % 20 = 0 :=
  (by decide +kernel : ∀ t : Fin grid0.N, first0 (grid0.coords t) ↔ t.val % 20 = 0)

set_option maxHeartbeats 4000000 in
/-- The body at the first point: the running rows cleared, then the block's hidden rows stored and their column sums added. -/
noncomputable def firstRun0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i)
    (x0 x1 : Vec F S5000x64 .f32) (x2 : Vec F S64x64 .f32) (x3 : Vec F S1x64 .f32) (x4 : Vec F S64x64 .f32) (x5 : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (first0 i) := ⟨hc⟩
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The body at a later point: the running rows (at `s`, `q`) are added to. -/
noncomputable def laterRun0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i)
    (x0 x1 : Vec F S5000x64 .f32) (x2 : Vec F S64x64 .f32) (x3 : Vec F S1x64 .f32) (x4 : Vec F S64x64 .f32) (x5 : Vec F S1x64 .f32) (s q : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (¬first0 i) := ⟨hc⟩
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.KernelIdeal.MlpRegion0.lean ====
/-
  The frame half of a layer's first kernel region: the proof data of its pipeline of twenty grid points at any contents
  `V` of the TensorCore's buffers on entry. After the body at a point each input window's buffer holds its block of the
  arrays as entered; the output windows' buffers hold what the point's control case leaves: the hidden rows' buffer is
  rewritten at every point, the two running rows (column sums, column sums of squares) start from zero at the first
  point and are added to at every later one, so their contents are defined by recursion on the point.
-/
import proofs.«149905_j3221225472297_1_alg».proof.Proof.KernelIdeal.MlpRun0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, fetched there or not (a window whose block index does
    not move is fetched at the first point only), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The staging buffers -/

abbrev VO0_6 : View sig .tc .vmem S5000x64 .f32 := (Memref.whole cc0_stg6_0 : Memref sig .tc .vmem S5000x64 .f32).view
abbrev VO0_7 : View sig .tc .vmem S1x64 .f32 := (Memref.whole cc0_stg7_0 : Memref sig .tc .vmem S1x64 .f32).view
abbrev VO0_8 : View sig .tc .vmem S1x64 .f32 := (Memref.whole cc0_stg8_0 : Memref sig .tc .vmem S1x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)

/-! ## Each case's stores cover each output buffer -/

theorem cover0_first_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i)
    (x0 x1 : Vec F S5000x64 .f32) (x2 : Vec F S64x64 .f32) (x3 : Vec F S1x64 .f32) (x4 : Vec F S64x64 .f32) (x5 : Vec F S1x64 .f32) (y : S5000x64.Idx) :
    ∃ pc ∈ (firstRun0 c i arg1 harg1 arg2 harg2 arg3 harg3 arg4 harg4 arg5 harg5 arg6 harg6 arg7 harg7 arg8 harg8 arg9 harg9 hc x0 x1 x2 x3 x4 x5).1.1, y ∈ pc.1.set :=
  View.cover_of_tiledL (firstRun0 c i arg1 harg1 arg2 harg2 arg3 harg3 arg4 harg4 arg5 harg5 arg6 harg6 arg7 harg7 arg8 harg8 arg9 harg9 hc x0 x1 x2 x3 x4 x5).1.1 S5000x64.size (by sl_kernel_rfl) y
theorem cover0_first_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun0 c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL (firstRun0 c i arg1 harg1 arg2 harg2 arg3 harg3 arg4 harg4 arg5 harg5 arg6 harg6 arg7 harg7 arg8 harg8 arg9 harg9 hc x0 x1 x2 x3 x4 x5).1.2.1 S1x64.size (by sl_kernel_rfl) y
theorem cover0_first_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun0 c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL (firstRun0 c i arg1 harg1 arg2 harg2 arg3 harg3 arg4 harg4 arg5 harg5 arg6 harg6 arg7 harg7 arg8 harg8 arg9 harg9 hc x0 x1 x2 x3 x4 x5).1.2.2 S1x64.size (by sl_kernel_rfl) y
theorem cover0_later_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i)
    (x0 x1 : Vec F S5000x64 .f32) (x2 : Vec F S64x64 .f32) (x3 : Vec F S1x64 .f32) (x4 : Vec F S64x64 .f32) (x5 : Vec F S1x64 .f32) (s q : Vec F S1x64 .f32) (y : S5000x64.Idx) :
    ∃ pc ∈ (laterRun0 c i arg1 harg1 arg2 harg2 arg3 harg3 arg4 harg4 arg5 harg5 arg6 harg6 arg7 harg7 arg8 harg8 arg9 harg9 hc x0 x1 x2 x3 x4 x5 s q).1.1, y ∈ pc.1.set :=
  View.cover_of_tiledL (laterRun0 c i arg1 harg1 arg2 harg2 arg3 harg3 arg4 harg4 arg5 harg5 arg6 harg6 arg7 harg7 arg8 harg8 arg9 harg9 hc x0 x1 x2 x3 x4 x5 s q).1.1 S5000x64.size (by sl_kernel_rfl) y
theorem cover0_later_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun0 c i arg1 harg1 arg2 harg2 arg3 harg3 arg4 harg4 arg5 harg5 arg6 harg6 arg7 harg7 arg8 harg8 arg9 harg9 hc x0 x1 x2 x3 x4 x5 s q).1.2.1, y ∈ pc.1.set :=
  View.cover_of_tiledL (laterRun0 c i arg1 harg1 arg2 harg2 arg3 harg3 arg4 harg4 arg5 harg5 arg6 harg6 arg7 harg7 arg8 harg8 arg9 harg9 hc x0 x1 x2 x3 x4 x5 s q).1.2.1 S1x64.size (by sl_kernel_rfl) y
theorem cover0_later_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun0 c i arg1 harg1 arg2 harg2 arg3 harg3 arg4 harg4 arg5 harg5 arg6 harg6 arg7 harg7 arg8 harg8 arg9 harg9 hc x0 x1 x2 x3 x4 x5 s q).1.2.2, y ∈ pc.1.set :=
  View.cover_of_tiledL (laterRun0 c i arg1 harg1 arg2 harg2 arg3 harg3 arg4 harg4 arg5 harg5 arg6 harg6 arg7 harg7 arg8 harg8 arg9 harg9 hc x0 x1 x2 x3 x4 x5 s q).1.2.2 S1x64.size (by sl_kernel_rfl) y

/-! ## What the outputs hold after each point -/

/-- What the first point's body leaves in the three output buffers: its stores read back. -/
def firstAt0 (c : Dev nD) (t : Fin cfg0.N) (h0 : t.val % 20 = 0) : Vec F S5000x64 .f32 × Vec F S1x64 .f32 × Vec F S1x64 .f32 :=
  (VO0_6.read (Elt F) (VO0_6.writes (Elt F) VO0_6.junk (firstRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t)).1.1),
   VO0_7.read (Elt F) (VO0_7.writes (Elt F) VO0_7.junk (firstRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t)).1.2.1),
   VO0_8.read (Elt F) (VO0_8.writes (Elt F) VO0_8.junk (firstRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t)).1.2.2))

/-- What a later point's body leaves, from the running rows `s`, `q` the point before left. -/
def laterAt0 (c : Dev nD) (t : Fin cfg0.N) (h0 : ¬t.val % 20 = 0) (s q : Vec F S1x64 .f32) : Vec F S5000x64 .f32 × Vec F S1x64 .f32 × Vec F S1x64 .f32 :=
  (VO0_6.read (Elt F) (VO0_6.writes (Elt F) VO0_6.junk (laterRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q).1.1),
   VO0_7.read (Elt F) (VO0_7.writes (Elt F) VO0_7.junk (laterRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q).1.2.1),
   VO0_8.read (Elt F) (VO0_8.writes (Elt F) VO0_8.junk (laterRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q).1.2.2))

/-- The accumulation: the three output buffers after the body at position `n`. -/
def outs0 (c : Dev nD) : (n : ℕ) → n < cfg0.N → Vec F S5000x64 .f32 × Vec F S1x64 .f32 × Vec F S1x64 .f32
  | 0, hn => firstAt0 V c ⟨0, hn⟩ (Nat.zero_mod _)
  | n + 1, hn =>
    if h0 : (n + 1) % 20 = 0 then firstAt0 V c ⟨n + 1, hn⟩ h0
    else laterAt0 V c ⟨n + 1, hn⟩ h0 (outs0 c n (Nat.lt_of_succ_lt hn)).2.1 (outs0 c n (Nat.lt_of_succ_lt hn)).2.2

theorem outs0_first (c : Dev nD) (t : Fin cfg0.N) (h0 : t.val % 20 = 0) :
    outs0 V c t.val t.isLt = firstAt0 V c t h0 := by
  obtain ⟨n, hn⟩ := t
  cases n with
  | zero => exact rfl
  | succ n => exact (dif_pos h0).trans rfl

theorem outs0_later (c : Dev nD) (t : Fin cfg0.N) (h0 : ¬t.val % 20 = 0) :
    outs0 V c t.val t.isLt = laterAt0 V c t h0 (outs0 V c (t.val - 1) (Nat.lt_of_le_of_lt (Nat.sub_le _ _) t.isLt)).2.1
      (outs0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at its
    block and the outputs' at `outs0`; the invariant is the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outs0 V c t.val t.isLt).1
    | ⟨7, _⟩ => (outs0 V c t.val t.isLt).2.1
    | ⟨8, _⟩ => (outs0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outs0 V c t.val t.isLt).1 := by dsimp only [dat0]
theorem after0_7 (c : Dev nD) (t : Fin cfg0.N) : (dat0 V c).after 7 t = (outs0 V c t.val t.isLt).2.1 := by dsimp only [dat0]
theorem after0_8 (c : Dev nD) (t : Fin cfg0.N) : (dat0 V c).after 8 t = (outs0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! At a later point the running rows' buffers hold what the body left at the point before: they are written back at the
    last point only. -/
theorem before0_7_later (c : Dev nD) (t : Fin cfg0.N) (h0 : ¬t.val % 20 = 0) (d) :
    (dat0 V c).before 7 t d = (outs0 V c (t.val - 1) (Nat.lt_of_le_of_lt (Nat.sub_le _ _) t.isLt)).2.1 := by
  have hN : t.val < 20 := lt_of_lt_of_eq t.isLt (show cfg0.N = 20 from N_0)
  rw [Dat.before_out_kept _ 7 rfl t (by omega) (Bool.eq_false_iff.mpr fun h => by have := (flush0_7 _).mp h; dsimp only at this; omega)
    (fun _ => rfl) (fun _ _ => rfl)]
  dsimp only [dat0]
theorem before0_8_later (c : Dev nD) (t : Fin cfg0.N) (h0 : ¬t.val % 20 = 0) (d) :
    (dat0 V c).before 8 t d = (outs0 V c (t.val - 1) (Nat.lt_of_le_of_lt (Nat.sub_le _ _) t.isLt)).2.2 := by
  have hN : t.val < 20 := lt_of_lt_of_eq t.isLt (show cfg0.N = 20 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4000000 in
/-- The body at any point: the inputs' buffers hold their blocks; the point is the first or a later one, and at a later one
    the running rows hold what the point before left; so that case's run applies; the invariant passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 20 := lt_of_lt_of_eq t.isLt (show cfg0.N = 20 from N_0)
  by_cases h0 : t.val % 20 = 0
  · rw [outs0_first V c t h0]
    unfold firstAt0
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstRun0 c (grid0.coords t) _ _ _ _ _ _ _ _ _ _ _ _ _ _ _ _ _ _ ((first0_iff t).mpr h0) (iblk0 V c 0 t) (iblk0 V c 1 t) (iblk0 V c 2 t) (iblk0 V c 3 t) (iblk0 V c 4 t) (iblk0 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover0_first_6 c _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover0_first_7 c _ _ _ _ _ _ _ _ _ _ _ _ _ _ _ _ _ _ _ _ _ _ _ _ _ _ y)
    unfold owns; iexists _; isplitr
    swap; · iexact H8
    ipureintro; exact View.read_writes_of_cover _ _ _ _ _ (fun y => cover0_first_8 c _ _ _ _ _ _ _ _ _ _ _ _ _ _ _ _ _ _ _ _ _ _ _ _ _ _ y)
  · rw [outs0_later V c t h0]
    simp only [before0_7_later V c t h0, before0_8_later V c t h0]
    unfold laterAt0
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((laterRun0 c (grid0.coords t) _ _ _ _ _ _ _ _ _ _ _ _ _ _ _ _ _ _ (fun h => h0 ((first0_iff t).mp h)) (iblk0 V c 0 t) (iblk0 V c 1 t) (iblk0 V c 2 t) (iblk0 V c 3 t) (iblk0 V c 4 t) (iblk0 V c 5 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover0_later_6 c _ _ _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover0_later_7 c _ _ _ _ _ _ _ _ _ _ _ _ _ _ _ _ _ _ _ _ _ _ _ _ _ _ _ _ y)
    unfold owns; iexists _; isplitr
    swap; · iexact H8
    ipureintro; exact View.read_writes_of_cover _ _ _ _ _ (fun y => cover0_later_8 c _ _ _ _ _ _ _ _ _ _ _ _ _ _ _ _ _ _ _ _ _ _ _ _ _ _ _ _ y)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.MlpRun2.lean ====
/-
  The first kernel of a layer — the two-layer perceptron over a block of 5000 rows, with the running column sums of
  its result and of the result's squares — run on whole staging buffers, in its two control cases: at the first
  grid point the body clears the two running rows before it adds the block's column sums to them; at every later
  point it adds to what the point before left. Each case's run is stated as a subtype: the stores each output buffer
  ends with (last first), with the proof that the body run from the
  six input buffers at their contents reaches its continuation holding the inputs unchanged and each output buffer
  with exactly those stores written.
-/
import proofs.«149905_j3221225472297_1_alg».proof.Proof.Gen.KernelIdeal.Launch
import proofs.«149905_j3221225472297_1_alg».proof.Proof.Gen.KernelIdeal.Skeleton
import proofs.«149905_j3221225472297_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the grid coordinate. -/
abbrev first2 (i : grid2.Coords) : Prop :=
  (Scalar.cmpi .ne (Scalar.extui (Scalar.cmpi .eq (BitVec.ofNat 32 (i 0).val) 0#32)) 0#32) = 1#1

/-- It holds at point 0 only: decided over the twenty grid points. -/
theorem first2_iff : ∀ t : Fin cfg2.N, first2 (grid2.coords t) ↔ t.val % 20 = 0 :=
  (by decide +kernel : ∀ t : Fin grid2.N, first2 (grid2.coords t) ↔ t.val % 20 = 0)

set_option maxHeartbeats 4000000 in
/-- The body at the first point: the running rows cleared, then the block's hidden rows stored and their column sums added. -/
noncomputable def firstRun2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i)
    (x0 x1 : Vec F S5000x64 .f32) (x2 : Vec F S64x64 .f32) (x3 : Vec F S1x64 .f32) (x4 : Vec F S64x64 .f32) (x5 : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (first2 i) := ⟨hc⟩
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The body at a later point: the running rows (at `s`, `q`) are added to. -/
noncomputable def laterRun2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i)
    (x0 x1 : Vec F S5000x64 .f32) (x2 : Vec F S64x64 .f32) (x3 : Vec F S1x64 .f32) (x4 : Vec F S64x64 .f32) (x5 : Vec F S1x64 .f32) (s q : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (¬first2 i) := ⟨hc⟩
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.KernelIdeal.MlpRegion2.lean ====
/-
  The frame half of a layer's first kernel region: the proof data of its pipeline of twenty grid points at any contents
  `V` of the TensorCore's buffers on entry. After the body at a point each input window's buffer holds its block of the
  arrays as entered; the output windows' buffers hold what the point's control case leaves: the hidden rows' buffer is
  rewritten at every point, the two running rows (column sums, column sums of squares) start from zero at the first
  point and are added to at every later one, so their contents are defined by recursion on the point.
-/
import proofs.«149905_j3221225472297_1_alg».proof.Proof.KernelIdeal.MlpRun2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current buffer holds its block at every point, fetched there or not (a window whose block index does
    not move is fetched at the first point only), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The staging buffers -/

abbrev VO2_6 : View sig .tc .vmem S5000x64 .f32 := (Memref.whole cc2_stg6_0 : Memref sig .tc .vmem S5000x64 .f32).view
abbrev VO2_7 : View sig .tc .vmem S1x64 .f32 := (Memref.whole cc2_stg7_0 : Memref sig .tc .vmem S1x64 .f32).view
abbrev VO2_8 : View sig .tc .vmem S1x64 .f32 := (Memref.whole cc2_stg8_0 : Memref sig .tc .vmem S1x64 .f32).view
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)

/-! ## Each case's stores cover each output buffer -/

theorem cover2_first_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i)
    (x0 x1 : Vec F S5000x64 .f32) (x2 : Vec F S64x64 .f32) (x3 : Vec F S1x64 .f32) (x4 : Vec F S64x64 .f32) (x5 : Vec F S1x64 .f32) (y : S5000x64.Idx) :
    ∃ pc ∈ (firstRun2 c i arg1 harg1 arg2 harg2 arg3 harg3 arg4 harg4 arg5 harg5 arg6 harg6 arg7 harg7 arg8 harg8 arg9 harg9 hc x0 x1 x2 x3 x4 x5).1.1, y ∈ pc.1.set :=
  View.cover_of_tiledL (firstRun2 c i arg1 harg1 arg2 harg2 arg3 harg3 arg4 harg4 arg5 harg5 arg6 harg6 arg7 harg7 arg8 harg8 arg9 harg9 hc x0 x1 x2 x3 x4 x5).1.1 S5000x64.size (by sl_kernel_rfl) y
theorem cover2_first_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun2 c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL (firstRun2 c i arg1 harg1 arg2 harg2 arg3 harg3 arg4 harg4 arg5 harg5 arg6 harg6 arg7 harg7 arg8 harg8 arg9 harg9 hc x0 x1 x2 x3 x4 x5).1.2.1 S1x64.size (by sl_kernel_rfl) y
theorem cover2_first_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun2 c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL (firstRun2 c i arg1 harg1 arg2 harg2 arg3 harg3 arg4 harg4 arg5 harg5 arg6 harg6 arg7 harg7 arg8 harg8 arg9 harg9 hc x0 x1 x2 x3 x4 x5).1.2.2 S1x64.size (by sl_kernel_rfl) y
theorem cover2_later_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i)
    (x0 x1 : Vec F S5000x64 .f32) (x2 : Vec F S64x64 .f32) (x3 : Vec F S1x64 .f32) (x4 : Vec F S64x64 .f32) (x5 : Vec F S1x64 .f32) (s q : Vec F S1x64 .f32) (y : S5000x64.Idx) :
    ∃ pc ∈ (laterRun2 c i arg1 harg1 arg2 harg2 arg3 harg3 arg4 harg4 arg5 harg5 arg6 harg6 arg7 harg7 arg8 harg8 arg9 harg9 hc x0 x1 x2 x3 x4 x5 s q).1.1, y ∈ pc.1.set :=
  View.cover_of_tiledL (laterRun2 c i arg1 harg1 arg2 harg2 arg3 harg3 arg4 harg4 arg5 harg5 arg6 harg6 arg7 harg7 arg8 harg8 arg9 harg9 hc x0 x1 x2 x3 x4 x5 s q).1.1 S5000x64.size (by sl_kernel_rfl) y
theorem cover2_later_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun2 c i arg1 harg1 arg2 harg2 arg3 harg3 arg4 harg4 arg5 harg5 arg6 harg6 arg7 harg7 arg8 harg8 arg9 harg9 hc x0 x1 x2 x3 x4 x5 s q).1.2.1, y ∈ pc.1.set :=
  View.cover_of_tiledL (laterRun2 c i arg1 harg1 arg2 harg2 arg3 harg3 arg4 harg4 arg5 harg5 arg6 harg6 arg7 harg7 arg8 harg8 arg9 harg9 hc x0 x1 x2 x3 x4 x5 s q).1.2.1 S1x64.size (by sl_kernel_rfl) y
theorem cover2_later_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun2 c i arg1 harg1 arg2 harg2 arg3 harg3 arg4 harg4 arg5 harg5 arg6 harg6 arg7 harg7 arg8 harg8 arg9 harg9 hc x0 x1 x2 x3 x4 x5 s q).1.2.2, y ∈ pc.1.set :=
  View.cover_of_tiledL (laterRun2 c i arg1 harg1 arg2 harg2 arg3 harg3 arg4 harg4 arg5 harg5 arg6 harg6 arg7 harg7 arg8 harg8 arg9 harg9 hc x0 x1 x2 x3 x4 x5 s q).1.2.2 S1x64.size (by sl_kernel_rfl) y

/-! ## What the outputs hold after each point -/

/-- What the first point's body leaves in the three output buffers: its stores read back. -/
def firstAt2 (c : Dev nD) (t : Fin cfg2.N) (h0 : t.val % 20 = 0) : Vec F S5000x64 .f32 × Vec F S1x64 .f32 × Vec F S1x64 .f32 :=
  (VO2_6.read (Elt F) (VO2_6.writes (Elt F) VO2_6.junk (firstRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t)).1.1),
   VO2_7.read (Elt F) (VO2_7.writes (Elt F) VO2_7.junk (firstRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t)).1.2.1),
   VO2_8.read (Elt F) (VO2_8.writes (Elt F) VO2_8.junk (firstRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t)).1.2.2))

/-- What a later point's body leaves, from the running rows `s`, `q` the point before left. -/
def laterAt2 (c : Dev nD) (t : Fin cfg2.N) (h0 : ¬t.val % 20 = 0) (s q : Vec F S1x64 .f32) : Vec F S5000x64 .f32 × Vec F S1x64 .f32 × Vec F S1x64 .f32 :=
  (VO2_6.read (Elt F) (VO2_6.writes (Elt F) VO2_6.junk (laterRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q).1.1),
   VO2_7.read (Elt F) (VO2_7.writes (Elt F) VO2_7.junk (laterRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q).1.2.1),
   VO2_8.read (Elt F) (VO2_8.writes (Elt F) VO2_8.junk (laterRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q).1.2.2))

/-- The accumulation: the three output buffers after the body at position `n`. -/
def outs2 (c : Dev nD) : (n : ℕ) → n < cfg2.N → Vec F S5000x64 .f32 × Vec F S1x64 .f32 × Vec F S1x64 .f32
  | 0, hn => firstAt2 V c ⟨0, hn⟩ (Nat.zero_mod _)
  | n + 1, hn =>
    if h0 : (n + 1) % 20 = 0 then firstAt2 V c ⟨n + 1, hn⟩ h0
    else laterAt2 V c ⟨n + 1, hn⟩ h0 (outs2 c n (Nat.lt_of_succ_lt hn)).2.1 (outs2 c n (Nat.lt_of_succ_lt hn)).2.2

theorem outs2_first (c : Dev nD) (t : Fin cfg2.N) (h0 : t.val % 20 = 0) :
    outs2 V c t.val t.isLt = firstAt2 V c t h0 := by
  obtain ⟨n, hn⟩ := t
  cases n with
  | zero => exact rfl
  | succ n => exact (dif_pos h0).trans rfl

theorem outs2_later (c : Dev nD) (t : Fin cfg2.N) (h0 : ¬t.val % 20 = 0) :
    outs2 V c t.val t.isLt = laterAt2 V c t h0 (outs2 V c (t.val - 1) (Nat.lt_of_le_of_lt (Nat.sub_le _ _) t.isLt)).2.1
      (outs2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at its
    block and the outputs' at `outs2`; the invariant is the scoped rest and the generator register, untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outs2 V c t.val t.isLt).1
    | ⟨7, _⟩ => (outs2 V c t.val t.isLt).2.1
    | ⟨8, _⟩ => (outs2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outs2 V c t.val t.isLt).1 := by dsimp only [dat2]
theorem after2_7 (c : Dev nD) (t : Fin cfg2.N) : (dat2 V c).after 7 t = (outs2 V c t.val t.isLt).2.1 := by dsimp only [dat2]
theorem after2_8 (c : Dev nD) (t : Fin cfg2.N) : (dat2 V c).after 8 t = (outs2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! At a later point the running rows' buffers hold what the body left at the point before: they are written back at the
    last point only. -/
theorem before2_7_later (c : Dev nD) (t : Fin cfg2.N) (h0 : ¬t.val % 20 = 0) (d) :
    (dat2 V c).before 7 t d = (outs2 V c (t.val - 1) (Nat.lt_of_le_of_lt (Nat.sub_le _ _) t.isLt)).2.1 := by
  have hN : t.val < 20 := lt_of_lt_of_eq t.isLt (show cfg2.N = 20 from N_2)
  rw [Dat.before_out_kept _ 7 rfl t (by omega) (Bool.eq_false_iff.mpr fun h => by have := (flush2_7 _).mp h; dsimp only at this; omega)
    (fun _ => rfl) (fun _ _ => rfl)]
  dsimp only [dat2]
theorem before2_8_later (c : Dev nD) (t : Fin cfg2.N) (h0 : ¬t.val % 20 = 0) (d) :
    (dat2 V c).before 8 t d = (outs2 V c (t.val - 1) (Nat.lt_of_le_of_lt (Nat.sub_le _ _) t.isLt)).2.2 := by
  have hN : t.val < 20 := lt_of_lt_of_eq t.isLt (show cfg2.N = 20 from N_2)
  rw [Dat.before_out_kept _ 8 rfl t (by omega) (Bool.eq_false_iff.mpr fun h => by have := (flush2_8 _).mp h; dsimp only at this; omega)
    (fun _ => rfl) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 4000000 in
/-- The body at any point: the inputs' buffers hold their blocks; the point is the first or a later one, and at a later one
    the running rows hold what the point before left; so that case's run applies; the invariant passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 20 := lt_of_lt_of_eq t.isLt (show cfg2.N = 20 from N_2)
  by_cases h0 : t.val % 20 = 0
  · rw [outs2_first V c t h0]
    unfold firstAt2
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstRun2 c (grid2.coords t) _ _ _ _ _ _ _ _ _ _ _ _ _ _ _ _ _ _ ((first2_iff t).mpr h0) (iblk2 V c 0 t) (iblk2 V c 1 t) (iblk2 V c 2 t) (iblk2 V c 3 t) (iblk2 V c 4 t) (iblk2 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover2_first_6 c _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover2_first_7 c _ _ _ _ _ _ _ _ _ _ _ _ _ _ _ _ _ _ _ _ _ _ _ _ _ _ y)
    unfold owns; iexists _; isplitr
    swap; · iexact H8
    ipureintro; exact View.read_writes_of_cover _ _ _ _ _ (fun y => cover2_first_8 c _ _ _ _ _ _ _ _ _ _ _ _ _ _ _ _ _ _ _ _ _ _ _ _ _ _ y)
  · rw [outs2_later V c t h0]
    simp only [before2_7_later V c t h0, before2_8_later V c t h0]
    unfold laterAt2
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((laterRun2 c (grid2.coords t) _ _ _ _ _ _ _ _ _ _ _ _ _ _ _ _ _ _ (fun h => h0 ((first2_iff t).mp h)) (iblk2 V c 0 t) (iblk2 V c 1 t) (iblk2 V c 2 t) (iblk2 V c 3 t) (iblk2 V c 4 t) (iblk2 V c 5 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover2_later_6 c _ _ _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover2_later_7 c _ _ _ _ _ _ _ _ _ _ _ _ _ _ _ _ _ _ _ _ _ _ _ _ _ _ _ _ y)
    unfold owns; iexists _; isplitr
    swap; · iexact H8
    ipureintro; exact View.read_writes_of_cover _ _ _ _ _ (fun y => cover2_later_8 c _ _ _ _ _ _ _ _ _ _ _ _ _ _ _ _ _ _ _ _ _ _ _ _ _ _ _ _ y)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.MlpRun4.lean ====
/-
  The first kernel of a layer — the two-layer perceptron over a block of 5000 rows, with the running column sums of
  its result and of the result's squares — run on whole staging buffers, in its two control cases: at the first
  grid point the body clears the two running rows before it adds the block's column sums to them; at every later
  point it adds to what the point before left. Each case's run is stated as a subtype: the stores each output buffer
  ends with (last first), with the proof that the body run from the
  six input buffers at their contents reaches its continuation holding the inputs unchanged and each output buffer
  with exactly those stores written.
-/
import proofs.«149905_j3221225472297_1_alg».proof.Proof.Gen.KernelIdeal.Launch
import proofs.«149905_j3221225472297_1_alg».proof.Proof.Gen.KernelIdeal.Skeleton
import proofs.«149905_j3221225472297_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the grid coordinate. -/
abbrev first4 (i : grid4.Coords) : Prop :=
  (Scalar.cmpi .ne (Scalar.extui (Scalar.cmpi .eq (BitVec.ofNat 32 (i 0).val) 0#32)) 0#32) = 1#1

/-- It holds at point 0 only: decided over the twenty grid points. -/
theorem first4_iff : ∀ t : Fin cfg4.N, first4 (grid4.coords t) ↔ t.val % 20 = 0 :=
  (by decide +kernel : ∀ t : Fin grid4.N, first4 (grid4.coords t) ↔ t.val % 20 = 0)

set_option maxHeartbeats 4000000 in
/-- The body at the first point: the running rows cleared, then the block's hidden rows stored and their column sums added. -/
noncomputable def firstRun4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i)
    (x0 x1 : Vec F S5000x64 .f32) (x2 : Vec F S64x64 .f32) (x3 : Vec F S1x64 .f32) (x4 : Vec F S64x64 .f32) (x5 : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (first4 i) := ⟨hc⟩
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The body at a later point: the running rows (at `s`, `q`) are added to. -/
noncomputable def laterRun4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i)
    (x0 x1 : Vec F S5000x64 .f32) (x2 : Vec F S64x64 .f32) (x3 : Vec F S1x64 .f32) (x4 : Vec F S64x64 .f32) (x5 : Vec F S1x64 .f32) (s q : Vec F S1x64 .f32) :
    { L : List (View.Piece (Elt F) S5000x64 .f32) × List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare q
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨(?_, ?_, ?_), fun E K => ?run⟩
  case run =>
    haveI : Fact (¬first4 i) := ⟨hc⟩
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.KernelIdeal.MlpRegion4.lean ====
/-
  The frame half of a layer's first kernel region: the proof data of its pipeline of twenty grid points at any contents
  `V` of the TensorCore's buffers on entry. After the body at a point each input window's buffer holds its block of the
  arrays as entered; the output windows' buffers hold what the point's control case leaves: the hidden rows' buffer is
  rewritten at every point, the two running rows (column sums, column sums of squares) start from zero at the first
  point and are added to at every later one, so their contents are defined by recursion on the point.
-/
import proofs.«149905_j3221225472297_1_alg».proof.Proof.KernelIdeal.MlpRun4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current buffer holds its block at every point, fetched there or not (a window whose block index does
    not move is fetched at the first point only), for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The staging buffers -/

abbrev VO4_6 : View sig .tc .vmem S5000x64 .f32 := (Memref.whole cc4_stg6_0 : Memref sig .tc .vmem S5000x64 .f32).view
abbrev VO4_7 : View sig .tc .vmem S1x64 .f32 := (Memref.whole cc4_stg7_0 : Memref sig .tc .vmem S1x64 .f32).view
abbrev VO4_8 : View sig .tc .vmem S1x64 .f32 := (Memref.whole cc4_stg8_0 : Memref sig .tc .vmem S1x64 .f32).view
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)

/-! ## Each case's stores cover each output buffer -/

theorem cover4_first_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i)
    (x0 x1 : Vec F S5000x64 .f32) (x2 : Vec F S64x64 .f32) (x3 : Vec F S1x64 .f32) (x4 : Vec F S64x64 .f32) (x5 : Vec F S1x64 .f32) (y : S5000x64.Idx) :
    ∃ pc ∈ (firstRun4 c i arg1 harg1 arg2 harg2 arg3 harg3 arg4 harg4 arg5 harg5 arg6 harg6 arg7 harg7 arg8 harg8 arg9 harg9 hc x0 x1 x2 x3 x4 x5).1.1, y ∈ pc.1.set :=
  View.cover_of_tiledL (firstRun4 c i arg1 harg1 arg2 harg2 arg3 harg3 arg4 harg4 arg5 harg5 arg6 harg6 arg7 harg7 arg8 harg8 arg9 harg9 hc x0 x1 x2 x3 x4 x5).1.1 S5000x64.size (by sl_kernel_rfl) y
theorem cover4_first_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun4 c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL (firstRun4 c i arg1 harg1 arg2 harg2 arg3 harg3 arg4 harg4 arg5 harg5 arg6 harg6 arg7 harg7 arg8 harg8 arg9 harg9 hc x0 x1 x2 x3 x4 x5).1.2.1 S1x64.size (by sl_kernel_rfl) y
theorem cover4_first_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i)
    (x0 x1 : Vec F S5000x64 .f32) (x2 : Vec F S64x64 .f32) (x3 : Vec F S1x64 .f32) (x4 : Vec F S64x64 .f32) (x5 : Vec F S1x64 .f32) (y : S1x64.Idx) :
    ∃ pc ∈ (firstRun4 c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL (firstRun4 c i arg1 harg1 arg2 harg2 arg3 harg3 arg4 harg4 arg5 harg5 arg6 harg6 arg7 harg7 arg8 harg8 arg9 harg9 hc x0 x1 x2 x3 x4 x5).1.2.2 S1x64.size (by sl_kernel_rfl) y
theorem cover4_later_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i)
    (x0 x1 : Vec F S5000x64 .f32) (x2 : Vec F S64x64 .f32) (x3 : Vec F S1x64 .f32) (x4 : Vec F S64x64 .f32) (x5 : Vec F S1x64 .f32) (s q : Vec F S1x64 .f32) (y : S5000x64.Idx) :
    ∃ pc ∈ (laterRun4 c i arg1 harg1 arg2 harg2 arg3 harg3 arg4 harg4 arg5 harg5 arg6 harg6 arg7 harg7 arg8 harg8 arg9 harg9 hc x0 x1 x2 x3 x4 x5 s q).1.1, y ∈ pc.1.set :=
  View.cover_of_tiledL (laterRun4 c i arg1 harg1 arg2 harg2 arg3 harg3 arg4 harg4 arg5 harg5 arg6 harg6 arg7 harg7 arg8 harg8 arg9 harg9 hc x0 x1 x2 x3 x4 x5 s q).1.1 S5000x64.size (by sl_kernel_rfl) y
theorem cover4_later_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun4 c i arg1 harg1 arg2 harg2 arg3 harg3 arg4 harg4 arg5 harg5 arg6 harg6 arg7 harg7 arg8 harg8 arg9 harg9 hc x0 x1 x2 x3 x4 x5 s q).1.2.1, y ∈ pc.1.set :=
  View.cover_of_tiledL (laterRun4 c i arg1 harg1 arg2 harg2 arg3 harg3 arg4 harg4 arg5 harg5 arg6 harg6 arg7 harg7 arg8 harg8 arg9 harg9 hc x0 x1 x2 x3 x4 x5 s q).1.2.1 S1x64.size (by sl_kernel_rfl) y
theorem cover4_later_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i)
    (x0 x1 : Vec F S5000x64 .f32) (x2 : Vec F S64x64 .f32) (x3 : Vec F S1x64 .f32) (x4 : Vec F S64x64 .f32) (x5 : Vec F S1x64 .f32) (s q : Vec F S1x64 .f32) (y : S1x64.Idx) :
    ∃ pc ∈ (laterRun4 c i arg1 harg1 arg2 harg2 arg3 harg3 arg4 harg4 arg5 harg5 arg6 harg6 arg7 harg7 arg8 harg8 arg9 harg9 hc x0 x1 x2 x3 x4 x5 s q).1.2.2, y ∈ pc.1.set :=
  View.cover_of_tiledL (laterRun4 c i arg1 harg1 arg2 harg2 arg3 harg3 arg4 harg4 arg5 harg5 arg6 harg6 arg7 harg7 arg8 harg8 arg9 harg9 hc x0 x1 x2 x3 x4 x5 s q).1.2.2 S1x64.size (by sl_kernel_rfl) y

/-! ## What the outputs hold after each point -/

/-- What the first point's body leaves in the three output buffers: its stores read back. -/
def firstAt4 (c : Dev nD) (t : Fin cfg4.N) (h0 : t.val % 20 = 0) : Vec F S5000x64 .f32 × Vec F S1x64 .f32 × Vec F S1x64 .f32 :=
  (VO4_6.read (Elt F) (VO4_6.writes (Elt F) VO4_6.junk (firstRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t)).1.1),
   VO4_7.read (Elt F) (VO4_7.writes (Elt F) VO4_7.junk (firstRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t)).1.2.1),
   VO4_8.read (Elt F) (VO4_8.writes (Elt F) VO4_8.junk (firstRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t)).1.2.2))

/-- What a later point's body leaves, from the running rows `s`, `q` the point before left. -/
def laterAt4 (c : Dev nD) (t : Fin cfg4.N) (h0 : ¬t.val % 20 = 0) (s q : Vec F S1x64 .f32) : Vec F S5000x64 .f32 × Vec F S1x64 .f32 × Vec F S1x64 .f32 :=
  (VO4_6.read (Elt F) (VO4_6.writes (Elt F) VO4_6.junk (laterRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q).1.1),
   VO4_7.read (Elt F) (VO4_7.writes (Elt F) VO4_7.junk (laterRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q).1.2.1),
   VO4_8.read (Elt F) (VO4_8.writes (Elt F) VO4_8.junk (laterRun4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q).1.2.2))

/-- The accumulation: the three output buffers after the body at position `n`. -/
def outs4 (c : Dev nD) : (n : ℕ) → n < cfg4.N → Vec F S5000x64 .f32 × Vec F S1x64 .f32 × Vec F S1x64 .f32
  | 0, hn => firstAt4 V c ⟨0, hn⟩ (Nat.zero_mod _)
  | n + 1, hn =>
    if h0 : (n + 1) % 20 = 0 then firstAt4 V c ⟨n + 1, hn⟩ h0
    else laterAt4 V c ⟨n + 1, hn⟩ h0 (outs4 c n (Nat.lt_of_succ_lt hn)).2.1 (outs4 c n (Nat.lt_of_succ_lt hn)).2.2

theorem outs4_first (c : Dev nD) (t : Fin cfg4.N) (h0 : t.val % 20 = 0) :
    outs4 V c t.val t.isLt = firstAt4 V c t h0 := by
  obtain ⟨n, hn⟩ := t
  cases n with
  | zero => exact rfl
  | succ n => exact (dif_pos h0).trans rfl

theorem outs4_later (c : Dev nD) (t : Fin cfg4.N) (h0 : ¬t.val % 20 = 0) :
    outs4 V c t.val t.isLt = laterAt4 V c t h0 (outs4 V c (t.val - 1) (Nat.lt_of_le_of_lt (Nat.sub_le _ _) t.isLt)).2.1
      (outs4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at its
    block and the outputs' at `outs4`; the invariant is the scoped rest and the generator register, untouched; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outs4 V c t.val t.isLt).1
    | ⟨7, _⟩ => (outs4 V c t.val t.isLt).2.1
    | ⟨8, _⟩ => (outs4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outs4 V c t.val t.isLt).1 := by dsimp only [dat4]
theorem after4_7 (c : Dev nD) (t : Fin cfg4.N) : (dat4 V c).after 7 t = (outs4 V c t.val t.isLt).2.1 := by dsimp only [dat4]
theorem after4_8 (c : Dev nD) (t : Fin cfg4.N) : (dat4 V c).after 8 t = (outs4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! At a later point the running rows' buffers hold what the body left at the point before: they are written back at the
    last point only. -/
theorem before4_7_later (c : Dev nD) (t : Fin cfg4.N) (h0 : ¬t.val % 20 = 0) (d) :
    (dat4 V c).before 7 t d = (outs4 V c (t.val - 1) (Nat.lt_of_le_of_lt (Nat.sub_le _ _) t.isLt)).2.1 := by
  have hN : t.val < 20 := lt_of_lt_of_eq t.isLt (show cfg4.N = 20 from N_4)
  rw [Dat.before_out_kept _ 7 rfl t (by omega) (Bool.eq_false_iff.mpr fun h => by have := (flush4_7 _).mp h; dsimp only at this; omega)
    (fun _ => rfl) (fun _ _ => rfl)]
  dsimp only [dat4]
theorem before4_8_later (c : Dev nD) (t : Fin cfg4.N) (h0 : ¬t.val % 20 = 0) (d) :
    (dat4 V c).before 8 t d = (outs4 V c (t.val - 1) (Nat.lt_of_le_of_lt (Nat.sub_le _ _) t.isLt)).2.2 := by
  have hN : t.val < 20 := lt_of_lt_of_eq t.isLt (show cfg4.N = 20 from N_4)
  rw [Dat.before_out_kept _ 8 rfl t (by omega) (Bool.eq_false_iff.mpr fun h => by have := (flush4_8 _).mp h; dsimp only at this; omega)
    (fun _ => rfl) (fun _ _ => rfl)]
  dsimp only [dat4]

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 4000000 in
/-- The body at any point: the inputs' buffers hold their blocks; the point is the first or a later one, and at a later one
    the running rows hold what the point before left; so that case's run applies; the invariant passes through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 20 := lt_of_lt_of_eq t.isLt (show cfg4.N = 20 from N_4)
  by_cases h0 : t.val % 20 = 0
  · rw [outs4_first V c t h0]
    unfold firstAt4
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstRun4 c (grid4.coords t) _ _ _ _ _ _ _ _ _ _ _ _ _ _ _ _ _ _ ((first4_iff t).mpr h0) (iblk4 V c 0 t) (iblk4 V c 1 t) (iblk4 V c 2 t) (iblk4 V c 3 t) (iblk4 V c 4 t) (iblk4 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover4_first_6 c _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover4_first_7 c _ _ _ _ _ _ _ _ _ _ _ _ _ _ _ _ _ _ _ _ _ _ _ _ _ _ y)
    unfold owns; iexists _; isplitr
    swap; · iexact H8
    ipureintro; exact View.read_writes_of_cover _ _ _ _ _ (fun y => cover4_first_8 c _ _ _ _ _ _ _ _ _ _ _ _ _ _ _ _ _ _ _ _ _ _ _ _ _ _ y)
  · rw [outs4_later V c t h0]
    simp only [before4_7_later V c t h0, before4_8_later V c t h0]
    unfold laterAt4
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((laterRun4 c (grid4.coords t) _ _ _ _ _ _ _ _ _ _ _ _ _ _ _ _ _ _ (fun h => h0 ((first4_iff t).mp h)) (iblk4 V c 0 t) (iblk4 V c 1 t) (iblk4 V c 2 t) (iblk4 V c 3 t) (iblk4 V c 4 t) (iblk4 V c 5 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover4_later_6 c _ _ _ _ _ _ _ _ _ _ _ _ _ _ _ _ _ _ _ _ _ _ _ _ _ _ _ _ y)
    isplitl [H7]
    · unfold owns; iexists _; isplitr
      swap; · iexact H7
      ipureintro; exact View.read_writes_of_cover _ _ _ _ _ (fun y => cover4_later_7 c _ _ _ _ _ _ _ _ _ _ _ _ _ _ _ _ _ _ _ _ _ _ _ _ _ _ _ _ y)
    unfold owns; iexists _; isplitr
    swap; · iexact H8
    ipureintro; exact View.read_writes_of_cover _ _ _ _ _ (fun y => cover4_later_8 c _ _ _ _ _ _ _ _ _ _ _ _ _ _ _ _ _ _ _ _ _ _ _ _ _ _ _ _ y)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.NormalizeRegion1.lean ====
/- The `normalize` kernel of pallas_call 1 (`cc1__bn_kernel`): the frame half of its region, at any float
   instance `F`, at a parameter `V` (the TensorCore's buffer contents when the region is entered).

   The kernel has six windows. Windows 0..4 are inputs: the block of 5000 rows of the activations `h` that
   starts at row 5000·t, and the four rows `mean`, `inv_std`, `gamma`, `beta` of shape [1,64], whose index
   maps are constant (so they are fetched at the first point only, and an unfetched point finds the block the
   point before left). Window 5 is the output: the same block of rows of `z`. The body loads every buffer
   whole, computes `(h - mean) * inv_std * gamma + beta` row by row, and stores the result whole into window 5's
   buffer.

   Contents: each window's block at a point (`iblk1`); what the body leaves in the output buffer as a function of
   the five input blocks (`out1_5`), and that it is the body's arithmetic `k1_pay1` of them (`out1_5_eq`); the
   body's triple (`sound_kernel1`); the pipeline's proof data (`dat1`) and the body obligation at every grid point
   (`body_obligation1`). -/
import proofs.«149905_j3221225472297_1_alg».proof.Proof.Gen.KernelIdeal.Launch
import proofs.«149905_j3221225472297_1_alg».proof.Proof.Gen.KernelIdeal.Skeleton
import proofs.«149905_j3221225472297_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rectangle of its array that the window's index map selects there,
    read off the array's contents when the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at EVERY point, whether the pipeline fetched it
    there or not: where it did not, the window's block index is the one of the point before, and the body left
    that point's block in place. This holds for any proof data over the region's arrays (`hA`) whose body keeps
    the input's block (`hafter`). None of the windows is clipped at the array's edge, and none has an idle point.
    For the activations (window 0) the index moves at every point, so every point fetches; for the four rows
    (windows 1..4) the index is constant and only the first point fetches. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The offsets of every access of the body are zero on both axes. -/
theorem zeros1 : (![0, 0] : Fin 2 → Nat) = fun _ => 0 := funext fun a => by fin_cases a <;> rfl

/-- The whole [5000,64] buffer: the rectangle of the body's load of the activations and of its one store. -/
abbrev rBlk1 : Rect S5000x64 := Rect.unit (s := S5000x64) ![0, 0] S5000x64.size inb_S5000x64_S5000x64_0_0

/-- The whole [1,64] buffer: the rectangle of the body's load of each of the four rows. -/
abbrev rRow1 : Rect S1x64 := Rect.unit (s := S1x64) ![0, 0] S1x64.size inb_S1x64_S1x64_0_0

/-! ## What the body leaves in the output window's buffer -/

/-- Window 5's staging buffer after the body, as a function of the five input buffers' contents: the body's one
    store, of its arithmetic `k1_pay1` over what its five loads read, laid over the buffer. -/
def out1_5 (x0 : Vec F S5000x64 .f32) (x1 x2 x3 x4 : Vec F S1x64 .f32) : Vec F S5000x64 .f32 :=
  View.canon [⟨rBlk1, k1_pay1 (View.ld x0 rBlk1) (View.ld x1 rRow1) (View.ld x2 rRow1) (View.ld x3 rRow1) (View.ld x4 rRow1)⟩]

/-- The store's rectangle is the whole buffer, so it covers every index of it. -/
theorem cover1_5 (p0 : Vec F S5000x64 .f32) (y : S5000x64.Idx) :
    ∃ pc ∈ ([⟨rBlk1, p0⟩] : List (View.Piece (Elt F) S5000x64 .f32)), y ∈ pc.1.set :=
  ⟨_, List.mem_singleton_self _, View.mem_set_unit_zero (S := S5000x64) zeros1 inb_S5000x64_S5000x64_0_0 y⟩

/-- Every load reads a whole buffer and the store writes the whole buffer, so what the body leaves is its
    arithmetic applied to the buffers' contents themselves:
    `out1_5 h mean inv_std gamma beta = (h - mean) * inv_std * gamma + beta`, as `k1_pay1` spells it. -/
theorem out1_5_eq (x0 : Vec F S5000x64 .f32) (x1 x2 x3 x4 : Vec F S1x64 .f32) :
    out1_5 x0 x1 x2 x3 x4 = k1_pay1 x0 x1 x2 x3 x4 := by
  unfold out1_5
  rw [View.canon_unit_zero (S := S5000x64) zeros1 inb_S5000x64_S5000x64_0_0]
  rw [View.ld_unit_zero (S := S5000x64) zeros1 inb_S5000x64_S5000x64_0_0 x0,
    View.ld_unit_zero (S := S1x64) zeros1 inb_S1x64_S1x64_0_0 x1,
    View.ld_unit_zero (S := S1x64) zeros1 inb_S1x64_S1x64_0_0 x2,
    View.ld_unit_zero (S := S1x64) zeros1 inb_S1x64_S1x64_0_0 x3,
    View.ld_unit_zero (S := S1x64) zeros1 inb_S1x64_S1x64_0_0 x4]

/-! ## The body's triple -/

set_option maxHeartbeats 1000000 in
/-- The kernel body, called on six whole staging buffers — the five inputs' at contents `x0 … x4`, the output's at
    anything —, runs without a fault to its continuation, which finds the inputs' buffers as they were and the
    output's at `out1_5 x0 … x4`. The body is a straight line of six loads and one store; its last load (of the
    output buffer) is not used. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays are the region-entry contents; after the body at point
    `t` every input's buffer still holds its block and the output's holds `out1_5` of the five input blocks; the
    invariant is the scoped buffers outside the windows and the core's random-number register, untouched; nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks (`before1_W`), so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KernelIdeal.NormalizeRegion3.lean ====
/- The `normalize` kernel of pallas_call 3 (`cc3__bn_kernel`): the frame half of its region, at any float
   instance `F`, at a parameter `V` (the TensorCore's buffer contents when the region is entered).

   The kernel has six windows. Windows 0..4 are inputs: the block of 5000 rows of the activations `h` that
   starts at row 5000·t, and the four rows `mean`, `inv_std`, `gamma`, `beta` of shape [1,64], whose index
   maps are constant (so they are fetched at the first point only, and an unfetched point finds the block the
   point before left). Window 5 is the output: the same block of rows of `z`. The body loads every buffer
   whole, computes `(h - mean) * inv_std * gamma + beta` row by row, and stores the result whole into window 5's
   buffer.

   Contents: each window's block at a point (`iblk3`); what the body leaves in the output buffer as a function of
   the five input blocks (`out3_5`), and that it is the body's arithmetic `k3_pay1` of them (`out3_5_eq`); the
   body's triple (`sound_kernel3`); the pipeline's proof data (`dat3`) and the body obligation at every grid point
   (`body_obligation3`). -/
import proofs.«149905_j3221225472297_1_alg».proof.Proof.Gen.KernelIdeal.Launch
import proofs.«149905_j3221225472297_1_alg».proof.Proof.Gen.KernelIdeal.Skeleton
import proofs.«149905_j3221225472297_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rectangle of its array that the window's index map selects there,
    read off the array's contents when the region is entered. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds the window's block at EVERY point, whether the pipeline fetched it
    there or not: where it did not, the window's block index is the one of the point before, and the body left
    that point's block in place. This holds for any proof data over the region's arrays (`hA`) whose body keeps
    the input's block (`hafter`). None of the windows is clipped at the array's edge, and none has an idle point.
    For the activations (window 0) the index moves at every point, so every point fetches; for the four rows
    (windows 1..4) the index is constant and only the first point fetches. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The offsets of every access of the body are zero on both axes. -/
theorem zeros3 : (![0, 0] : Fin 2 → Nat) = fun _ => 0 := funext fun a => by fin_cases a <;> rfl

/-- The whole [5000,64] buffer: the rectangle of the body's load of the activations and of its one store. -/
abbrev rBlk3 : Rect S5000x64 := Rect.unit (s := S5000x64) ![0, 0] S5000x64.size inb_S5000x64_S5000x64_0_0

/-- The whole [1,64] buffer: the rectangle of the body's load of each of the four rows. -/
abbrev rRow3 : Rect S1x64 := Rect.unit (s := S1x64) ![0, 0] S1x64.size inb_S1x64_S1x64_0_0

/-! ## What the body leaves in the output window's buffer -/

/-- Window 5's staging buffer after the body, as a function of the five input buffers' contents: the body's one
    store, of its arithmetic `k3_pay1` over what its five loads read, laid over the buffer. -/
def out3_5 (x0 : Vec F S5000x64 .f32) (x1 x2 x3 x4 : Vec F S1x64 .f32) : Vec F S5000x64 .f32 :=
  View.canon [⟨rBlk3, k3_pay1 (View.ld x0 rBlk3) (View.ld x1 rRow3) (View.ld x2 rRow3) (View.ld x3 rRow3) (View.ld x4 rRow3)⟩]

/-- The store's rectangle is the whole buffer, so it covers every index of it. -/
theorem cover3_5 (p0 : Vec F S5000x64 .f32) (y : S5000x64.Idx) :
    ∃ pc ∈ ([⟨rBlk3, p0⟩] : List (View.Piece (Elt F) S5000x64 .f32)), y ∈ pc.1.set :=
  ⟨_, List.mem_singleton_self _, View.mem_set_unit_zero (S := S5000x64) zeros3 inb_S5000x64_S5000x64_0_0 y⟩

/-- Every load reads a whole buffer and the store writes the whole buffer, so what the body leaves is its
    arithmetic applied to the buffers' contents themselves:
    `out3_5 h mean inv_std gamma beta = (h - mean) * inv_std * gamma + beta`, as `k3_pay1` spells it. -/
theorem out3_5_eq (x0 : Vec F S5000x64 .f32) (x1 x2 x3 x4 : Vec F S1x64 .f32) :
    out3_5 x0 x1 x2 x3 x4 = k3_pay1 x0 x1 x2 x3 x4 := by
  unfold out3_5
  rw [View.canon_unit_zero (S := S5000x64) zeros3 inb_S5000x64_S5000x64_0_0]
  rw [View.ld_unit_zero (S := S5000x64) zeros3 inb_S5000x64_S5000x64_0_0 x0,
    View.ld_unit_zero (S := S1x64) zeros3 inb_S1x64_S1x64_0_0 x1,
    View.ld_unit_zero (S := S1x64) zeros3 inb_S1x64_S1x64_0_0 x2,
    View.ld_unit_zero (S := S1x64) zeros3 inb_S1x64_S1x64_0_0 x3,
    View.ld_unit_zero (S := S1x64) zeros3 inb_S1x64_S1x64_0_0 x4]

/-! ## The body's triple -/

set_option maxHeartbeats 1000000 in
/-- The kernel body, called on six whole staging buffers — the five inputs' at contents `x0 … x4`, the output's at
    anything —, runs without a fault to its continuation, which finds the inputs' buffers as they were and the
    output's at `out3_5 x0 … x4`. The body is a straight line of six loads and one store; its last load (of the
    output buffer) is not used. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays are the region-entry contents; after the body at point
    `t` every input's buffer still holds its block and the output's holds `out3_5` of the five input blocks; the
    invariant is the scoped buffers outside the windows and the core's random-number register, untouched; nothing is owed; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`: the invariant, the core's debts, and each window's current staging
    buffer at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks (`before3_W`), so the body's triple applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KernelIdeal.NormalizeRegion5.lean ====
/- The `normalize` kernel of pallas_call 5 (`cc5__bn_kernel`): the frame half of its region, at any float
   instance `F`, at a parameter `V` (the TensorCore's buffer contents when the region is entered).

   The kernel has six windows. Windows 0..4 are inputs: the block of 5000 rows of the activations `h` that
   starts at row 5000·t, and the four rows `mean`, `inv_std`, `gamma`, `beta` of shape [1,64], whose index
   maps are constant (so they are fetched at the first point only, and an unfetched point finds the block the
   point before left). Window 5 is the output: the same block of rows of `z`. The body loads every buffer
   whole, computes `(h - mean) * inv_std * gamma + beta` row by row, and stores the result whole into window 5's
   buffer.

   Contents: each window's block at a point (`iblk5`); what the body leaves in the output buffer as a function of
   the five input blocks (`out5_5`), and that it is the body's arithmetic `k5_pay1` of them (`out5_5_eq`); the
   body's triple (`sound_kernel5`); the pipeline's proof data (`dat5`) and the body obligation at every grid point
   (`body_obligation5`). -/
import proofs.«149905_j3221225472297_1_alg».proof.Proof.Gen.KernelIdeal.Launch
import proofs.«149905_j3221225472297_1_alg».proof.Proof.Gen.KernelIdeal.Skeleton
import proofs.«149905_j3221225472297_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rectangle of its array that the window's index map selects there,
    read off the array's contents when the region is entered. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds the window's block at EVERY point, whether the pipeline fetched it
    there or not: where it did not, the window's block index is the one of the point before, and the body left
    that point's block in place. This holds for any proof data over the region's arrays (`hA`) whose body keeps
    the input's block (`hafter`). None of the windows is clipped at the array's edge, and none has an idle point.
    For the activations (window 0) the index moves at every point, so every point fetches; for the four rows
    (windows 1..4) the index is constant and only the first point fetches. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The offsets of every access of the body are zero on both axes. -/
theorem zeros5 : (![0, 0] : Fin 2 → Nat) = fun _ => 0 := funext fun a => by fin_cases a <;> rfl

/-- The whole [5000,64] buffer: the rectangle of the body's load of the activations and of its one store. -/
abbrev rBlk5 : Rect S5000x64 := Rect.unit (s := S5000x64) ![0, 0] S5000x64.size inb_S5000x64_S5000x64_0_0

/-- The whole [1,64] buffer: the rectangle of the body's load of each of the four rows. -/
abbrev rRow5 : Rect S1x64 := Rect.unit (s := S1x64) ![0, 0] S1x64.size inb_S1x64_S1x64_0_0

/-! ## What the body leaves in the output window's buffer -/

/-- Window 5's staging buffer after the body, as a function of the five input buffers' contents: the body's one
    store, of its arithmetic `k5_pay1` over what its five loads read, laid over the buffer. -/
def out5_5 (x0 : Vec F S5000x64 .f32) (x1 x2 x3 x4 : Vec F S1x64 .f32) : Vec F S5000x64 .f32 :=
  View.canon [⟨rBlk5, k5_pay1 (View.ld x0 rBlk5) (View.ld x1 rRow5) (View.ld x2 rRow5) (View.ld x3 rRow5) (View.ld x4 rRow5)⟩]

/-- The store's rectangle is the whole buffer, so it covers every index of it. -/
theorem cover5_5 (p0 : Vec F S5000x64 .f32) (y : S5000x64.Idx) :
    ∃ pc ∈ ([⟨rBlk5, p0⟩] : List (View.Piece (Elt F) S5000x64 .f32)), y ∈ pc.1.set :=
  ⟨_, List.mem_singleton_self _, View.mem_set_unit_zero (S := S5000x64) zeros5 inb_S5000x64_S5000x64_0_0 y⟩

/-- Every load reads a whole buffer and the store writes the whole buffer, so what the body leaves is its
    arithmetic applied to the buffers' contents themselves:
    `out5_5 h mean inv_std gamma beta = (h - mean) * inv_std * gamma + beta`, as `k5_pay1` spells it. -/
theorem out5_5_eq (x0 : Vec F S5000x64 .f32) (x1 x2 x3 x4 : Vec F S1x64 .f32) :
    out5_5 x0 x1 x2 x3 x4 = k5_pay1 x0 x1 x2 x3 x4 := by
  unfold out5_5
  rw [View.canon_unit_zero (S := S5000x64) zeros5 inb_S5000x64_S5000x64_0_0]
  rw [View.ld_unit_zero (S := S5000x64) zeros5 inb_S5000x64_S5000x64_0_0 x0,
    View.ld_unit_zero (S := S1x64) zeros5 inb_S1x64_S1x64_0_0 x1,
    View.ld_unit_zero (S := S1x64) zeros5 inb_S1x64_S1x64_0_0 x2,
    View.ld_unit_zero (S := S1x64) zeros5 inb_S1x64_S1x64_0_0 x3,
    View.ld_unit_zero (S := S1x64) zeros5 inb_S1x64_S1x64_0_0 x4]

/-! ## The body's triple -/

set_option maxHeartbeats 1000000 in
/-- The kernel body, called on six whole staging buffers — the five inputs' at contents `x0 … x4`, the output's at
    anything —, runs without a fault to its continuation, which finds the inputs' buffers as they were and the
    output's at `out5_5 x0 … x4`. The body is a straight line of six loads and one store; its last load (of the
    output buffer) is not used. -/
theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of this pipeline on core `c`: the arrays are the region-entry contents; after the body at point
    `t` every input's buffer still holds its block and the output's holds `out5_5` of the five input blocks; the
    invariant is the scoped buffers outside the windows and the core's random-number register, untouched; nothing is owed; every share is full. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debts, and each window's current staging
    buffer at what the pipeline left in it, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks (`before5_W`), so the body's triple applies; the
    invariant and the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KernelIdeal.Segments.lean ====
/-
  @main from the launch to the return as a line of segments — a stretch of host operations, a kernel region, a stretch, … —
  with the contents of every unscoped buffer named at each boundary: after a stretch of host operations they are that
  stretch's operations folded over what it found, after a kernel region they are what it found with the region's output
  arrays at what its pipeline's write-backs leave. Every weakly fair execution of @main terminates without a fault, and the
  final memory holds every unscoped buffer at the last boundary's contents. Read at the argument arrays that is the frame
  claim (no host operation writes an argument and no region has one as an output); read at the result array it names the
  result.
-/
import proofs.«149905_j3221225472297_1_alg».proof.Proof.KernelIdeal.MlpRegion0
import proofs.«149905_j3221225472297_1_alg».proof.Proof.KernelIdeal.MlpRegion2
import proofs.«149905_j3221225472297_1_alg».proof.Proof.KernelIdeal.MlpRegion4
import proofs.«149905_j3221225472297_1_alg».proof.Proof.KernelIdeal.NormalizeRegion1
import proofs.«149905_j3221225472297_1_alg».proof.Proof.KernelIdeal.NormalizeRegion3
import proofs.«149905_j3221225472297_1_alg».proof.Proof.KernelIdeal.NormalizeRegion5
import proofs.«149905_j3221225472297_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the host operations before kernel region 0. -/
abbrev B1 : Dev nD → Valuation τ sig (Elt F) := fun c => StableHlo.after hostOps0 (B0 m ρ c)
/-- The same at the TensorCore's references: what region 0 is entered from. -/
abbrev E1 : (c : Dev nD) → (b : Ref sig .tc) → Buf (Elt F) ((c : Thread nD τ).loc b) := fun c b => B1 m ρ c b
/-- At region 0's exit: its arrays at what the pipeline leaves (an input as entered, an output with its write-backs folded
    in), every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (dat0 (E1 m ρ) c).arrAt w cfg0.N = E2 m ρ c (Pipeline.arrRef spec0 w) :=
  (B2_arr m ρ c w).symm
theorem rest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- A buffer that is no OUTPUT array of region 0 leaves it as it entered. -/
theorem B2_keep (c : Dev nD) (b : Ref sig .tc) (h : ∀ w, Pipeline.arrRef spec0 w = b → (cfg0.win w).isOut = false) :
    B2 m ρ c (Proc.devRef .tc b) = B1 m ρ c (Proc.devRef .tc b) := by
  by_cases hb : ∃ w, Pipeline.arrRef spec0 w = b
  · obtain ⟨w, rfl⟩ := hb
    exact (B2_arr m ρ c w).trans (((dat0 (E1 m ρ) c).arrAt_in w (h w rfl) _).trans (A_eq0 (E1 m ρ) c w))
  · exact B2_of_ne m ρ c b fun w e => hb ⟨w, e⟩
/-- A buffer the host operations before region 0 do not write passes them unchanged. -/
theorem B1_keep (c : Dev nD) (b : Ref sig .tc) (h : b ∉ hostOps0_W) :
    B1 m ρ c (Proc.devRef .tc b) = B0 m ρ c (Proc.devRef .tc b) :=
  StableHlo.after_of_writes_sub hostOps0 _ hostOps0_writes h
/-- After the host operations before kernel region 1. -/
abbrev B3 : Dev nD → Valuation τ sig (Elt F) := fun c => StableHlo.after hostOps1 (B2 m ρ c)
/-- The same at the TensorCore's references: what region 1 is entered from. -/
abbrev E3 : (c : Dev nD) → (b : Ref sig .tc) → Buf (Elt F) ((c : Thread nD τ).loc b) := fun c b => B3 m ρ c b
/-- At region 1's exit: its arrays at what the pipeline leaves (an input as entered, an output with its write-backs folded
    in), every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (dat1 (E3 m ρ) c).arrAt w cfg1.N = E4 m ρ c (Pipeline.arrRef spec1 w) :=
  (B4_arr m ρ c w).symm
theorem rest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- A buffer that is no OUTPUT array of region 1 leaves it as it entered. -/
theorem B4_keep (c : Dev nD) (b : Ref sig .tc) (h : ∀ w, Pipeline.arrRef spec1 w = b → (cfg1.win w).isOut = false) :
    B4 m ρ c (Proc.devRef .tc b) = B3 m ρ c (Proc.devRef .tc b) := by
  by_cases hb : ∃ w, Pipeline.arrRef spec1 w = b
  · obtain ⟨w, rfl⟩ := hb
    exact (B4_arr m ρ c w).trans (((dat1 (E3 m ρ) c).arrAt_in w (h w rfl) _).trans (A_eq1 (E3 m ρ) c w))
  · exact B4_of_ne m ρ c b fun w e => hb ⟨w, e⟩
/-- A buffer the host operations before region 1 do not write passes them unchanged. -/
theorem B3_keep (c : Dev nD) (b : Ref sig .tc) (h : b ∉ hostOps1_W) :
    B3 m ρ c (Proc.devRef .tc b) = B2 m ρ c (Proc.devRef .tc b) :=
  StableHlo.after_of_writes_sub hostOps1 _ hostOps1_writes h
/-- After the host operations before kernel region 2. -/
abbrev B5 : Dev nD → Valuation τ sig (Elt F) := fun c => StableHlo.after hostOps2 (B4 m ρ c)
/-- The same at the TensorCore's references: what region 2 is entered from. -/
abbrev E5 : (c : Dev nD) → (b : Ref sig .tc) → Buf (Elt F) ((c : Thread nD τ).loc b) := fun c b => B5 m ρ c b
/-- At region 2's exit: its arrays at what the pipeline leaves (an input as entered, an output with its write-backs folded
    in), every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem left2 (c : Dev nD) (w : Fin cfg2.W) : (dat2 (E5 m ρ) c).arrAt w cfg2.N = E6 m ρ c (Pipeline.arrRef spec2 w) :=
  (B6_arr m ρ c w).symm
theorem rest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- A buffer that is no OUTPUT array of region 2 leaves it as it entered. -/
theorem B6_keep (c : Dev nD) (b : Ref sig .tc) (h : ∀ w, Pipeline.arrRef spec2 w = b → (cfg2.win w).isOut = false) :
    B6 m ρ c (Proc.devRef .tc b) = B5 m ρ c (Proc.devRef .tc b) := by
  by_cases hb : ∃ w, Pipeline.arrRef spec2 w = b
  · obtain ⟨w, rfl⟩ := hb
    exact (B6_arr m ρ c w).trans (((dat2 (E5 m ρ) c).arrAt_in w (h w rfl) _).trans (A_eq2 (E5 m ρ) c w))
  · exact B6_of_ne m ρ c b fun w e => hb ⟨w, e⟩
/-- A buffer the host operations before region 2 do not write passes them unchanged. -/
theorem B5_keep (c : Dev nD) (b : Ref sig .tc) (h : b ∉ hostOps2_W) :
    B5 m ρ c (Proc.devRef .tc b) = B4 m ρ c (Proc.devRef .tc b) :=
  StableHlo.after_of_writes_sub hostOps2 _ hostOps2_writes h
/-- After the host operations before kernel region 3. -/
abbrev B7 : Dev nD → Valuation τ sig (Elt F) := fun c => StableHlo.after hostOps3 (B6 m ρ c)
/-- The same at the TensorCore's references: what region 3 is entered from. -/
abbrev E7 : (c : Dev nD) → (b : Ref sig .tc) → Buf (Elt F) ((c : Thread nD τ).loc b) := fun c b => B7 m ρ c b
/-- At region 3's exit: its arrays at what the pipeline leaves (an input as entered, an output with its write-backs folded
    in), every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem left3 (c : Dev nD) (w : Fin cfg3.W) : (dat3 (E7 m ρ) c).arrAt w cfg3.N = E8 m ρ c (Pipeline.arrRef spec3 w) :=
  (B8_arr m ρ c w).symm
theorem rest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)
/-- A buffer that is no OUTPUT array of region 3 leaves it as it entered. -/
theorem B8_keep (c : Dev nD) (b : Ref sig .tc) (h : ∀ w, Pipeline.arrRef spec3 w = b → (cfg3.win w).isOut = false) :
    B8 m ρ c (Proc.devRef .tc b) = B7 m ρ c (Proc.devRef .tc b) := by
  by_cases hb : ∃ w, Pipeline.arrRef spec3 w = b
  · obtain ⟨w, rfl⟩ := hb
    exact (B8_arr m ρ c w).trans (((dat3 (E7 m ρ) c).arrAt_in w (h w rfl) _).trans (A_eq3 (E7 m ρ) c w))
  · exact B8_of_ne m ρ c b fun w e => hb ⟨w, e⟩
/-- A buffer the host operations before region 3 do not write passes them unchanged. -/
theorem B7_keep (c : Dev nD) (b : Ref sig .tc) (h : b ∉ hostOps3_W) :
    B7 m ρ c (Proc.devRef .tc b) = B6 m ρ c (Proc.devRef .tc b) :=
  StableHlo.after_of_writes_sub hostOps3 _ hostOps3_writes h
/-- After the host operations before kernel region 4. -/
abbrev B9 : Dev nD → Valuation τ sig (Elt F) := fun c => StableHlo.after hostOps4 (B8 m ρ c)
/-- The same at the TensorCore's references: what region 4 is entered from. -/
abbrev E9 : (c : Dev nD) → (b : Ref sig .tc) → Buf (Elt F) ((c : Thread nD τ).loc b) := fun c b => B9 m ρ c b
/-- At region 4's exit: its arrays at what the pipeline leaves (an input as entered, an output with its write-backs folded
    in), every other buffer as entered. -/
def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev E10 : (c : Dev nD) → (b : Ref sig .tc) → Buf (Elt F) ((c : Thread nD τ).loc b) := fun c b => B10 m ρ c b
theorem left4 (c : Dev nD) (w : Fin cfg4.W) : (dat4 (E9 m ρ) c).arrAt w cfg4.N = E10 m ρ c (Pipeline.arrRef spec4 w) :=
  (B10_arr m ρ c w).symm
theorem rest4 (c : Dev nD) : ∀ b, b ∉ Finset.univ.image (Pipeline.arrRef spec4) → E10 m ρ c b = E9 m ρ c b :=
  fun b hb => B10_of_ne m ρ c b fun w e => hb (Finset.mem_image.mpr ⟨w, Finset.mem_univ _, e⟩)
/-- A buffer that is no OUTPUT array of region 4 leaves it as it entered. -/
theorem B10_keep (c : Dev nD) (b : Ref sig .tc) (h : ∀ w, Pipeline.arrRef spec4 w = b → (cfg4.win w).isOut = false) :
    B10 m ρ c (Proc.devRef .tc b) = B9 m ρ c (Proc.devRef .tc b) := by
  by_cases hb : ∃ w, Pipeline.arrRef spec4 w = b
  · obtain ⟨w, rfl⟩ := hb
    exact (B10_arr m ρ c w).trans (((dat4 (E9 m ρ) c).arrAt_in w (h w rfl) _).trans (A_eq4 (E9 m ρ) c w))
  · exact B10_of_ne m ρ c b fun w e => hb ⟨w, e⟩
/-- A buffer the host operations before region 4 do not write passes them unchanged. -/
theorem B9_keep (c : Dev nD) (b : Ref sig .tc) (h : b ∉ hostOps4_W) :
    B9 m ρ c (Proc.devRef .tc b) = B8 m ρ c (Proc.devRef .tc b) :=
  StableHlo.after_of_writes_sub hostOps4 _ hostOps4_writes h
/-- After the host operations before kernel region 5. -/
abbrev B11 : Dev nD → Valuation τ sig (Elt F) := fun c => StableHlo.after hostOps5 (B10 m ρ c)
/-- The same at the TensorCore's references: what region 5 is entered from. -/
abbrev E11 : (c : Dev nD) → (b : Ref sig .tc) → Buf (Elt F) ((c : Thread nD τ).loc b) := fun c b => B11 m ρ c b
/-- At region 5's exit: its arrays at what the pipeline leaves (an input as entered, an output with its write-backs folded
    in), every other buffer as entered. -/
def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev E12 : (c : Dev nD) → (b : Ref sig .tc) → Buf (Elt F) ((c : Thread nD τ).loc b) := fun c b => B12 m ρ c b
theorem left5 (c : Dev nD) (w : Fin cfg5.W) : (dat5 (E11 m ρ) c).arrAt w cfg5.N = E12 m ρ c (Pipeline.arrRef spec5 w) :=
  (B12_arr m ρ c w).symm
theorem rest5 (c : Dev nD) : ∀ b, b ∉ Finset.univ.image (Pipeline.arrRef spec5) → E12 m ρ c b = E11 m ρ c b :=
  fun b hb => B12_of_ne m ρ c b fun w e => hb (Finset.mem_image.mpr ⟨w, Finset.mem_univ _, e⟩)
/-- A buffer that is no OUTPUT array of region 5 leaves it as it entered. -/
theorem B12_keep (c : Dev nD) (b : Ref sig .tc) (h : ∀ w, Pipeline.arrRef spec5 w = b → (cfg5.win w).isOut = false) :
    B12 m ρ c (Proc.devRef .tc b) = B11 m ρ c (Proc.devRef .tc b) := by
  by_cases hb : ∃ w, Pipeline.arrRef spec5 w = b
  · obtain ⟨w, rfl⟩ := hb
    exact (B12_arr m ρ c w).trans (((dat5 (E11 m ρ) c).arrAt_in w (h w rfl) _).trans (A_eq5 (E11 m ρ) c w))
  · exact B12_of_ne m ρ c b fun w e => hb ⟨w, e⟩
/-- A buffer the host operations before region 5 do not write passes them unchanged. -/
theorem B11_keep (c : Dev nD) (b : Ref sig .tc) (h : b ∉ hostOps5_W) :
    B11 m ρ c (Proc.devRef .tc b) = B10 m ρ c (Proc.devRef .tc b) :=
  StableHlo.after_of_writes_sub hostOps5 _ hostOps5_writes h
/-- After the last host operations: the end of @main. -/
abbrev B13 : Dev nD → Valuation τ sig (Elt F) := fun c => StableHlo.after hostOps6 (B12 m ρ c)
theorem B13_keep (c : Dev nD) (b : Ref sig .tc) (h : b ∉ hostOps6_W) :
    B13 m ρ c (Proc.devRef .tc b) = B12 m ρ c (Proc.devRef .tc b) :=
  StableHlo.after_of_writes_sub hostOps6 _ hostOps6_writes h

/-- A buffer no host operation writes and no region has as an output array ends as launched. -/
theorem kept (c : Dev nD) (b : Ref sig .tc) (h0 : b ∉ hostOps0_W) (h1 : b ∉ hostOps1_W) (h2 : b ∉ hostOps2_W) (h3 : b ∉ hostOps3_W) (h4 : b ∉ hostOps4_W) (h5 : b ∉ hostOps5_W) (h6 : b ∉ hostOps6_W) (r0 : ∀ w, Pipeline.arrRef spec0 w = b → (cfg0.win w).isOut = false) (r1 : ∀ w, Pipeline.arrRef spec1 w = b → (cfg1.win w).isOut = false) (r2 : ∀ w, Pipeline.arrRef spec2 w = b → (cfg2.win w).isOut = false) (r3 : ∀ w, Pipeline.arrRef spec3 w = b → (cfg3.win w).isOut = false) (r4 : ∀ w, Pipeline.arrRef spec4 w = b → (cfg4.win w).isOut = false) (r5 : ∀ w, Pipeline.arrRef spec5 w = b → (cfg5.win w).isOut = false) :
    B13 m ρ c (Proc.devRef .tc b) = m ((c : Thread nD τ).loc b) :=
  (B13_keep m ρ c b h6).trans <| (B12_keep m ρ c b r5).trans <| (B11_keep m ρ c b h5).trans <| (B10_keep m ρ c b r4).trans <| (B9_keep m ρ c b h4).trans <| (B8_keep m ρ c b r3).trans <| (B7_keep m ρ c b h3).trans <| (B6_keep m ρ c b r2).trans <| (B5_keep m ρ c b h2).trans <| (B4_keep m ρ c b r1).trans <| (B3_keep m ρ c b h1).trans <| (B2_keep m ρ c b r0).trans <| (B1_keep m ρ c b h0).trans rfl

theorem B13_main_arg0 (c : Dev nD) : B13 m ρ c (Proc.devRef .tc main_arg0) = m ((c : Thread nD τ).loc main_arg0) :=
  kept m ρ c main_arg0 (by decide) (by decide) (by decide) (by decide) (by decide) (by decide) (by decide) (by decide) (by decide) (by decide) (by decide) (by decide) (by decide)
theorem B13_main_arg1 (c : Dev nD) : B13 m ρ c (Proc.devRef .tc main_arg1) = m ((c : Thread nD τ).loc main_arg1) :=
  kept m ρ c main_arg1 (by decide) (by decide) (by decide) (by decide) (by decide) (by decide) (by decide) (by decide) (by decide) (by decide) (by decide) (by decide) (by decide)
theorem B13_main_arg2 (c : Dev nD) : B13 m ρ c (Proc.devRef .tc main_arg2) = m ((c : Thread nD τ).loc main_arg2) :=
  kept m ρ c main_arg2 (by decide) (by decide) (by decide) (by decide) (by decide) (by decide) (by decide) (by decide) (by decide) (by decide) (by decide) (by decide) (by decide)
theorem B13_main_arg3 (c : Dev nD) : B13 m ρ c (Proc.devRef .tc main_arg3) = m ((c : Thread nD τ).loc main_arg3) :=
  kept m ρ c main_arg3 (by decide) (by decide) (by decide) (by decide) (by decide) (by decide) (by decide) (by decide) (by decide) (by decide) (by decide) (by decide) (by decide)
theorem B13_main_arg4 (c : Dev nD) : B13 m ρ c (Proc.devRef .tc main_arg4) = m ((c : Thread nD τ).loc main_arg4) :=
  kept m ρ c main_arg4 (by decide) (by decide) (by decide) (by decide) (by decide) (by decide) (by decide) (by decide) (by decide) (by decide) (by decide) (by decide) (by decide)
theorem B13_main_arg5 (c : Dev nD) : B13 m ρ c (Proc.devRef .tc main_arg5) = m ((c : Thread nD τ).loc main_arg5) :=
  kept m ρ c main_arg5 (by decide) (by decide) (by decide) (by decide) (by decide) (by decide) (by decide) (by decide) (by decide) (by decide) (by decide) (by decide) (by decide)
theorem B13_main_arg6 (c : Dev nD) : B13 m ρ c (Proc.devRef .tc main_arg6) = m ((c : Thread nD τ).loc main_arg6) :=
  kept m ρ c main_arg6 (by decide) (by decide) (by decide) (by decide) (by decide) (by decide) (by decide) (by decide) (by decide) (by decide) (by decide) (by decide) (by decide)
theorem B13_main_arg7 (c : Dev nD) : B13 m ρ c (Proc.devRef .tc main_arg7) = m ((c : Thread nD τ).loc main_arg7) :=
  kept m ρ c main_arg7 (by decide) (by decide) (by decide) (by decide) (by decide) (by decide) (by decide) (by decide) (by decide) (by decide) (by decide) (by decide) (by decide)
theorem B13_main_arg8 (c : Dev nD) : B13 m ρ c (Proc.devRef .tc main_arg8) = m ((c : Thread nD τ).loc main_arg8) :=
  kept m ρ c main_arg8 (by decide) (by decide) (by decide) (by decide) (by decide) (by decide) (by decide) (by decide) (by decide) (by decide) (by decide) (by decide) (by decide)

/-! ## The proof data family and the thread state -/

/-- No pipeline has a prefetched table. -/
abbrev noTables : (p : Fin 6) → (pcfgs (F := F) p).Adm := fun p => (cfgs p).toPCfg_adm
/-- Every pipeline's proof data, each at its region's entry contents. -/
def regionData : (p : Fin 6) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
abbrev 𝒱ₕ : Variants := Variants.none
abbrev Lₕ : GSem nD τ sig → Finset Unit := fun _ => ∅
abbrev lvₕ : GSem nD τ sig → Unit → ℕ := fun _ _ => 0
/-- What rides beside the buffers through every segment: the core's generator register at some state and its dues, none. -/
abbrev Rₕ (c : Dev nD) : sProp 𝕄 := iprop((∃ r, prngReg c r) ∗ ∃ W, owes (c : Thread nD τ) (0 : CellTallies nD τ sig Unit) W)
/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₕ Lₕ lvₕ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rₕ
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tlast (c : Dev nD) : sProp 𝕄 := iprop(StableHlo.held (c : Thread nD τ) (Pipeline.ucRefs τ sig) (B13 m ρ c) ∗ ∃ r, prngReg c r)

/-! ## The regions as segments -/

set_option backward.isDefEq.respectTransparency.types false in
/-- Kernel region 0 over the thread state: entered with every unscoped buffer at `B1`, left with them at `B2`. Its arrays
    are split out of the unscoped buffers and put back at the exit contents; the generator register goes into the pipeline's
    invariant and comes out; nothing is owed; the kernel has no semaphore of its own. -/
def region0 : Pipeline.RegionSeg (pcfgs (F := F)) noTables (regionData m ρ) () defs₀ 𝒱ₕ Lₕ lvₕ 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lₕ lvₕ 0 fun _ _ => rfl
  pre c := iprop(StableHlo.held (c : Thread nD τ) (Pipeline.ucRefs τ sig) (B1 m ρ c) ∗ Rₕ c)
  post c := iprop(StableHlo.held (c : Thread nD τ) (Pipeline.ucRefs τ sig) (B2 m ρ c) ∗ Rₕ c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (regionData m ρ) launch0.win launch0.arr_whole c
      ((regionData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionData m ρ) ((regionData m ρ 0 c).share_full fun _ => rfl)
      (E1 m ρ c) (E2 m ρ c) ((regionData m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at `B3`, left with them at `B4`. Its arrays
    are split out of the unscoped buffers and put back at the exit contents; the generator register goes into the pipeline's
    invariant and comes out; nothing is owed; the kernel has no semaphore of its own. -/
def region1 : Pipeline.RegionSeg (pcfgs (F := F)) noTables (regionData m ρ) () defs₀ 𝒱ₕ Lₕ lvₕ 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lₕ lvₕ 1 fun _ _ => rfl
  pre c := iprop(StableHlo.held (c : Thread nD τ) (Pipeline.ucRefs τ sig) (B3 m ρ c) ∗ Rₕ c)
  post c := iprop(StableHlo.held (c : Thread nD τ) (Pipeline.ucRefs τ sig) (B4 m ρ c) ∗ Rₕ c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (regionData m ρ) launch1.win launch1.arr_whole c
      ((regionData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionData m ρ) ((regionData m ρ 1 c).share_full fun _ => rfl)
      (E3 m ρ c) (E4 m ρ c) ((regionData m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered with every unscoped buffer at `B5`, left with them at `B6`. Its arrays
    are split out of the unscoped buffers and put back at the exit contents; the generator register goes into the pipeline's
    invariant and comes out; nothing is owed; the kernel has no semaphore of its own. -/
def region2 : Pipeline.RegionSeg (pcfgs (F := F)) noTables (regionData m ρ) () defs₀ 𝒱ₕ Lₕ lvₕ 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lₕ lvₕ 2 fun _ _ => rfl
  pre c := iprop(StableHlo.held (c : Thread nD τ) (Pipeline.ucRefs τ sig) (B5 m ρ c) ∗ Rₕ c)
  post c := iprop(StableHlo.held (c : Thread nD τ) (Pipeline.ucRefs τ sig) (B6 m ρ c) ∗ Rₕ c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) noTables (regionData m ρ) launch2.win launch2.arr_whole c
      ((regionData m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (regionData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (regionData m ρ) ((regionData m ρ 2 c).share_full fun _ => rfl)
      (E5 m ρ c) (E6 m ρ c) ((regionData m ρ 2 c).arrAt · cfg2.N) (left2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 3 over the thread state: entered with every unscoped buffer at `B7`, left with them at `B8`. Its arrays
    are split out of the unscoped buffers and put back at the exit contents; the generator register goes into the pipeline's
    invariant and comes out; nothing is owed; the kernel has no semaphore of its own. -/
def region3 : Pipeline.RegionSeg (pcfgs (F := F)) noTables (regionData m ρ) () defs₀ 𝒱ₕ Lₕ lvₕ 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lₕ lvₕ 3 fun _ _ => rfl
  pre c := iprop(StableHlo.held (c : Thread nD τ) (Pipeline.ucRefs τ sig) (B7 m ρ c) ∗ Rₕ c)
  post c := iprop(StableHlo.held (c : Thread nD τ) (Pipeline.ucRefs τ sig) (B8 m ρ c) ∗ Rₕ c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) noTables (regionData m ρ) launch3.win launch3.arr_whole c
      ((regionData m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (regionData m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (regionData m ρ) ((regionData m ρ 3 c).share_full fun _ => rfl)
      (E7 m ρ c) (E8 m ρ c) ((regionData m ρ 3 c).arrAt · cfg3.N) (left3 m ρ c) (rest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 4 over the thread state: entered with every unscoped buffer at `B9`, left with them at `B10`. Its arrays
    are split out of the unscoped buffers and put back at the exit contents; the generator register goes into the pipeline's
    invariant and comes out; nothing is owed; the kernel has no semaphore of its own. -/
def region4 : Pipeline.RegionSeg (pcfgs (F := F)) noTables (regionData m ρ) () defs₀ 𝒱ₕ Lₕ lvₕ 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ Lₕ lvₕ 4 fun _ _ => rfl
  pre c := iprop(StableHlo.held (c : Thread nD τ) (Pipeline.ucRefs τ sig) (B9 m ρ c) ∗ Rₕ c)
  post c := iprop(StableHlo.held (c : Thread nD τ) (Pipeline.ucRefs τ sig) (B10 m ρ c) ∗ Rₕ c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) noTables (regionData m ρ) launch4.win launch4.arr_whole c
      ((regionData m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (regionData m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (regionData m ρ) ((regionData m ρ 4 c).share_full fun _ => rfl)
      (E9 m ρ c) (E10 m ρ c) ((regionData m ρ 4 c).arrAt · cfg4.N) (left4 m ρ c) (rest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 5 over the thread state: entered with every unscoped buffer at `B11`, left with them at `B12`. Its arrays
    are split out of the unscoped buffers and put back at the exit contents; the generator register goes into the pipeline's
    invariant and comes out; nothing is owed; the kernel has no semaphore of its own. -/
def region5 : Pipeline.RegionSeg (pcfgs (F := F)) noTables (regionData m ρ) () defs₀ 𝒱ₕ Lₕ lvₕ 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ Lₕ lvₕ 5 fun _ _ => rfl
  pre c := iprop(StableHlo.held (c : Thread nD τ) (Pipeline.ucRefs τ sig) (B11 m ρ c) ∗ Rₕ c)
  post c := iprop(StableHlo.held (c : Thread nD τ) (Pipeline.ucRefs τ sig) (B12 m ρ c) ∗ Rₕ c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) noTables (regionData m ρ) launch5.win launch5.arr_whole c
      ((regionData m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (regionData m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) noTables (Ix := Unit) (Name := ℕ) (U := UR sig nD τ) (Lvl := ℕ)
      launch5.win launch5.arr_whole c (regionData m ρ) ((regionData m ρ 5 c).share_full fun _ => rfl)
      (E11 m ρ c) (E12 m ρ c) ((regionData m ρ 5 c).arrAt · cfg5.N) (left5 m ρ c) (rest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and its run -/

abbrev segments : List (Pipeline.Seg (pcfgs (F := F)) noTables (regionData m ρ) () defs₀ 𝒱ₕ Lₕ lvₕ) :=
  [
    .host (hostSeg hostOps0 hostOps0_sub hostOps0_fresh (B0 m ρ)),
    .region (region0 m ρ),
    .host (hostSeg hostOps1 hostOps1_sub hostOps1_fresh (B2 m ρ)),
    .region (region1 m ρ),
    .host (hostSeg hostOps2 hostOps2_sub hostOps2_fresh (B4 m ρ)),
    .region (region2 m ρ),
    .host (hostSeg hostOps3 hostOps3_sub hostOps3_fresh (B6 m ρ)),
    .region (region3 m ρ),
    .host (hostSeg hostOps4 hostOps4_sub hostOps4_fresh (B8 m ρ)),
    .region (region4 m ρ),
    .host (hostSeg hostOps5 hostOps5_sub hostOps5_fresh (B10 m ρ)),
    .region (region5 m ρ),
    .host (hostSeg hostOps6 hostOps6_sub hostOps6_fresh (B12 m ρ)) ]

theorem main_segments (c : Dev nD) : main (F := F) c = Pipeline.Seg.run (segments m ρ) := (main_chain c).trans (by chain_rfl)

set_option backward.isDefEq.respectTransparency.types false in
/-- Every weakly fair execution of @main from `m` with zero counters terminates, nothing faulting, and the final memory holds
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B13 m ρ c b) :=
  Pipeline.θ_run_regions_kit (pcfgs (F := F)) noTables (regionData m ρ) () cellOf_inj emb₁ defs₀ 𝒱ₕ Lₕ lvₕ m ρ main (segments m ρ)
    (fun c Q => by rw [main_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rₕ c)) (Tₙ := Tlast m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (B13 m ρ c) ∗ Rₕ c)
          ⊢ iprop(Tlast m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach Lₕ lvₕ fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m ρ c b)
    (hfin := fun c s' => by
      iintro ⟨⟨Hh, -⟩, HSI⟩
      unfold StableHlo.held
      imodintro
      iapply (pointsTo_read_all (Pipeline.ucRefs τ sig) (fun b => (((c : Thread nD τ)).1, b)) (B13 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (B13_main_arg0 m ρ c),
    (h c _ (mem_uc main_arg1 (by decide))).trans (B13_main_arg1 m ρ c),
    (h c _ (mem_uc main_arg2 (by decide))).trans (B13_main_arg2 m ρ c),
    (h c _ (mem_uc main_arg3 (by decide))).trans (B13_main_arg3 m ρ c),
    (h c _ (mem_uc main_arg4 (by decide))).trans (B13_main_arg4 m ρ c),
    (h c _ (mem_uc main_arg5 (by decide))).trans (B13_main_arg5 m ρ c),
    (h c _ (mem_uc main_arg6 (by decide))).trans (B13_main_arg6 m ρ c),
    (h c _ (mem_uc main_arg7 (by decide))).trans (B13_main_arg7 m ρ c),
    (h c _ (mem_uc main_arg8 (by decide))).trans (B13_main_arg8 m ρ c)⟩) (run_all m ρ)

end Cert.KernelIdeal.Hand

end
-- ==== Proof.KernelIdeal.HostStages.lean ====
/-
  The host operations between the kernel launches, read as values over the extended reals.

  Between its six kernel launches the program runs seven stretches of array operations. From ARBITRARY contents W of the
  buffers before a stretch, each buffer a later launch (or the result) uses is read here as a function of W at the buffers
  the stretch only reads:

  * the edges' source and target node numbers are the two rows of the edge table;
  * the neighbour aggregation Agg z src dst: node numbers counted from the end are made node numbers from the start
    (i < 0 ↦ i + 100000), the rows of z at the source nodes are gathered, and each is added into an all-zero table at the
    row of its target node;
  * layer ℓ's two weight matrices and two bias rows, and its scale and shift rows, are the ℓ-th slices of the
    stacked parameters: entry (j, k) of the matrix is entry (ℓ, j, k), entry (0, q) of the row is entry (ℓ, q);
  * the mean row is the row of column sums divided by the row count, and the scale row is the reciprocal root of
    (column sums of squares / count − mean² + a small constant);
  * the pooled result puts side by side the three tables obtained by adding each layer's node rows into an all-zero
    table at the row of the node's graph number.
-/
import proofs.«149905_j3221225472297_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostStages

open Idealize.ShloMosaic Idealize.ShloMosaic.TcCoe Idealize.ShloMosaic.ValueIdx
open Cert.KernelIdeal
open Cert.KernelIdeal.Gen (hostOps0 hostOps1 hostOps2 hostOps3 hostOps4 hostOps5 hostOps6)

/-- One of the three weight matrices read at an entry: the leading axis cut at the layer's number and dropped. -/
theorem layerMat_apply (o : ℕ) (X : FVec Ideal S3x64x64 .f32) (h : S3x64x64.Slices ![o, 0, 0] S1x64x64)
    (h1 : S1x64x64.ShapeCasts S64x64) (j k : Fin 64) (l : Fin 3) (hl : l.val = o) :
    shapeCast S64x64 (extractStridedSlice S1x64x64 ![o, 0, 0] X h) h1 (ix2 j k) = X (ix3 l j k) := by
  rw [shapeCast_1ab_ab_apply]
  exact extractStridedSlice_apply _ _ _ _ _ (fun a => by
    match a with
    | ⟨0, _⟩ => show l.val = o + 0; omega
    | ⟨1, _⟩ => exact (Nat.zero_add _).symm
    | ⟨2, _⟩ => exact (Nat.zero_add _).symm)

/-- One of the three parameter rows read at an entry: the leading axis cut at the layer's number, dropped, and put back as
    a unit axis. -/
theorem layerRow_apply (o : ℕ) (X : FVec Ideal S3x64 .f32) (h : S3x64.Slices ![o, 0] S1x64)
    (h1 : S1x64.ShapeCasts S64) (h2 : S64.ShapeCasts S1x64) (u : Fin 1) (q : Fin 64) (l : Fin 3) (hl : l.val = o) :
    shapeCast S1x64 (shapeCast S64 (extractStridedSlice S1x64 ![o, 0] X h) h1) h2 (ix2 u q) = X (ix2 l q) := by
  rw [shapeCast_a_1a_apply, shapeCast_1a_a_apply]
  exact slice2_axis0_apply o X h 0 q l (by rw [hl]; rfl)

/-- The edges' source nodes: row 0 of the edge table, as a vector. -/
def srcVec (ei : IVec S2x1600000 32) : IVec S1600000 32 :=
  shapeCast S1600000 (extractStridedSlice S1x1600000 ![0, 0] ei Facts₀.slices_S2x1600000_S1x1600000_0_0) Facts₀.shapeCasts_S1x1600000_S1600000

/-- The edges' target nodes: row 1 of the edge table, as a vector. -/
def dstVec (ei : IVec S2x1600000 32) : IVec S1600000 32 :=
  shapeCast S1600000 (extractStridedSlice S1x1600000 ![1, 0] ei Facts₀.slices_S2x1600000_S1x1600000_1_0) Facts₀.shapeCasts_S1x1600000_S1600000

/-- A vector of node numbers, those counted from the end (negative) made numbers from the start, as a column. -/
def nodeCol (v : IVec S1600000 32) : IVec S1600000x1 32 :=
  broadcastInDim S1600000x1 ![0] Facts₀.bcast_S1600000_S1600000x1_0
    (select (cmpi .slt v (broadcastInDim S1600000 ![] Facts₀.bcast_S_S1600000 (constantI S_ 32 0#32)))
      (addi v (broadcastInDim S1600000 ![] Facts₀.bcast_S_S1600000 (constantI S_ 32 100000#32))) v)

/-- THE NEIGHBOUR AGGREGATION: the rows of `z` at the edges' source nodes `v1`, each added into the all-zero table at the
    row of the edge's target node `v3`. -/
def Agg (z : FVec Ideal S100000x64 .f32) (v1 v3 : IVec S1600000 32) : FVec Ideal S100000x64 .f32 :=
  Host.scatterAdd (F := Ideal) scatter_S100000x64_S1600000x1_S1600000x64_1_0_0_1
    (broadcastInDim S100000x64 ![] Facts₀.bcast_S_S100000x64 (constant (F := Ideal) S_ .f32 0x00000000#32)) (nodeCol v3)
    (Host.gather gather_S100000x64_S1600000x1_S1600000x64_1_0_n_n_0_1_164 z (nodeCol v1))

variable (W : Valuation τ sig (Elt Ideal))

/-! ## Stretch 0: before the first launch -/

/-- After stretch 0 the source-node vector is row 0 of the edge table. -/
theorem after0_v1 : (StableHlo.after hostOps0 W (Proc.devRef .tc main_v1) : IVec S1600000 32) = srcVec (W (Proc.devRef .tc main_arg1)) := by
  show StableHlo.after hostOps0 W (Proc.devRef .tc main_v1) = _
  after_results
  rfl

/-- After stretch 0 the target-node vector is row 1 of the edge table. -/
theorem after0_v3 : (StableHlo.after hostOps0 W (Proc.devRef .tc main_v3) : IVec S1600000 32) = dstVec (W (Proc.devRef .tc main_arg1)) := by
  show StableHlo.after hostOps0 W (Proc.devRef .tc main_v3) = _
  after_results
  rfl

/-- After stretch 0 the aggregated table is the aggregation of the node features along the edge table's two rows. -/
theorem after0_v18 : (StableHlo.after hostOps0 W (Proc.devRef .tc main_v18) : FVec Ideal S100000x64 .f32)
    = Agg (W (Proc.devRef .tc main_arg0)) (srcVec (W (Proc.devRef .tc main_arg1))) (dstVec (W (Proc.devRef .tc main_arg1))) := by
  show StableHlo.after hostOps0 W (Proc.devRef .tc main_v18) = _
  after_results_simp
  rfl

/-- After stretch 0 the first weight matrix of layer 0 is slice 0 of the stacked first weights. -/
theorem after0_v20 (j k : Fin 64) :
    (StableHlo.after hostOps0 W (Proc.devRef .tc main_v20) : FVec Ideal S64x64 .f32) (ix2 j k)
      = (W (Proc.devRef .tc main_arg3) : FVec Ideal S3x64x64 .f32) (ix3 (0 : Fin 3) j k) := by
  have e : (StableHlo.after hostOps0 W (Proc.devRef .tc main_v20) : FVec Ideal S64x64 .f32)
      = shapeCast S64x64 (extractStridedSlice S1x64x64 ![0, 0, 0] (W (Proc.devRef .tc main_arg3)) Facts₀.slices_S3x64x64_S1x64x64_0_0_0)
          Facts₀.shapeCasts_S1x64x64_S64x64 := by
    show StableHlo.after hostOps0 W (Proc.devRef .tc main_v20) = _
    after_results
    rfl
  rw [e]
  exact layerMat_apply 0 _ _ _ j k 0 rfl

/-- After stretch 0 the first bias row of layer 0 is row 0 of the stacked first biases. -/
theorem after0_v27 (u : Fin 1) (q : Fin 64) :
    (StableHlo.after hostOps0 W (Proc.devRef .tc main_v27) : FVec Ideal S1x64 .f32) (ix2 u q)
      = (W (Proc.devRef .tc main_arg4) : FVec Ideal S3x64 .f32) (ix2 (0 : Fin 3) q) := by
  have e : (StableHlo.after hostOps0 W (Proc.devRef .tc main_v27) : FVec Ideal S1x64 .f32)
      = shapeCast S1x64 (shapeCast S64 (extractStridedSlice S1x64 ![0, 0] (W (Proc.devRef .tc main_arg4)) Facts₀.slices_S3x64_S1x64_0_0)
          Facts₀.shapeCasts_S1x64_S64) Facts₀.shapeCasts_S64_S1x64 := by
    show StableHlo.after hostOps0 W (Proc.devRef .tc main_v27) = _
    after_results
    rfl
  rw [e]
  exact layerRow_apply 0 _ _ _ _ u q 0 rfl

/-- After stretch 0 the second weight matrix of layer 0 is slice 0 of the stacked second weights. -/
theorem after0_v24 (j k : Fin 64) :
    (StableHlo.after hostOps0 W (Proc.devRef .tc main_v24) : FVec Ideal S64x64 .f32) (ix2 j k)
      = (W (Proc.devRef .tc main_arg5) : FVec Ideal S3x64x64 .f32) (ix3 (0 : Fin 3) j k) := by
  have e : (StableHlo.after hostOps0 W (Proc.devRef .tc main_v24) : FVec Ideal S64x64 .f32)
      = shapeCast S64x64 (extractStridedSlice S1x64x64 ![0, 0, 0] (W (Proc.devRef .tc main_arg5)) Facts₀.slices_S3x64x64_S1x64x64_0_0_0)
          Facts₀.shapeCasts_S1x64x64_S64x64 := by
    show StableHlo.after hostOps0 W (Proc.devRef .tc main_v24) = _
    after_results
    rfl
  rw [e]
  exact layerMat_apply 0 _ _ _ j k 0 rfl

/-- After stretch 0 the second bias row of layer 0 is row 0 of the stacked second biases. -/
theorem after0_v28 (u : Fin 1) (q : Fin 64) :
    (StableHlo.after hostOps0 W (Proc.devRef .tc main_v28) : FVec Ideal S1x64 .f32) (ix2 u q)
      = (W (Proc.devRef .tc main_arg6) : FVec Ideal S3x64 .f32) (ix2 (0 : Fin 3) q) := by
  have e : (StableHlo.after hostOps0 W (Proc.devRef .tc main_v28) : FVec Ideal S1x64 .f32)
      = shapeCast S1x64 (shapeCast S64 (extractStridedSlice S1x64 ![0, 0] (W (Proc.devRef .tc main_arg6)) Facts₀.slices_S3x64_S1x64_0_0)
          Facts₀.shapeCasts_S1x64_S64) Facts₀.shapeCasts_S64_S1x64 := by
    show StableHlo.after hostOps0 W (Proc.devRef .tc main_v28) = _
    after_results
    rfl
  rw [e]
  exact layerRow_apply 0 _ _ _ _ u q 0 rfl

/-! ## Stretch 1: between the first launch and the second -/

/-- After stretch 1 the mean row is the row of column sums over the row count. -/
theorem after1_v31 (u : Fin 1) (q : Fin 64) :
    (StableHlo.after hostOps1 W (Proc.devRef .tc main_v31) : FVec Ideal S1x64 .f32) (ix2 u q)
      = Ideal.div ((W (Proc.devRef .tc main_v29_1) : FVec Ideal S1x64 .f32) (ix2 u q)) (Ideal.ofBits .f32 0x47C35000#32) := by
  show StableHlo.after hostOps1 W (Proc.devRef .tc main_v31) (ix2 u q) = _
  after_results
  rfl

/-- After stretch 1 the scale row is the reciprocal root of: the row of column sums of squares over the row count, minus the
    mean squared, plus the small constant. -/
theorem after1_v38 (u : Fin 1) (q : Fin 64) :
    (StableHlo.after hostOps1 W (Proc.devRef .tc main_v38) : FVec Ideal S1x64 .f32) (ix2 u q)
      = Ideal.rsqrt (Ideal.div ((W (Proc.devRef .tc main_v29_2) : FVec Ideal S1x64 .f32) (ix2 u q)) (Ideal.ofBits .f32 0x47C35000#32)
          - Ideal.div ((W (Proc.devRef .tc main_v29_1) : FVec Ideal S1x64 .f32) (ix2 u q)) (Ideal.ofBits .f32 0x47C35000#32)
            * Ideal.div ((W (Proc.devRef .tc main_v29_1) : FVec Ideal S1x64 .f32) (ix2 u q)) (Ideal.ofBits .f32 0x47C35000#32)
          + Ideal.ofBits .f32 0x3727C5AC#32) := by
  show StableHlo.after hostOps1 W (Proc.devRef .tc main_v38) (ix2 u q) = _
  after_results
  rfl

/-- After stretch 1 the scale-parameter row of layer 0 is row 0 of the stacked scale parameters. -/
theorem after1_v43 (u : Fin 1) (q : Fin 64) :
    (StableHlo.after hostOps1 W (Proc.devRef .tc main_v43) : FVec Ideal S1x64 .f32) (ix2 u q)
      = (W (Proc.devRef .tc main_arg7) : FVec Ideal S3x64 .f32) (ix2 (0 : Fin 3) q) := by
  have e : (StableHlo.after hostOps1 W (Proc.devRef .tc main_v43) : FVec Ideal S1x64 .f32)
      = shapeCast S1x64 (shapeCast S64 (extractStridedSlice S1x64 ![0, 0] (W (Proc.devRef .tc main_arg7)) Facts₀.slices_S3x64_S1x64_0_0)
          Facts₀.shapeCasts_S1x64_S64) Facts₀.shapeCasts_S64_S1x64 := by
    show StableHlo.after hostOps1 W (Proc.devRef .tc main_v43) = _
    after_results
    rfl
  rw [e]
  exact layerRow_apply 0 _ _ _ _ u q 0 rfl

/-- After stretch 1 the shift-parameter row of layer 0 is row 0 of the stacked shift parameters. -/
theorem after1_v44 (u : Fin 1) (q : Fin 64) :
    (StableHlo.after hostOps1 W (Proc.devRef .tc main_v44) : FVec Ideal S1x64 .f32) (ix2 u q)
      = (W (Proc.devRef .tc main_arg8) : FVec Ideal S3x64 .f32) (ix2 (0 : Fin 3) q) := by
  have e : (StableHlo.after hostOps1 W (Proc.devRef .tc main_v44) : FVec Ideal S1x64 .f32)
      = shapeCast S1x64 (shapeCast S64 (extractStridedSlice S1x64 ![0, 0] (W (Proc.devRef .tc main_arg8)) Facts₀.slices_S3x64_S1x64_0_0)
          Facts₀.shapeCasts_S1x64_S64) Facts₀.shapeCasts_S64_S1x64 := by
    show StableHlo.after hostOps1 W (Proc.devRef .tc main_v44) = _
    after_results
    rfl
  rw [e]
  exact layerRow_apply 0 _ _ _ _ u q 0 rfl

end Cert.KernelIdeal.HostStages

end
-- ==== Proof.KernelIdeal.HostStagesRest.lean ====
/-
  The host operations between the later kernel launches, read as values over the extended reals: the stretches before and
  between the launches of layers 1 and 2, which repeat those of layer 0 with the next slices of the stacked parameters and
  with the previous layer's node table in place of the node features, and the last stretch, which pools the three layers'
  node tables by graph and puts the three pooled tables side by side.
-/
import proofs.«149905_j3221225472297_1_alg».proof.Proof.KernelIdeal.HostStages

noncomputable section

namespace Cert.KernelIdeal.HostStages

open Idealize.ShloMosaic Idealize.ShloMosaic.TcCoe Idealize.ShloMosaic.ValueIdx
open Cert.KernelIdeal
open Cert.KernelIdeal.Gen (hostOps0 hostOps1 hostOps2 hostOps3 hostOps4 hostOps5 hostOps6)

/-- The nodes' graph numbers as a column. -/
def graphCol (batch : IVec S100000 32) : IVec S100000x1 32 :=
  broadcastInDim S100000x1 ![0] Facts₀.bcast_S100000_S100000x1_0 batch

/-- One layer's pooled table: each node's row added into the all-zero table at the row of the node's graph number. -/
def poolOne (z : FVec Ideal S100000x64 .f32) (batch : IVec S100000 32) : FVec Ideal S512x64 .f32 :=
  Host.scatterAdd (F := Ideal) scatter_S512x64_S100000x1_S100000x64_1_0_0_1
    (broadcastInDim S512x64 ![] Facts₀.bcast_S_S512x64 (constant (F := Ideal) S_ .f32 0x00000000#32)) (graphCol batch) z

/-- THE POOLED RESULT: the three layers' pooled tables side by side. -/
def Pool (z1 z2 z3 : FVec Ideal S100000x64 .f32) (batch : IVec S100000 32) : FVec Ideal S512x192 .f32 :=
  concatenate S512x192 1 [⟨S512x64, poolOne z1 batch⟩, ⟨S512x64, poolOne z2 batch⟩, ⟨S512x64, poolOne z3 batch⟩]
    Facts₀.concatenates_S512x64_S512x64_S512x64_S512x192_d1

variable (W : Valuation τ sig (Elt Ideal))

/-! ## Stretch 6: after the last launch -/

/-- After stretch 6 the result is the pooling of the three layers' node tables by the nodes' graph numbers. -/
theorem after6_v139 : (StableHlo.after hostOps6 W (Proc.devRef .tc main_v139) : FVec Ideal S512x192 .f32)
    = Pool (W (Proc.devRef .tc main_v45)) (W (Proc.devRef .tc main_v87)) (W (Proc.devRef .tc main_v129)) (W (Proc.devRef .tc main_arg2)) := by
  show StableHlo.after hostOps6 W (Proc.devRef .tc main_v139) = _
  after_results
  rfl

/-! ## Stretch 2: before layer 1's first launch -/

/-- After stretch 2 the aggregated table is the aggregation of the previous layer's node table along the two node vectors. -/
theorem after2_v60 : (StableHlo.after hostOps2 W (Proc.devRef .tc main_v60) : FVec Ideal S100000x64 .f32)
    = Agg (W (Proc.devRef .tc main_v45)) (W (Proc.devRef .tc main_v1)) (W (Proc.devRef .tc main_v3)) := by
  show StableHlo.after hostOps2 W (Proc.devRef .tc main_v60) = _
  after_results_simp
  rfl

/-- After stretch 2 the first weight matrix of layer 1 is slice 1 of the stacked first weights. -/
theorem after2_v62 (j k : Fin 64) :
    (StableHlo.after hostOps2 W (Proc.devRef .tc main_v62) : FVec Ideal S64x64 .f32) (ix2 j k)
      = (W (Proc.devRef .tc main_arg3) : FVec Ideal S3x64x64 .f32) (ix3 (1 : Fin 3) j k) := by
  have e : (StableHlo.after hostOps2 W (Proc.devRef .tc main_v62) : FVec Ideal S64x64 .f32)
      = shapeCast S64x64 (extractStridedSlice S1x64x64 ![1, 0, 0] (W (Proc.devRef .tc main_arg3)) Facts₀.slices_S3x64x64_S1x64x64_1_0_0)
          Facts₀.shapeCasts_S1x64x64_S64x64 := by
    show StableHlo.after hostOps2 W (Proc.devRef .tc main_v62) = _
    after_results
    rfl
  rw [e]
  exact layerMat_apply 1 _ _ _ j k 1 rfl

/-- After stretch 2 the first bias row of layer 1 is row 1 of the stacked first biases. -/
theorem after2_v69 (u : Fin 1) (q : Fin 64) :
    (StableHlo.after hostOps2 W (Proc.devRef .tc main_v69) : FVec Ideal S1x64 .f32) (ix2 u q)
      = (W (Proc.devRef .tc main_arg4) : FVec Ideal S3x64 .f32) (ix2 (1 : Fin 3) q) := by
  have e : (StableHlo.after hostOps2 W (Proc.devRef .tc main_v69) : FVec Ideal S1x64 .f32)
      = shapeCast S1x64 (shapeCast S64 (extractStridedSlice S1x64 ![1, 0] (W (Proc.devRef .tc main_arg4)) Facts₀.slices_S3x64_S1x64_1_0)
          Facts₀.shapeCasts_S1x64_S64) Facts₀.shapeCasts_S64_S1x64 := by
    show StableHlo.after hostOps2 W (Proc.devRef .tc main_v69) = _
    after_results
    rfl
  rw [e]
  exact layerRow_apply 1 _ _ _ _ u q 1 rfl

/-- After stretch 2 the second weight matrix of layer 1 is slice 1 of the stacked second weights. -/
theorem after2_v66 (j k : Fin 64) :
    (StableHlo.after hostOps2 W (Proc.devRef .tc main_v66) : FVec Ideal S64x64 .f32) (ix2 j k)
      = (W (Proc.devRef .tc main_arg5) : FVec Ideal S3x64x64 .f32) (ix3 (1 : Fin 3) j k) := by
  have e : (StableHlo.after hostOps2 W (Proc.devRef .tc main_v66) : FVec Ideal S64x64 .f32)
      = shapeCast S64x64 (extractStridedSlice S1x64x64 ![1, 0, 0] (W (Proc.devRef .tc main_arg5)) Facts₀.slices_S3x64x64_S1x64x64_1_0_0)
          Facts₀.shapeCasts_S1x64x64_S64x64 := by
    show StableHlo.after hostOps2 W (Proc.devRef .tc main_v66) = _
    after_results
    rfl
  rw [e]
  exact layerMat_apply 1 _ _ _ j k 1 rfl

/-- After stretch 2 the second bias row of layer 1 is row 1 of the stacked second biases. -/
theorem after2_v70 (u : Fin 1) (q : Fin 64) :
    (StableHlo.after hostOps2 W (Proc.devRef .tc main_v70) : FVec Ideal S1x64 .f32) (ix2 u q)
      = (W (Proc.devRef .tc main_arg6) : FVec Ideal S3x64 .f32) (ix2 (1 : Fin 3) q) := by
  have e : (StableHlo.after hostOps2 W (Proc.devRef .tc main_v70) : FVec Ideal S1x64 .f32)
      = shapeCast S1x64 (shapeCast S64 (extractStridedSlice S1x64 ![1, 0] (W (Proc.devRef .tc main_arg6)) Facts₀.slices_S3x64_S1x64_1_0)
          Facts₀.shapeCasts_S1x64_S64) Facts₀.shapeCasts_S64_S1x64 := by
    show StableHlo.after hostOps2 W (Proc.devRef .tc main_v70) = _
    after_results
    rfl
  rw [e]
  exact layerRow_apply 1 _ _ _ _ u q 1 rfl

/-! ## Stretch 3: between layer 1's two launches -/

/-- After stretch 3 the mean row is the row of column sums over the row count. -/
theorem after3_v73 (u : Fin 1) (q : Fin 64) :
    (StableHlo.after hostOps3 W (Proc.devRef .tc main_v73) : FVec Ideal S1x64 .f32) (ix2 u q)
      = Ideal.div ((W (Proc.devRef .tc main_v71_1) : FVec Ideal S1x64 .f32) (ix2 u q)) (Ideal.ofBits .f32 0x47C35000#32) := by
  show StableHlo.after hostOps3 W (Proc.devRef .tc main_v73) (ix2 u q) = _
  after_results
  rfl

/-- After stretch 3 the scale row is the reciprocal root of: the row of column sums of squares over the row count, minus the
    mean squared, plus the small constant. -/
theorem after3_v80 (u : Fin 1) (q : Fin 64) :
    (StableHlo.after hostOps3 W (Proc.devRef .tc main_v80) : FVec Ideal S1x64 .f32) (ix2 u q)
      = Ideal.rsqrt (Ideal.div ((W (Proc.devRef .tc main_v71_2) : FVec Ideal S1x64 .f32) (ix2 u q)) (Ideal.ofBits .f32 0x47C35000#32)
          - Ideal.div ((W (Proc.devRef .tc main_v71_1) : FVec Ideal S1x64 .f32) (ix2 u q)) (Ideal.ofBits .f32 0x47C35000#32)
            * Ideal.div ((W (Proc.devRef .tc main_v71_1) : FVec Ideal S1x64 .f32) (ix2 u q)) (Ideal.ofBits .f32 0x47C35000#32)
          + Ideal.ofBits .f32 0x3727C5AC#32) := by
  show StableHlo.after hostOps3 W (Proc.devRef .tc main_v80) (ix2 u q) = _
  after_results
  rfl

/-- After stretch 3 the scale-parameter row of layer 1 is row 1 of the stacked scale parameters. -/
theorem after3_v85 (u : Fin 1) (q : Fin 64) :
    (StableHlo.after hostOps3 W (Proc.devRef .tc main_v85) : FVec Ideal S1x64 .f32) (ix2 u q)
      = (W (Proc.devRef .tc main_arg7) : FVec Ideal S3x64 .f32) (ix2 (1 : Fin 3) q) := by
  have e : (StableHlo.after hostOps3 W (Proc.devRef .tc main_v85) : FVec Ideal S1x64 .f32)
      = shapeCast S1x64 (shapeCast S64 (extractStridedSlice S1x64 ![1, 0] (W (Proc.devRef .tc main_arg7)) Facts₀.slices_S3x64_S1x64_1_0)
          Facts₀.shapeCasts_S1x64_S64) Facts₀.shapeCasts_S64_S1x64 := by
    show StableHlo.after hostOps3 W (Proc.devRef .tc main_v85) = _
    after_results
    rfl
  rw [e]
  exact layerRow_apply 1 _ _ _ _ u q 1 rfl

/-- After stretch 3 the shift-parameter row of layer 1 is row 1 of the stacked shift parameters. -/
theorem after3_v86 (u : Fin 1) (q : Fin 64) :
    (StableHlo.after hostOps3 W (Proc.devRef .tc main_v86) : FVec Ideal S1x64 .f32) (ix2 u q)
      = (W (Proc.devRef .tc main_arg8) : FVec Ideal S3x64 .f32) (ix2 (1 : Fin 3) q) := by
  have e : (StableHlo.after hostOps3 W (Proc.devRef .tc main_v86) : FVec Ideal S1x64 .f32)
      = shapeCast S1x64 (shapeCast S64 (extractStridedSlice S1x64 ![1, 0] (W (Proc.devRef .tc main_arg8)) Facts₀.slices_S3x64_S1x64_1_0)
          Facts₀.shapeCasts_S1x64_S64) Facts₀.shapeCasts_S64_S1x64 := by
    show StableHlo.after hostOps3 W (Proc.devRef .tc main_v86) = _
    after_results
    rfl
  rw [e]
  exact layerRow_apply 1 _ _ _ _ u q 1 rfl

/-! ## Stretch 4: before layer 2's first launch -/

/-- After stretch 4 the aggregated table is the aggregation of the previous layer's node table along the two node vectors. -/
theorem after4_v102 : (StableHlo.after hostOps4 W (Proc.devRef .tc main_v102) : FVec Ideal S100000x64 .f32)
    = Agg (W (Proc.devRef .tc main_v87)) (W (Proc.devRef .tc main_v1)) (W (Proc.devRef .tc main_v3)) := by
  show StableHlo.after hostOps4 W (Proc.devRef .tc main_v102) = _
  after_results_simp
  rfl

/-- After stretch 4 the first weight matrix of layer 2 is slice 2 of the stacked first weights. -/
theorem after4_v104 (j k : Fin 64) :
    (StableHlo.after hostOps4 W (Proc.devRef .tc main_v104) : FVec Ideal S64x64 .f32) (ix2 j k)
      = (W (Proc.devRef .tc main_arg3) : FVec Ideal S3x64x64 .f32) (ix3 (2 : Fin 3) j k) := by
  have e : (StableHlo.after hostOps4 W (Proc.devRef .tc main_v104) : FVec Ideal S64x64 .f32)
      = shapeCast S64x64 (extractStridedSlice S1x64x64 ![2, 0, 0] (W (Proc.devRef .tc main_arg3)) Facts₀.slices_S3x64x64_S1x64x64_2_0_0)
          Facts₀.shapeCasts_S1x64x64_S64x64 := by
    show StableHlo.after hostOps4 W (Proc.devRef .tc main_v104) = _
    after_results
    rfl
  rw [e]
  exact layerMat_apply 2 _ _ _ j k 2 rfl

/-- After stretch 4 the first bias row of layer 2 is row 2 of the stacked first biases. -/
theorem after4_v111 (u : Fin 1) (q : Fin 64) :
    (StableHlo.after hostOps4 W (Proc.devRef .tc main_v111) : FVec Ideal S1x64 .f32) (ix2 u q)
      = (W (Proc.devRef .tc main_arg4) : FVec Ideal S3x64 .f32) (ix2 (2 : Fin 3) q) := by
  have e : (StableHlo.after hostOps4 W (Proc.devRef .tc main_v111) : FVec Ideal S1x64 .f32)
      = shapeCast S1x64 (shapeCast S64 (extractStridedSlice S1x64 ![2, 0] (W (Proc.devRef .tc main_arg4)) Facts₀.slices_S3x64_S1x64_2_0)
          Facts₀.shapeCasts_S1x64_S64) Facts₀.shapeCasts_S64_S1x64 := by
    show StableHlo.after hostOps4 W (Proc.devRef .tc main_v111) = _
    after_results
    rfl
  rw [e]
  exact layerRow_apply 2 _ _ _ _ u q 2 rfl

/-- After stretch 4 the second weight matrix of layer 2 is slice 2 of the stacked second weights. -/
theorem after4_v108 (j k : Fin 64) :
    (StableHlo.after hostOps4 W (Proc.devRef .tc main_v108) : FVec Ideal S64x64 .f32) (ix2 j k)
      = (W (Proc.devRef .tc main_arg5) : FVec Ideal S3x64x64 .f32) (ix3 (2 : Fin 3) j k) := by
  have e : (StableHlo.after hostOps4 W (Proc.devRef .tc main_v108) : FVec Ideal S64x64 .f32)
      = shapeCast S64x64 (extractStridedSlice S1x64x64 ![2, 0, 0] (W (Proc.devRef .tc main_arg5)) Facts₀.slices_S3x64x64_S1x64x64_2_0_0)
          Facts₀.shapeCasts_S1x64x64_S64x64 := by
    show StableHlo.after hostOps4 W (Proc.devRef .tc main_v108) = _
    after_results
    rfl
  rw [e]
  exact layerMat_apply 2 _ _ _ j k 2 rfl

/-- After stretch 4 the second bias row of layer 2 is row 2 of the stacked second biases. -/
theorem after4_v112 (u : Fin 1) (q : Fin 64) :
    (StableHlo.after hostOps4 W (Proc.devRef .tc main_v112) : FVec Ideal S1x64 .f32) (ix2 u q)
      = (W (Proc.devRef .tc main_arg6) : FVec Ideal S3x64 .f32) (ix2 (2 : Fin 3) q) := by
  have e : (StableHlo.after hostOps4 W (Proc.devRef .tc main_v112) : FVec Ideal S1x64 .f32)
      = shapeCast S1x64 (shapeCast S64 (extractStridedSlice S1x64 ![2, 0] (W (Proc.devRef .tc main_arg6)) Facts₀.slices_S3x64_S1x64_2_0)
          Facts₀.shapeCasts_S1x64_S64) Facts₀.shapeCasts_S64_S1x64 := by
    show StableHlo.after hostOps4 W (Proc.devRef .tc main_v112) = _
    after_results
    rfl
  rw [e]
  exact layerRow_apply 2 _ _ _ _ u q 2 rfl

/-! ## Stretch 5: between layer 2's two launches -/

/-- After stretch 5 the mean row is the row of column sums over the row count. -/
theorem after5_v115 (u : Fin 1) (q : Fin 64) :
    (StableHlo.after hostOps5 W (Proc.devRef .tc main_v115) : FVec Ideal S1x64 .f32) (ix2 u q)
      = Ideal.div ((W (Proc.devRef .tc main_v113_1) : FVec Ideal S1x64 .f32) (ix2 u q)) (Ideal.ofBits .f32 0x47C35000#32) := by
  show StableHlo.after hostOps5 W (Proc.devRef .tc main_v115) (ix2 u q) = _
  after_results
  rfl

/-- After stretch 5 the scale row is the reciprocal root of: the row of column sums of squares over the row count, minus the
    mean squared, plus the small constant. -/
theorem after5_v122 (u : Fin 1) (q : Fin 64) :
    (StableHlo.after hostOps5 W (Proc.devRef .tc main_v122) : FVec Ideal S1x64 .f32) (ix2 u q)
      = Ideal.rsqrt (Ideal.div ((W (Proc.devRef .tc main_v113_2) : FVec Ideal S1x64 .f32) (ix2 u q)) (Ideal.ofBits .f32 0x47C35000#32)
          - Ideal.div ((W (Proc.devRef .tc main_v113_1) : FVec Ideal S1x64 .f32) (ix2 u q)) (Ideal.ofBits .f32 0x47C35000#32)
            * Ideal.div ((W (Proc.devRef .tc main_v113_1) : FVec Ideal S1x64 .f32) (ix2 u q)) (Ideal.ofBits .f32 0x47C35000#32)
          + Ideal.ofBits .f32 0x3727C5AC#32) := by
  show StableHlo.after hostOps5 W (Proc.devRef .tc main_v122) (ix2 u q) = _
  after_results
  rfl

/-- After stretch 5 the scale-parameter row of layer 2 is row 2 of the stacked scale parameters. -/
theorem after5_v127 (u : Fin 1) (q : Fin 64) :
    (StableHlo.after hostOps5 W (Proc.devRef .tc main_v127) : FVec Ideal S1x64 .f32) (ix2 u q)
      = (W (Proc.devRef .tc main_arg7) : FVec Ideal S3x64 .f32) (ix2 (2 : Fin 3) q) := by
  have e : (StableHlo.after hostOps5 W (Proc.devRef .tc main_v127) : FVec Ideal S1x64 .f32)
      = shapeCast S1x64 (shapeCast S64 (extractStridedSlice S1x64 ![2, 0] (W (Proc.devRef .tc main_arg7)) Facts₀.slices_S3x64_S1x64_2_0)
          Facts₀.shapeCasts_S1x64_S64) Facts₀.shapeCasts_S64_S1x64 := by
    show StableHlo.after hostOps5 W (Proc.devRef .tc main_v127) = _
    after_results
    rfl
  rw [e]
  exact layerRow_apply 2 _ _ _ _ u q 2 rfl

/-- After stretch 5 the shift-parameter row of layer 2 is row 2 of the stacked shift parameters. -/
theorem after5_v128 (u : Fin 1) (q : Fin 64) :
    (StableHlo.after hostOps5 W (Proc.devRef .tc main_v128) : FVec Ideal S1x64 .f32) (ix2 u q)
      = (W (Proc.devRef .tc main_arg8) : FVec Ideal S3x64 .f32) (ix2 (2 : Fin 3) q) := by
  have e : (StableHlo.after hostOps5 W (Proc.devRef .tc main_v128) : FVec Ideal S1x64 .f32)
      = shapeCast S1x64 (shapeCast S64 (extractStridedSlice S1x64 ![2, 0] (W (Proc.devRef .tc main_arg8)) Facts₀.slices_S3x64_S1x64_2_0)
          Facts₀.shapeCasts_S1x64_S64) Facts₀.shapeCasts_S64_S1x64 := by
    show StableHlo.after hostOps5 W (Proc.devRef .tc main_v128) = _
    after_results
    rfl
  rw [e]
  exact layerRow_apply 2 _ _ _ _ u q 2 rfl

end Cert.KernelIdeal.HostStages

end
-- ==== Proof.LayerSpec.lean ====
/-
  One graph-convolution layer as plain functions on the extended reals, index by index, over abstract finite row and
  column ranges. A layer maps node features `z` (rows = nodes) and their neighbour sums `a` to
  `normalize (hidden (z + a))`: two affine maps each followed by `max · 0`, then every column centred by its mean and
  scaled by the reciprocal root of its variance plus a small positive constant, times `γ`, plus `β`.
  The column variance has two spellings: from the two moments (`E[h²] - E[h]²`, what an accumulating pass over the rows
  yields) and centred (`E[(h - E[h])²]`, the textbook one). Both are defined here; that they agree on REAL data is
  proved where it is used.
-/
import Idealize.ShloMosaic.PureOps.Ideal

noncomputable section

namespace Cert.LayerSpec

open Idealize.ShloMosaic

variable {n d : ℕ}

/-- `u · W + b`: row `r` of `u` against column `c` of `W`, plus the bias of column `c`. -/
def affine (u : Fin n → Fin d → EReal) (W : Fin d → Fin d → EReal) (b : Fin d → EReal) (r : Fin n) (c : Fin d) : EReal :=
  (∑ k : Fin d, u r k * W k c) + b c

/-- `max · 0`, entry by entry. -/
def relu (u : Fin n → Fin d → EReal) (r : Fin n) (c : Fin d) : EReal := max (u r c) 0

/-- The two-layer perceptron with both activations: `relu (relu (u·W₁ + b₁)·W₂ + b₂)`. -/
def hidden (u : Fin n → Fin d → EReal) (W1 : Fin d → Fin d → EReal) (b1 : Fin d → EReal)
    (W2 : Fin d → Fin d → EReal) (b2 : Fin d → EReal) : Fin n → Fin d → EReal :=
  relu (affine (relu (affine u W1 b1)) W2 b2)

/-- The sum of a column. -/
def colSum (h : Fin n → Fin d → EReal) (c : Fin d) : EReal := ∑ r : Fin n, h r c

/-- The sum of a column's squares. -/
def colSumSq (h : Fin n → Fin d → EReal) (c : Fin d) : EReal := ∑ r : Fin n, h r c * h r c

/-- A column's mean: its sum over the count `cnt` (the number of rows, as an extended real). -/
def mean (cnt : EReal) (h : Fin n → Fin d → EReal) (c : Fin d) : EReal := Ideal.div (colSum h c) cnt

/-- A column's variance from its two moments: `E[h²] - E[h]·E[h]`. -/
def varMoments (cnt : EReal) (h : Fin n → Fin d → EReal) (c : Fin d) : EReal :=
  Ideal.div (colSumSq h c) cnt - mean cnt h c * mean cnt h c

/-- A column's variance, centred: `E[(h - E[h])·(h - E[h])]`. -/
def varCentered (cnt : EReal) (h : Fin n → Fin d → EReal) (c : Fin d) : EReal :=
  Ideal.div (∑ r : Fin n, (h r c - mean cnt h c) * (h r c - mean cnt h c)) cnt

/-- The reciprocal root of a variance plus `eps`. -/
def invStd (eps : EReal) (v : Fin d → EReal) (c : Fin d) : EReal := Ideal.rsqrt (v c + eps)

/-- `(h - μ)·s·γ + β`, column statistics `μ`, `s` and column parameters `γ`, `β`. -/
def normalize (h : Fin n → Fin d → EReal) (mu s gamma beta : Fin d → EReal) (r : Fin n) (c : Fin d) : EReal :=
  (h r c - mu c) * s c * gamma c + beta c

/-- Every entry is a real number. -/
def IsReal (u : Fin n → Fin d → EReal) : Prop := ∀ r c, ∃ x : ℝ, u r c = (x : EReal)

/-- Every entry of a row of parameters is a real number. -/
def IsRealRow (b : Fin d → EReal) : Prop := ∀ c, ∃ x : ℝ, b c = (x : EReal)

end Cert.LayerSpec

end
-- ==== Proof.KernelIdeal.PayloadAt.lean ====
/-
  What the two kernel bodies of a layer store, read at one entry, over the extended reals.

  The first body works on a block of 5000 rows and 64 columns. It adds two input blocks, applies two affine maps, each
  followed by `max · 0` (each product is taken into a zero accumulator, after both operands are narrowed to a shorter
  format, which changes nothing on extended reals), and stores these hidden activations. It also adds the block's column
  sums, and the column sums of the squares, to two running `[1,64]` rows, which the first grid point sets to zero.
  The second body subtracts a column statistic from every entry, multiplies by a second statistic and by a column
  scale, and adds a column shift; the four `[1,64]` rows are broadcast over the block's rows.

  The three layers have the same bodies under three sets of names. Layers two and three differ from the first in one
  place: the column sum of the hidden activations is kept as a `[64]` vector and only cast to `[1,64]` where it is added
  to the running row, so there it is read at a rank-1 index.
-/
import proofs.«149905_j3221225472297_1_alg».proof.Proof.Gen.KernelIdeal.Skeleton
import proofs.«149905_j3221225472297_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAt

open Idealize.ShloMosaic Idealize.ShloMosaic.ValueIdx Cert.KernelIdeal Cert.KernelIdeal.Gen

/-! ## A sum over the rows of a block -/

/-- A sum over the rows of a `[5000,64]` block, read at column `q`: the sum over the 5000 rows of that column's
    entries. The reduced index `q` with the row `r` put back on axis 0 is `(r, q)`. -/
theorem lane_sum_at (src : FVec Ideal S5000x64 .f32) (q : Fin 64) :
    multiReduction (F := Ideal) .add [0] S64 src 0x00000000#32 reduces_S5000x64_S64 (.inl rfl) rfl (ix1 q)
      = ∑ r : Fin 5000, src (ix2 r q) := by
  refine (Ideal.multiReduction_add_single src 0x00000000#32 reduces_S5000x64_S64 (.inl rfl) rfl (ix1 q)).trans ?_
  exact Finset.sum_congr rfl fun r _ => congrArg src (funext fun a => by
    match a with
    | ⟨0, _⟩ => rfl
    | ⟨1, _⟩ => rfl)

/-! ## The product of a `[5000,64]` block with a `[64,64]` matrix, read at an entry

The dimension record contracts axis 1 of the left operand with axis 0 of the right one; rows of the left operand and
columns of the right one are kept. So at output entry `(p, q)` and contraction coordinate `k` the operands are read
at `(p, k)` and `(k, q)`. -/

/-- The left operand's row is the output's row. -/
theorem lhs_row (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The left operand's column is the contraction coordinate. -/
theorem lhs_col (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c

/-- The right operand's row is the contraction coordinate. -/
theorem rhs_row (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c

/-- The right operand's column is the output's column. -/
theorem rhs_col (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into the zero accumulator at entry `(p, q)`: the sum over `k` of the left operand's `(p, k)` times the
    right operand's `(k, q)`. -/
theorem matmul_at {φ₁ φ₂ : FTy} (lhs : FVec Ideal S5000x64 φ₁) (rhs : FVec Ideal S64x64 φ₂) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- One affine map followed by `max · 0`, as the block computes it, at entry `(p, q)`: the operands are narrowed to
    bf16 (the identity on extended reals), multiplied into the zero accumulator, the `[1,64]` bias row is broadcast
    over the rows and added, and the maximum with the zero word is taken. -/
theorem layer_at (x : FVec Ideal S5000x64 .f32) (W : Vec Ideal S64x64 .f32) (b : Vec Ideal S1x64 .f32)
    (p : Fin 5000) (q : Fin 64) :
    maximumf
        (addf
          (matmul dot_S5000x64_S64x64_S5000x64_1_0_0_1_n_n none (truncf .bf16 x bitsLt_bf16_f32)
            (truncf .bf16 (shapeCast S64x64 W shapeCasts_S64x64_S64x64) bitsLt_bf16_f32)
            (constant (F := Ideal) S5000x64 .f32 0x00000000#32))
          (broadcastTo S5000x64 (shapeCast S1x64 b shapeCasts_S1x64_S1x64) broadcasts_S1x64_S5000x64))
        (broadcast S5000x64 (Scalar.ofBits (F := Ideal) .f32 0x00000000#32)) (ix2 p q)
      = max ((∑ k : Fin 64, x (ix2 p k) * W (ix2 k q)) + b (ix2 0 q)) 0 := by
  simp only [shapeCast_self]
  rw [maximumf_apply, addf_apply, matmul_at, broadcastTo_1b_ab_apply, broadcast_apply]
  show max ((∑ k : Fin 64, x (ix2 p k) * W (ix2 k q)) + b (ix2 0 q)) (Ideal.ofBits .f32 0x00000000#32) = _
  rw [Ideal.ofBits_zero_f32]

/-! ## Layer one -/

/-- The normalizing body at row `p`, column `q`: the entry minus the column's first statistic, times the second,
    times the column's scale, plus the column's shift. -/
theorem normalize_at (v0 : Vec Ideal S5000x64 .f32) (v2 v6 v10 v14 : Vec Ideal S1x64 .f32) (p : Fin 5000) (q : Fin 64) :
    k1_pay1 (F := Ideal) v0 v2 v6 v10 v14 (ix2 p q)
      = (v0 (ix2 p q) - v2 (ix2 0 q)) * v6 (ix2 0 q) * v10 (ix2 0 q) + v14 (ix2 0 q) := by
  unfold k1_pay1
  simp only [shapeCast_self]
  rw [addf_apply, mulf_apply, mulf_apply, subf_apply]
  simp only [broadcastTo_1b_ab_apply]

/-- The block's hidden activations at row `p`, column `q`: the two-layer perceptron of the sum of the two input
    blocks, with both activations. -/
theorem hidden_at (v3 v4 : Vec Ideal S5000x64 .f32) (v8 : Vec Ideal S64x64 .f32) (v12 : Vec Ideal S1x64 .f32)
    (v19 : Vec Ideal S64x64 .f32) (v23 : Vec Ideal S1x64 .f32) (p : Fin 5000) (q : Fin 64) :
    k0_pay5 (F := Ideal) v3 v4 v8 v12 v19 v23 (ix2 p q)
      = Cert.LayerSpec.hidden (n := 5000) (d := 64) (fun r k => v3 (ix2 r k) + v4 (ix2 r k)) (fun j k => v8 (ix2 j k))
          (fun k => v12 (ix2 0 k)) (fun j k => v19 (ix2 j k)) (fun k => v23 (ix2 0 k)) p q := by
  unfold k0_pay5
  rw [layer_at]
  simp only [layer_at]
  simp only [shapeCast_self, addf_apply]
  rfl

/-- The block's column sum: the sum over its 5000 rows of the hidden activations in that column. -/
theorem colsum_at (v3 v4 : Vec Ideal S5000x64 .f32) (v8 : Vec Ideal S64x64 .f32) (v12 : Vec Ideal S1x64 .f32)
    (v19 : Vec Ideal S64x64 .f32) (v23 : Vec Ideal S1x64 .f32) (q : Fin 64) :
    k0_pay7 (F := Ideal) v3 v4 v8 v12 v19 v23 (ix2 0 q)
      = ∑ r : Fin 5000, k0_pay5 (F := Ideal) v3 v4 v8 v12 v19 v23 (ix2 r q) := by
  unfold k0_pay7
  generalize k0_pay5 (F := Ideal) v3 v4 v8 v12 v19 v23 = h
  show shapeCast S1x64 _ shapeCasts_S64_S1x64 (ix2 0 q) = _
  rw [shapeCast_a_1a_apply, lane_sum_at]

/-- The running column sum takes the block's column sum on top of what it held. -/
theorem accumulate_at (v31 v33 : FVec Ideal S1x64 .f32) (q : Fin 64) :
    k0_pay1 (F := Ideal) v31 v33 (ix2 0 q) = v31 (ix2 0 q) + v33 (ix2 0 q) := rfl

/-- The running row as it was found: a `[1,64]` row cast to its own shape is the row. -/
theorem carried_eq (v30 : Vec Ideal S1x64 .f32) : k0_pay6 (F := Ideal) v30 = v30 := by
  unfold k0_pay6
  exact shapeCast_self v30 _

/-- The running column sum of squares takes the block's on top of what it held. -/
theorem sumsq_at (v28 : FVec Ideal S5000x64 .f32) (v36 : Vec Ideal S1x64 .f32) (q : Fin 64) :
    k0_pay2 (F := Ideal) v28 v36 (ix2 0 q) = v36 (ix2 0 q) + ∑ r : Fin 5000, v28 (ix2 r q) * v28 (ix2 r q) := by
  unfold k0_pay2
  simp only [shapeCast_self]
  rw [addf_apply, shapeCast_a_1a_apply, lane_sum_at]
  rfl

/-- The first grid point's initial column sums are zero. -/
theorem zero_at (q : Fin 64) : k0_pay3 (F := Ideal) (ix2 0 q) = 0 := by
  unfold k0_pay3
  exact Ideal.ofBits_zero_f32

/-- The first grid point's initial column sums of squares are zero. -/
theorem zero_sq_at (q : Fin 64) : k0_pay4 (F := Ideal) (ix2 0 q) = 0 := by
  unfold k0_pay4
  exact Ideal.ofBits_zero_f32

/-! ## Layer two -/

/-- The normalizing body at row `p`, column `q`: the entry minus the column's first statistic, times the second,
    times the column's scale, plus the column's shift. -/
theorem normalize_at_k3 (v0 : Vec Ideal S5000x64 .f32) (v2 v6 v10 v14 : Vec Ideal S1x64 .f32) (p : Fin 5000) (q : Fin 64) :
    k3_pay1 (F := Ideal) v0 v2 v6 v10 v14 (ix2 p q)
      = (v0 (ix2 p q) - v2 (ix2 0 q)) * v6 (ix2 0 q) * v10 (ix2 0 q) + v14 (ix2 0 q) := by
  unfold k3_pay1
  simp only [shapeCast_self]
  rw [addf_apply, mulf_apply, mulf_apply, subf_apply]
  simp only [broadcastTo_1b_ab_apply]

/-- The block's hidden activations at row `p`, column `q`: the two-layer perceptron of the sum of the two input
    blocks, with both activations. -/
theorem hidden_at_k2 (v3 v5 : Vec Ideal S5000x64 .f32) (v9 : Vec Ideal S64x64 .f32) (v13 : Vec Ideal S1x64 .f32)
    (v20 : Vec Ideal S64x64 .f32) (v24 : Vec Ideal S1x64 .f32) (p : Fin 5000) (q : Fin 64) :
    k2_pay5 (F := Ideal) v3 v5 v9 v13 v20 v24 (ix2 p q)
      = Cert.LayerSpec.hidden (n := 5000) (d := 64) (fun r k => v3 (ix2 r k) + v5 (ix2 r k)) (fun j k => v9 (ix2 j k))
          (fun k => v13 (ix2 0 k)) (fun j k => v20 (ix2 j k)) (fun k => v24 (ix2 0 k)) p q := by
  unfold k2_pay5
  rw [layer_at]
  simp only [layer_at]
  simp only [shapeCast_self, addf_apply]
  rfl

/-- The block's column sum, a `[64]` vector here: the sum over its 5000 rows of the hidden activations in that
    column. -/
theorem colsum_at_k2 (v3 v5 : Vec Ideal S5000x64 .f32) (v9 : Vec Ideal S64x64 .f32) (v13 : Vec Ideal S1x64 .f32)
    (v20 : Vec Ideal S64x64 .f32) (v24 : Vec Ideal S1x64 .f32) (q : Fin 64) :
    k2_pay7 (F := Ideal) v3 v5 v9 v13 v20 v24 (ix1 q)
      = ∑ r : Fin 5000, k2_pay5 (F := Ideal) v3 v5 v9 v13 v20 v24 (ix2 r q) := by
  unfold k2_pay7
  exact lane_sum_at _ q

/-- The running column sum takes the block's column sum, cast from `[64]` to `[1,64]`, on top of what it held. -/
theorem accumulate_at_k2 (v32 : FVec Ideal S1x64 .f32) (v33 : FVec Ideal S64 .f32) (q : Fin 64) :
    k2_pay1 (F := Ideal) v32 v33 (ix2 0 q) = v32 (ix2 0 q) + v33 (ix1 q) := by
  unfold k2_pay1
  rw [addf_apply, shapeCast_a_1a_apply]

/-- The running row as it was found: a `[1,64]` row cast to its own shape is the row. -/
theorem carried_eq_k2 (v31 : Vec Ideal S1x64 .f32) : k2_pay6 (F := Ideal) v31 = v31 := by
  unfold k2_pay6
  exact shapeCast_self v31 _

/-- The running column sum of squares takes the block's on top of what it held. -/
theorem sumsq_at_k2 (v29 : FVec Ideal S5000x64 .f32) (v37 : Vec Ideal S1x64 .f32) (q : Fin 64) :
    k2_pay2 (F := Ideal) v29 v37 (ix2 0 q) = v37 (ix2 0 q) + ∑ r : Fin 5000, v29 (ix2 r q) * v29 (ix2 r q) := by
  unfold k2_pay2
  simp only [shapeCast_self]
  rw [addf_apply, shapeCast_a_1a_apply, lane_sum_at]
  rfl

/-- The first grid point's initial column sums are zero. -/
theorem zero_at_k2 (q : Fin 64) : k2_pay3 (F := Ideal) (ix2 0 q) = 0 := by
  unfold k2_pay3
  exact Ideal.ofBits_zero_f32

/-- The first grid point's initial column sums of squares are zero. -/
theorem zero_sq_at_k2 (q : Fin 64) : k2_pay4 (F := Ideal) (ix2 0 q) = 0 := by
  unfold k2_pay4
  exact Ideal.ofBits_zero_f32

/-! ## Layer three -/

/-- The normalizing body at row `p`, column `q`: the entry minus the column's first statistic, times the second,
    times the column's scale, plus the column's shift. -/
theorem normalize_at_k5 (v0 : Vec Ideal S5000x64 .f32) (v2 v6 v10 v14 : Vec Ideal S1x64 .f32) (p : Fin 5000) (q : Fin 64) :
    k5_pay1 (F := Ideal) v0 v2 v6 v10 v14 (ix2 p q)
      = (v0 (ix2 p q) - v2 (ix2 0 q)) * v6 (ix2 0 q) * v10 (ix2 0 q) + v14 (ix2 0 q) := by
  unfold k5_pay1
  simp only [shapeCast_self]
  rw [addf_apply, mulf_apply, mulf_apply, subf_apply]
  simp only [broadcastTo_1b_ab_apply]

/-- The block's hidden activations at row `p`, column `q`: the two-layer perceptron of the sum of the two input
    blocks, with both activations. -/
theorem hidden_at_k4 (v3 v5 : Vec Ideal S5000x64 .f32) (v9 : Vec Ideal S64x64 .f32) (v13 : Vec Ideal S1x64 .f32)
    (v20 : Vec Ideal S64x64 .f32) (v24 : Vec Ideal S1x64 .f32) (p : Fin 5000) (q : Fin 64) :
    k4_pay5 (F := Ideal) v3 v5 v9 v13 v20 v24 (ix2 p q)
      = Cert.LayerSpec.hidden (n := 5000) (d := 64) (fun r k => v3 (ix2 r k) + v5 (ix2 r k)) (fun j k => v9 (ix2 j k))
          (fun k => v13 (ix2 0 k)) (fun j k => v20 (ix2 j k)) (fun k => v24 (ix2 0 k)) p q := by
  unfold k4_pay5
  rw [layer_at]
  simp only [layer_at]
  simp only [shapeCast_self, addf_apply]
  rfl

/-- The block's column sum, a `[64]` vector here: the sum over its 5000 rows of the hidden activations in that
    column. -/
theorem colsum_at_k4 (v3 v5 : Vec Ideal S5000x64 .f32) (v9 : Vec Ideal S64x64 .f32) (v13 : Vec Ideal S1x64 .f32)
    (v20 : Vec Ideal S64x64 .f32) (v24 : Vec Ideal S1x64 .f32) (q : Fin 64) :
    k4_pay7 (F := Ideal) v3 v5 v9 v13 v20 v24 (ix1 q)
      = ∑ r : Fin 5000, k4_pay5 (F := Ideal) v3 v5 v9 v13 v20 v24 (ix2 r q) := by
  unfold k4_pay7
  exact lane_sum_at _ q

/-- The running column sum takes the block's column sum, cast from `[64]` to `[1,64]`, on top of what it held. -/
theorem accumulate_at_k4 (v32 : FVec Ideal S1x64 .f32) (v33 : FVec Ideal S64 .f32) (q : Fin 64) :
    k4_pay1 (F := Ideal) v32 v33 (ix2 0 q) = v32 (ix2 0 q) + v33 (ix1 q) := by
  unfold k4_pay1
  rw [addf_apply, shapeCast_a_1a_apply]

/-- The running row as it was found: a `[1,64]` row cast to its own shape is the row. -/
theorem carried_eq_k4 (v31 : Vec Ideal S1x64 .f32) : k4_pay6 (F := Ideal) v31 = v31 := by
  unfold k4_pay6
  exact shapeCast_self v31 _

/-- The running column sum of squares takes the block's on top of what it held. -/
theorem sumsq_at_k4 (v29 : FVec Ideal S5000x64 .f32) (v37 : Vec Ideal S1x64 .f32) (q : Fin 64) :
    k4_pay2 (F := Ideal) v29 v37 (ix2 0 q) = v37 (ix2 0 q) + ∑ r : Fin 5000, v29 (ix2 r q) * v29 (ix2 r q) := by
  unfold k4_pay2
  simp only [shapeCast_self]
  rw [addf_apply, shapeCast_a_1a_apply, lane_sum_at]
  rfl

/-- The first grid point's initial column sums are zero. -/
theorem zero_at_k4 (q : Fin 64) : k4_pay3 (F := Ideal) (ix2 0 q) = 0 := by
  unfold k4_pay3
  exact Ideal.ofBits_zero_f32

/-- The first grid point's initial column sums of squares are zero. -/
theorem zero_sq_at_k4 (q : Fin 64) : k4_pay4 (F := Ideal) (ix2 0 q) = 0 := by
  unfold k4_pay4
  exact Ideal.ofBits_zero_f32

end Cert.KernelIdeal.PayloadAt

end
-- ==== Proof.KernelIdeal.NormalizeValue.lean ====
/-
  The three normalizing regions, each read as a whole array over the extended reals.

  A normalizing region runs over 20 grid points. Point `t` is handed rows `5000·t … 5000·t + 4999` of the activations (a
  `[100000,64]` array) and, whole, four `[1,64]` rows: two column statistics, a column scale and a column shift. It
  writes back the same rows of the output array: every entry minus its column's first statistic, times the second,
  times the scale, plus the shift. The 20 blocks of 5000 rows tile the 100000 rows, so after the region the output
  array is that one function of the five arrays, at every index (`G`): each point writes the block of `G` that is its
  own, and every row lies in the block of the point `row / 5000`.
-/
import proofs.«149905_j3221225472297_1_alg».proof.Proof.KernelIdeal.NormalizeRegion1
import proofs.«149905_j3221225472297_1_alg».proof.Proof.KernelIdeal.NormalizeRegion3
import proofs.«149905_j3221225472297_1_alg».proof.Proof.KernelIdeal.NormalizeRegion5
import proofs.«149905_j3221225472297_1_alg».proof.Proof.KernelIdeal.PayloadAt
import Idealize.ShloMosaic.Lib.Pipeline.Value
import Idealize.ShloMosaic.Lib.ValueIdx

noncomputable section

namespace Cert.KernelIdeal.NormalizeValue

open Cert.KernelIdeal Cert.KernelIdeal.Gen Cert.KernelIdeal.Hand Cert.KernelIdeal.PayloadAt
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The normalized array as one function of the five arrays a region reads, index by index: at `(r, q)` the
    activation minus column `q`'s first statistic, times its second, times its scale, plus its shift. -/
def G (h : S100000x64.Idx → EReal) (mu s gamma beta : S1x64.Idx → EReal) : S100000x64.Idx → EReal := fun i =>
  (h i - mu (ix2 (0 : Fin 1) (⟨(i 1).val, (i 1).isLt⟩ : Fin 64))) * s (ix2 (0 : Fin 1) (⟨(i 1).val, (i 1).isLt⟩ : Fin 64))
      * gamma (ix2 (0 : Fin 1) (⟨(i 1).val, (i 1).isLt⟩ : Fin 64))
    + beta (ix2 (0 : Fin 1) (⟨(i 1).val, (i 1).isLt⟩ : Fin 64))

/-- `G` at row `r`, column `q`. -/
theorem G_at (h : S100000x64.Idx → EReal) (mu s gamma beta : S1x64.Idx → EReal) (r : Fin 100000) (q : Fin 64) :
    G h mu s gamma beta (ix2 r q) = (h (ix2 r q) - mu (ix2 0 q)) * s (ix2 0 q) * gamma (ix2 0 q) + beta (ix2 0 q) := rfl

/-! ## Region 1 -/

/-- The index maps over the 20 grid points: the activations' window and the output's select row block `t` (and the
    one column block), and each of the four rows' windows selects the one block there is. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` writes back is block `t` of `G` of the arrays as the region finds them: entry `(p, q)` of the block
    is entry `(5000·t + p, q)` of the array, the activations' block is read at the same place, and each `[1,64]` row
    at `(0, q)`. -/
theorem flushed_eq1 (c : Dev nD) (t : Fin cfg1.N) :
    (dat1 (F := Ideal) V c).flushed 5 t
      = ((cfg1.win 5).blk t).view.read (Elt Ideal)
          (G (V c main_v29_0) (V c main_v31) (V c main_v38) (V c main_v43) (V c main_v44)) := by
  show (cfg1.win 5).cut (grid1.coords t) ((dat1 V c).after 5 t) = _
  rw [after1_5, out1_5_eq]
  obtain ⟨a0, a1, o0, o1, b0, b1, c0, c1, d0, d1, e0, e1⟩ := idx_facts1 t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G (V c main_v29_0) (V c main_v31) (V c main_v38) (V c main_v43) (V c main_v44) (((cfg1.win 5).blk t).view.emb (ix2 p q))
  refine (normalize_at (iblk1 V c 0 t) (iblk1 V c 1 t) (iblk1 V c 2 t) (iblk1 V c 3 t) (iblk1 V c 4 t) p q).trans ?_
  have hr0 : iblk1 V c 0 t (ix2 p q) = V c main_v29_0 (((cfg1.win 5).blk t).view.emb (ix2 p q)) := by
    show V c main_v29_0 (((cfg1.win 0).blk t).view.emb (ix2 p q)) = _
    refine congrArg (V c main_v29_0) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * q.val = win1_5.index t (1 : Fin 2) * 64 + 1 * q.val; omega
  have hr1 : iblk1 V c 1 t (ix2 (0 : Fin 1) q)
      = V c main_v31 (ix2 (0 : Fin 1) (⟨((((cfg1.win 5).blk t).view.emb (ix2 p q)) 1).val, ((((cfg1.win 5).blk t).view.emb (ix2 p q)) 1).isLt⟩ : Fin 64)) := by
    show V c main_v31 (((cfg1.win 1).blk t).view.emb (ix2 (0 : Fin 1) q)) = _
    refine congrArg (V c main_v31) (funext fun a => Fin.ext ?_)
    match a with
    | ⟨0, _⟩ => show win1_1.index t (0 : Fin 2) * 1 + 1 * 0 = 0; omega
    | ⟨1, _⟩ => show win1_1.index t (1 : Fin 2) * 64 + 1 * q.val = win1_5.index t (1 : Fin 2) * 64 + 1 * q.val; omega
  have hr2 : iblk1 V c 2 t (ix2 (0 : Fin 1) q)
      = V c main_v38 (ix2 (0 : Fin 1) (⟨((((cfg1.win 5).blk t).view.emb (ix2 p q)) 1).val, ((((cfg1.win 5).blk t).view.emb (ix2 p q)) 1).isLt⟩ : Fin 64)) := by
    show V c main_v38 (((cfg1.win 2).blk t).view.emb (ix2 (0 : Fin 1) q)) = _
    refine congrArg (V c main_v38) (funext fun a => Fin.ext ?_)
    match a with
    | ⟨0, _⟩ => show win1_2.index t (0 : Fin 2) * 1 + 1 * 0 = 0; omega
    | ⟨1, _⟩ => show win1_2.index t (1 : Fin 2) * 64 + 1 * q.val = win1_5.index t (1 : Fin 2) * 64 + 1 * q.val; omega
  have hr3 : iblk1 V c 3 t (ix2 (0 : Fin 1) q)
      = V c main_v43 (ix2 (0 : Fin 1) (⟨((((cfg1.win 5).blk t).view.emb (ix2 p q)) 1).val, ((((cfg1.win 5).blk t).view.emb (ix2 p q)) 1).isLt⟩ : Fin 64)) := by
    show V c main_v43 (((cfg1.win 3).blk t).view.emb (ix2 (0 : Fin 1) q)) = _
    refine congrArg (V c main_v43) (funext fun a => Fin.ext ?_)
    match a with
    | ⟨0, _⟩ => show win1_3.index t (0 : Fin 2) * 1 + 1 * 0 = 0; omega
    | ⟨1, _⟩ => show win1_3.index t (1 : Fin 2) * 64 + 1 * q.val = win1_5.index t (1 : Fin 2) * 64 + 1 * q.val; omega
  have hr4 : iblk1 V c 4 t (ix2 (0 : Fin 1) q)
      = V c main_v44 (ix2 (0 : Fin 1) (⟨((((cfg1.win 5).blk t).view.emb (ix2 p q)) 1).val, ((((cfg1.win 5).blk t).view.emb (ix2 p q)) 1).isLt⟩ : Fin 64)) := by
    show V c main_v44 (((cfg1.win 4).blk t).view.emb (ix2 (0 : Fin 1) q)) = _
    refine congrArg (V c main_v44) (funext fun a => Fin.ext ?_)
    match a with
    | ⟨0, _⟩ => show win1_4.index t (0 : Fin 2) * 1 + 1 * 0 = 0; omega
    | ⟨1, _⟩ => show win1_4.index t (1 : Fin 2) * 64 + 1 * q.val = win1_5.index t (1 : Fin 2) * 64 + 1 * q.val; omega
  rw [hr0, hr1, hr2, hr3, hr4]
  rfl

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v45).slice (win1_5.rect t)).set ↔ _
  rw [View.set_slice_whole, Rect.mem_set_unit]
  exact Iff.rfl

/-- Every row of the array is in the block of the point `row / 5000`: the 20 blocks of 5000 rows tile the 100000 rows. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨Fin.cast N_1.symm ⟨(i 0).val / 5000, by omega⟩, rfl⟩
  obtain ⟨_, _, o0, o1, _⟩ := idx_facts1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The array after the region: `G` of the arrays the region reads, everywhere. -/
theorem final1 (c : Dev nD) :
    (dat1 (F := Ideal) V c).arrAt 5 cfg1.N
      = G (V c main_v29_0) (V c main_v31) (V c main_v38) (V c main_v43) (V c main_v44) :=
  (dat1 V c).arrAt_eq_of_cover 5 _ (fun t _ => flushed_eq1 V c t) cover1

/-- The array after the region at row `r`, column `q`, in terms of whatever the five arrays the region reads are
    known to be. -/
theorem normalized1 (c : Dev nD) {h : S100000x64.Idx → EReal} {mu s gamma beta : S1x64.Idx → EReal}
    (hh : V c main_v29_0 = h) (hmu : V c main_v31 = mu) (hs : V c main_v38 = s) (hgamma : V c main_v43 = gamma)
    (hbeta : V c main_v44 = beta) (r : Fin 100000) (q : Fin 64) :
    (dat1 (F := Ideal) V c).arrAt 5 cfg1.N (ix2 r q)
      = (h (ix2 r q) - mu (ix2 0 q)) * s (ix2 0 q) * gamma (ix2 0 q) + beta (ix2 0 q) := by
  subst hh hmu hs hgamma hbeta
  rw [final1]
  rfl

/-! ## Region 3 -/

/-- The index maps over the 20 grid points: the activations' window and the output's select row block `t` (and the
    one column block), and each of the four rows' windows selects the one block there is. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- What point `t` writes back is block `t` of `G` of the arrays as the region finds them: entry `(p, q)` of the block
    is entry `(5000·t + p, q)` of the array, the activations' block is read at the same place, and each `[1,64]` row
    at `(0, q)`. -/
theorem flushed_eq3 (c : Dev nD) (t : Fin cfg3.N) :
    (dat3 (F := Ideal) V c).flushed 5 t
      = ((cfg3.win 5).blk t).view.read (Elt Ideal)
          (G (V c main_v71_0) (V c main_v73) (V c main_v80) (V c main_v85) (V c main_v86)) := by
  show (cfg3.win 5).cut (grid3.coords t) ((dat3 V c).after 5 t) = _
  rw [after3_5, out3_5_eq]
  obtain ⟨a0, a1, o0, o1, b0, b1, c0, c1, d0, d1, e0, e1⟩ := idx_facts3 t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = G (V c main_v71_0) (V c main_v73) (V c main_v80) (V c main_v85) (V c main_v86) (((cfg3.win 5).blk t).view.emb (ix2 p q))
  refine (normalize_at_k3 (iblk3 V c 0 t) (iblk3 V c 1 t) (iblk3 V c 2 t) (iblk3 V c 3 t) (iblk3 V c 4 t) p q).trans ?_
  have hr0 : iblk3 V c 0 t (ix2 p q) = V c main_v71_0 (((cfg3.win 5).blk t).view.emb (ix2 p q)) := by
    show V c main_v71_0 (((cfg3.win 0).blk t).view.emb (ix2 p q)) = _
    refine congrArg (V c main_v71_0) (funext fun a => Fin.ext ?_)
    match a with
    | ⟨0, _⟩ => show win3_0.index t (0 : Fin 2) * 5000 + 1 * p.val = win3_5.index t (0 : Fin 2) * 5000 + 1 * p.val; omega
    | ⟨1, _⟩ => show win3_0.index t (1 : Fin 2) * 64 + 1 * q.val = win3_5.index t (1 : Fin 2) * 64 + 1 * q.val; omega
  have hr1 : iblk3 V c 1 t (ix2 (0 : Fin 1) q)
      = V c main_v73 (ix2 (0 : Fin 1) (⟨((((cfg3.win 5).blk t).view.emb (ix2 p q)) 1).val, ((((cfg3.win 5).blk t).view.emb (ix2 p q)) 1).isLt⟩ : Fin 64)) := by
    show V c main_v73 (((cfg3.win 1).blk t).view.emb (ix2 (0 : Fin 1) q)) = _
    refine congrArg (V c main_v73) (funext fun a => Fin.ext ?_)
    match a with
    | ⟨0, _⟩ => show win3_1.index t (0 : Fin 2) * 1 + 1 * 0 = 0; omega
    | ⟨1, _⟩ => show win3_1.index t (1 : Fin 2) * 64 + 1 * q.val = win3_5.index t (1 : Fin 2) * 64 + 1 * q.val; omega
  have hr2 : iblk3 V c 2 t (ix2 (0 : Fin 1) q)
      = V c main_v80 (ix2 (0 : Fin 1) (⟨((((cfg3.win 5).blk t).view.emb (ix2 p q)) 1).val, ((((cfg3.win 5).blk t).view.emb (ix2 p q)) 1).isLt⟩ : Fin 64)) := by
    show V c main_v80 (((cfg3.win 2).blk t).view.emb (ix2 (0 : Fin 1) q)) = _
    refine congrArg (V c main_v80) (funext fun a => Fin.ext ?_)
    match a with
    | ⟨0, _⟩ => show win3_2.index t (0 : Fin 2) * 1 + 1 * 0 = 0; omega
    | ⟨1, _⟩ => show win3_2.index t (1 : Fin 2) * 64 + 1 * q.val = win3_5.index t (1 : Fin 2) * 64 + 1 * q.val; omega
  have hr3 : iblk3 V c 3 t (ix2 (0 : Fin 1) q)
      = V c main_v85 (ix2 (0 : Fin 1) (⟨((((cfg3.win 5).blk t).view.emb (ix2 p q)) 1).val, ((((cfg3.win 5).blk t).view.emb (ix2 p q)) 1).isLt⟩ : Fin 64)) := by
    show V c main_v85 (((cfg3.win 3).blk t).view.emb (ix2 (0 : Fin 1) q)) = _
    refine congrArg (V c main_v85) (funext fun a => Fin.ext ?_)
    match a with
    | ⟨0, _⟩ => show win3_3.index t (0 : Fin 2) * 1 + 1 * 0 = 0; omega
    | ⟨1, _⟩ => show win3_3.index t (1 : Fin 2) * 64 + 1 * q.val = win3_5.index t (1 : Fin 2) * 64 + 1 * q.val; omega
  have hr4 : iblk3 V c 4 t (ix2 (0 : Fin 1) q)
      = V c main_v86 (ix2 (0 : Fin 1) (⟨((((cfg3.win 5).blk t).view.emb (ix2 p q)) 1).val, ((((cfg3.win 5).blk t).view.emb (ix2 p q)) 1).isLt⟩ : Fin 64)) := by
    show V c main_v86 (((cfg3.win 4).blk t).view.emb (ix2 (0 : Fin 1) q)) = _
    refine congrArg (V c main_v86) (funext fun a => Fin.ext ?_)
    match a with
    | ⟨0, _⟩ => show win3_4.index t (0 : Fin 2) * 1 + 1 * 0 = 0; omega
    | ⟨1, _⟩ => show win3_4.index t (1 : Fin 2) * 64 + 1 * q.val = win3_5.index t (1 : Fin 2) * 64 + 1 * q.val; omega
  rw [hr0, hr1, hr2, hr3, hr4]
  rfl

/-- An index of the array is in point `t`'s block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v87).slice (win3_5.rect t)).set ↔ _
  rw [View.set_slice_whole, Rect.mem_set_unit]
  exact Iff.rfl

/-- Every row of the array is in the block of the point `row / 5000`: the 20 blocks of 5000 rows tile the 100000 rows. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 5000 :=
    ⟨Fin.cast N_3.symm ⟨(i 0).val / 5000, by omega⟩, rfl⟩
  obtain ⟨_, _, o0, o1, _⟩ := idx_facts3 t
  refine ⟨t, flush3_5 t, ?_⟩
  rw [mem_blk3]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 64 ≤ (i 1).val ∧ (i 1).val < win3_5.index t (1 : Fin 2) * 64 + 64
    omega

/-- The array after the region: `G` of the arrays the region reads, everywhere. -/
theorem final3 (c : Dev nD) :
    (dat3 (F := Ideal) V c).arrAt 5 cfg3.N
      = G (V c main_v71_0) (V c main_v73) (V c main_v80) (V c main_v85) (V c main_v86) :=
  (dat3 V c).arrAt_eq_of_cover 5 _ (fun t _ => flushed_eq3 V c t) cover3

/-- The array after the region at row `r`, column `q`, in terms of whatever the five arrays the region reads are
    known to be. -/
theorem normalized3 (c : Dev nD) {h : S100000x64.Idx → EReal} {mu s gamma beta : S1x64.Idx → EReal}
    (hh : V c main_v71_0 = h) (hmu : V c main_v73 = mu) (hs : V c main_v80 = s) (hgamma : V c main_v85 = gamma)
    (hbeta : V c main_v86 = beta) (r : Fin 100000) (q : Fin 64) :
    (dat3 (F := Ideal) V c).arrAt 5 cfg3.N (ix2 r q)
      = (h (ix2 r q) - mu (ix2 0 q)) * s (ix2 0 q) * gamma (ix2 0 q) + beta (ix2 0 q) := by
  subst hh hmu hs hgamma hbeta
  rw [final3]
  rfl

/-! ## Region 5 -/

/-- The index maps over the 20 grid points: the activations' window and the output's select row block `t` (and the
    one column block), and each of the four rows' windows selects the one block there is. -/
theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- What point `t` writes back is block `t` of `G` of the arrays as the region finds them: entry `(p, q)` of the block
    is entry `(5000·t + p, q)` of the array, the activations' block is read at the same place, and each `[1,64]` row
    at `(0, q)`. -/
theorem flushed_eq5 (c : Dev nD) (t : Fin cfg5.N) :
    (dat5 (F := Ideal) V c).flushed 5 t
      = ((cfg5.win 5).blk t).view.read (Elt Ideal)
          (G (V c main_v113_0) (V c main_v115) (V c main_v122) (V c main_v127) (V c main_v128)) := by
  show (cfg5.win 5).cut (grid5.coords t) ((dat5 V c).after 5 t) = _
  rw [after5_5, out5_5_eq]
  obtain ⟨a0, a1, o0, o1, b0, b1, c0, c1, d0, d1, e0, e1⟩ := idx_facts5 t
  funext j
  obtain ⟨p, q, rfl⟩ : ∃ (p : Fin 5000) (q : Fin 64), j = ix2 p q := ⟨j 0, j 1, eq_ix2 j⟩
  show k5_pay1 (F := Ideal) (iblk5 V c 0 t) (iblk5 V c 1 t) (iblk5 V c 2 t) (iblk5 V c 3 t) (iblk5 V c 4 t) (ix2 p q)
    = G (V c main_v113_0) (V c main_v115) (V c main_v122) (V c main_v127) (V c main_v128) (((cfg5.win 5).blk t).view.emb (ix2 p q))
  refine (normalize_at_k5 (iblk5 V c 0 t) (iblk5 V c 1 t) (iblk5 V c 2 t) (iblk5 V c 3 t) (iblk5 V c 4 t) p q).trans ?_
  have hr0 : iblk5 V c 0 t (ix2 p q) = V c main_v113_0 (((cfg5.win 5).blk t).view.emb (ix2 p q)) := by
    show V c main_v113_0 (((cfg5.win 0).blk t).view.emb (ix2 p q)) = _
    refine congrArg (V c main_v113_0) (funext fun a => Fin.ext ?_)
    match a with
    | ⟨0, _⟩ => show win5_0.index t (0 : Fin 2) * 5000 + 1 * p.val = win5_5.index t (0 : Fin 2) * 5000 + 1 * p.val; omega
    | ⟨1, _⟩ => show win5_0.index t (1 : Fin 2) * 64 + 1 * q.val = win5_5.index t (1 : Fin 2) * 64 + 1 * q.val; omega
  have hr1 : iblk5 V c 1 t (ix2 (0 : Fin 1) q)
      = V c main_v115 (ix2 (0 : Fin 1) (⟨((((cfg5.win 5).blk t).view.emb (ix2 p q)) 1).val, ((((cfg5.win 5).blk t).view.emb (ix2 p q)) 1).isLt⟩ : Fin 64)) := by
    show V c main_v115 (((cfg5.win 1).blk t).view.emb (ix2 (0 : Fin 1) q)) = _
    refine congrArg (V c main_v115) (funext fun a => Fin.ext ?_)
    match a with
    | ⟨0, _⟩ => show win5_1.index t (0 : Fin 2) * 1 + 1 * 0 = 0; omega
    | ⟨1, _⟩ => show win5_1.index t (1 : Fin 2) * 64 + 1 * q.val = win5_5.index t (1 : Fin 2) * 64 + 1 * q.val; omega
  have hr2 : iblk5 V c 2 t (ix2 (0 : Fin 1) q)
      = V c main_v122 (ix2 (0 : Fin 1) (⟨((((cfg5.win 5).blk t).view.emb (ix2 p q)) 1).val, ((((cfg5.win 5).blk t).view.emb (ix2 p q)) 1).isLt⟩ : Fin 64)) := by
    show V c main_v122 (((cfg5.win 2).blk t).view.emb (ix2 (0 : Fin 1) q)) = _
    refine congrArg (V c main_v122) (funext fun a => Fin.ext ?_)
    match a with
    | ⟨0, _⟩ => show win5_2.index t (0 : Fin 2) * 1 + 1 * 0 = 0; omega
    | ⟨1, _⟩ => show win5_2.index t (1 : Fin 2) * 64 + 1 * q.val = win5_5.index t (1 : Fin 2) * 64 + 1 * q.val; omega
  have hr3 : iblk5 V c 3 t (ix2 (0 : Fin 1) q)
      = V c main_v127 (ix2 (0 : Fin 1) (⟨((((cfg5.win 5).blk t).view.emb (ix2 p q)) 1).val, ((((cfg5.win 5).blk t).view.emb (ix2 p q)) 1).isLt⟩ : Fin 64)) := by
    show V c main_v127 (((cfg5.win 3).blk t).view.emb (ix2 (0 : Fin 1) q)) = _
    refine congrArg (V c main_v127) (funext fun a => Fin.ext ?_)
    match a with
    | ⟨0, _⟩ => show win5_3.index t (0 : Fin 2) * 1 + 1 * 0 = 0; omega
    | ⟨1, _⟩ => show win5_3.index t (1 : Fin 2) * 64 + 1 * q.val = win5_5.index t (1 : Fin 2) * 64 + 1 * q.val; omega
  have hr4 : iblk5 V c 4 t (ix2 (0 : Fin 1) q)
      = V c main_v128 (ix2 (0 : Fin 1) (⟨((((cfg5.win 5).blk t).view.emb (ix2 p q)) 1).val, ((((cfg5.win 5).blk t).view.emb (ix2 p q)) 1).isLt⟩ : Fin 64)) := by
    show V c main_v128 (((cfg5.win 4).blk t).view.emb (ix2 (0 : Fin 1) q)) = _
    refine congrArg (V c main_v128) (funext fun a => Fin.ext ?_)
    match a with
    | ⟨0, _⟩ => show win5_4.index t (0 : Fin 2) * 1 + 1 * 0 = 0; omega
    | ⟨1, _⟩ => show win5_4.index t (1 : Fin 2) * 64 + 1 * q.val = win5_5.index t (1 : Fin 2) * 64 + 1 * q.val; omega
  rw [hr0, hr1, hr2, hr3, hr4]
  rfl

/-- An index of the array is in point `t`'s block iff each coordinate is in the block's range on its axis. -/
theorem mem_blk5 (t : Fin cfg5.N) (i : S100000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole main_v129).slice (win5_5.rect t)).set ↔ _
  rw [View.set_slice_whole, Rect.mem_set_unit]
  exact Iff.rfl

/-- Every row of the array is in the block of the point `row / 5000`: the 20 blocks of 5000 rows tile the 100000 rows. -/
theorem cover5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ : ∃ t : Fin cfg5.N, t.val = (i 0).val / 5000 :=
    ⟨Fin.cast N_5.symm ⟨(i 0).val / 5000, by omega⟩, rfl⟩
  obtain ⟨_, _, o0, o1, _⟩ := idx_facts5 t
  refine ⟨t, flush5_5 t, ?_⟩
  rw [mem_blk5]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 64 ≤ (i 1).val ∧ (i 1).val < win5_5.index t (1 : Fin 2) * 64 + 64
    omega

/-- The array after the region: `G` of the arrays the region reads, everywhere. -/
theorem final5 (c : Dev nD) :
    (dat5 (F := Ideal) V c).arrAt 5 cfg5.N
      = G (V c main_v113_0) (V c main_v115) (V c main_v122) (V c main_v127) (V c main_v128) :=
  (dat5 V c).arrAt_eq_of_cover 5 _ (fun t _ => flushed_eq5 V c t) cover5

/-- The array after the region at row `r`, column `q`, in terms of whatever the five arrays the region reads are
    known to be. -/
theorem normalized5 (c : Dev nD) {h : S100000x64.Idx → EReal} {mu s gamma beta : S1x64.Idx → EReal}
    (hh : V c main_v113_0 = h) (hmu : V c main_v115 = mu) (hs : V c main_v122 = s) (hgamma : V c main_v127 = gamma)
    (hbeta : V c main_v128 = beta) (r : Fin 100000) (q : Fin 64) :
    (dat5 (F := Ideal) V c).arrAt 5 cfg5.N (ix2 r q)
      = (h (ix2 r q) - mu (ix2 0 q)) * s (ix2 0 q) * gamma (ix2 0 q) + beta (ix2 0 q) := by
  subst hh hmu hs hgamma hbeta
  rw [final5]
  rfl

end Cert.KernelIdeal.NormalizeValue

end
-- ==== Proof.RunningSums.lean ====
/-
  A column sum accumulated block by block. A running value that starts as `0 + g 0` and adds `g (t + 1)` at step
  `t + 1` is, after step `T`, the sum of `g` over `0, …, T`. A sum over `m · n` consecutive indices is the double sum
  over its `m` consecutive runs of `n` terms, term `t · n + r`. Together: twenty blocks of five thousand rows, accumulated
  one after the other, total the sum over all hundred thousand rows. Everything is stated over an arbitrary additive
  commutative monoid.
-/
import Idealize.ShloMosaic.PureOps.Ideal

namespace Cert.RunningSums

variable {M : Type*} [AddCommMonoid M]

/-! ### A running sum is the finite sum -/

/-- (a) The running value after step `T` is the sum of the first `T + 1` terms. -/
theorem running_eq_sum (g : ℕ → M) (acc : ℕ → M) (h0 : acc 0 = 0 + g 0)
    (hs : ∀ t, acc (t + 1) = acc t + g (t + 1)) (T : ℕ) :
    acc T = ∑ t ∈ Finset.range (T + 1), g t := by
  induction T with
  | zero => rw [h0, zero_add, Finset.sum_range_one]
  | succ T ih => rw [hs, ih, Finset.sum_range_succ _ (T + 1)]

/-- The same when the step law is only known below a bound `N`: it holds for every `T < N`. -/
theorem running_eq_sum_below (g : ℕ → M) (acc : ℕ → M) (N : ℕ) (h0 : acc 0 = 0 + g 0)
    (hs : ∀ t, t + 1 < N → acc (t + 1) = acc t + g (t + 1)) (T : ℕ) (hT : T < N) :
    acc T = ∑ t ∈ Finset.range (T + 1), g t := by
  induction T with
  | zero => rw [h0, zero_add, Finset.sum_range_one]
  | succ T ih => rw [hs T hT, ih (Nat.lt_of_succ_lt hT), Finset.sum_range_succ _ (T + 1)]

/-! ### A sum over `m · n` indices, run by run -/

/-- Term `r` of run `t` is an index below `m · n`. -/
theorem run_lt {m n : ℕ} (t : Fin m) (r : Fin n) : t.val * n + r.val < m * n :=
  calc t.val * n + r.val < t.val * n + n := Nat.add_lt_add_left r.isLt _
    _ = (t.val + 1) * n := (Nat.succ_mul _ _).symm
    _ ≤ m * n := Nat.mul_le_mul_right n t.isLt

/-- (b) A sum over `Fin (m * n)` is the double sum over its `m` consecutive runs of `n` terms. -/
theorem sum_blocks (m n : ℕ) (f : Fin (m * n) → M) :
    ∑ i : Fin (m * n), f i = ∑ t : Fin m, ∑ r : Fin n, f ⟨t.val * n + r.val, run_lt t r⟩ :=
  calc ∑ i : Fin (m * n), f i
      = ∑ p : Fin m × Fin n, f (finProdFinEquiv p) := (Equiv.sum_comp finProdFinEquiv f).symm
    _ = ∑ t : Fin m, ∑ r : Fin n, f (finProdFinEquiv (t, r)) := Fintype.sum_prod_type _
    _ = ∑ t : Fin m, ∑ r : Fin n, f ⟨t.val * n + r.val, run_lt t r⟩ := by
        refine Fintype.sum_congr _ _ fun t => Fintype.sum_congr _ _ fun r => ?_
        congr 1
        apply Fin.ext
        rw [finProdFinEquiv_apply_val, Nat.mul_comm, Nat.add_comm]

/-! ### Twenty blocks of five thousand -/

/-- The sum of block `t`'s five thousand terms; `0` past the twentieth block. -/
def blockSum (f : Fin 100000 → M) (t : ℕ) : M :=
  if h : t < 20 then ∑ r : Fin 5000, f ⟨t * 5000 + r.val, by omega⟩ else 0

theorem blockSum_of_lt (f : Fin 100000 → M) {t : ℕ} (h : t < 20) :
    blockSum f t = ∑ r : Fin 5000, f ⟨t * 5000 + r.val, by omega⟩ := dif_pos h

/-- The twenty block sums total the whole sum. -/
theorem sum_blockSum (f : Fin 100000 → M) :
    ∑ t ∈ Finset.range 20, blockSum f t = ∑ i : Fin 100000, f i := by
  have e : ∑ i : Fin 100000, f i = ∑ t : Fin 20, ∑ r : Fin 5000, f ⟨t.val * 5000 + r.val, by omega⟩ :=
    sum_blocks 20 5000 f
  rw [e, ← Fin.sum_univ_eq_sum_range (fun t => blockSum f t) 20]
  exact Fintype.sum_congr _ _ fun t => blockSum_of_lt f t.isLt

/-- (c) A running row that starts as `0 +` block 0's sum and adds block `t + 1`'s sum at step `t + 1` holds, after
    the twentieth step, the sum over all hundred thousand rows. -/
theorem blocks_total (f : Fin 100000 → M) (acc : ℕ → M)
    (h0 : acc 0 = 0 + ∑ r : Fin 5000, f ⟨0 * 5000 + r.val, by omega⟩)
    (hs : ∀ t, (ht : t + 1 < 20) → acc (t + 1) = acc t + ∑ r : Fin 5000, f ⟨(t + 1) * 5000 + r.val, by omega⟩) :
    acc 19 = ∑ i : Fin 100000, f i := by
  have h0' : acc 0 = 0 + blockSum f 0 := by rw [blockSum_of_lt f (by norm_num : 0 < 20)]; exact h0
  have hs' : ∀ t, t + 1 < 20 → acc (t + 1) = acc t + blockSum f (t + 1) := by
    intro t ht
    rw [blockSum_of_lt f ht]; exact hs t ht
  rw [running_eq_sum_below (blockSum f) acc 20 h0' hs' 19 (by norm_num)]
  exact sum_blockSum f

end Cert.RunningSums
-- ==== Proof.KernelIdeal.MlpValue0.lean ====
/-
  The VALUE of a layer's first kernel region (pallas_call 0), as whole arrays over the extended reals.

  The region runs the two-layer perceptron over twenty blocks of 5000 rows. At each grid point it writes the block's
  hidden activations back to its rows of a `[100000,64]` array, and keeps two running `[1,64]` rows — the column sums
  of the hidden activations and of their squares —, cleared at the first point, added to at every point, and written
  back after the last.

  First, generic in the float instance: every buffer is loaded whole and stored whole, so what a buffer holds after a
  point is the value of its last store over the input buffers' contents (`first_*`, `later_*`, `firstAt0_eq`,
  `laterAt0_eq`). Then, over the extended reals: a block's rows are rows `5000·t + p` of the arrays the region finds
  (`block0_*_at`), so the block's hidden activations are those rows of the whole array's (`hidden_block0`, because an
  affine map and `max · 0` act on one row at a time); the running rows obey the recursion "zero plus the first block's
  sum, then plus each later block's sum" (`sums_*`, `squares_*`), whose value after the twentieth point is the sum over
  all hundred thousand rows; and the arrays after the region are what the flushing points wrote back (`final0_6`,
  `final0_7`, `final0_8`): `hidden0`, `colsum0`, `colsumsq0`.
-/
import proofs.«149905_j3221225472297_1_alg».proof.Proof.KernelIdeal.MlpRegion0
import proofs.«149905_j3221225472297_1_alg».proof.Proof.KernelIdeal.PayloadAt
import proofs.«149905_j3221225472297_1_alg».proof.Proof.LayerSpec
import proofs.«149905_j3221225472297_1_alg».proof.Proof.RunningSums
import Idealize.ShloMosaic.Lib.Pipeline.Value

set_option maxRecDepth 16384

noncomputable section

open scoped BigOperators

namespace Cert.KernelIdeal.MlpValue

open Cert.KernelIdeal Cert.KernelIdeal.Gen Cert.KernelIdeal.Hand Cert.KernelIdeal.PayloadAt
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-! ## The stores each case leaves, read as values

Every load of the body reads a whole buffer and every store writes a whole buffer, so what a buffer holds after the
body is the value of its LAST store, over the buffers' contents themselves. At the first point each running row is
stored twice — the zero row, then the zero row read back plus the block's column sums —, at a later point once. -/

/-- The offsets of every access of the body are zero on both axes. -/
theorem zeroOffsets0 : (![0, 0] : Fin 2 → Nat) = fun _ => 0 := funext fun a => by fin_cases a <;> rfl

/-- First point, the hidden rows' buffer: the two-layer perceptron of the six input buffers. -/
theorem first_hidden0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i) (x0 x1 : Vec F S5000x64 .f32) (x2 : Vec F S64x64 .f32) (x3 : Vec F S1x64 .f32) (x4 : Vec F S64x64 .f32) (x5 : Vec F S1x64 .f32) :
    View.canon (firstRun0 c i arg1 harg1 arg2 harg2 arg3 harg3 arg4 harg4 arg5 harg5 arg6 harg6 arg7 harg7 arg8 harg8 arg9 harg9 hc x0 x1 x2 x3 x4 x5).1.1 = k0_pay5 x0 x1 x2 x3 x4 x5 := by
  unfold firstRun0
  dsimp only
  sl_unfold_words
  rw [View.canon_unit_zero (S := S5000x64) zeroOffsets0]
  simp only [View.readAt_eq_ld, harg1.read_unread, harg2.read_unread, harg3.read_unread, harg4.read_unread, harg5.read_unread, harg6.read_unread,
    View.ld_unit_zero (S := S5000x64) zeroOffsets0, View.ld_unit_zero (S := S64x64) zeroOffsets0, View.ld_unit_zero (S := S1x64) zeroOffsets0]

/-- First point, the running column sums: the zero row (cast to its own shape) plus the block's column sums. -/
theorem first_sums0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i) (x0 x1 : Vec F S5000x64 .f32) (x2 : Vec F S64x64 .f32) (x3 : Vec F S1x64 .f32) (x4 : Vec F S64x64 .f32) (x5 : Vec F S1x64 .f32) :
    View.canon (firstRun0 c i arg1 harg1 arg2 harg2 arg3 harg3 arg4 harg4 arg5 harg5 arg6 harg6 arg7 harg7 arg8 harg8 arg9 harg9 hc x0 x1 x2 x3 x4 x5).1.2.1 = k0_pay1 (k0_pay6 k0_pay3) (k0_pay7 x0 x1 x2 x3 x4 x5) := by
  unfold firstRun0
  dsimp only
  sl_unfold_words
  rw [View.canon_cons_unit_zero (S := S1x64) zeroOffsets0, View.readCov_unit_zero (S := S1x64) _ zeroOffsets0]
  simp only [View.readAt_eq_ld, harg1.read_unread, harg2.read_unread, harg3.read_unread, harg4.read_unread, harg5.read_unread, harg6.read_unread,
    View.ld_unit_zero (S := S5000x64) zeroOffsets0, View.ld_unit_zero (S := S64x64) zeroOffsets0, View.ld_unit_zero (S := S1x64) zeroOffsets0]

/-- First point, the running column sums of squares: the zero row plus the block's column sums of squares. -/
theorem first_squares0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first0 i) (x0 x1 : Vec F S5000x64 .f32) (x2 : Vec F S64x64 .f32) (x3 : Vec F S1x64 .f32) (x4 : Vec F S64x64 .f32) (x5 : Vec F S1x64 .f32) :
    View.canon (firstRun0 c i arg1 harg1 arg2 harg2 arg3 harg3 arg4 harg4 arg5 harg5 arg6 harg6 arg7 harg7 arg8 harg8 arg9 harg9 hc x0 x1 x2 x3 x4 x5).1.2.2 = k0_pay2 (k0_pay5 x0 x1 x2 x3 x4 x5) k0_pay4 := by
  unfold firstRun0
  dsimp only
  sl_unfold_words
  rw [View.canon_cons_unit_zero (S := S1x64) zeroOffsets0, View.readCov_unit_zero (S := S1x64) _ zeroOffsets0]
  simp only [View.readAt_eq_ld, harg1.read_unread, harg2.read_unread, harg3.read_unread, harg4.read_unread, harg5.read_unread, harg6.read_unread,
    View.ld_unit_zero (S := S5000x64) zeroOffsets0, View.ld_unit_zero (S := S64x64) zeroOffsets0, View.ld_unit_zero (S := S1x64) zeroOffsets0]

/-- A later point, the hidden rows' buffer: the same function of the six input buffers. -/
theorem later_hidden0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i) (x0 x1 : Vec F S5000x64 .f32) (x2 : Vec F S64x64 .f32) (x3 : Vec F S1x64 .f32) (x4 : Vec F S64x64 .f32) (x5 : Vec F S1x64 .f32) (s q : Vec F S1x64 .f32) :
    View.canon (laterRun0 c i arg1 harg1 arg2 harg2 arg3 harg3 arg4 harg4 arg5 harg5 arg6 harg6 arg7 harg7 arg8 harg8 arg9 harg9 hc x0 x1 x2 x3 x4 x5 s q).1.1 = k0_pay5 x0 x1 x2 x3 x4 x5 := by
  unfold laterRun0
  dsimp only
  sl_unfold_words
  rw [View.canon_unit_zero (S := S5000x64) zeroOffsets0]
  simp only [View.readAt_eq_ld, harg1.read_unread, harg2.read_unread, harg3.read_unread, harg4.read_unread, harg5.read_unread, harg6.read_unread, harg8.read_unread, harg9.read_unread,
    View.ld_unit_zero (S := S5000x64) zeroOffsets0, View.ld_unit_zero (S := S64x64) zeroOffsets0, View.ld_unit_zero (S := S1x64) zeroOffsets0]

/-- A later point, the running column sums: the row `s` found there plus the block's column sums. -/
theorem later_sums0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i) (x0 x1 : Vec F S5000x64 .f32) (x2 : Vec F S64x64 .f32) (x3 : Vec F S1x64 .f32) (x4 : Vec F S64x64 .f32) (x5 : Vec F S1x64 .f32) (s q : Vec F S1x64 .f32) :
    View.canon (laterRun0 c i arg1 harg1 arg2 harg2 arg3 harg3 arg4 harg4 arg5 harg5 arg6 harg6 arg7 harg7 arg8 harg8 arg9 harg9 hc x0 x1 x2 x3 x4 x5 s q).1.2.1 = k0_pay1 (k0_pay6 s) (k0_pay7 x0 x1 x2 x3 x4 x5) := by
  unfold laterRun0
  dsimp only
  sl_unfold_words
  rw [View.canon_unit_zero (S := S1x64) zeroOffsets0]
  simp only [View.readAt_eq_ld, harg1.read_unread, harg2.read_unread, harg3.read_unread, harg4.read_unread, harg5.read_unread, harg6.read_unread, harg8.read_unread, harg9.read_unread,
    View.ld_unit_zero (S := S5000x64) zeroOffsets0, View.ld_unit_zero (S := S64x64) zeroOffsets0, View.ld_unit_zero (S := S1x64) zeroOffsets0]

/-- A later point, the running column sums of squares: the row `q` found there plus the block's. -/
theorem later_squares0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first0 i) (x0 x1 : Vec F S5000x64 .f32) (x2 : Vec F S64x64 .f32) (x3 : Vec F S1x64 .f32) (x4 : Vec F S64x64 .f32) (x5 : Vec F S1x64 .f32) (s q : Vec F S1x64 .f32) :
    View.canon (laterRun0 c i arg1 harg1 arg2 harg2 arg3 harg3 arg4 harg4 arg5 harg5 arg6 harg6 arg7 harg7 arg8 harg8 arg9 harg9 hc x0 x1 x2 x3 x4 x5 s q).1.2.2 = k0_pay2 (k0_pay5 x0 x1 x2 x3 x4 x5) q := by
  unfold laterRun0
  dsimp only
  sl_unfold_words
  rw [View.canon_unit_zero (S := S1x64) zeroOffsets0]
  simp only [View.readAt_eq_ld, harg1.read_unread, harg2.read_unread, harg3.read_unread, harg4.read_unread, harg5.read_unread, harg6.read_unread, harg8.read_unread, harg9.read_unread,
    View.ld_unit_zero (S := S5000x64) zeroOffsets0, View.ld_unit_zero (S := S64x64) zeroOffsets0, View.ld_unit_zero (S := S1x64) zeroOffsets0]

/-! ## What the outputs hold after a point, as values of the input blocks -/

/-- After the first point: the hidden rows of the block, its column sums on top of the zero row, its column sums of
    squares on top of the zero row. -/
theorem firstAt0_eq (c : Dev nD) (t : Fin cfg0.N) (h0 : t.val % 20 = 0) :
    firstAt0 V c t h0 = (k0_pay5 (iblk0 V c 0 t) (iblk0 V c 1 t) (iblk0 V c 2 t) (iblk0 V c 3 t) (iblk0 V c 4 t) (iblk0 V c 5 t), k0_pay1 (k0_pay6 k0_pay3) (k0_pay7 (iblk0 V c 0 t) (iblk0 V c 1 t) (iblk0 V c 2 t) (iblk0 V c 3 t) (iblk0 V c 4 t) (iblk0 V c 5 t)), k0_pay2 (k0_pay5 (iblk0 V c 0 t) (iblk0 V c 1 t) (iblk0 V c 2 t) (iblk0 V c 3 t) (iblk0 V c 4 t) (iblk0 V c 5 t)) k0_pay4) := by
  unfold firstAt0
  refine Prod.ext ?_ (Prod.ext ?_ ?_)
  · dsimp only
    rw [View.read_writes_eq_canon _ _ _ (cover0_first_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t))]
    exact first_hidden0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t)
  · dsimp only
    rw [View.read_writes_eq_canon _ _ _ (cover0_first_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t))]
    exact first_sums0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t)
  · dsimp only
    rw [View.read_writes_eq_canon _ _ _ (cover0_first_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t))]
    exact first_squares0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((first0_iff t).mpr h0) (iblk0 V c 0 t) (iblk0 V c 1 t) (iblk0 V c 2 t) (iblk0 V c 3 t) (iblk0 V c 4 t) (iblk0 V c 5 t)

/-- After a later point, from the running rows `s`, `q` the point before left: the hidden rows of the block, its
    column sums on top of `s`, its column sums of squares on top of `q`. -/
theorem laterAt0_eq (c : Dev nD) (t : Fin cfg0.N) (h0 : ¬t.val % 20 = 0) (s q : Vec F S1x64 .f32) :
    laterAt0 V c t h0 s q = (k0_pay5 (iblk0 V c 0 t) (iblk0 V c 1 t) (iblk0 V c 2 t) (iblk0 V c 3 t) (iblk0 V c 4 t) (iblk0 V c 5 t), k0_pay1 (k0_pay6 s) (k0_pay7 (iblk0 V c 0 t) (iblk0 V c 1 t) (iblk0 V c 2 t) (iblk0 V c 3 t) (iblk0 V c 4 t) (iblk0 V c 5 t)), k0_pay2 (k0_pay5 (iblk0 V c 0 t) (iblk0 V c 1 t) (iblk0 V c 2 t) (iblk0 V c 3 t) (iblk0 V c 4 t) (iblk0 V c 5 t)) q) := by
  unfold laterAt0
  refine Prod.ext ?_ (Prod.ext ?_ ?_)
  · dsimp only
    rw [View.read_writes_eq_canon _ _ _ (cover0_later_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q)]
    exact later_hidden0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q
  · dsimp only
    rw [View.read_writes_eq_canon _ _ _ (cover0_later_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q)]
    exact later_sums0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q
  · dsimp only
    rw [View.read_writes_eq_canon _ _ _ (cover0_later_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q)]
    exact later_squares0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((first0_iff t).mp h)) (iblk0 V c 0 t) (iblk0 V c 1 t) (iblk0 V c 2 t) (iblk0 V c 3 t) (iblk0 V c 4 t) (iblk0 V c 5 t) s q

/-- The recursion's step: a point after the first continues from what the point before left. -/
theorem outs0_succ (c : Dev nD) (n : ℕ) (hn : n + 1 < cfg0.N) (h0 : ¬(n + 1) % 20 = 0) :
    outs0 V c (n + 1) hn = laterAt0 V c ⟨n + 1, hn⟩ h0 (outs0 V c n (Nat.lt_of_succ_lt hn)).2.1 (outs0 V c n (Nat.lt_of_succ_lt hn)).2.2 :=
  dif_neg h0

/-! ## The input blocks, read at an entry

Over the extended reals. The two row-block windows (0 and 1) are at block index `(t, 0)` at point `t`, so row `p` of
their block is row `5000·t + p` of their array; the four parameter windows (2..5) stay at block index `(0, 0)`, and
their block is their whole array. -/

/-- The windows' index maps, decided over the twenty grid points. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

variable (W : (c : Dev nD) → (b : Ref sig .tc) → Buf (Elt Ideal) ((c : Thread nD τ).loc b))

/-- The arrays of the six input windows as the region finds them, at their literal shapes. -/
abbrev in0_0 (c : Dev nD) : S100000x64.Idx → EReal := W c main_arg0
abbrev in0_1 (c : Dev nD) : S100000x64.Idx → EReal := W c main_v18
abbrev in0_2 (c : Dev nD) : S64x64.Idx → EReal := W c main_v20
abbrev in0_3 (c : Dev nD) : S1x64.Idx → EReal := W c main_v27
abbrev in0_4 (c : Dev nD) : S64x64.Idx → EReal := W c main_v24
abbrev in0_5 (c : Dev nD) : S1x64.Idx → EReal := W c main_v28

/-- Row `p` of window 0's block at point `t` is row `5000·t + p` of its array. -/
theorem block0_0_at (c : Dev nD) (t : Fin cfg0.N) (T : ℕ) (hT : T < 20) (ht : t.val = T) (p : Fin 5000) (k : Fin 64) :
    (iblk0 W c 0 t : Vec Ideal S5000x64 .f32) (ix2 p k)
      = in0_0 W c (ix2 ⟨T * 5000 + p.val, by omega⟩ k) := by
  obtain ⟨e0, e1, -⟩ := index_facts0 t
  show W c main_arg0 (((cfg0.win 0).blk t).view.emb (ix2 p k)) = _
  refine congrArg (W c main_arg0) (funext fun a => Fin.ext ?_)
  match a with
  | ⟨0, _⟩ => show win0_0.index t (0 : Fin 2) * 5000 + 1 * p.val = T * 5000 + p.val; rw [e0, ht]; omega
  | ⟨1, _⟩ => show win0_0.index t (1 : Fin 2) * 64 + 1 * k.val = k.val; rw [e1]; omega

/-- Row `p` of window 1's block at point `t` is row `5000·t + p` of its array. -/
theorem block0_1_at (c : Dev nD) (t : Fin cfg0.N) (T : ℕ) (hT : T < 20) (ht : t.val = T) (p : Fin 5000) (k : Fin 64) :
    (iblk0 W c 1 t : Vec Ideal S5000x64 .f32) (ix2 p k)
      = in0_1 W c (ix2 ⟨T * 5000 + p.val, by omega⟩ k) := by
  obtain ⟨-, -, e0, e1, -⟩ := index_facts0 t
  show W c main_v18 (((cfg0.win 1).blk t).view.emb (ix2 p k)) = _
  refine congrArg (W c main_v18) (funext fun a => Fin.ext ?_)
  match a with
  | ⟨0, _⟩ => show win0_1.index t (0 : Fin 2) * 5000 + 1 * p.val = T * 5000 + p.val; rw [e0, ht]; omega
  | ⟨1, _⟩ => show win0_1.index t (1 : Fin 2) * 64 + 1 * k.val = k.val; rw [e1]; omega

/-- Window 2's block is its whole array. -/
theorem block0_2_at (c : Dev nD) (t : Fin cfg0.N) (j k : Fin 64) :
    (iblk0 W c 2 t : Vec Ideal S64x64 .f32) (ix2 j k) = in0_2 W c (ix2 j k) := by
  obtain ⟨-, -, -, -, e0, e1, -⟩ := index_facts0 t
  show W c main_v20 (((cfg0.win 2).blk t).view.emb (ix2 j k)) = _
  refine congrArg (W c main_v20) (funext fun a => Fin.ext ?_)
  match a with
  | ⟨0, _⟩ => show win0_2.index t (0 : Fin 2) * 64 + 1 * j.val = j.val; rw [e0]; omega
  | ⟨1, _⟩ => show win0_2.index t (1 : Fin 2) * 64 + 1 * k.val = k.val; rw [e1]; omega

/-- Window 3's block is its whole array. -/
theorem block0_3_at (c : Dev nD) (t : Fin cfg0.N) (k : Fin 64) :
    (iblk0 W c 3 t : Vec Ideal S1x64 .f32) (ix2 0 k) = in0_3 W c (ix2 0 k) := by
  obtain ⟨-, -, -, -, -, -, e0, e1, -⟩ := index_facts0 t
  show W c main_v27 (((cfg0.win 3).blk t).view.emb (ix2 0 k)) = _
  refine congrArg (W c main_v27) (funext fun a => Fin.ext ?_)
  match a with
  | ⟨0, _⟩ => show win0_3.index t (0 : Fin 2) * 1 + 1 * 0 = 0; rw [e0]
  | ⟨1, _⟩ => show win0_3.index t (1 : Fin 2) * 64 + 1 * k.val = k.val; rw [e1]; omega

/-- Window 4's block is its whole array. -/
theorem block0_4_at (c : Dev nD) (t : Fin cfg0.N) (j k : Fin 64) :
    (iblk0 W c 4 t : Vec Ideal S64x64 .f32) (ix2 j k) = in0_4 W c (ix2 j k) := by
  obtain ⟨-, -, -, -, -, -, -, -, e0, e1, -⟩ := index_facts0 t
  show W c main_v24 (((cfg0.win 4).blk t).view.emb (ix2 j k)) = _
  refine congrArg (W c main_v24) (funext fun a => Fin.ext ?_)
  match a with
  | ⟨0, _⟩ => show win0_4.index t (0 : Fin 2) * 64 + 1 * j.val = j.val; rw [e0]; omega
  | ⟨1, _⟩ => show win0_4.index t (1 : Fin 2) * 64 + 1 * k.val = k.val; rw [e1]; omega

/-- Window 5's block is its whole array. -/
theorem block0_5_at (c : Dev nD) (t : Fin cfg0.N) (k : Fin 64) :
    (iblk0 W c 5 t : Vec Ideal S1x64 .f32) (ix2 0 k) = in0_5 W c (ix2 0 k) := by
  obtain ⟨-, -, -, -, -, -, -, -, -, -, e0, e1, -⟩ := index_facts0 t
  show W c main_v28 (((cfg0.win 5).blk t).view.emb (ix2 0 k)) = _
  refine congrArg (W c main_v28) (funext fun a => Fin.ext ?_)
  match a with
  | ⟨0, _⟩ => show win0_5.index t (0 : Fin 2) * 1 + 1 * 0 = 0; rw [e0]
  | ⟨1, _⟩ => show win0_5.index t (1 : Fin 2) * 64 + 1 * k.val = k.val; rw [e1]; omega

/-! ## The hidden activations of a block are the block's rows of the whole array's -/

/-- The layer's hidden activations over all hundred thousand rows, from the arrays the region finds: the two-layer
    perceptron (each layer followed by `max · 0`) of the sum of windows 0 and 1's arrays, with the weights and biases
    of windows 2..5. -/
abbrev hiddenOf0 (c : Dev nD) : Fin 100000 → Fin 64 → EReal :=
  Cert.LayerSpec.hidden (n := 100000) (d := 64)
    (fun r k => in0_0 W c (ix2 r k) + in0_1 W c (ix2 r k))
    (fun j k => in0_2 W c (ix2 j k)) (fun k => in0_3 W c (ix2 0 k))
    (fun j k => in0_4 W c (ix2 j k)) (fun k => in0_5 W c (ix2 0 k))

/-- Row `p` of the hidden activations of point `t`'s block is row `5000·t + p` of the whole array's: an affine map
    and `max · 0` read one row at a time. -/
theorem hidden_block0 (c : Dev nD) (t : Fin cfg0.N) (T : ℕ) (hT : T < 20) (ht : t.val = T) (p : Fin 5000) (q : Fin 64) :
    k0_pay5 (F := Ideal) (iblk0 W c 0 t) (iblk0 W c 1 t) (iblk0 W c 2 t) (iblk0 W c 3 t) (iblk0 W c 4 t) (iblk0 W c 5 t) (ix2 p q) = hiddenOf0 W c ⟨T * 5000 + p.val, by omega⟩ q := by
  refine (hidden_at (iblk0 W c 0 t) (iblk0 W c 1 t) (iblk0 W c 2 t) (iblk0 W c 3 t) (iblk0 W c 4 t) (iblk0 W c 5 t) p q).trans ?_
  simp only [Cert.LayerSpec.hidden, Cert.LayerSpec.relu, Cert.LayerSpec.affine, block0_0_at W c t T hT ht, block0_1_at W c t T hT ht,
    block0_2_at W c t, block0_3_at W c t, block0_4_at W c t, block0_5_at W c t]

/-- One point's contribution to the running column sums, on top of the row `s` it finds. -/
theorem sums_step0 (x0 x1 : Vec Ideal S5000x64 .f32) (x2 : Vec Ideal S64x64 .f32) (x3 : Vec Ideal S1x64 .f32) (x4 : Vec Ideal S64x64 .f32) (x5 : Vec Ideal S1x64 .f32) (s : Vec Ideal S1x64 .f32) (q : Fin 64) :
    k0_pay1 (F := Ideal) (k0_pay6 s) (k0_pay7 x0 x1 x2 x3 x4 x5) (ix2 0 q)
      = s (ix2 0 q) + ∑ r : Fin 5000, k0_pay5 (F := Ideal) x0 x1 x2 x3 x4 x5 (ix2 r q) := by
  rw [accumulate_at, carried_eq, colsum_at]

/-! ## The running rows, point by point -/

/-- After the first point the running column sum of column `q` is zero plus the first block's. -/
theorem sums_first0 (c : Dev nD) (q : Fin 64) (h : 0 < cfg0.N) :
    (outs0 W c 0 h).2.1 (ix2 0 q) = 0 + ∑ r : Fin 5000, hiddenOf0 W c ⟨0 * 5000 + r.val, by omega⟩ q := by
  have e : outs0 W c 0 h = firstAt0 W c ⟨0, h⟩ (Nat.zero_mod _) := rfl
  rw [e, firstAt0_eq]
  refine (sums_step0 (iblk0 W c 0 ⟨0, h⟩) (iblk0 W c 1 ⟨0, h⟩) (iblk0 W c 2 ⟨0, h⟩) (iblk0 W c 3 ⟨0, h⟩) (iblk0 W c 4 ⟨0, h⟩) (iblk0 W c 5 ⟨0, h⟩) (k0_pay3 (F := Ideal)) q).trans ?_
  rw [zero_at]
  exact congrArg (0 + ·) (Finset.sum_congr rfl fun r _ => hidden_block0 W c ⟨0, h⟩ 0 (by norm_num) rfl r q)

/-- After a later point it is what the point before left plus this block's. -/
theorem sums_next0 (c : Dev nD) (q : Fin 64) (n : ℕ) (hn : n + 1 < 20) (h : n + 1 < cfg0.N) :
    (outs0 W c (n + 1) h).2.1 (ix2 0 q)
      = (outs0 W c n (Nat.lt_of_succ_lt h)).2.1 (ix2 0 q) + ∑ r : Fin 5000, hiddenOf0 W c ⟨(n + 1) * 5000 + r.val, by omega⟩ q := by
  have h0 : ¬(n + 1) % 20 = 0 := by omega
  rw [outs0_succ W c n h h0, laterAt0_eq]
  refine (sums_step0 (iblk0 W c 0 ⟨n + 1, h⟩) (iblk0 W c 1 ⟨n + 1, h⟩) (iblk0 W c 2 ⟨n + 1, h⟩) (iblk0 W c 3 ⟨n + 1, h⟩) (iblk0 W c 4 ⟨n + 1, h⟩) (iblk0 W c 5 ⟨n + 1, h⟩) _ q).trans ?_
  exact congrArg (_ + ·) (Finset.sum_congr rfl fun r _ => hidden_block0 W c ⟨n + 1, h⟩ (n + 1) hn rfl r q)

/-- After the first point the running column sum of squares of column `q` is zero plus the first block's. -/
theorem squares_first0 (c : Dev nD) (q : Fin 64) (h : 0 < cfg0.N) :
    (outs0 W c 0 h).2.2 (ix2 0 q)
      = 0 + ∑ r : Fin 5000, hiddenOf0 W c ⟨0 * 5000 + r.val, by omega⟩ q * hiddenOf0 W c ⟨0 * 5000 + r.val, by omega⟩ q := by
  have e : outs0 W c 0 h = firstAt0 W c ⟨0, h⟩ (Nat.zero_mod _) := rfl
  rw [e, firstAt0_eq]
  refine (sumsq_at (k0_pay5 (F := Ideal) (iblk0 W c 0 ⟨0, h⟩) (iblk0 W c 1 ⟨0, h⟩) (iblk0 W c 2 ⟨0, h⟩) (iblk0 W c 3 ⟨0, h⟩) (iblk0 W c 4 ⟨0, h⟩) (iblk0 W c 5 ⟨0, h⟩)) (k0_pay4 (F := Ideal)) q).trans ?_
  rw [zero_sq_at]
  exact congrArg (0 + ·) (Finset.sum_congr rfl fun r _ => by rw [hidden_block0 W c ⟨0, h⟩ 0 (by norm_num) rfl r q])

/-- After a later point it is what the point before left plus this block's. -/
theorem squares_next0 (c : Dev nD) (q : Fin 64) (n : ℕ) (hn : n + 1 < 20) (h : n + 1 < cfg0.N) :
    (outs0 W c (n + 1) h).2.2 (ix2 0 q)
      = (outs0 W c n (Nat.lt_of_succ_lt h)).2.2 (ix2 0 q)
        + ∑ r : Fin 5000, hiddenOf0 W c ⟨(n + 1) * 5000 + r.val, by omega⟩ q * hiddenOf0 W c ⟨(n + 1) * 5000 + r.val, by omega⟩ q := by
  have h0 : ¬(n + 1) % 20 = 0 := by omega
  rw [outs0_succ W c n h h0, laterAt0_eq]
  refine (sumsq_at (k0_pay5 (F := Ideal) (iblk0 W c 0 ⟨n + 1, h⟩) (iblk0 W c 1 ⟨n + 1, h⟩) (iblk0 W c 2 ⟨n + 1, h⟩) (iblk0 W c 3 ⟨n + 1, h⟩) (iblk0 W c 4 ⟨n + 1, h⟩) (iblk0 W c 5 ⟨n + 1, h⟩)) _ q).trans ?_
  exact congrArg (_ + ·) (Finset.sum_congr rfl fun r _ => by rw [hidden_block0 W c ⟨n + 1, h⟩ (n + 1) hn rfl r q])

/-- After the last point the running column sum is the column's sum over all hundred thousand rows. -/
theorem sums_total0 (c : Dev nD) (q : Fin 64) (h : 19 < cfg0.N) :
    (outs0 W c 19 h).2.1 (ix2 0 q) = Cert.LayerSpec.colSum (hiddenOf0 W c) q := by
  have hN : cfg0.N = 20 := N_0
  have key := Cert.RunningSums.blocks_total (fun i => hiddenOf0 W c i q)
    (fun n => if hn : n < cfg0.N then (outs0 W c n hn).2.1 (ix2 0 q) else 0)
    (by rw [dif_pos (by omega : 0 < cfg0.N)]; exact sums_first0 W c q _)
    (fun t ht => by
      rw [dif_pos (by omega : t + 1 < cfg0.N), dif_pos (by omega : t < cfg0.N)]
      exact sums_next0 W c q t ht _)
  rw [dif_pos h] at key
  exact key

/-- After the last point the running column sum of squares is the sum of the column's squares over all rows. -/
theorem squares_total0 (c : Dev nD) (q : Fin 64) (h : 19 < cfg0.N) :
    (outs0 W c 19 h).2.2 (ix2 0 q) = Cert.LayerSpec.colSumSq (hiddenOf0 W c) q := by
  have hN : cfg0.N = 20 := N_0
  have key := Cert.RunningSums.blocks_total (fun i => hiddenOf0 W c i q * hiddenOf0 W c i q)
    (fun n => if hn : n < cfg0.N then (outs0 W c n hn).2.2 (ix2 0 q) else 0)
    (by rw [dif_pos (by omega : 0 < cfg0.N)]; exact squares_first0 W c q _)
    (fun t ht => by
      rw [dif_pos (by omega : t + 1 < cfg0.N), dif_pos (by omega : t < cfg0.N)]
      exact squares_next0 W c q t ht _)
  rw [dif_pos h] at key
  exact key

/-! ## From the points' write-backs to the arrays after the region

Window 6 (the hidden rows) is written back at every point, block `t` of its array at point `t`; the twenty blocks
tile the array. Windows 7 and 8 (the running rows) are written back at the last point only, and their one block is
their whole array. -/

/-- The hidden activations as an array, index by index. -/
abbrev hiddenArr0 (c : Dev nD) : S100000x64.Idx → EReal :=
  fun i => hiddenOf0 W c ⟨(i 0).val, idx2_lt0 i⟩ ⟨(i 1).val, idx2_lt1 i⟩

/-- The column sums as a `[1,64]` array. -/
abbrev colSumArr0 (c : Dev nD) : S1x64.Idx → EReal :=
  fun i => Cert.LayerSpec.colSum (hiddenOf0 W c) ⟨(i 1).val, idx2_lt1 i⟩

/-- The column sums of squares as a `[1,64]` array. -/
abbrev colSumSqArr0 (c : Dev nD) : S1x64.Idx → EReal :=
  fun i => Cert.LayerSpec.colSumSq (hiddenOf0 W c) ⟨(i 1).val, idx2_lt1 i⟩

/-- An entry of point `t`'s block of hidden rows is the array's entry it is written back to. -/
theorem hidden_entry0 (c : Dev nD) (t : Fin cfg0.N) (T : ℕ) (hT : T < 20) (ht : t.val = T) (j : S5000x64.Idx) (i : S100000x64.Idx)
    (h0 : (i 0).val = T * 5000 + (j 0).val) (h1 : (i 1).val = (j 1).val) :
    k0_pay5 (F := Ideal) (iblk0 W c 0 t) (iblk0 W c 1 t) (iblk0 W c 2 t) (iblk0 W c 3 t) (iblk0 W c 4 t) (iblk0 W c 5 t) j = hiddenArr0 W c i := by
  obtain ⟨p, q, rfl⟩ : ∃ (p : Fin 5000) (q : Fin 64), j = ix2 p q := ⟨j 0, j 1, eq_ix2 j⟩
  refine (hidden_block0 W c t T hT ht p q).trans ?_
  show hiddenOf0 W c _ _ = hiddenOf0 W c _ _
  congr 1
  · exact Fin.ext h0.symm
  · exact Fin.ext h1.symm

/-- What point `t` writes back of window 6 is block `t` of the hidden activations. -/
theorem flushed0_6 (c : Dev nD) (t : Fin cfg0.N) :
    (dat0 W c).flushed 6 t = ((cfg0.win 6).blk t).view.read (Elt Ideal) (hiddenArr0 W c) := by
  have hN : t.val < 20 := lt_of_lt_of_eq t.isLt (show cfg0.N = 20 from N_0)
  obtain ⟨-, -, -, -, -, -, -, -, -, -, -, -, e0, e1, -⟩ := index_facts0 t
  show (cfg0.win 6).cut (grid0.coords t) ((dat0 W c).after 6 t) = _
  rw [after0_6]
  have hb : (outs0 W c t.val t.isLt).1 = k0_pay5 (F := Ideal) (iblk0 W c 0 t) (iblk0 W c 1 t) (iblk0 W c 2 t) (iblk0 W c 3 t) (iblk0 W c 4 t) (iblk0 W c 5 t) := by
    by_cases h0 : t.val % 20 = 0
    · rw [outs0_first W c t h0, firstAt0_eq]
    · rw [outs0_later W c t h0, laterAt0_eq]
  rw [hb]
  funext j
  exact hidden_entry0 W c t t.val hN rfl j (((cfg0.win 6).blk t).view.emb j)
    (by show win0_6.index t (0 : Fin 2) * 5000 + 1 * (j 0).val = t.val * 5000 + (j 0).val; rw [e0]; omega)
    (by show win0_6.index t (1 : Fin 2) * 64 + 1 * (j 1).val = (j 1).val; rw [e1]; omega)

/-- An index of window 6's array is in point `t`'s block iff each coordinate is in the block's range on its axis. -/
theorem mem_block0_6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v29_0).slice (win0_6.rect t)).set ↔ _
  rw [View.set_slice_whole, Rect.mem_set_unit]
  exact Iff.rfl

/-- Row `r` of the array is in the block of point `r / 5000`. -/
theorem cover0_6 (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have hN : cfg0.N = 20 := N_0
  have hlt : (i 0).val / 5000 < cfg0.N := by rw [hN]; omega
  obtain ⟨-, -, -, -, -, -, -, -, -, -, -, -, e0, e1, -⟩ := index_facts0 ⟨(i 0).val / 5000, hlt⟩
  refine ⟨⟨(i 0).val / 5000, hlt⟩, flush0_6 _, ?_⟩
  rw [mem_block0_6]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 64 ≤ (i 1).val ∧ (i 1).val < win0_6.index ⟨(i 0).val / 5000, hlt⟩ (1 : Fin 2) * 64 + 64
    rw [e1]; omega

/-- Window 6's array after the region holds the hidden activations. -/
theorem final0_6 (c : Dev nD) : (dat0 W c).arrAt 6 cfg0.N = hiddenArr0 W c :=
  (dat0 W c).arrAt_eq_of_cover 6 (hiddenArr0 W c) (fun t _ => flushed0_6 W c t) cover0_6

/-- THE HIDDEN ROWS: entry `(r, q)` of window 6's array after the region. -/
theorem hidden0 (c : Dev nD) (r : Fin 100000) (q : Fin 64) :
    (dat0 W c).arrAt 6 cfg0.N (ix2 r q) = hiddenOf0 W c r q := by
  rw [final0_6]

/-- An entry of the running column sums after the last point is the array's entry it is written back to. -/
theorem sums_entry0 (c : Dev nD) (t : Fin cfg0.N) (h19 : t.val = 19) (j i : S1x64.Idx) (h1 : (i 1).val = (j 1).val) :
    (outs0 W c t.val t.isLt).2.1 j = colSumArr0 W c i := by
  obtain ⟨p, q, rfl⟩ : ∃ (p : Fin 1) (q : Fin 64), j = ix2 p q := ⟨j 0, j 1, eq_ix2 j⟩
  obtain rfl : p = 0 := Subsingleton.elim _ _
  obtain ⟨n, hn⟩ := t
  obtain rfl : n = 19 := h19
  refine (sums_total0 W c q hn).trans ?_
  show Cert.LayerSpec.colSum (hiddenOf0 W c) _ = Cert.LayerSpec.colSum (hiddenOf0 W c) _
  congr 1
  exact Fin.ext h1.symm

/-- The same for the running column sums of squares. -/
theorem squares_entry0 (c : Dev nD) (t : Fin cfg0.N) (h19 : t.val = 19) (j i : S1x64.Idx) (h1 : (i 1).val = (j 1).val) :
    (outs0 W c t.val t.isLt).2.2 j = colSumSqArr0 W c i := by
  obtain ⟨p, q, rfl⟩ : ∃ (p : Fin 1) (q : Fin 64), j = ix2 p q := ⟨j 0, j 1, eq_ix2 j⟩
  obtain rfl : p = 0 := Subsingleton.elim _ _
  obtain ⟨n, hn⟩ := t
  obtain rfl : n = 19 := h19
  refine (squares_total0 W c q hn).trans ?_
  show Cert.LayerSpec.colSumSq (hiddenOf0 W c) _ = Cert.LayerSpec.colSumSq (hiddenOf0 W c) _
  congr 1
  exact Fin.ext h1.symm

/-- What the one flushing point (the last) writes back of window 7 is the column sums. -/
theorem flushed0_7 (c : Dev nD) (t : Fin cfg0.N) (hf : (cfg0.win 7).flush t = true) :
    (dat0 W c).flushed 7 t = ((cfg0.win 7).blk t).view.read (Elt Ideal) (colSumArr0 W c) := by
  have hN : t.val < 20 := lt_of_lt_of_eq t.isLt (show cfg0.N = 20 from N_0)
  have h19 : t.val = 19 := by have := (flush0_7 t).mp hf; omega
  obtain ⟨-, -, -, -, -, -, -, -, -, -, -, -, -, -, e0, e1, -⟩ := index_facts0 t
  show (cfg0.win 7).cut (grid0.coords t) ((dat0 W c).after 7 t) = _
  rw [after0_7]
  funext j
  show (outs0 W c t.val t.isLt).2.1 j = _
  rw [View.read_apply, cast_eq]
  exact sums_entry0 W c t h19 j (((cfg0.win 7).blk t).view.emb j)
    (by show win0_7.index t (1 : Fin 2) * 64 + 1 * (j 1).val = (j 1).val; rw [e1]; omega)

/-- What the one flushing point (the last) writes back of window 8 is the column sums of squares. -/
theorem flushed0_8 (c : Dev nD) (t : Fin cfg0.N) (hf : (cfg0.win 8).flush t = true) :
    (dat0 W c).flushed 8 t = ((cfg0.win 8).blk t).view.read (Elt Ideal) (colSumSqArr0 W c) := by
  have hN : t.val < 20 := lt_of_lt_of_eq t.isLt (show cfg0.N = 20 from N_0)
  have h19 : t.val = 19 := by have := (flush0_8 t).mp hf; omega
  obtain ⟨-, -, -, -, -, -, -, -, -, -, -, -, -, -, -, -, e0, e1⟩ := index_facts0 t
  show (cfg0.win 8).cut (grid0.coords t) ((dat0 W c).after 8 t) = _
  rw [after0_8]
  funext j
  show (outs0 W c t.val t.isLt).2.2 j = _
  rw [View.read_apply, cast_eq]
  exact squares_entry0 W c t h19 j (((cfg0.win 8).blk t).view.emb j)
    (by show win0_8.index t (1 : Fin 2) * 64 + 1 * (j 1).val = (j 1).val; rw [e1]; omega)

/-- The last point's block of window 7 is the whole `[1,64]` array. -/
theorem cover0_7 (i : S1x64.Idx) :
    ∃ t : Fin cfg0.N, (cfg0.win 7).flush t = true ∧ i ∈ ((cfg0.win 7).blk t).view.set := by
  have hi0 : (i 0).val < 1 := idx2_lt0 i
  have hi1 : (i 1).val < 64 := idx2_lt1 i
  have hlt : 19 < cfg0.N := by rw [show cfg0.N = 20 from N_0]; norm_num
  obtain ⟨-, -, -, -, -, -, -, -, -, -, -, -, -, -, e0, e1, -⟩ := index_facts0 ⟨19, hlt⟩
  refine ⟨⟨19, hlt⟩, (flush0_7 _).mpr rfl, ?_⟩
  show i ∈ ((View.whole main_v29_1).slice (win0_7.rect ⟨19, hlt⟩)).set
  rw [View.set_slice_whole, Rect.mem_set_unit]
  intro a
  match a with
  | ⟨0, _⟩ =>
    show win0_7.index ⟨19, hlt⟩ (0 : Fin 2) * 1 ≤ (i 0).val ∧ (i 0).val < win0_7.index ⟨19, hlt⟩ (0 : Fin 2) * 1 + 1
    rw [e0]; omega
  | ⟨1, _⟩ =>
    show win0_7.index ⟨19, hlt⟩ (1 : Fin 2) * 64 ≤ (i 1).val ∧ (i 1).val < win0_7.index ⟨19, hlt⟩ (1 : Fin 2) * 64 + 64
    rw [e1]; omega

/-- The last point's block of window 8 is the whole `[1,64]` array. -/
theorem cover0_8 (i : S1x64.Idx) :
    ∃ t : Fin cfg0.N, (cfg0.win 8).flush t = true ∧ i ∈ ((cfg0.win 8).blk t).view.set := by
  have hi0 : (i 0).val < 1 := idx2_lt0 i
  have hi1 : (i 1).val < 64 := idx2_lt1 i
  have hlt : 19 < cfg0.N := by rw [show cfg0.N = 20 from N_0]; norm_num
  obtain ⟨-, -, -, -, -, -, -, -, -, -, -, -, -, -, -, -, e0, e1⟩ := index_facts0 ⟨19, hlt⟩
  refine ⟨⟨19, hlt⟩, (flush0_8 _).mpr rfl, ?_⟩
  show i ∈ ((View.whole main_v29_2).slice (win0_8.rect ⟨19, hlt⟩)).set
  rw [View.set_slice_whole, Rect.mem_set_unit]
  intro a
  match a with
  | ⟨0, _⟩ =>
    show win0_8.index ⟨19, hlt⟩ (0 : Fin 2) * 1 ≤ (i 0).val ∧ (i 0).val < win0_8.index ⟨19, hlt⟩ (0 : Fin 2) * 1 + 1
    rw [e0]; omega
  | ⟨1, _⟩ =>
    show win0_8.index ⟨19, hlt⟩ (1 : Fin 2) * 64 ≤ (i 1).val ∧ (i 1).val < win0_8.index ⟨19, hlt⟩ (1 : Fin 2) * 64 + 64
    rw [e1]; omega

/-- Window 7's array after the region holds the column sums. -/
theorem final0_7 (c : Dev nD) : (dat0 W c).arrAt 7 cfg0.N = colSumArr0 W c :=
  (dat0 W c).arrAt_eq_of_cover 7 (colSumArr0 W c) (flushed0_7 W c) cover0_7

/-- Window 8's array after the region holds the column sums of squares. -/
theorem final0_8 (c : Dev nD) : (dat0 W c).arrAt 8 cfg0.N = colSumSqArr0 W c :=
  (dat0 W c).arrAt_eq_of_cover 8 (colSumSqArr0 W c) (flushed0_8 W c) cover0_8

/-- THE COLUMN SUMS: entry `(0, q)` of window 7's array after the region is the sum over all hundred thousand rows of
    column `q` of the hidden activations. -/
theorem colsum0 (c : Dev nD) (q : Fin 64) :
    (dat0 W c).arrAt 7 cfg0.N (ix2 0 q) = Cert.LayerSpec.colSum (hiddenOf0 W c) q := by
  rw [final0_7]

/-- THE COLUMN SUMS OF SQUARES: entry `(0, q)` of window 8's array after the region. -/
theorem colsumsq0 (c : Dev nD) (q : Fin 64) :
    (dat0 W c).arrAt 8 cfg0.N (ix2 0 q) = Cert.LayerSpec.colSumSq (hiddenOf0 W c) q := by
  rw [final0_8]

/-! ## The same, in terms of whatever the six input arrays are known to be -/

/-- THE HIDDEN ROWS after the region, when the arrays of windows 0..5 as the region finds them are `z`, `a`, `w1`,
    `b1`, `w2`, `b2`. -/
theorem hidden0_of (c : Dev nD) {z a : S100000x64.Idx → EReal} {w1 w2 : S64x64.Idx → EReal} {b1 b2 : S1x64.Idx → EReal}
    (hz : W c main_arg0 = z) (ha : W c main_v18 = a) (hw1 : W c main_v20 = w1) (hb1 : W c main_v27 = b1)
    (hw2 : W c main_v24 = w2) (hb2 : W c main_v28 = b2) (r : Fin 100000) (q : Fin 64) :
    (dat0 W c).arrAt 6 cfg0.N (ix2 r q)
      = Cert.LayerSpec.hidden (n := 100000) (d := 64) (fun r k => z (ix2 r k) + a (ix2 r k)) (fun j k => w1 (ix2 j k))
          (fun k => b1 (ix2 0 k)) (fun j k => w2 (ix2 j k)) (fun k => b2 (ix2 0 k)) r q := by
  subst hz ha hw1 hb1 hw2 hb2
  exact hidden0 W c r q

/-- THE COLUMN SUMS after the region, in the same terms. -/
theorem colsum0_of (c : Dev nD) {z a : S100000x64.Idx → EReal} {w1 w2 : S64x64.Idx → EReal} {b1 b2 : S1x64.Idx → EReal}
    (hz : W c main_arg0 = z) (ha : W c main_v18 = a) (hw1 : W c main_v20 = w1) (hb1 : W c main_v27 = b1)
    (hw2 : W c main_v24 = w2) (hb2 : W c main_v28 = b2) (q : Fin 64) :
    (dat0 W c).arrAt 7 cfg0.N (ix2 0 q)
      = Cert.LayerSpec.colSum (Cert.LayerSpec.hidden (n := 100000) (d := 64) (fun r k => z (ix2 r k) + a (ix2 r k))
          (fun j k => w1 (ix2 j k)) (fun k => b1 (ix2 0 k)) (fun j k => w2 (ix2 j k)) (fun k => b2 (ix2 0 k))) q := by
  subst hz ha hw1 hb1 hw2 hb2
  exact colsum0 W c q

/-- THE COLUMN SUMS OF SQUARES after the region, in the same terms. -/
theorem colsumsq0_of (c : Dev nD) {z a : S100000x64.Idx → EReal} {w1 w2 : S64x64.Idx → EReal} {b1 b2 : S1x64.Idx → EReal}
    (hz : W c main_arg0 = z) (ha : W c main_v18 = a) (hw1 : W c main_v20 = w1) (hb1 : W c main_v27 = b1)
    (hw2 : W c main_v24 = w2) (hb2 : W c main_v28 = b2) (q : Fin 64) :
    (dat0 W c).arrAt 8 cfg0.N (ix2 0 q)
      = Cert.LayerSpec.colSumSq (Cert.LayerSpec.hidden (n := 100000) (d := 64) (fun r k => z (ix2 r k) + a (ix2 r k))
          (fun j k => w1 (ix2 j k)) (fun k => b1 (ix2 0 k)) (fun j k => w2 (ix2 j k)) (fun k => b2 (ix2 0 k))) q := by
  subst hz ha hw1 hb1 hw2 hb2
  exact colsumsq0 W c q

end Cert.KernelIdeal.MlpValue

end
-- ==== Proof.KernelIdeal.MlpValue2.lean ====
/-
  The value of layer 1's first kernel region, as whole arrays over the extended reals.

  The region runs the two-layer perceptron over twenty blocks of 5000 rows of the previous layer's node table
  plus its neighbour sums. At each grid point it writes the block's hidden activations back to its rows of a [100000,64] array,
  and keeps two running [1,64] rows — the column sums of the hidden activations and of their squares —, cleared at the first
  point, added to at every point, and written back after the last.

  First, for any float instance: every buffer is loaded whole and stored whole, so what a buffer holds after a point is the
  value of its last store over the input buffers' contents. Then, over the extended reals: row p of a block is row 5000·t + p
  of the array the region finds, so the block's hidden activations are those rows of the whole array's (an affine map and
  max · 0 act on one row at a time); the running rows obey the recursion "zero plus the first block's sum, then plus each
  later block's sum", whose value after the twentieth point is the sum over all hundred thousand rows; and the arrays after
  the region are what the flushing points wrote back: the hidden rows at every point, the two running rows at the last.
  Here the block's column sums leave the body as a [64] vector and are cast to [1,64] as they are added to the running row.
-/
import proofs.«149905_j3221225472297_1_alg».proof.Proof.KernelIdeal.MlpRegion2
import proofs.«149905_j3221225472297_1_alg».proof.Proof.KernelIdeal.PayloadAt
import proofs.«149905_j3221225472297_1_alg».proof.Proof.LayerSpec
import proofs.«149905_j3221225472297_1_alg».proof.Proof.RunningSums
import Idealize.ShloMosaic.Lib.Pipeline.Value

set_option maxRecDepth 16384

noncomputable section

open scoped BigOperators

namespace Cert.KernelIdeal.MlpValue

open Cert.KernelIdeal Cert.KernelIdeal.Gen Cert.KernelIdeal.Hand Cert.KernelIdeal.PayloadAt
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-! ## The stores each case leaves, read as values

Every load of the body reads a whole buffer and every store writes a whole buffer, so what a buffer holds after the
body is the value of its LAST store, over the buffers' contents themselves. At the first point each running row is
stored twice — the zero row, then the zero row read back plus the block's column sums —, at a later point once. -/

/-- The offsets of every access of the body are zero on both axes. -/
theorem zeroOffsets_r2 : (![0, 0] : Fin 2 → Nat) = fun _ => 0 := funext fun a => by fin_cases a <;> rfl

/-- First point, the hidden rows' buffer: the two-layer perceptron of the six input buffers. -/
theorem first_hidden2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i) (x0 x1 : Vec F S5000x64 .f32) (x2 : Vec F S64x64 .f32) (x3 : Vec F S1x64 .f32) (x4 : Vec F S64x64 .f32) (x5 : Vec F S1x64 .f32) :
    View.canon (firstRun2 c i arg1 harg1 arg2 harg2 arg3 harg3 arg4 harg4 arg5 harg5 arg6 harg6 arg7 harg7 arg8 harg8 arg9 harg9 hc x0 x1 x2 x3 x4 x5).1.1 = k2_pay5 x0 x1 x2 x3 x4 x5 := by
  unfold firstRun2
  dsimp only
  sl_unfold_words
  rw [View.canon_unit_zero (S := S5000x64) zeroOffsets_r2]
  simp only [View.readAt_eq_ld, harg1.read_unread, harg2.read_unread, harg3.read_unread, harg4.read_unread, harg5.read_unread, harg6.read_unread,
    View.ld_unit_zero (S := S5000x64) zeroOffsets_r2, View.ld_unit_zero (S := S64x64) zeroOffsets_r2, View.ld_unit_zero (S := S1x64) zeroOffsets_r2]

/-- First point, the running column sums: the zero row (cast to its own shape) plus the block's column sums. -/
theorem first_sums2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i) (x0 x1 : Vec F S5000x64 .f32) (x2 : Vec F S64x64 .f32) (x3 : Vec F S1x64 .f32) (x4 : Vec F S64x64 .f32) (x5 : Vec F S1x64 .f32) :
    View.canon (firstRun2 c i arg1 harg1 arg2 harg2 arg3 harg3 arg4 harg4 arg5 harg5 arg6 harg6 arg7 harg7 arg8 harg8 arg9 harg9 hc x0 x1 x2 x3 x4 x5).1.2.1 = k2_pay1 (k2_pay6 k2_pay3) (k2_pay7 x0 x1 x2 x3 x4 x5) := by
  unfold firstRun2
  dsimp only
  sl_unfold_words
  rw [View.canon_cons_unit_zero (S := S1x64) zeroOffsets_r2, View.readCov_unit_zero (S := S1x64) _ zeroOffsets_r2]
  simp only [View.readAt_eq_ld, harg1.read_unread, harg2.read_unread, harg3.read_unread, harg4.read_unread, harg5.read_unread, harg6.read_unread,
    View.ld_unit_zero (S := S5000x64) zeroOffsets_r2, View.ld_unit_zero (S := S64x64) zeroOffsets_r2, View.ld_unit_zero (S := S1x64) zeroOffsets_r2]

/-- First point, the running column sums of squares: the zero row plus the block's column sums of squares. -/
theorem first_squares2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first2 i) (x0 x1 : Vec F S5000x64 .f32) (x2 : Vec F S64x64 .f32) (x3 : Vec F S1x64 .f32) (x4 : Vec F S64x64 .f32) (x5 : Vec F S1x64 .f32) :
    View.canon (firstRun2 c i arg1 harg1 arg2 harg2 arg3 harg3 arg4 harg4 arg5 harg5 arg6 harg6 arg7 harg7 arg8 harg8 arg9 harg9 hc x0 x1 x2 x3 x4 x5).1.2.2 = k2_pay2 (k2_pay5 x0 x1 x2 x3 x4 x5) k2_pay4 := by
  unfold firstRun2
  dsimp only
  sl_unfold_words
  rw [View.canon_cons_unit_zero (S := S1x64) zeroOffsets_r2, View.readCov_unit_zero (S := S1x64) _ zeroOffsets_r2]
  simp only [View.readAt_eq_ld, harg1.read_unread, harg2.read_unread, harg3.read_unread, harg4.read_unread, harg5.read_unread, harg6.read_unread,
    View.ld_unit_zero (S := S5000x64) zeroOffsets_r2, View.ld_unit_zero (S := S64x64) zeroOffsets_r2, View.ld_unit_zero (S := S1x64) zeroOffsets_r2]

/-- A later point, the hidden rows' buffer: the same function of the six input buffers. -/
theorem later_hidden2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i) (x0 x1 : Vec F S5000x64 .f32) (x2 : Vec F S64x64 .f32) (x3 : Vec F S1x64 .f32) (x4 : Vec F S64x64 .f32) (x5 : Vec F S1x64 .f32) (s q : Vec F S1x64 .f32) :
    View.canon (laterRun2 c i arg1 harg1 arg2 harg2 arg3 harg3 arg4 harg4 arg5 harg5 arg6 harg6 arg7 harg7 arg8 harg8 arg9 harg9 hc x0 x1 x2 x3 x4 x5 s q).1.1 = k2_pay5 x0 x1 x2 x3 x4 x5 := by
  unfold laterRun2
  dsimp only
  sl_unfold_words
  rw [View.canon_unit_zero (S := S5000x64) zeroOffsets_r2]
  simp only [View.readAt_eq_ld, harg1.read_unread, harg2.read_unread, harg3.read_unread, harg4.read_unread, harg5.read_unread, harg6.read_unread, harg8.read_unread, harg9.read_unread,
    View.ld_unit_zero (S := S5000x64) zeroOffsets_r2, View.ld_unit_zero (S := S64x64) zeroOffsets_r2, View.ld_unit_zero (S := S1x64) zeroOffsets_r2]

/-- A later point, the running column sums: the row `s` found there plus the block's column sums. -/
theorem later_sums2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i) (x0 x1 : Vec F S5000x64 .f32) (x2 : Vec F S64x64 .f32) (x3 : Vec F S1x64 .f32) (x4 : Vec F S64x64 .f32) (x5 : Vec F S1x64 .f32) (s q : Vec F S1x64 .f32) :
    View.canon (laterRun2 c i arg1 harg1 arg2 harg2 arg3 harg3 arg4 harg4 arg5 harg5 arg6 harg6 arg7 harg7 arg8 harg8 arg9 harg9 hc x0 x1 x2 x3 x4 x5 s q).1.2.1 = k2_pay1 (k2_pay6 s) (k2_pay7 x0 x1 x2 x3 x4 x5) := by
  unfold laterRun2
  dsimp only
  sl_unfold_words
  rw [View.canon_unit_zero (S := S1x64) zeroOffsets_r2]
  simp only [View.readAt_eq_ld, harg1.read_unread, harg2.read_unread, harg3.read_unread, harg4.read_unread, harg5.read_unread, harg6.read_unread, harg8.read_unread, harg9.read_unread,
    View.ld_unit_zero (S := S5000x64) zeroOffsets_r2, View.ld_unit_zero (S := S64x64) zeroOffsets_r2, View.ld_unit_zero (S := S1x64) zeroOffsets_r2]

/-- A later point, the running column sums of squares: the row `q` found there plus the block's. -/
theorem later_squares2 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first2 i) (x0 x1 : Vec F S5000x64 .f32) (x2 : Vec F S64x64 .f32) (x3 : Vec F S1x64 .f32) (x4 : Vec F S64x64 .f32) (x5 : Vec F S1x64 .f32) (s q : Vec F S1x64 .f32) :
    View.canon (laterRun2 c i arg1 harg1 arg2 harg2 arg3 harg3 arg4 harg4 arg5 harg5 arg6 harg6 arg7 harg7 arg8 harg8 arg9 harg9 hc x0 x1 x2 x3 x4 x5 s q).1.2.2 = k2_pay2 (k2_pay5 x0 x1 x2 x3 x4 x5) q := by
  unfold laterRun2
  dsimp only
  sl_unfold_words
  rw [View.canon_unit_zero (S := S1x64) zeroOffsets_r2]
  simp only [View.readAt_eq_ld, harg1.read_unread, harg2.read_unread, harg3.read_unread, harg4.read_unread, harg5.read_unread, harg6.read_unread, harg8.read_unread, harg9.read_unread,
    View.ld_unit_zero (S := S5000x64) zeroOffsets_r2, View.ld_unit_zero (S := S64x64) zeroOffsets_r2, View.ld_unit_zero (S := S1x64) zeroOffsets_r2]

/-! ## What the outputs hold after a point, as values of the input blocks -/

/-- After the first point: the hidden rows of the block, its column sums on top of the zero row, its column sums of
    squares on top of the zero row. -/
theorem firstAt2_eq (c : Dev nD) (t : Fin cfg2.N) (h0 : t.val % 20 = 0) :
    firstAt2 V c t h0 = (k2_pay5 (iblk2 V c 0 t) (iblk2 V c 1 t) (iblk2 V c 2 t) (iblk2 V c 3 t) (iblk2 V c 4 t) (iblk2 V c 5 t), k2_pay1 (k2_pay6 k2_pay3) (k2_pay7 (iblk2 V c 0 t) (iblk2 V c 1 t) (iblk2 V c 2 t) (iblk2 V c 3 t) (iblk2 V c 4 t) (iblk2 V c 5 t)), k2_pay2 (k2_pay5 (iblk2 V c 0 t) (iblk2 V c 1 t) (iblk2 V c 2 t) (iblk2 V c 3 t) (iblk2 V c 4 t) (iblk2 V c 5 t)) k2_pay4) := by
  unfold firstAt2
  refine Prod.ext ?_ (Prod.ext ?_ ?_)
  · dsimp only
    rw [View.read_writes_eq_canon _ _ _ (cover2_first_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t))]
    exact first_hidden2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t)
  · dsimp only
    rw [View.read_writes_eq_canon _ _ _ (cover2_first_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t))]
    exact first_sums2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t)
  · dsimp only
    rw [View.read_writes_eq_canon _ _ _ (cover2_first_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t))]
    exact first_squares2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((first2_iff t).mpr h0) (iblk2 V c 0 t) (iblk2 V c 1 t) (iblk2 V c 2 t) (iblk2 V c 3 t) (iblk2 V c 4 t) (iblk2 V c 5 t)

/-- After a later point, from the running rows `s`, `q` the point before left: the hidden rows of the block, its
    column sums on top of `s`, its column sums of squares on top of `q`. -/
theorem laterAt2_eq (c : Dev nD) (t : Fin cfg2.N) (h0 : ¬t.val % 20 = 0) (s q : Vec F S1x64 .f32) :
    laterAt2 V c t h0 s q = (k2_pay5 (iblk2 V c 0 t) (iblk2 V c 1 t) (iblk2 V c 2 t) (iblk2 V c 3 t) (iblk2 V c 4 t) (iblk2 V c 5 t), k2_pay1 (k2_pay6 s) (k2_pay7 (iblk2 V c 0 t) (iblk2 V c 1 t) (iblk2 V c 2 t) (iblk2 V c 3 t) (iblk2 V c 4 t) (iblk2 V c 5 t)), k2_pay2 (k2_pay5 (iblk2 V c 0 t) (iblk2 V c 1 t) (iblk2 V c 2 t) (iblk2 V c 3 t) (iblk2 V c 4 t) (iblk2 V c 5 t)) q) := by
  unfold laterAt2
  refine Prod.ext ?_ (Prod.ext ?_ ?_)
  · dsimp only
    rw [View.read_writes_eq_canon _ _ _ (cover2_later_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q)]
    exact later_hidden2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q
  · dsimp only
    rw [View.read_writes_eq_canon _ _ _ (cover2_later_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q)]
    exact later_sums2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q
  · dsimp only
    rw [View.read_writes_eq_canon _ _ _ (cover2_later_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q)]
    exact later_squares2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((first2_iff t).mp h)) (iblk2 V c 0 t) (iblk2 V c 1 t) (iblk2 V c 2 t) (iblk2 V c 3 t) (iblk2 V c 4 t) (iblk2 V c 5 t) s q

/-- The recursion's step: a point after the first continues from what the point before left. -/
theorem outs2_succ (c : Dev nD) (n : ℕ) (hn : n + 1 < cfg2.N) (h0 : ¬(n + 1) % 20 = 0) :
    outs2 V c (n + 1) hn = laterAt2 V c ⟨n + 1, hn⟩ h0 (outs2 V c n (Nat.lt_of_succ_lt hn)).2.1 (outs2 V c n (Nat.lt_of_succ_lt hn)).2.2 :=
  dif_neg h0

/-! ## The input blocks, read at an entry

Over the extended reals. The two row-block windows (0 and 1) are at block index `(t, 0)` at point `t`, so row `p` of
their block is row `5000·t + p` of their array; the four parameter windows (2..5) stay at block index `(0, 0)`, and
their block is their whole array. -/

/-- The windows' index maps, decided over the twenty grid points. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

variable (W : (c : Dev nD) → (b : Ref sig .tc) → Buf (Elt Ideal) ((c : Thread nD τ).loc b))

/-- The arrays of the six input windows as the region finds them, at their literal shapes. -/
abbrev in2_0 (c : Dev nD) : S100000x64.Idx → EReal := W c main_v45
abbrev in2_1 (c : Dev nD) : S100000x64.Idx → EReal := W c main_v60
abbrev in2_2 (c : Dev nD) : S64x64.Idx → EReal := W c main_v62
abbrev in2_3 (c : Dev nD) : S1x64.Idx → EReal := W c main_v69
abbrev in2_4 (c : Dev nD) : S64x64.Idx → EReal := W c main_v66
abbrev in2_5 (c : Dev nD) : S1x64.Idx → EReal := W c main_v70

/-- Row `p` of window 0's block at point `t` is row `5000·t + p` of its array. -/
theorem block2_0_at (c : Dev nD) (t : Fin cfg2.N) (T : ℕ) (hT : T < 20) (ht : t.val = T) (p : Fin 5000) (k : Fin 64) :
    (iblk2 W c 0 t : Vec Ideal S5000x64 .f32) (ix2 p k)
      = in2_0 W c (ix2 ⟨T * 5000 + p.val, by omega⟩ k) := by
  obtain ⟨e0, e1, -⟩ := index_facts2 t
  show W c main_v45 (((cfg2.win 0).blk t).view.emb (ix2 p k)) = _
  refine congrArg (W c main_v45) (funext fun a => Fin.ext ?_)
  match a with
  | ⟨0, _⟩ => show win2_0.index t (0 : Fin 2) * 5000 + 1 * p.val = T * 5000 + p.val; rw [e0, ht]; omega
  | ⟨1, _⟩ => show win2_0.index t (1 : Fin 2) * 64 + 1 * k.val = k.val; rw [e1]; omega

/-- Row `p` of window 1's block at point `t` is row `5000·t + p` of its array. -/
theorem block2_1_at (c : Dev nD) (t : Fin cfg2.N) (T : ℕ) (hT : T < 20) (ht : t.val = T) (p : Fin 5000) (k : Fin 64) :
    (iblk2 W c 1 t : Vec Ideal S5000x64 .f32) (ix2 p k)
      = in2_1 W c (ix2 ⟨T * 5000 + p.val, by omega⟩ k) := by
  obtain ⟨-, -, e0, e1, -⟩ := index_facts2 t
  show W c main_v60 (((cfg2.win 1).blk t).view.emb (ix2 p k)) = _
  refine congrArg (W c main_v60) (funext fun a => Fin.ext ?_)
  match a with
  | ⟨0, _⟩ => show win2_1.index t (0 : Fin 2) * 5000 + 1 * p.val = T * 5000 + p.val; rw [e0, ht]; omega
  | ⟨1, _⟩ => show win2_1.index t (1 : Fin 2) * 64 + 1 * k.val = k.val; rw [e1]; omega

/-- Window 2's block is its whole array. -/
theorem block2_2_at (c : Dev nD) (t : Fin cfg2.N) (j k : Fin 64) :
    (iblk2 W c 2 t : Vec Ideal S64x64 .f32) (ix2 j k) = in2_2 W c (ix2 j k) := by
  obtain ⟨-, -, -, -, e0, e1, -⟩ := index_facts2 t
  show W c main_v62 (((cfg2.win 2).blk t).view.emb (ix2 j k)) = _
  refine congrArg (W c main_v62) (funext fun a => Fin.ext ?_)
  match a with
  | ⟨0, _⟩ => show win2_2.index t (0 : Fin 2) * 64 + 1 * j.val = j.val; rw [e0]; omega
  | ⟨1, _⟩ => show win2_2.index t (1 : Fin 2) * 64 + 1 * k.val = k.val; rw [e1]; omega

/-- Window 3's block is its whole array. -/
theorem block2_3_at (c : Dev nD) (t : Fin cfg2.N) (k : Fin 64) :
    (iblk2 W c 3 t : Vec Ideal S1x64 .f32) (ix2 0 k) = in2_3 W c (ix2 0 k) := by
  obtain ⟨-, -, -, -, -, -, e0, e1, -⟩ := index_facts2 t
  show W c main_v69 (((cfg2.win 3).blk t).view.emb (ix2 0 k)) = _
  refine congrArg (W c main_v69) (funext fun a => Fin.ext ?_)
  match a with
  | ⟨0, _⟩ => show win2_3.index t (0 : Fin 2) * 1 + 1 * 0 = 0; rw [e0]
  | ⟨1, _⟩ => show win2_3.index t (1 : Fin 2) * 64 + 1 * k.val = k.val; rw [e1]; omega

/-- Window 4's block is its whole array. -/
theorem block2_4_at (c : Dev nD) (t : Fin cfg2.N) (j k : Fin 64) :
    (iblk2 W c 4 t : Vec Ideal S64x64 .f32) (ix2 j k) = in2_4 W c (ix2 j k) := by
  obtain ⟨-, -, -, -, -, -, -, -, e0, e1, -⟩ := index_facts2 t
  show W c main_v66 (((cfg2.win 4).blk t).view.emb (ix2 j k)) = _
  refine congrArg (W c main_v66) (funext fun a => Fin.ext ?_)
  match a with
  | ⟨0, _⟩ => show win2_4.index t (0 : Fin 2) * 64 + 1 * j.val = j.val; rw [e0]; omega
  | ⟨1, _⟩ => show win2_4.index t (1 : Fin 2) * 64 + 1 * k.val = k.val; rw [e1]; omega

/-- Window 5's block is its whole array. -/
theorem block2_5_at (c : Dev nD) (t : Fin cfg2.N) (k : Fin 64) :
    (iblk2 W c 5 t : Vec Ideal S1x64 .f32) (ix2 0 k) = in2_5 W c (ix2 0 k) := by
  obtain ⟨-, -, -, -, -, -, -, -, -, -, e0, e1, -⟩ := index_facts2 t
  show W c main_v70 (((cfg2.win 5).blk t).view.emb (ix2 0 k)) = _
  refine congrArg (W c main_v70) (funext fun a => Fin.ext ?_)
  match a with
  | ⟨0, _⟩ => show win2_5.index t (0 : Fin 2) * 1 + 1 * 0 = 0; rw [e0]
  | ⟨1, _⟩ => show win2_5.index t (1 : Fin 2) * 64 + 1 * k.val = k.val; rw [e1]; omega

/-! ## The hidden activations of a block are the block's rows of the whole array's -/

/-- The layer's hidden activations over all hundred thousand rows, from the arrays the region finds: the two-layer
    perceptron (each layer followed by `max · 0`) of the sum of windows 0 and 1's arrays, with the weights and biases
    of windows 2..5. -/
abbrev hiddenOf2 (c : Dev nD) : Fin 100000 → Fin 64 → EReal :=
  Cert.LayerSpec.hidden (n := 100000) (d := 64)
    (fun r k => in2_0 W c (ix2 r k) + in2_1 W c (ix2 r k))
    (fun j k => in2_2 W c (ix2 j k)) (fun k => in2_3 W c (ix2 0 k))
    (fun j k => in2_4 W c (ix2 j k)) (fun k => in2_5 W c (ix2 0 k))

/-- Row `p` of the hidden activations of point `t`'s block is row `5000·t + p` of the whole array's: an affine map
    and `max · 0` read one row at a time. -/
theorem hidden_block2 (c : Dev nD) (t : Fin cfg2.N) (T : ℕ) (hT : T < 20) (ht : t.val = T) (p : Fin 5000) (q : Fin 64) :
    k2_pay5 (F := Ideal) (iblk2 W c 0 t) (iblk2 W c 1 t) (iblk2 W c 2 t) (iblk2 W c 3 t) (iblk2 W c 4 t) (iblk2 W c 5 t) (ix2 p q) = hiddenOf2 W c ⟨T * 5000 + p.val, by omega⟩ q := by
  refine (hidden_at_k2 (iblk2 W c 0 t) (iblk2 W c 1 t) (iblk2 W c 2 t) (iblk2 W c 3 t) (iblk2 W c 4 t) (iblk2 W c 5 t) p q).trans ?_
  simp only [Cert.LayerSpec.hidden, Cert.LayerSpec.relu, Cert.LayerSpec.affine, block2_0_at W c t T hT ht, block2_1_at W c t T hT ht,
    block2_2_at W c t, block2_3_at W c t, block2_4_at W c t, block2_5_at W c t]

/-- One point's contribution to the running column sums, on top of the row `s` it finds. -/
theorem sums_step2 (x0 x1 : Vec Ideal S5000x64 .f32) (x2 : Vec Ideal S64x64 .f32) (x3 : Vec Ideal S1x64 .f32) (x4 : Vec Ideal S64x64 .f32) (x5 : Vec Ideal S1x64 .f32) (s : Vec Ideal S1x64 .f32) (q : Fin 64) :
    k2_pay1 (F := Ideal) (k2_pay6 s) (k2_pay7 x0 x1 x2 x3 x4 x5) (ix2 0 q)
      = s (ix2 0 q) + ∑ r : Fin 5000, k2_pay5 (F := Ideal) x0 x1 x2 x3 x4 x5 (ix2 r q) := by
  rw [accumulate_at_k2, carried_eq_k2, colsum_at_k2]

/-! ## The running rows, point by point -/

/-- After the first point the running column sum of column `q` is zero plus the first block's. -/
theorem sums_first2 (c : Dev nD) (q : Fin 64) (h : 0 < cfg2.N) :
    (outs2 W c 0 h).2.1 (ix2 0 q) = 0 + ∑ r : Fin 5000, hiddenOf2 W c ⟨0 * 5000 + r.val, by omega⟩ q := by
  have e : outs2 W c 0 h = firstAt2 W c ⟨0, h⟩ (Nat.zero_mod _) := rfl
  rw [e, firstAt2_eq]
  refine (sums_step2 (iblk2 W c 0 ⟨0, h⟩) (iblk2 W c 1 ⟨0, h⟩) (iblk2 W c 2 ⟨0, h⟩) (iblk2 W c 3 ⟨0, h⟩) (iblk2 W c 4 ⟨0, h⟩) (iblk2 W c 5 ⟨0, h⟩) (k2_pay3 (F := Ideal)) q).trans ?_
  rw [zero_at_k2]
  exact congrArg (0 + ·) (Finset.sum_congr rfl fun r _ => hidden_block2 W c ⟨0, h⟩ 0 (by norm_num) rfl r q)

/-- After a later point it is what the point before left plus this block's. -/
theorem sums_next2 (c : Dev nD) (q : Fin 64) (n : ℕ) (hn : n + 1 < 20) (h : n + 1 < cfg2.N) :
    (outs2 W c (n + 1) h).2.1 (ix2 0 q)
      = (outs2 W c n (Nat.lt_of_succ_lt h)).2.1 (ix2 0 q) + ∑ r : Fin 5000, hiddenOf2 W c ⟨(n + 1) * 5000 + r.val, by omega⟩ q := by
  have h0 : ¬(n + 1) % 20 = 0 := by omega
  rw [outs2_succ W c n h h0, laterAt2_eq]
  refine (sums_step2 (iblk2 W c 0 ⟨n + 1, h⟩) (iblk2 W c 1 ⟨n + 1, h⟩) (iblk2 W c 2 ⟨n + 1, h⟩) (iblk2 W c 3 ⟨n + 1, h⟩) (iblk2 W c 4 ⟨n + 1, h⟩) (iblk2 W c 5 ⟨n + 1, h⟩) _ q).trans ?_
  exact congrArg (_ + ·) (Finset.sum_congr rfl fun r _ => hidden_block2 W c ⟨n + 1, h⟩ (n + 1) hn rfl r q)

/-- After the first point the running column sum of squares of column `q` is zero plus the first block's. -/
theorem squares_first2 (c : Dev nD) (q : Fin 64) (h : 0 < cfg2.N) :
    (outs2 W c 0 h).2.2 (ix2 0 q)
      = 0 + ∑ r : Fin 5000, hiddenOf2 W c ⟨0 * 5000 + r.val, by omega⟩ q * hiddenOf2 W c ⟨0 * 5000 + r.val, by omega⟩ q := by
  have e : outs2 W c 0 h = firstAt2 W c ⟨0, h⟩ (Nat.zero_mod _) := rfl
  rw [e, firstAt2_eq]
  refine (sumsq_at_k2 (k2_pay5 (F := Ideal) (iblk2 W c 0 ⟨0, h⟩) (iblk2 W c 1 ⟨0, h⟩) (iblk2 W c 2 ⟨0, h⟩) (iblk2 W c 3 ⟨0, h⟩) (iblk2 W c 4 ⟨0, h⟩) (iblk2 W c 5 ⟨0, h⟩)) (k2_pay4 (F := Ideal)) q).trans ?_
  rw [zero_sq_at_k2]
  exact congrArg (0 + ·) (Finset.sum_congr rfl fun r _ => by rw [hidden_block2 W c ⟨0, h⟩ 0 (by norm_num) rfl r q])

/-- After a later point it is what the point before left plus this block's. -/
theorem squares_next2 (c : Dev nD) (q : Fin 64) (n : ℕ) (hn : n + 1 < 20) (h : n + 1 < cfg2.N) :
    (outs2 W c (n + 1) h).2.2 (ix2 0 q)
      = (outs2 W c n (Nat.lt_of_succ_lt h)).2.2 (ix2 0 q)
        + ∑ r : Fin 5000, hiddenOf2 W c ⟨(n + 1) * 5000 + r.val, by omega⟩ q * hiddenOf2 W c ⟨(n + 1) * 5000 + r.val, by omega⟩ q := by
  have h0 : ¬(n + 1) % 20 = 0 := by omega
  rw [outs2_succ W c n h h0, laterAt2_eq]
  refine (sumsq_at_k2 (k2_pay5 (F := Ideal) (iblk2 W c 0 ⟨n + 1, h⟩) (iblk2 W c 1 ⟨n + 1, h⟩) (iblk2 W c 2 ⟨n + 1, h⟩) (iblk2 W c 3 ⟨n + 1, h⟩) (iblk2 W c 4 ⟨n + 1, h⟩) (iblk2 W c 5 ⟨n + 1, h⟩)) _ q).trans ?_
  exact congrArg (_ + ·) (Finset.sum_congr rfl fun r _ => by rw [hidden_block2 W c ⟨n + 1, h⟩ (n + 1) hn rfl r q])

/-- After the last point the running column sum is the column's sum over all hundred thousand rows. -/
theorem sums_total2 (c : Dev nD) (q : Fin 64) (h : 19 < cfg2.N) :
    (outs2 W c 19 h).2.1 (ix2 0 q) = Cert.LayerSpec.colSum (hiddenOf2 W c) q := by
  have hN : cfg2.N = 20 := N_2
  have key := Cert.RunningSums.blocks_total (fun i => hiddenOf2 W c i q)
    (fun n => if hn : n < cfg2.N then (outs2 W c n hn).2.1 (ix2 0 q) else 0)
    (by rw [dif_pos (by omega : 0 < cfg2.N)]; exact sums_first2 W c q _)
    (fun t ht => by
      rw [dif_pos (by omega : t + 1 < cfg2.N), dif_pos (by omega : t < cfg2.N)]
      exact sums_next2 W c q t ht _)
  rw [dif_pos h] at key
  exact key

/-- After the last point the running column sum of squares is the sum of the column's squares over all rows. -/
theorem squares_total2 (c : Dev nD) (q : Fin 64) (h : 19 < cfg2.N) :
    (outs2 W c 19 h).2.2 (ix2 0 q) = Cert.LayerSpec.colSumSq (hiddenOf2 W c) q := by
  have hN : cfg2.N = 20 := N_2
  have key := Cert.RunningSums.blocks_total (fun i => hiddenOf2 W c i q * hiddenOf2 W c i q)
    (fun n => if hn : n < cfg2.N then (outs2 W c n hn).2.2 (ix2 0 q) else 0)
    (by rw [dif_pos (by omega : 0 < cfg2.N)]; exact squares_first2 W c q _)
    (fun t ht => by
      rw [dif_pos (by omega : t + 1 < cfg2.N), dif_pos (by omega : t < cfg2.N)]
      exact squares_next2 W c q t ht _)
  rw [dif_pos h] at key
  exact key

/-! ## From the points' write-backs to the arrays after the region

Window 6 (the hidden rows) is written back at every point, block `t` of its array at point `t`; the twenty blocks
tile the array. Windows 7 and 8 (the running rows) are written back at the last point only, and their one block is
their whole array. -/

/-- The hidden activations as an array, index by index. -/
abbrev hiddenArr2 (c : Dev nD) : S100000x64.Idx → EReal :=
  fun i => hiddenOf2 W c ⟨(i 0).val, idx2_lt0 i⟩ ⟨(i 1).val, idx2_lt1 i⟩

/-- The column sums as a `[1,64]` array. -/
abbrev colSumArr2 (c : Dev nD) : S1x64.Idx → EReal :=
  fun i => Cert.LayerSpec.colSum (hiddenOf2 W c) ⟨(i 1).val, idx2_lt1 i⟩

/-- The column sums of squares as a `[1,64]` array. -/
abbrev colSumSqArr2 (c : Dev nD) : S1x64.Idx → EReal :=
  fun i => Cert.LayerSpec.colSumSq (hiddenOf2 W c) ⟨(i 1).val, idx2_lt1 i⟩

/-- An entry of point `t`'s block of hidden rows is the array's entry it is written back to. -/
theorem hidden_entry2 (c : Dev nD) (t : Fin cfg2.N) (T : ℕ) (hT : T < 20) (ht : t.val = T) (j : S5000x64.Idx) (i : S100000x64.Idx)
    (h0 : (i 0).val = T * 5000 + (j 0).val) (h1 : (i 1).val = (j 1).val) :
    k2_pay5 (F := Ideal) (iblk2 W c 0 t) (iblk2 W c 1 t) (iblk2 W c 2 t) (iblk2 W c 3 t) (iblk2 W c 4 t) (iblk2 W c 5 t) j = hiddenArr2 W c i := by
  obtain ⟨p, q, rfl⟩ : ∃ (p : Fin 5000) (q : Fin 64), j = ix2 p q := ⟨j 0, j 1, eq_ix2 j⟩
  refine (hidden_block2 W c t T hT ht p q).trans ?_
  show hiddenOf2 W c _ _ = hiddenOf2 W c _ _
  congr 1
  · exact Fin.ext h0.symm
  · exact Fin.ext h1.symm

/-- What point `t` writes back of window 6 is block `t` of the hidden activations. -/
theorem flushed2_6 (c : Dev nD) (t : Fin cfg2.N) :
    (dat2 W c).flushed 6 t = ((cfg2.win 6).blk t).view.read (Elt Ideal) (hiddenArr2 W c) := by
  have hN : t.val < 20 := lt_of_lt_of_eq t.isLt (show cfg2.N = 20 from N_2)
  obtain ⟨-, -, -, -, -, -, -, -, -, -, -, -, e0, e1, -⟩ := index_facts2 t
  show (cfg2.win 6).cut (grid2.coords t) ((dat2 W c).after 6 t) = _
  rw [after2_6]
  have hb : (outs2 W c t.val t.isLt).1 = k2_pay5 (F := Ideal) (iblk2 W c 0 t) (iblk2 W c 1 t) (iblk2 W c 2 t) (iblk2 W c 3 t) (iblk2 W c 4 t) (iblk2 W c 5 t) := by
    by_cases h0 : t.val % 20 = 0
    · rw [outs2_first W c t h0, firstAt2_eq]
    · rw [outs2_later W c t h0, laterAt2_eq]
  rw [hb]
  funext j
  exact hidden_entry2 W c t t.val hN rfl j (((cfg2.win 6).blk t).view.emb j)
    (by show win2_6.index t (0 : Fin 2) * 5000 + 1 * (j 0).val = t.val * 5000 + (j 0).val; rw [e0]; omega)
    (by show win2_6.index t (1 : Fin 2) * 64 + 1 * (j 1).val = (j 1).val; rw [e1]; omega)

/-- An index of window 6's array is in point `t`'s block iff each coordinate is in the block's range on its axis. -/
theorem mem_block2_6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v71_0).slice (win2_6.rect t)).set ↔ _
  rw [View.set_slice_whole, Rect.mem_set_unit]
  exact Iff.rfl

/-- Row `r` of the array is in the block of point `r / 5000`. -/
theorem cover2_6 (i : S100000x64.Idx) :
    ∃ t : Fin cfg2.N, (cfg2.win 6).flush t = true ∧ i ∈ ((cfg2.win 6).blk t).view.set := by
  have hi0 : (i 0).val < 100000 := idx2_lt0 i
  have hi1 : (i 1).val < 64 := idx2_lt1 i
  have hN : cfg2.N = 20 := N_2
  have hlt : (i 0).val / 5000 < cfg2.N := by rw [hN]; omega
  obtain ⟨-, -, -, -, -, -, -, -, -, -, -, -, e0, e1, -⟩ := index_facts2 ⟨(i 0).val / 5000, hlt⟩
  refine ⟨⟨(i 0).val / 5000, hlt⟩, flush2_6 _, ?_⟩
  rw [mem_block2_6]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 64 ≤ (i 1).val ∧ (i 1).val < win2_6.index ⟨(i 0).val / 5000, hlt⟩ (1 : Fin 2) * 64 + 64
    rw [e1]; omega

/-- Window 6's array after the region holds the hidden activations. -/
theorem final2_6 (c : Dev nD) : (dat2 W c).arrAt 6 cfg2.N = hiddenArr2 W c :=
  (dat2 W c).arrAt_eq_of_cover 6 (hiddenArr2 W c) (fun t _ => flushed2_6 W c t) cover2_6

/-- THE HIDDEN ROWS: entry `(r, q)` of window 6's array after the region. -/
theorem hidden2 (c : Dev nD) (r : Fin 100000) (q : Fin 64) :
    (dat2 W c).arrAt 6 cfg2.N (ix2 r q) = hiddenOf2 W c r q := by
  rw [final2_6]

/-- An entry of the running column sums after the last point is the array's entry it is written back to. -/
theorem sums_entry2 (c : Dev nD) (t : Fin cfg2.N) (h19 : t.val = 19) (j i : S1x64.Idx) (h1 : (i 1).val = (j 1).val) :
    (outs2 W c t.val t.isLt).2.1 j = colSumArr2 W c i := by
  obtain ⟨p, q, rfl⟩ : ∃ (p : Fin 1) (q : Fin 64), j = ix2 p q := ⟨j 0, j 1, eq_ix2 j⟩
  obtain rfl : p = 0 := Subsingleton.elim _ _
  obtain ⟨n, hn⟩ := t
  obtain rfl : n = 19 := h19
  refine (sums_total2 W c q hn).trans ?_
  show Cert.LayerSpec.colSum (hiddenOf2 W c) _ = Cert.LayerSpec.colSum (hiddenOf2 W c) _
  congr 1
  exact Fin.ext h1.symm

/-- The same for the running column sums of squares. -/
theorem squares_entry2 (c : Dev nD) (t : Fin cfg2.N) (h19 : t.val = 19) (j i : S1x64.Idx) (h1 : (i 1).val = (j 1).val) :
    (outs2 W c t.val t.isLt).2.2 j = colSumSqArr2 W c i := by
  obtain ⟨p, q, rfl⟩ : ∃ (p : Fin 1) (q : Fin 64), j = ix2 p q := ⟨j 0, j 1, eq_ix2 j⟩
  obtain rfl : p = 0 := Subsingleton.elim _ _
  obtain ⟨n, hn⟩ := t
  obtain rfl : n = 19 := h19
  refine (squares_total2 W c q hn).trans ?_
  show Cert.LayerSpec.colSumSq (hiddenOf2 W c) _ = Cert.LayerSpec.colSumSq (hiddenOf2 W c) _
  congr 1
  exact Fin.ext h1.symm

/-- What the one flushing point (the last) writes back of window 7 is the column sums. -/
theorem flushed2_7 (c : Dev nD) (t : Fin cfg2.N) (hf : (cfg2.win 7).flush t = true) :
    (dat2 W c).flushed 7 t = ((cfg2.win 7).blk t).view.read (Elt Ideal) (colSumArr2 W c) := by
  have hN : t.val < 20 := lt_of_lt_of_eq t.isLt (show cfg2.N = 20 from N_2)
  have h19 : t.val = 19 := by have := (flush2_7 t).mp hf; omega
  obtain ⟨-, -, -, -, -, -, -, -, -, -, -, -, -, -, e0, e1, -⟩ := index_facts2 t
  show (cfg2.win 7).cut (grid2.coords t) ((dat2 W c).after 7 t) = _
  rw [after2_7]
  have hcut : ∀ X : Vec Ideal S1x64 .f32, (cfg2.win 7).cut (grid2.coords t) X = X := fun X => rfl
  have hread : ∀ G : S1x64.Idx → EReal, ((cfg2.win 7).blk t).view.read (Elt Ideal) G = fun j => G (((cfg2.win 7).blk t).view.emb j) :=
    fun _ => rfl
  funext j
  exact ((congrFun (hcut _) j).trans (sums_entry2 W c t h19 j (((cfg2.win 7).blk t).view.emb j)
    (by show win2_7.index t (1 : Fin 2) * 64 + 1 * (j 1).val = (j 1).val; rw [e1]; omega))).trans
      (congrFun (hread (colSumArr2 W c)) j).symm

/-- What the one flushing point (the last) writes back of window 8 is the column sums of squares. -/
theorem flushed2_8 (c : Dev nD) (t : Fin cfg2.N) (hf : (cfg2.win 8).flush t = true) :
    (dat2 W c).flushed 8 t = ((cfg2.win 8).blk t).view.read (Elt Ideal) (colSumSqArr2 W c) := by
  have hN : t.val < 20 := lt_of_lt_of_eq t.isLt (show cfg2.N = 20 from N_2)
  have h19 : t.val = 19 := by have := (flush2_8 t).mp hf; omega
  obtain ⟨-, -, -, -, -, -, -, -, -, -, -, -, -, -, -, -, e0, e1⟩ := index_facts2 t
  show (cfg2.win 8).cut (grid2.coords t) ((dat2 W c).after 8 t) = _
  rw [after2_8]
  have hcut : ∀ X : Vec Ideal S1x64 .f32, (cfg2.win 8).cut (grid2.coords t) X = X := fun X => rfl
  have hread : ∀ G : S1x64.Idx → EReal, ((cfg2.win 8).blk t).view.read (Elt Ideal) G = fun j => G (((cfg2.win 8).blk t).view.emb j) :=
    fun _ => rfl
  funext j
  exact ((congrFun (hcut _) j).trans (squares_entry2 W c t h19 j (((cfg2.win 8).blk t).view.emb j)
    (by show win2_8.index t (1 : Fin 2) * 64 + 1 * (j 1).val = (j 1).val; rw [e1]; omega))).trans
      (congrFun (hread (colSumSqArr2 W c)) j).symm

/-- The last point's block of window 7 is the whole `[1,64]` array. -/
theorem cover2_7 (i : S1x64.Idx) :
    ∃ t : Fin cfg2.N, (cfg2.win 7).flush t = true ∧ i ∈ ((cfg2.win 7).blk t).view.set := by
  have hi0 : (i 0).val < 1 := idx2_lt0 i
  have hi1 : (i 1).val < 64 := idx2_lt1 i
  have hlt : 19 < cfg2.N := by rw [show cfg2.N = 20 from N_2]; norm_num
  obtain ⟨-, -, -, -, -, -, -, -, -, -, -, -, -, -, e0, e1, -⟩ := index_facts2 ⟨19, hlt⟩
  refine ⟨⟨19, hlt⟩, (flush2_7 _).mpr rfl, ?_⟩
  show i ∈ ((View.whole main_v71_1).slice (win2_7.rect ⟨19, hlt⟩)).set
  rw [View.set_slice_whole, Rect.mem_set_unit]
  intro a
  match a with
  | ⟨0, _⟩ =>
    show win2_7.index ⟨19, hlt⟩ (0 : Fin 2) * 1 ≤ (i 0).val ∧ (i 0).val < win2_7.index ⟨19, hlt⟩ (0 : Fin 2) * 1 + 1
    rw [e0]; omega
  | ⟨1, _⟩ =>
    show win2_7.index ⟨19, hlt⟩ (1 : Fin 2) * 64 ≤ (i 1).val ∧ (i 1).val < win2_7.index ⟨19, hlt⟩ (1 : Fin 2) * 64 + 64
    rw [e1]; omega

/-- The last point's block of window 8 is the whole `[1,64]` array. -/
theorem cover2_8 (i : S1x64.Idx) :
    ∃ t : Fin cfg2.N, (cfg2.win 8).flush t = true ∧ i ∈ ((cfg2.win 8).blk t).view.set := by
  have hi0 : (i 0).val < 1 := idx2_lt0 i
  have hi1 : (i 1).val < 64 := idx2_lt1 i
  have hlt : 19 < cfg2.N := by rw [show cfg2.N = 20 from N_2]; norm_num
  obtain ⟨-, -, -, -, -, -, -, -, -, -, -, -, -, -, -, -, e0, e1⟩ := index_facts2 ⟨19, hlt⟩
  refine ⟨⟨19, hlt⟩, (flush2_8 _).mpr rfl, ?_⟩
  show i ∈ ((View.whole main_v71_2).slice (win2_8.rect ⟨19, hlt⟩)).set
  rw [View.set_slice_whole, Rect.mem_set_unit]
  intro a
  match a with
  | ⟨0, _⟩ =>
    show win2_8.index ⟨19, hlt⟩ (0 : Fin 2) * 1 ≤ (i 0).val ∧ (i 0).val < win2_8.index ⟨19, hlt⟩ (0 : Fin 2) * 1 + 1
    rw [e0]; omega
  | ⟨1, _⟩ =>
    show win2_8.index ⟨19, hlt⟩ (1 : Fin 2) * 64 ≤ (i 1).val ∧ (i 1).val < win2_8.index ⟨19, hlt⟩ (1 : Fin 2) * 64 + 64
    rw [e1]; omega

/-- Window 7's array after the region holds the column sums. -/
theorem final2_7 (c : Dev nD) : (dat2 W c).arrAt 7 cfg2.N = colSumArr2 W c :=
  (dat2 W c).arrAt_eq_of_cover 7 (colSumArr2 W c) (flushed2_7 W c) cover2_7

/-- Window 8's array after the region holds the column sums of squares. -/
theorem final2_8 (c : Dev nD) : (dat2 W c).arrAt 8 cfg2.N = colSumSqArr2 W c :=
  (dat2 W c).arrAt_eq_of_cover 8 (colSumSqArr2 W c) (flushed2_8 W c) cover2_8

/-- THE COLUMN SUMS: entry `(0, q)` of window 7's array after the region is the sum over all hundred thousand rows of
    column `q` of the hidden activations. -/
theorem colsum2 (c : Dev nD) (q : Fin 64) :
    (dat2 W c).arrAt 7 cfg2.N (ix2 0 q) = Cert.LayerSpec.colSum (hiddenOf2 W c) q := by
  rw [final2_7]

/-- THE COLUMN SUMS OF SQUARES: entry `(0, q)` of window 8's array after the region. -/
theorem colsumsq2 (c : Dev nD) (q : Fin 64) :
    (dat2 W c).arrAt 8 cfg2.N (ix2 0 q) = Cert.LayerSpec.colSumSq (hiddenOf2 W c) q := by
  rw [final2_8]

/-! ## The three results over named arrays -/

/-- THE HIDDEN ROWS over named arrays: with the six input arrays the region finds called `z a w1 b1 w2 b2`. -/
theorem hidden2_of (c : Dev nD) {z a : S100000x64.Idx → EReal} {w1 w2 : S64x64.Idx → EReal} {b1 b2 : S1x64.Idx → EReal}
    (hz : W c main_v45 = z) (ha : W c main_v60 = a) (hw1 : W c main_v62 = w1) (hb1 : W c main_v69 = b1)
    (hw2 : W c main_v66 = w2) (hb2 : W c main_v70 = b2) (r : Fin 100000) (q : Fin 64) :
    (dat2 W c).arrAt 6 cfg2.N (ix2 r q)
      = Cert.LayerSpec.hidden (n := 100000) (d := 64) (fun r k => z (ix2 r k) + a (ix2 r k)) (fun j k => w1 (ix2 j k))
          (fun k => b1 (ix2 0 k)) (fun j k => w2 (ix2 j k)) (fun k => b2 (ix2 0 k)) r q := by
  subst hz ha hw1 hb1 hw2 hb2
  exact hidden2 W c r q

/-- THE COLUMN SUMS over named arrays. -/
theorem colsum2_of (c : Dev nD) {z a : S100000x64.Idx → EReal} {w1 w2 : S64x64.Idx → EReal} {b1 b2 : S1x64.Idx → EReal}
    (hz : W c main_v45 = z) (ha : W c main_v60 = a) (hw1 : W c main_v62 = w1) (hb1 : W c main_v69 = b1)
    (hw2 : W c main_v66 = w2) (hb2 : W c main_v70 = b2) (q : Fin 64) :
    (dat2 W c).arrAt 7 cfg2.N (ix2 0 q)
      = Cert.LayerSpec.colSum (Cert.LayerSpec.hidden (n := 100000) (d := 64) (fun r k => z (ix2 r k) + a (ix2 r k))
          (fun j k => w1 (ix2 j k)) (fun k => b1 (ix2 0 k)) (fun j k => w2 (ix2 j k)) (fun k => b2 (ix2 0 k))) q := by
  subst hz ha hw1 hb1 hw2 hb2
  exact colsum2 W c q

/-- THE COLUMN SUMS OF SQUARES over named arrays. -/
theorem colsumsq2_of (c : Dev nD) {z a : S100000x64.Idx → EReal} {w1 w2 : S64x64.Idx → EReal} {b1 b2 : S1x64.Idx → EReal}
    (hz : W c main_v45 = z) (ha : W c main_v60 = a) (hw1 : W c main_v62 = w1) (hb1 : W c main_v69 = b1)
    (hw2 : W c main_v66 = w2) (hb2 : W c main_v70 = b2) (q : Fin 64) :
    (dat2 W c).arrAt 8 cfg2.N (ix2 0 q)
      = Cert.LayerSpec.colSumSq (Cert.LayerSpec.hidden (n := 100000) (d := 64) (fun r k => z (ix2 r k) + a (ix2 r k))
          (fun j k => w1 (ix2 j k)) (fun k => b1 (ix2 0 k)) (fun j k => w2 (ix2 j k)) (fun k => b2 (ix2 0 k))) q := by
  subst hz ha hw1 hb1 hw2 hb2
  exact colsumsq2 W c q

end Cert.KernelIdeal.MlpValue

end
-- ==== Proof.KernelIdeal.MlpValue4.lean ====
/-
  The value of layer 2's first kernel region, as whole arrays over the extended reals.

  The region runs the two-layer perceptron over twenty blocks of 5000 rows of the previous layer's node table
  plus its neighbour sums. At each grid point it writes the block's hidden activations back to its rows of a [100000,64] array,
  and keeps two running [1,64] rows — the column sums of the hidden activations and of their squares —, cleared at the first
  point, added to at every point, and written back after the last.

  First, for any float instance: every buffer is loaded whole and stored whole, so what a buffer holds after a point is the
  value of its last store over the input buffers' contents. Then, over the extended reals: row p of a block is row 5000·t + p
  of the array the region finds, so the block's hidden activations are those rows of the whole array's (an affine map and
  max · 0 act on one row at a time); the running rows obey the recursion "zero plus the first block's sum, then plus each
  later block's sum", whose value after the twentieth point is the sum over all hundred thousand rows; and the arrays after
  the region are what the flushing points wrote back: the hidden rows at every point, the two running rows at the last.
  Here the block's column sums leave the body as a [64] vector and are cast to [1,64] as they are added to the running row.
-/
import proofs.«149905_j3221225472297_1_alg».proof.Proof.KernelIdeal.MlpRegion4
import proofs.«149905_j3221225472297_1_alg».proof.Proof.KernelIdeal.PayloadAt
import proofs.«149905_j3221225472297_1_alg».proof.Proof.LayerSpec
import proofs.«149905_j3221225472297_1_alg».proof.Proof.RunningSums
import Idealize.ShloMosaic.Lib.Pipeline.Value

set_option maxRecDepth 16384

noncomputable section

open scoped BigOperators

namespace Cert.KernelIdeal.MlpValue

open Cert.KernelIdeal Cert.KernelIdeal.Gen Cert.KernelIdeal.Hand Cert.KernelIdeal.PayloadAt
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-! ## The stores each case leaves, read as values

Every load of the body reads a whole buffer and every store writes a whole buffer, so what a buffer holds after the
body is the value of its LAST store, over the buffers' contents themselves. At the first point each running row is
stored twice — the zero row, then the zero row read back plus the block's column sums —, at a later point once. -/

/-- The offsets of every access of the body are zero on both axes. -/
theorem zeroOffsets_r4 : (![0, 0] : Fin 2 → Nat) = fun _ => 0 := funext fun a => by fin_cases a <;> rfl

/-- First point, the hidden rows' buffer: the two-layer perceptron of the six input buffers. -/
theorem first_hidden4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i) (x0 x1 : Vec F S5000x64 .f32) (x2 : Vec F S64x64 .f32) (x3 : Vec F S1x64 .f32) (x4 : Vec F S64x64 .f32) (x5 : Vec F S1x64 .f32) :
    View.canon (firstRun4 c i arg1 harg1 arg2 harg2 arg3 harg3 arg4 harg4 arg5 harg5 arg6 harg6 arg7 harg7 arg8 harg8 arg9 harg9 hc x0 x1 x2 x3 x4 x5).1.1 = k4_pay5 x0 x1 x2 x3 x4 x5 := by
  unfold firstRun4
  dsimp only
  sl_unfold_words
  rw [View.canon_unit_zero (S := S5000x64) zeroOffsets_r4]
  simp only [View.readAt_eq_ld, harg1.read_unread, harg2.read_unread, harg3.read_unread, harg4.read_unread, harg5.read_unread, harg6.read_unread,
    View.ld_unit_zero (S := S5000x64) zeroOffsets_r4, View.ld_unit_zero (S := S64x64) zeroOffsets_r4, View.ld_unit_zero (S := S1x64) zeroOffsets_r4]

/-- First point, the running column sums: the zero row (cast to its own shape) plus the block's column sums. -/
theorem first_sums4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i) (x0 x1 : Vec F S5000x64 .f32) (x2 : Vec F S64x64 .f32) (x3 : Vec F S1x64 .f32) (x4 : Vec F S64x64 .f32) (x5 : Vec F S1x64 .f32) :
    View.canon (firstRun4 c i arg1 harg1 arg2 harg2 arg3 harg3 arg4 harg4 arg5 harg5 arg6 harg6 arg7 harg7 arg8 harg8 arg9 harg9 hc x0 x1 x2 x3 x4 x5).1.2.1 = k4_pay1 (k4_pay6 k4_pay3) (k4_pay7 x0 x1 x2 x3 x4 x5) := by
  unfold firstRun4
  dsimp only
  sl_unfold_words
  rw [View.canon_cons_unit_zero (S := S1x64) zeroOffsets_r4, View.readCov_unit_zero (S := S1x64) _ zeroOffsets_r4]
  simp only [View.readAt_eq_ld, harg1.read_unread, harg2.read_unread, harg3.read_unread, harg4.read_unread, harg5.read_unread, harg6.read_unread,
    View.ld_unit_zero (S := S5000x64) zeroOffsets_r4, View.ld_unit_zero (S := S64x64) zeroOffsets_r4, View.ld_unit_zero (S := S1x64) zeroOffsets_r4]

/-- First point, the running column sums of squares: the zero row plus the block's column sums of squares. -/
theorem first_squares4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : first4 i) (x0 x1 : Vec F S5000x64 .f32) (x2 : Vec F S64x64 .f32) (x3 : Vec F S1x64 .f32) (x4 : Vec F S64x64 .f32) (x5 : Vec F S1x64 .f32) :
    View.canon (firstRun4 c i arg1 harg1 arg2 harg2 arg3 harg3 arg4 harg4 arg5 harg5 arg6 harg6 arg7 harg7 arg8 harg8 arg9 harg9 hc x0 x1 x2 x3 x4 x5).1.2.2 = k4_pay2 (k4_pay5 x0 x1 x2 x3 x4 x5) k4_pay4 := by
  unfold firstRun4
  dsimp only
  sl_unfold_words
  rw [View.canon_cons_unit_zero (S := S1x64) zeroOffsets_r4, View.readCov_unit_zero (S := S1x64) _ zeroOffsets_r4]
  simp only [View.readAt_eq_ld, harg1.read_unread, harg2.read_unread, harg3.read_unread, harg4.read_unread, harg5.read_unread, harg6.read_unread,
    View.ld_unit_zero (S := S5000x64) zeroOffsets_r4, View.ld_unit_zero (S := S64x64) zeroOffsets_r4, View.ld_unit_zero (S := S1x64) zeroOffsets_r4]

/-- A later point, the hidden rows' buffer: the same function of the six input buffers. -/
theorem later_hidden4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i) (x0 x1 : Vec F S5000x64 .f32) (x2 : Vec F S64x64 .f32) (x3 : Vec F S1x64 .f32) (x4 : Vec F S64x64 .f32) (x5 : Vec F S1x64 .f32) (s q : Vec F S1x64 .f32) :
    View.canon (laterRun4 c i arg1 harg1 arg2 harg2 arg3 harg3 arg4 harg4 arg5 harg5 arg6 harg6 arg7 harg7 arg8 harg8 arg9 harg9 hc x0 x1 x2 x3 x4 x5 s q).1.1 = k4_pay5 x0 x1 x2 x3 x4 x5 := by
  unfold laterRun4
  dsimp only
  sl_unfold_words
  rw [View.canon_unit_zero (S := S5000x64) zeroOffsets_r4]
  simp only [View.readAt_eq_ld, harg1.read_unread, harg2.read_unread, harg3.read_unread, harg4.read_unread, harg5.read_unread, harg6.read_unread, harg8.read_unread, harg9.read_unread,
    View.ld_unit_zero (S := S5000x64) zeroOffsets_r4, View.ld_unit_zero (S := S64x64) zeroOffsets_r4, View.ld_unit_zero (S := S1x64) zeroOffsets_r4]

/-- A later point, the running column sums: the row `s` found there plus the block's column sums. -/
theorem later_sums4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i) (x0 x1 : Vec F S5000x64 .f32) (x2 : Vec F S64x64 .f32) (x3 : Vec F S1x64 .f32) (x4 : Vec F S64x64 .f32) (x5 : Vec F S1x64 .f32) (s q : Vec F S1x64 .f32) :
    View.canon (laterRun4 c i arg1 harg1 arg2 harg2 arg3 harg3 arg4 harg4 arg5 harg5 arg6 harg6 arg7 harg7 arg8 harg8 arg9 harg9 hc x0 x1 x2 x3 x4 x5 s q).1.2.1 = k4_pay1 (k4_pay6 s) (k4_pay7 x0 x1 x2 x3 x4 x5) := by
  unfold laterRun4
  dsimp only
  sl_unfold_words
  rw [View.canon_unit_zero (S := S1x64) zeroOffsets_r4]
  simp only [View.readAt_eq_ld, harg1.read_unread, harg2.read_unread, harg3.read_unread, harg4.read_unread, harg5.read_unread, harg6.read_unread, harg8.read_unread, harg9.read_unread,
    View.ld_unit_zero (S := S5000x64) zeroOffsets_r4, View.ld_unit_zero (S := S64x64) zeroOffsets_r4, View.ld_unit_zero (S := S1x64) zeroOffsets_r4]

/-- A later point, the running column sums of squares: the row `q` found there plus the block's. -/
theorem later_squares4 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc : ¬first4 i) (x0 x1 : Vec F S5000x64 .f32) (x2 : Vec F S64x64 .f32) (x3 : Vec F S1x64 .f32) (x4 : Vec F S64x64 .f32) (x5 : Vec F S1x64 .f32) (s q : Vec F S1x64 .f32) :
    View.canon (laterRun4 c i arg1 harg1 arg2 harg2 arg3 harg3 arg4 harg4 arg5 harg5 arg6 harg6 arg7 harg7 arg8 harg8 arg9 harg9 hc x0 x1 x2 x3 x4 x5 s q).1.2.2 = k4_pay2 (k4_pay5 x0 x1 x2 x3 x4 x5) q := by
  unfold laterRun4
  dsimp only
  sl_unfold_words
  rw [View.canon_unit_zero (S := S1x64) zeroOffsets_r4]
  simp only [View.readAt_eq_ld, harg1.read_unread, harg2.read_unread, harg3.read_unread, harg4.read_unread, harg5.read_unread, harg6.read_unread, harg8.read_unread, harg9.read_unread,
    View.ld_unit_zero (S := S5000x64) zeroOffsets_r4, View.ld_unit_zero (S := S64x64) zeroOffsets_r4, View.ld_unit_zero (S := S1x64) zeroOffsets_r4]

/-! ## What the outputs hold after a point, as values of the input blocks -/

/-- After the first point: the hidden rows of the block, its column sums on top of the zero row, its column sums of
    squares on top of the zero row. -/
theorem firstAt4_eq (c : Dev nD) (t : Fin cfg4.N) (h0 : t.val % 20 = 0) :
    firstAt4 V c t h0 = (k4_pay5 (iblk4 V c 0 t) (iblk4 V c 1 t) (iblk4 V c 2 t) (iblk4 V c 3 t) (iblk4 V c 4 t) (iblk4 V c 5 t), k4_pay1 (k4_pay6 k4_pay3) (k4_pay7 (iblk4 V c 0 t) (iblk4 V c 1 t) (iblk4 V c 2 t) (iblk4 V c 3 t) (iblk4 V c 4 t) (iblk4 V c 5 t)), k4_pay2 (k4_pay5 (iblk4 V c 0 t) (iblk4 V c 1 t) (iblk4 V c 2 t) (iblk4 V c 3 t) (iblk4 V c 4 t) (iblk4 V c 5 t)) k4_pay4) := by
  unfold firstAt4
  refine Prod.ext ?_ (Prod.ext ?_ ?_)
  · dsimp only
    rw [View.read_writes_eq_canon _ _ _ (cover4_first_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t))]
    exact first_hidden4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t)
  · dsimp only
    rw [View.read_writes_eq_canon _ _ _ (cover4_first_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t))]
    exact first_sums4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t)
  · dsimp only
    rw [View.read_writes_eq_canon _ _ _ (cover4_first_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t))]
    exact first_squares4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((first4_iff t).mpr h0) (iblk4 V c 0 t) (iblk4 V c 1 t) (iblk4 V c 2 t) (iblk4 V c 3 t) (iblk4 V c 4 t) (iblk4 V c 5 t)

/-- After a later point, from the running rows `s`, `q` the point before left: the hidden rows of the block, its
    column sums on top of `s`, its column sums of squares on top of `q`. -/
theorem laterAt4_eq (c : Dev nD) (t : Fin cfg4.N) (h0 : ¬t.val % 20 = 0) (s q : Vec F S1x64 .f32) :
    laterAt4 V c t h0 s q = (k4_pay5 (iblk4 V c 0 t) (iblk4 V c 1 t) (iblk4 V c 2 t) (iblk4 V c 3 t) (iblk4 V c 4 t) (iblk4 V c 5 t), k4_pay1 (k4_pay6 s) (k4_pay7 (iblk4 V c 0 t) (iblk4 V c 1 t) (iblk4 V c 2 t) (iblk4 V c 3 t) (iblk4 V c 4 t) (iblk4 V c 5 t)), k4_pay2 (k4_pay5 (iblk4 V c 0 t) (iblk4 V c 1 t) (iblk4 V c 2 t) (iblk4 V c 3 t) (iblk4 V c 4 t) (iblk4 V c 5 t)) q) := by
  unfold laterAt4
  refine Prod.ext ?_ (Prod.ext ?_ ?_)
  · dsimp only
    rw [View.read_writes_eq_canon _ _ _ (cover4_later_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q)]
    exact later_hidden4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q
  · dsimp only
    rw [View.read_writes_eq_canon _ _ _ (cover4_later_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q)]
    exact later_sums4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q
  · dsimp only
    rw [View.read_writes_eq_canon _ _ _ (cover4_later_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q)]
    exact later_squares4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((first4_iff t).mp h)) (iblk4 V c 0 t) (iblk4 V c 1 t) (iblk4 V c 2 t) (iblk4 V c 3 t) (iblk4 V c 4 t) (iblk4 V c 5 t) s q

/-- The recursion's step: a point after the first continues from what the point before left. -/
theorem outs4_succ (c : Dev nD) (n : ℕ) (hn : n + 1 < cfg4.N) (h0 : ¬(n + 1) % 20 = 0) :
    outs4 V c (n + 1) hn = laterAt4 V c ⟨n + 1, hn⟩ h0 (outs4 V c n (Nat.lt_of_succ_lt hn)).2.1 (outs4 V c n (Nat.lt_of_succ_lt hn)).2.2 :=
  dif_neg h0

/-! ## The input blocks, read at an entry

Over the extended reals. The two row-block windows (0 and 1) are at block index `(t, 0)` at point `t`, so row `p` of
their block is row `5000·t + p` of their array; the four parameter windows (2..5) stay at block index `(0, 0)`, and
their block is their whole array. -/

/-- The windows' index maps, decided over the twenty grid points. -/
theorem index_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

variable (W : (c : Dev nD) → (b : Ref sig .tc) → Buf (Elt Ideal) ((c : Thread nD τ).loc b))

/-- The arrays of the six input windows as the region finds them, at their literal shapes. -/
abbrev in4_0 (c : Dev nD) : S100000x64.Idx → EReal := W c main_v87
abbrev in4_1 (c : Dev nD) : S100000x64.Idx → EReal := W c main_v102
abbrev in4_2 (c : Dev nD) : S64x64.Idx → EReal := W c main_v104
abbrev in4_3 (c : Dev nD) : S1x64.Idx → EReal := W c main_v111
abbrev in4_4 (c : Dev nD) : S64x64.Idx → EReal := W c main_v108
abbrev in4_5 (c : Dev nD) : S1x64.Idx → EReal := W c main_v112

/-- Row `p` of window 0's block at point `t` is row `5000·t + p` of its array. -/
theorem block4_0_at (c : Dev nD) (t : Fin cfg4.N) (T : ℕ) (hT : T < 20) (ht : t.val = T) (p : Fin 5000) (k : Fin 64) :
    (iblk4 W c 0 t : Vec Ideal S5000x64 .f32) (ix2 p k)
      = in4_0 W c (ix2 ⟨T * 5000 + p.val, by omega⟩ k) := by
  obtain ⟨e0, e1, -⟩ := index_facts4 t
  show W c main_v87 (((cfg4.win 0).blk t).view.emb (ix2 p k)) = _
  refine congrArg (W c main_v87) (funext fun a => Fin.ext ?_)
  match a with
  | ⟨0, _⟩ => show win4_0.index t (0 : Fin 2) * 5000 + 1 * p.val = T * 5000 + p.val; rw [e0, ht]; omega
  | ⟨1, _⟩ => show win4_0.index t (1 : Fin 2) * 64 + 1 * k.val = k.val; rw [e1]; omega

/-- Row `p` of window 1's block at point `t` is row `5000·t + p` of its array. -/
theorem block4_1_at (c : Dev nD) (t : Fin cfg4.N) (T : ℕ) (hT : T < 20) (ht : t.val = T) (p : Fin 5000) (k : Fin 64) :
    (iblk4 W c 1 t : Vec Ideal S5000x64 .f32) (ix2 p k)
      = in4_1 W c (ix2 ⟨T * 5000 + p.val, by omega⟩ k) := by
  obtain ⟨-, -, e0, e1, -⟩ := index_facts4 t
  show W c main_v102 (((cfg4.win 1).blk t).view.emb (ix2 p k)) = _
  refine congrArg (W c main_v102) (funext fun a => Fin.ext ?_)
  match a with
  | ⟨0, _⟩ => show win4_1.index t (0 : Fin 2) * 5000 + 1 * p.val = T * 5000 + p.val; rw [e0, ht]; omega
  | ⟨1, _⟩ => show win4_1.index t (1 : Fin 2) * 64 + 1 * k.val = k.val; rw [e1]; omega

/-- Window 2's block is its whole array. -/
theorem block4_2_at (c : Dev nD) (t : Fin cfg4.N) (j k : Fin 64) :
    (iblk4 W c 2 t : Vec Ideal S64x64 .f32) (ix2 j k) = in4_2 W c (ix2 j k) := by
  obtain ⟨-, -, -, -, e0, e1, -⟩ := index_facts4 t
  show W c main_v104 (((cfg4.win 2).blk t).view.emb (ix2 j k)) = _
  refine congrArg (W c main_v104) (funext fun a => Fin.ext ?_)
  match a with
  | ⟨0, _⟩ => show win4_2.index t (0 : Fin 2) * 64 + 1 * j.val = j.val; rw [e0]; omega
  | ⟨1, _⟩ => show win4_2.index t (1 : Fin 2) * 64 + 1 * k.val = k.val; rw [e1]; omega

/-- Window 3's block is its whole array. -/
theorem block4_3_at (c : Dev nD) (t : Fin cfg4.N) (k : Fin 64) :
    (iblk4 W c 3 t : Vec Ideal S1x64 .f32) (ix2 0 k) = in4_3 W c (ix2 0 k) := by
  obtain ⟨-, -, -, -, -, -, e0, e1, -⟩ := index_facts4 t
  show W c main_v111 (((cfg4.win 3).blk t).view.emb (ix2 0 k)) = _
  refine congrArg (W c main_v111) (funext fun a => Fin.ext ?_)
  match a with
  | ⟨0, _⟩ => show win4_3.index t (0 : Fin 2) * 1 + 1 * 0 = 0; rw [e0]
  | ⟨1, _⟩ => show win4_3.index t (1 : Fin 2) * 64 + 1 * k.val = k.val; rw [e1]; omega

/-- Window 4's block is its whole array. -/
theorem block4_4_at (c : Dev nD) (t : Fin cfg4.N) (j k : Fin 64) :
    (iblk4 W c 4 t : Vec Ideal S64x64 .f32) (ix2 j k) = in4_4 W c (ix2 j k) := by
  obtain ⟨-, -, -, -, -, -, -, -, e0, e1, -⟩ := index_facts4 t
  show W c main_v108 (((cfg4.win 4).blk t).view.emb (ix2 j k)) = _
  refine congrArg (W c main_v108) (funext fun a => Fin.ext ?_)
  match a with
  | ⟨0, _⟩ => show win4_4.index t (0 : Fin 2) * 64 + 1 * j.val = j.val; rw [e0]; omega
  | ⟨1, _⟩ => show win4_4.index t (1 : Fin 2) * 64 + 1 * k.val = k.val; rw [e1]; omega

/-- Window 5's block is its whole array. -/
theorem block4_5_at (c : Dev nD) (t : Fin cfg4.N) (k : Fin 64) :
    (iblk4 W c 5 t : Vec Ideal S1x64 .f32) (ix2 0 k) = in4_5 W c (ix2 0 k) := by
  obtain ⟨-, -, -, -, -, -, -, -, -, -, e0, e1, -⟩ := index_facts4 t
  show W c main_v112 (((cfg4.win 5).blk t).view.emb (ix2 0 k)) = _
  refine congrArg (W c main_v112) (funext fun a => Fin.ext ?_)
  match a with
  | ⟨0, _⟩ => show win4_5.index t (0 : Fin 2) * 1 + 1 * 0 = 0; rw [e0]
  | ⟨1, _⟩ => show win4_5.index t (1 : Fin 2) * 64 + 1 * k.val = k.val; rw [e1]; omega

/-! ## The hidden activations of a block are the block's rows of the whole array's -/

/-- The layer's hidden activations over all hundred thousand rows, from the arrays the region finds: the two-layer
    perceptron (each layer followed by `max · 0`) of the sum of windows 0 and 1's arrays, with the weights and biases
    of windows 2..5. -/
abbrev hiddenOf4 (c : Dev nD) : Fin 100000 → Fin 64 → EReal :=
  Cert.LayerSpec.hidden (n := 100000) (d := 64)
    (fun r k => in4_0 W c (ix2 r k) + in4_1 W c (ix2 r k))
    (fun j k => in4_2 W c (ix2 j k)) (fun k => in4_3 W c (ix2 0 k))
    (fun j k => in4_4 W c (ix2 j k)) (fun k => in4_5 W c (ix2 0 k))

/-- Row `p` of the hidden activations of point `t`'s block is row `5000·t + p` of the whole array's: an affine map
    and `max · 0` read one row at a time. -/
theorem hidden_block4 (c : Dev nD) (t : Fin cfg4.N) (T : ℕ) (hT : T < 20) (ht : t.val = T) (p : Fin 5000) (q : Fin 64) :
    k4_pay5 (F := Ideal) (iblk4 W c 0 t) (iblk4 W c 1 t) (iblk4 W c 2 t) (iblk4 W c 3 t) (iblk4 W c 4 t) (iblk4 W c 5 t) (ix2 p q) = hiddenOf4 W c ⟨T * 5000 + p.val, by omega⟩ q := by
  refine (hidden_at_k4 (iblk4 W c 0 t) (iblk4 W c 1 t) (iblk4 W c 2 t) (iblk4 W c 3 t) (iblk4 W c 4 t) (iblk4 W c 5 t) p q).trans ?_
  simp only [Cert.LayerSpec.hidden, Cert.LayerSpec.relu, Cert.LayerSpec.affine, block4_0_at W c t T hT ht, block4_1_at W c t T hT ht,
    block4_2_at W c t, block4_3_at W c t, block4_4_at W c t, block4_5_at W c t]

/-- One point's contribution to the running column sums, on top of the row `s` it finds. -/
theorem sums_step4 (x0 x1 : Vec Ideal S5000x64 .f32) (x2 : Vec Ideal S64x64 .f32) (x3 : Vec Ideal S1x64 .f32) (x4 : Vec Ideal S64x64 .f32) (x5 : Vec Ideal S1x64 .f32) (s : Vec Ideal S1x64 .f32) (q : Fin 64) :
    k4_pay1 (F := Ideal) (k4_pay6 s) (k4_pay7 x0 x1 x2 x3 x4 x5) (ix2 0 q)
      = s (ix2 0 q) + ∑ r : Fin 5000, k4_pay5 (F := Ideal) x0 x1 x2 x3 x4 x5 (ix2 r q) := by
  rw [accumulate_at_k4, carried_eq_k4, colsum_at_k4]

/-! ## The running rows, point by point -/

/-- After the first point the running column sum of column `q` is zero plus the first block's. -/
theorem sums_first4 (c : Dev nD) (q : Fin 64) (h : 0 < cfg4.N) :
    (outs4 W c 0 h).2.1 (ix2 0 q) = 0 + ∑ r : Fin 5000, hiddenOf4 W c ⟨0 * 5000 + r.val, by omega⟩ q := by
  have e : outs4 W c 0 h = firstAt4 W c ⟨0, h⟩ (Nat.zero_mod _) := rfl
  rw [e, firstAt4_eq]
  refine (sums_step4 (iblk4 W c 0 ⟨0, h⟩) (iblk4 W c 1 ⟨0, h⟩) (iblk4 W c 2 ⟨0, h⟩) (iblk4 W c 3 ⟨0, h⟩) (iblk4 W c 4 ⟨0, h⟩) (iblk4 W c 5 ⟨0, h⟩) (k4_pay3 (F := Ideal)) q).trans ?_
  rw [zero_at_k4]
  exact congrArg (0 + ·) (Finset.sum_congr rfl fun r _ => hidden_block4 W c ⟨0, h⟩ 0 (by norm_num) rfl r q)

/-- After a later point it is what the point before left plus this block's. -/
theorem sums_next4 (c : Dev nD) (q : Fin 64) (n : ℕ) (hn : n + 1 < 20) (h : n + 1 < cfg4.N) :
    (outs4 W c (n + 1) h).2.1 (ix2 0 q)
      = (outs4 W c n (Nat.lt_of_succ_lt h)).2.1 (ix2 0 q) + ∑ r : Fin 5000, hiddenOf4 W c ⟨(n + 1) * 5000 + r.val, by omega⟩ q := by
  have h0 : ¬(n + 1) % 20 = 0 := by omega
  rw [outs4_succ W c n h h0, laterAt4_eq]
  refine (sums_step4 (iblk4 W c 0 ⟨n + 1, h⟩) (iblk4 W c 1 ⟨n + 1, h⟩) (iblk4 W c 2 ⟨n + 1, h⟩) (iblk4 W c 3 ⟨n + 1, h⟩) (iblk4 W c 4 ⟨n + 1, h⟩) (iblk4 W c 5 ⟨n + 1, h⟩) _ q).trans ?_
  exact congrArg (_ + ·) (Finset.sum_congr rfl fun r _ => hidden_block4 W c ⟨n + 1, h⟩ (n + 1) hn rfl r q)

/-- After the first point the running column sum of squares of column `q` is zero plus the first block's. -/
theorem squares_first4 (c : Dev nD) (q : Fin 64) (h : 0 < cfg4.N) :
    (outs4 W c 0 h).2.2 (ix2 0 q)
      = 0 + ∑ r : Fin 5000, hiddenOf4 W c ⟨0 * 5000 + r.val, by omega⟩ q * hiddenOf4 W c ⟨0 * 5000 + r.val, by omega⟩ q := by
  have e : outs4 W c 0 h = firstAt4 W c ⟨0, h⟩ (Nat.zero_mod _) := rfl
  rw [e, firstAt4_eq]
  refine (sumsq_at_k4 (k4_pay5 (F := Ideal) (iblk4 W c 0 ⟨0, h⟩) (iblk4 W c 1 ⟨0, h⟩) (iblk4 W c 2 ⟨0, h⟩) (iblk4 W c 3 ⟨0, h⟩) (iblk4 W c 4 ⟨0, h⟩) (iblk4 W c 5 ⟨0, h⟩)) (k4_pay4 (F := Ideal)) q).trans ?_
  rw [zero_sq_at_k4]
  exact congrArg (0 + ·) (Finset.sum_congr rfl fun r _ => by rw [hidden_block4 W c ⟨0, h⟩ 0 (by norm_num) rfl r q])

/-- After a later point it is what the point before left plus this block's. -/
theorem squares_next4 (c : Dev nD) (q : Fin 64) (n : ℕ) (hn : n + 1 < 20) (h : n + 1 < cfg4.N) :
    (outs4 W c (n + 1) h).2.2 (ix2 0 q)
      = (outs4 W c n (Nat.lt_of_succ_lt h)).2.2 (ix2 0 q)
        + ∑ r : Fin 5000, hiddenOf4 W c ⟨(n + 1) * 5000 + r.val, by omega⟩ q * hiddenOf4 W c ⟨(n + 1) * 5000 + r.val, by omega⟩ q := by
  have h0 : ¬(n + 1) % 20 = 0 := by omega
  rw [outs4_succ W c n h h0, laterAt4_eq]
  refine (sumsq_at_k4 (k4_pay5 (F := Ideal) (iblk4 W c 0 ⟨n + 1, h⟩) (iblk4 W c 1 ⟨n + 1, h⟩) (iblk4 W c 2 ⟨n + 1, h⟩) (iblk4 W c 3 ⟨n + 1, h⟩) (iblk4 W c 4 ⟨n + 1, h⟩) (iblk4 W c 5 ⟨n + 1, h⟩)) _ q).trans ?_
  exact congrArg (_ + ·) (Finset.sum_congr rfl fun r _ => by rw [hidden_block4 W c ⟨n + 1, h⟩ (n + 1) hn rfl r q])

/-- After the last point the running column sum is the column's sum over all hundred thousand rows. -/
theorem sums_total4 (c : Dev nD) (q : Fin 64) (h : 19 < cfg4.N) :
    (outs4 W c 19 h).2.1 (ix2 0 q) = Cert.LayerSpec.colSum (hiddenOf4 W c) q := by
  have hN : cfg4.N = 20 := N_4
  have key := Cert.RunningSums.blocks_total (fun i => hiddenOf4 W c i q)
    (fun n => if hn : n < cfg4.N then (outs4 W c n hn).2.1 (ix2 0 q) else 0)
    (by rw [dif_pos (by omega : 0 < cfg4.N)]; exact sums_first4 W c q _)
    (fun t ht => by
      rw [dif_pos (by omega : t + 1 < cfg4.N), dif_pos (by omega : t < cfg4.N)]
      exact sums_next4 W c q t ht _)
  rw [dif_pos h] at key
  exact key

/-- After the last point the running column sum of squares is the sum of the column's squares over all rows. -/
theorem squares_total4 (c : Dev nD) (q : Fin 64) (h : 19 < cfg4.N) :
    (outs4 W c 19 h).2.2 (ix2 0 q) = Cert.LayerSpec.colSumSq (hiddenOf4 W c) q := by
  have hN : cfg4.N = 20 := N_4
  have key := Cert.RunningSums.blocks_total (fun i => hiddenOf4 W c i q * hiddenOf4 W c i q)
    (fun n => if hn : n < cfg4.N then (outs4 W c n hn).2.2 (ix2 0 q) else 0)
    (by rw [dif_pos (by omega : 0 < cfg4.N)]; exact squares_first4 W c q _)
    (fun t ht => by
      rw [dif_pos (by omega : t + 1 < cfg4.N), dif_pos (by omega : t < cfg4.N)]
      exact squares_next4 W c q t ht _)
  rw [dif_pos h] at key
  exact key

/-! ## From the points' write-backs to the arrays after the region

Window 6 (the hidden rows) is written back at every point, block `t` of its array at point `t`; the twenty blocks
tile the array. Windows 7 and 8 (the running rows) are written back at the last point only, and their one block is
their whole array. -/

/-- The hidden activations as an array, index by index. -/
abbrev hiddenArr4 (c : Dev nD) : S100000x64.Idx → EReal :=
  fun i => hiddenOf4 W c ⟨(i 0).val, idx2_lt0 i⟩ ⟨(i 1).val, idx2_lt1 i⟩

/-- The column sums as a `[1,64]` array. -/
abbrev colSumArr4 (c : Dev nD) : S1x64.Idx → EReal :=
  fun i => Cert.LayerSpec.colSum (hiddenOf4 W c) ⟨(i 1).val, idx2_lt1 i⟩

/-- The column sums of squares as a `[1,64]` array. -/
abbrev colSumSqArr4 (c : Dev nD) : S1x64.Idx → EReal :=
  fun i => Cert.LayerSpec.colSumSq (hiddenOf4 W c) ⟨(i 1).val, idx2_lt1 i⟩

/-- An entry of point `t`'s block of hidden rows is the array's entry it is written back to. -/
theorem hidden_entry4 (c : Dev nD) (t : Fin cfg4.N) (T : ℕ) (hT : T < 20) (ht : t.val = T) (j : S5000x64.Idx) (i : S100000x64.Idx)
    (h0 : (i 0).val = T * 5000 + (j 0).val) (h1 : (i 1).val = (j 1).val) :
    k4_pay5 (F := Ideal) (iblk4 W c 0 t) (iblk4 W c 1 t) (iblk4 W c 2 t) (iblk4 W c 3 t) (iblk4 W c 4 t) (iblk4 W c 5 t) j = hiddenArr4 W c i := by
  obtain ⟨p, q, rfl⟩ : ∃ (p : Fin 5000) (q : Fin 64), j = ix2 p q := ⟨j 0, j 1, eq_ix2 j⟩
  refine (hidden_block4 W c t T hT ht p q).trans ?_
  show hiddenOf4 W c _ _ = hiddenOf4 W c _ _
  congr 1
  · exact Fin.ext h0.symm
  · exact Fin.ext h1.symm

/-- What point `t` writes back of window 6 is block `t` of the hidden activations. -/
theorem flushed4_6 (c : Dev nD) (t : Fin cfg4.N) :
    (dat4 W c).flushed 6 t = ((cfg4.win 6).blk t).view.read (Elt Ideal) (hiddenArr4 W c) := by
  have hN : t.val < 20 := lt_of_lt_of_eq t.isLt (show cfg4.N = 20 from N_4)
  obtain ⟨-, -, -, -, -, -, -, -, -, -, -, -, e0, e1, -⟩ := index_facts4 t
  show (cfg4.win 6).cut (grid4.coords t) ((dat4 W c).after 6 t) = _
  rw [after4_6]
  have hb : (outs4 W c t.val t.isLt).1 = k4_pay5 (F := Ideal) (iblk4 W c 0 t) (iblk4 W c 1 t) (iblk4 W c 2 t) (iblk4 W c 3 t) (iblk4 W c 4 t) (iblk4 W c 5 t) := by
    by_cases h0 : t.val % 20 = 0
    · rw [outs4_first W c t h0, firstAt4_eq]
    · rw [outs4_later W c t h0, laterAt4_eq]
  rw [hb]
  funext j
  exact hidden_entry4 W c t t.val hN rfl j (((cfg4.win 6).blk t).view.emb j)
    (by show win4_6.index t (0 : Fin 2) * 5000 + 1 * (j 0).val = t.val * 5000 + (j 0).val; rw [e0]; omega)
    (by show win4_6.index t (1 : Fin 2) * 64 + 1 * (j 1).val = (j 1).val; rw [e1]; omega)

/-- An index of window 6's array is in point `t`'s block iff each coordinate is in the block's range on its axis. -/
theorem mem_block4_6 (t : Fin cfg4.N) (i : S100000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v113_0).slice (win4_6.rect t)).set ↔ _
  rw [View.set_slice_whole, Rect.mem_set_unit]
  exact Iff.rfl

/-- Row `r` of the array is in the block of point `r / 5000`. -/
theorem cover4_6 (i : S100000x64.Idx) :
    ∃ t : Fin cfg4.N, (cfg4.win 6).flush t = true ∧ i ∈ ((cfg4.win 6).blk t).view.set := by
  have hi0 : (i 0).val < 100000 := idx2_lt0 i
  have hi1 : (i 1).val < 64 := idx2_lt1 i
  have hN : cfg4.N = 20 := N_4
  have hlt : (i 0).val / 5000 < cfg4.N := by rw [hN]; omega
  obtain ⟨-, -, -, -, -, -, -, -, -, -, -, -, e0, e1, -⟩ := index_facts4 ⟨(i 0).val / 5000, hlt⟩
  refine ⟨⟨(i 0).val / 5000, hlt⟩, flush4_6 _, ?_⟩
  rw [mem_block4_6]
  intro a
  match a with
  | ⟨0, _⟩ =>
    show win4_6.index ⟨(i 0).val / 5000, hlt⟩ (0 : Fin 2) * 5000 ≤ (i 0).val ∧ (i 0).val < win4_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_6.index ⟨(i 0).val / 5000, hlt⟩ (1 : Fin 2) * 64 ≤ (i 1).val ∧ (i 1).val < win4_6.index ⟨(i 0).val / 5000, hlt⟩ (1 : Fin 2) * 64 + 64
    rw [e1]; omega

/-- Window 6's array after the region holds the hidden activations. -/
theorem final4_6 (c : Dev nD) : (dat4 W c).arrAt 6 cfg4.N = hiddenArr4 W c :=
  (dat4 W c).arrAt_eq_of_cover 6 (hiddenArr4 W c) (fun t _ => flushed4_6 W c t) cover4_6

/-- THE HIDDEN ROWS: entry `(r, q)` of window 6's array after the region. -/
theorem hidden4 (c : Dev nD) (r : Fin 100000) (q : Fin 64) :
    (dat4 W c).arrAt 6 cfg4.N (ix2 r q) = hiddenOf4 W c r q := by
  rw [final4_6]

/-- An entry of the running column sums after the last point is the array's entry it is written back to. -/
theorem sums_entry4 (c : Dev nD) (t : Fin cfg4.N) (h19 : t.val = 19) (j i : S1x64.Idx) (h1 : (i 1).val = (j 1).val) :
    (outs4 W c t.val t.isLt).2.1 j = colSumArr4 W c i := by
  obtain ⟨p, q, rfl⟩ : ∃ (p : Fin 1) (q : Fin 64), j = ix2 p q := ⟨j 0, j 1, eq_ix2 j⟩
  obtain rfl : p = 0 := Subsingleton.elim _ _
  obtain ⟨n, hn⟩ := t
  obtain rfl : n = 19 := h19
  refine (sums_total4 W c q hn).trans ?_
  show Cert.LayerSpec.colSum (hiddenOf4 W c) _ = Cert.LayerSpec.colSum (hiddenOf4 W c) _
  congr 1
  exact Fin.ext h1.symm

/-- The same for the running column sums of squares. -/
theorem squares_entry4 (c : Dev nD) (t : Fin cfg4.N) (h19 : t.val = 19) (j i : S1x64.Idx) (h1 : (i 1).val = (j 1).val) :
    (outs4 W c t.val t.isLt).2.2 j = colSumSqArr4 W c i := by
  obtain ⟨p, q, rfl⟩ : ∃ (p : Fin 1) (q : Fin 64), j = ix2 p q := ⟨j 0, j 1, eq_ix2 j⟩
  obtain rfl : p = 0 := Subsingleton.elim _ _
  obtain ⟨n, hn⟩ := t
  obtain rfl : n = 19 := h19
  refine (squares_total4 W c q hn).trans ?_
  show Cert.LayerSpec.colSumSq (hiddenOf4 W c) _ = Cert.LayerSpec.colSumSq (hiddenOf4 W c) _
  congr 1
  exact Fin.ext h1.symm

/-- What the one flushing point (the last) writes back of window 7 is the column sums. -/
theorem flushed4_7 (c : Dev nD) (t : Fin cfg4.N) (hf : (cfg4.win 7).flush t = true) :
    (dat4 W c).flushed 7 t = ((cfg4.win 7).blk t).view.read (Elt Ideal) (colSumArr4 W c) := by
  have hN : t.val < 20 := lt_of_lt_of_eq t.isLt (show cfg4.N = 20 from N_4)
  have h19 : t.val = 19 := by have := (flush4_7 t).mp hf; omega
  obtain ⟨-, -, -, -, -, -, -, -, -, -, -, -, -, -, e0, e1, -⟩ := index_facts4 t
  show (cfg4.win 7).cut (grid4.coords t) ((dat4 W c).after 7 t) = _
  rw [after4_7]
  have hcut : ∀ X : Vec Ideal S1x64 .f32, (cfg4.win 7).cut (grid4.coords t) X = X := fun X => rfl
  have hread : ∀ G : S1x64.Idx → EReal, ((cfg4.win 7).blk t).view.read (Elt Ideal) G = fun j => G (((cfg4.win 7).blk t).view.emb j) :=
    fun _ => rfl
  funext j
  exact ((congrFun (hcut _) j).trans (sums_entry4 W c t h19 j (((cfg4.win 7).blk t).view.emb j)
    (by show win4_7.index t (1 : Fin 2) * 64 + 1 * (j 1).val = (j 1).val; rw [e1]; omega))).trans
      (congrFun (hread (colSumArr4 W c)) j).symm

/-- What the one flushing point (the last) writes back of window 8 is the column sums of squares. -/
theorem flushed4_8 (c : Dev nD) (t : Fin cfg4.N) (hf : (cfg4.win 8).flush t = true) :
    (dat4 W c).flushed 8 t = ((cfg4.win 8).blk t).view.read (Elt Ideal) (colSumSqArr4 W c) := by
  have hN : t.val < 20 := lt_of_lt_of_eq t.isLt (show cfg4.N = 20 from N_4)
  have h19 : t.val = 19 := by have := (flush4_8 t).mp hf; omega
  obtain ⟨-, -, -, -, -, -, -, -, -, -, -, -, -, -, -, -, e0, e1⟩ := index_facts4 t
  show (cfg4.win 8).cut (grid4.coords t) ((dat4 W c).after 8 t) = _
  rw [after4_8]
  have hcut : ∀ X : Vec Ideal S1x64 .f32, (cfg4.win 8).cut (grid4.coords t) X = X := fun X => rfl
  have hread : ∀ G : S1x64.Idx → EReal, ((cfg4.win 8).blk t).view.read (Elt Ideal) G = fun j => G (((cfg4.win 8).blk t).view.emb j) :=
    fun _ => rfl
  funext j
  exact ((congrFun (hcut _) j).trans (squares_entry4 W c t h19 j (((cfg4.win 8).blk t).view.emb j)
    (by show win4_8.index t (1 : Fin 2) * 64 + 1 * (j 1).val = (j 1).val; rw [e1]; omega))).trans
      (congrFun (hread (colSumSqArr4 W c)) j).symm

/-- The last point's block of window 7 is the whole `[1,64]` array. -/
theorem cover4_7 (i : S1x64.Idx) :
    ∃ t : Fin cfg4.N, (cfg4.win 7).flush t = true ∧ i ∈ ((cfg4.win 7).blk t).view.set := by
  have hi0 : (i 0).val < 1 := idx2_lt0 i
  have hi1 : (i 1).val < 64 := idx2_lt1 i
  have hlt : 19 < cfg4.N := by rw [show cfg4.N = 20 from N_4]; norm_num
  obtain ⟨-, -, -, -, -, -, -, -, -, -, -, -, -, -, e0, e1, -⟩ := index_facts4 ⟨19, hlt⟩
  refine ⟨⟨19, hlt⟩, (flush4_7 _).mpr rfl, ?_⟩
  show i ∈ ((View.whole main_v113_1).slice (win4_7.rect ⟨19, hlt⟩)).set
  rw [View.set_slice_whole, Rect.mem_set_unit]
  intro a
  match a with
  | ⟨0, _⟩ =>
    show win4_7.index ⟨19, hlt⟩ (0 : Fin 2) * 1 ≤ (i 0).val ∧ (i 0).val < win4_7.index ⟨19, hlt⟩ (0 : Fin 2) * 1 + 1
    rw [e0]; omega
  | ⟨1, _⟩ =>
    show win4_7.index ⟨19, hlt⟩ (1 : Fin 2) * 64 ≤ (i 1).val ∧ (i 1).val < win4_7.index ⟨19, hlt⟩ (1 : Fin 2) * 64 + 64
    rw [e1]; omega

/-- The last point's block of window 8 is the whole `[1,64]` array. -/
theorem cover4_8 (i : S1x64.Idx) :
    ∃ t : Fin cfg4.N, (cfg4.win 8).flush t = true ∧ i ∈ ((cfg4.win 8).blk t).view.set := by
  have hi0 : (i 0).val < 1 := idx2_lt0 i
  have hi1 : (i 1).val < 64 := idx2_lt1 i
  have hlt : 19 < cfg4.N := by rw [show cfg4.N = 20 from N_4]; norm_num
  obtain ⟨-, -, -, -, -, -, -, -, -, -, -, -, -, -, -, -, e0, e1⟩ := index_facts4 ⟨19, hlt⟩
  refine ⟨⟨19, hlt⟩, (flush4_8 _).mpr rfl, ?_⟩
  show i ∈ ((View.whole main_v113_2).slice (win4_8.rect ⟨19, hlt⟩)).set
  rw [View.set_slice_whole, Rect.mem_set_unit]
  intro a
  match a with
  | ⟨0, _⟩ =>
    show win4_8.index ⟨19, hlt⟩ (0 : Fin 2) * 1 ≤ (i 0).val ∧ (i 0).val < win4_8.index ⟨19, hlt⟩ (0 : Fin 2) * 1 + 1
    rw [e0]; omega
  | ⟨1, _⟩ =>
    show win4_8.index ⟨19, hlt⟩ (1 : Fin 2) * 64 ≤ (i 1).val ∧ (i 1).val < win4_8.index ⟨19, hlt⟩ (1 : Fin 2) * 64 + 64
    rw [e1]; omega

/-- Window 7's array after the region holds the column sums. -/
theorem final4_7 (c : Dev nD) : (dat4 W c).arrAt 7 cfg4.N = colSumArr4 W c :=
  (dat4 W c).arrAt_eq_of_cover 7 (colSumArr4 W c) (flushed4_7 W c) cover4_7

/-- Window 8's array after the region holds the column sums of squares. -/
theorem final4_8 (c : Dev nD) : (dat4 W c).arrAt 8 cfg4.N = colSumSqArr4 W c :=
  (dat4 W c).arrAt_eq_of_cover 8 (colSumSqArr4 W c) (flushed4_8 W c) cover4_8

/-- THE COLUMN SUMS: entry `(0, q)` of window 7's array after the region is the sum over all hundred thousand rows of
    column `q` of the hidden activations. -/
theorem colsum4 (c : Dev nD) (q : Fin 64) :
    (dat4 W c).arrAt 7 cfg4.N (ix2 0 q) = Cert.LayerSpec.colSum (hiddenOf4 W c) q := by
  rw [final4_7]

/-- THE COLUMN SUMS OF SQUARES: entry `(0, q)` of window 8's array after the region. -/
theorem colsumsq4 (c : Dev nD) (q : Fin 64) :
    (dat4 W c).arrAt 8 cfg4.N (ix2 0 q) = Cert.LayerSpec.colSumSq (hiddenOf4 W c) q := by
  rw [final4_8]

/-! ## The three results over named arrays -/

/-- THE HIDDEN ROWS over named arrays: with the six input arrays the region finds called `z a w1 b1 w2 b2`. -/
theorem hidden4_of (c : Dev nD) {z a : S100000x64.Idx → EReal} {w1 w2 : S64x64.Idx → EReal} {b1 b2 : S1x64.Idx → EReal}
    (hz : W c main_v87 = z) (ha : W c main_v102 = a) (hw1 : W c main_v104 = w1) (hb1 : W c main_v111 = b1)
    (hw2 : W c main_v108 = w2) (hb2 : W c main_v112 = b2) (r : Fin 100000) (q : Fin 64) :
    (dat4 W c).arrAt 6 cfg4.N (ix2 r q)
      = Cert.LayerSpec.hidden (n := 100000) (d := 64) (fun r k => z (ix2 r k) + a (ix2 r k)) (fun j k => w1 (ix2 j k))
          (fun k => b1 (ix2 0 k)) (fun j k => w2 (ix2 j k)) (fun k => b2 (ix2 0 k)) r q := by
  subst hz ha hw1 hb1 hw2 hb2
  exact hidden4 W c r q

/-- THE COLUMN SUMS over named arrays. -/
theorem colsum4_of (c : Dev nD) {z a : S100000x64.Idx → EReal} {w1 w2 : S64x64.Idx → EReal} {b1 b2 : S1x64.Idx → EReal}
    (hz : W c main_v87 = z) (ha : W c main_v102 = a) (hw1 : W c main_v104 = w1) (hb1 : W c main_v111 = b1)
    (hw2 : W c main_v108 = w2) (hb2 : W c main_v112 = b2) (q : Fin 64) :
    (dat4 W c).arrAt 7 cfg4.N (ix2 0 q)
      = Cert.LayerSpec.colSum (Cert.LayerSpec.hidden (n := 100000) (d := 64) (fun r k => z (ix2 r k) + a (ix2 r k))
          (fun j k => w1 (ix2 j k)) (fun k => b1 (ix2 0 k)) (fun j k => w2 (ix2 j k)) (fun k => b2 (ix2 0 k))) q := by
  subst hz ha hw1 hb1 hw2 hb2
  exact colsum4 W c q

/-- THE COLUMN SUMS OF SQUARES over named arrays. -/
theorem colsumsq4_of (c : Dev nD) {z a : S100000x64.Idx → EReal} {w1 w2 : S64x64.Idx → EReal} {b1 b2 : S1x64.Idx → EReal}
    (hz : W c main_v87 = z) (ha : W c main_v102 = a) (hw1 : W c main_v104 = w1) (hb1 : W c main_v111 = b1)
    (hw2 : W c main_v108 = w2) (hb2 : W c main_v112 = b2) (q : Fin 64) :
    (dat4 W c).arrAt 8 cfg4.N (ix2 0 q)
      = Cert.LayerSpec.colSumSq (Cert.LayerSpec.hidden (n := 100000) (d := 64) (fun r k => z (ix2 r k) + a (ix2 r k))
          (fun j k => w1 (ix2 j k)) (fun k => b1 (ix2 0 k)) (fun j k => w2 (ix2 j k)) (fun k => b2 (ix2 0 k))) q := by
  subst hz ha hw1 hb1 hw2 hb2
  exact colsumsq4 W c q

end Cert.KernelIdeal.MlpValue

end
-- ==== Proof.BatchNormLaw.lean ====
/-
  The batch-normalisation law on the extended reals. On REAL data with the count equal to the number of rows, the
  variance computed from the two moments, E[h²] - E[h]², is the centred variance E[(h - E[h])²]; hence normalising
  with either gives the same array. Also: every stage of the layer (affine map, max with zero, column mean, centred
  variance, reciprocal root of a nonnegative real plus a positive real, the normalisation itself) keeps real data
  real, and the float words the layer spells denote the reals they should.
-/
import proofs.«149905_j3221225472297_1_alg».proof.Proof.LayerSpec

noncomputable section

namespace Cert.BatchNormLaw

open Idealize.ShloMosaic Cert.LayerSpec

variable {n d : ℕ}

/-! ### Coercion of a finite sum -/

/-- The coercion ℝ → EReal commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ### The two spellings of the variance agree on real data -/

/-- The mean of a real column over a nonzero real count is the real quotient. -/
theorem mean_coe (x : Fin n → Fin d → ℝ) (k : ℝ) (hk : k ≠ 0) (c : Fin d) :
    mean (k : EReal) (fun r c => (x r c : EReal)) c = (((∑ r, x r c) * (1 / k) : ℝ) : EReal) := by
  unfold mean colSum
  rw [Ideal.div_coe hk, ← coe_sum, ← EReal.coe_mul]

/-- In ℝ: the sum of squared deviations from any `m` expands into the two moments. -/
theorem sum_sq_dev (x : Fin n → ℝ) (m : ℝ) :
    ∑ r, (x r - m) * (x r - m) = (∑ r, x r * x r) - 2 * m * (∑ r, x r) + (n : ℝ) * (m * m) := by
  have e : ∀ r, (x r - m) * (x r - m) = x r * x r - 2 * m * x r + m * m := by intro r; ring
  simp only [e]
  rw [Finset.sum_add_distrib, Finset.sum_sub_distrib, ← Finset.mul_sum, Finset.sum_const, Finset.card_univ,
    Fintype.card_fin, nsmul_eq_mul]

/-- In ℝ: E[x²] - E[x]² = E[(x - E[x])²] when the count is the number of terms. -/
theorem real_var_identity (x : Fin n → ℝ) (hn : (n : ℝ) ≠ 0) :
    (∑ r, x r * x r) * (1 / (n : ℝ)) - (∑ r, x r) * (1 / (n : ℝ)) * ((∑ r, x r) * (1 / (n : ℝ)))
      = (∑ r, (x r - (∑ r, x r) * (1 / (n : ℝ))) * (x r - (∑ r, x r) * (1 / (n : ℝ)))) * (1 / (n : ℝ)) := by
  rw [sum_sq_dev]
  field_simp
  ring

/-- The variance from the two moments, on real data, as a real. -/
theorem varMoments_coe (x : Fin n → Fin d → ℝ) (hn : (n : ℝ) ≠ 0) (c : Fin d) :
    varMoments ((n : ℝ) : EReal) (fun r c => (x r c : EReal)) c
      = (((∑ r, x r c * x r c) * (1 / (n : ℝ))
          - (∑ r, x r c) * (1 / (n : ℝ)) * ((∑ r, x r c) * (1 / (n : ℝ))) : ℝ) : EReal) := by
  unfold varMoments
  rw [mean_coe x _ hn]
  unfold colSumSq
  rw [Ideal.div_coe hn]
  simp only [← EReal.coe_mul]
  rw [← coe_sum, ← EReal.coe_mul, ← EReal.coe_sub]

/-- The centred variance, on real data, as a real. -/
theorem varCentered_coe (x : Fin n → Fin d → ℝ) (hn : (n : ℝ) ≠ 0) (c : Fin d) :
    varCentered ((n : ℝ) : EReal) (fun r c => (x r c : EReal)) c
      = (((∑ r, (x r c - (∑ r, x r c) * (1 / (n : ℝ))) * (x r c - (∑ r, x r c) * (1 / (n : ℝ))))
          * (1 / (n : ℝ)) : ℝ) : EReal) := by
  unfold varCentered
  rw [mean_coe x _ hn, Ideal.div_coe hn]
  simp only [← EReal.coe_sub, ← EReal.coe_mul]
  rw [← coe_sum, ← EReal.coe_mul]

/-- (1) On real data, with the count the number of rows, the two-moment variance is the centred variance. -/
theorem varMoments_eq_varCentered (h : Fin n → Fin d → EReal) (hr : IsReal h) (hn : 0 < n) (c : Fin d) :
    varMoments ((n : ℝ) : EReal) h c = varCentered ((n : ℝ) : EReal) h c := by
  choose x hx using hr
  have hn0 : (n : ℝ) ≠ 0 := by exact_mod_cast hn.ne'
  have hh : h = fun r c => (x r c : EReal) := by funext r c; exact hx r c
  rw [hh, varMoments_coe x hn0, varCentered_coe x hn0, real_var_identity (fun r => x r c) hn0]

/-! ### The float words the layer spells -/

/-- The word `0x47C35000` is the float `100000.0`: exponent field 143, fraction field 4411392,
    so (2²³ + 4411392) · 2^(143 - 127 - 23) = 12800000 / 128 = 100000. -/
theorem cnt_word : Ideal.ofBits .f32 0x47C35000#32 = (((100000 : ℕ) : ℝ) : EReal) := by
  simp [Ideal.ofBits, Ideal.ieee, -EReal.coe_mul]; norm_num

/-- The word `0x3727C5AC` (the float nearest 1e-5) denotes a positive real:
    exponent field 110, fraction field 2606508, so 10995116 · 2^(-40). -/
theorem eps_word : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Every stage keeps real data real -/

/-- `max · 0` of a real array is real. -/
theorem relu_isReal {u : Fin n → Fin d → EReal} (hu : IsReal u) : IsReal (relu u) := by
  intro r c
  obtain ⟨x, hx⟩ := hu r c
  unfold relu
  rw [hx]
  rcases le_total x 0 with h0 | h0
  · exact ⟨0, by rw [max_eq_right (by exact_mod_cast h0)]; rfl⟩
  · exact ⟨x, by rw [max_eq_left (by exact_mod_cast h0)]⟩

/-- `u · W + b` of real data is real. -/
theorem affine_isReal {u : Fin n → Fin d → EReal} {W : Fin d → Fin d → EReal} {b : Fin d → EReal}
    (hu : IsReal u) (hW : IsReal W) (hb : IsRealRow b) : IsReal (affine u W b) := by
  choose x hx using hu
  choose w hw using hW
  choose y hy using hb
  intro r c
  refine ⟨(∑ k, x r k * w k c) + y c, ?_⟩
  unfold affine
  simp only [hx, hw, hy]
  rw [EReal.coe_add, coe_sum]
  simp only [EReal.coe_mul]

/-- The two-layer perceptron of real data with real parameters is real. -/
theorem hidden_isReal {u : Fin n → Fin d → EReal} {W1 W2 : Fin d → Fin d → EReal} {b1 b2 : Fin d → EReal}
    (hu : IsReal u) (hW1 : IsReal W1) (hb1 : IsRealRow b1) (hW2 : IsReal W2) (hb2 : IsRealRow b2) :
    IsReal (hidden u W1 b1 W2 b2) :=
  relu_isReal (affine_isReal (relu_isReal (affine_isReal hu hW1 hb1)) hW2 hb2)

/-- The entrywise sum of two real arrays is real. -/
theorem add_isReal {u v : Fin n → Fin d → EReal} (hu : IsReal u) (hv : IsReal v) :
    IsReal (fun r c => u r c + v r c) := by
  intro r c
  obtain ⟨x, hx⟩ := hu r c
  obtain ⟨y, hy⟩ := hv r c
  exact ⟨x + y, by show u r c + v r c = _; rw [hx, hy, EReal.coe_add]⟩

/-- The column means of real data over the number of rows are real. -/
theorem mean_isReal {h : Fin n → Fin d → EReal} (hr : IsReal h) (hn : 0 < n) :
    IsRealRow (mean ((n : ℝ) : EReal) h) := by
  choose x hx using hr
  have hn0 : (n : ℝ) ≠ 0 := by exact_mod_cast hn.ne'
  have hh : h = fun r c => (x r c : EReal) := by funext r c; exact hx r c
  intro c
  exact ⟨_, by rw [hh]; exact mean_coe x _ hn0 c⟩

/-- The centred variance of a real column over the number of rows is a NONNEGATIVE real. -/
theorem varCentered_nonneg_real {h : Fin n → Fin d → EReal} (hr : IsReal h) (hn : 0 < n) (c : Fin d) :
    ∃ v : ℝ, 0 ≤ v ∧ varCentered ((n : ℝ) : EReal) h c = (v : EReal) := by
  choose x hx using hr
  have hn0 : (n : ℝ) ≠ 0 := by exact_mod_cast hn.ne'
  have hh : h = fun r c => (x r c : EReal) := by funext r c; exact hx r c
  refine ⟨_, ?_, by rw [hh]; exact varCentered_coe x hn0 c⟩
  refine mul_nonneg (Finset.sum_nonneg fun r _ => mul_self_nonneg _) ?_
  positivity

/-- The reciprocal root of a nonnegative real plus a positive real is a real: the argument is a positive real,
    where the reciprocal root is `(√·)⁻¹`. -/
theorem invStd_isReal {eps : ℝ} (heps : 0 < eps) {v : Fin d → EReal} {c : Fin d}
    (hv : ∃ y : ℝ, 0 ≤ y ∧ v c = (y : EReal)) : ∃ x : ℝ, invStd (eps : EReal) v c = (x : EReal) := by
  obtain ⟨y, hy0, hy⟩ := hv
  have hpos : 0 < y + eps := by linarith
  refine ⟨(Real.sqrt (y + eps))⁻¹, ?_⟩
  unfold invStd
  rw [hy, ← EReal.coe_add, Ideal.rsqrt_coe, if_neg (not_lt.mpr hpos.le), if_neg hpos.ne']

/-- `(h - μ)·s·γ + β` of real data with real column statistics and parameters is real. -/
theorem normalize_isReal {h : Fin n → Fin d → EReal} {mu s gamma beta : Fin d → EReal}
    (hr : IsReal h) (hmu : IsRealRow mu) (hs : IsRealRow s) (hg : IsRealRow gamma) (hb : IsRealRow beta) :
    IsReal (normalize h mu s gamma beta) := by
  intro r c
  obtain ⟨x, hx⟩ := hr r c
  obtain ⟨m, hm⟩ := hmu c
  obtain ⟨t, ht⟩ := hs c
  obtain ⟨g, hg'⟩ := hg c
  obtain ⟨b, hb'⟩ := hb c
  refine ⟨(x - m) * t * g + b, ?_⟩
  unfold LayerSpec.normalize
  rw [hx, hm, ht, hg', hb', EReal.coe_add, EReal.coe_mul, EReal.coe_mul, EReal.coe_sub]

/-! ### The layer law -/

/-- (3) On real data, normalising with the two-moment variance is normalising with the centred variance. -/
theorem normalize_moments_eq_centered (h : Fin n → Fin d → EReal) (hr : IsReal h) (hn : 0 < n)
    (eps : EReal) (gamma beta : Fin d → EReal) :
    normalize h (mean ((n : ℝ) : EReal) h) (invStd eps (varMoments ((n : ℝ) : EReal) h)) gamma beta
      = normalize h (mean ((n : ℝ) : EReal) h) (invStd eps (varCentered ((n : ℝ) : EReal) h)) gamma beta := by
  have e : varMoments ((n : ℝ) : EReal) h = varCentered ((n : ℝ) : EReal) h :=
    funext (varMoments_eq_varCentered h hr hn)
  rw [e]

/-- The reciprocal roots of the centred variances plus a positive real form a real row. -/
theorem invStd_varCentered_isRealRow {h : Fin n → Fin d → EReal} (hr : IsReal h) (hn : 0 < n)
    {eps : ℝ} (heps : 0 < eps) : IsRealRow (invStd (eps : EReal) (varCentered ((n : ℝ) : EReal) h)) :=
  fun c => invStd_isReal heps (varCentered_nonneg_real hr hn c)

/-- The normalised layer of real data, positive real `eps`, real `γ` and `β`, is real. -/
theorem layer_isReal {h : Fin n → Fin d → EReal} (hr : IsReal h) (hn : 0 < n) {eps : ℝ} (heps : 0 < eps)
    {gamma beta : Fin d → EReal} (hg : IsRealRow gamma) (hb : IsRealRow beta) :
    IsReal (normalize h (mean ((n : ℝ) : EReal) h)
      (invStd (eps : EReal) (varCentered ((n : ℝ) : EReal) h)) gamma beta) :=
  normalize_isReal hr (mean_isReal hr hn) (invStd_varCentered_isRealRow hr hn heps) hg hb

/-- The same, stated for the two-moment spelling. -/
theorem layer_moments_isReal {h : Fin n → Fin d → EReal} (hr : IsReal h) (hn : 0 < n) {eps : ℝ} (heps : 0 < eps)
    {gamma beta : Fin d → EReal} (hg : IsRealRow gamma) (hb : IsRealRow beta) :
    IsReal (normalize h (mean ((n : ℝ) : EReal) h)
      (invStd (eps : EReal) (varMoments ((n : ℝ) : EReal) h)) gamma beta) := by
  rw [normalize_moments_eq_centered h hr hn]
  exact layer_isReal hr hn heps hg hb

end Cert.BatchNormLaw

end
-- ==== Proof.LayersAgree.lean ====
/-
  One whole layer in its two spellings, and the passage between arrays over an index type and curried functions.
  A layer maps node features `z` to `normalize (hidden (z + agg z))`, the column variance inside `normalize` taken
  either from the two moments or centred. For real features, real parameters, an aggregation that keeps real data
  real, the count equal to the number of rows and a positive real `eps`, the two spellings are the same array, and
  that array is real. The same holds with the count and `eps` spelled as the float words of `100000.0` and of the
  float nearest `1e-5`, over a hundred thousand rows.
-/
import proofs.«149905_j3221225472297_1_alg».proof.Proof.BatchNormLaw
import Idealize.ShloMosaic.Lib.ValueIdx

noncomputable section

namespace Cert.LayersAgree

open Idealize.ShloMosaic Idealize.ShloMosaic.ValueIdx Cert.LayerSpec Cert.BatchNormLaw

variable {n d : ℕ}

/-! ### The layer, two spellings -/

/-- The layer with the variance from the two moments. -/
def layerMoments (cnt eps : EReal) (agg : (Fin n → Fin d → EReal) → (Fin n → Fin d → EReal))
    (W1 : Fin d → Fin d → EReal) (b1 : Fin d → EReal) (W2 : Fin d → Fin d → EReal) (b2 : Fin d → EReal)
    (gamma beta : Fin d → EReal) (z : Fin n → Fin d → EReal) : Fin n → Fin d → EReal :=
  LayerSpec.normalize (hidden (fun r c => z r c + agg z r c) W1 b1 W2 b2)
    (mean cnt (hidden (fun r c => z r c + agg z r c) W1 b1 W2 b2))
    (invStd eps (varMoments cnt (hidden (fun r c => z r c + agg z r c) W1 b1 W2 b2))) gamma beta

/-- The layer with the centred variance. -/
def layerCentered (cnt eps : EReal) (agg : (Fin n → Fin d → EReal) → (Fin n → Fin d → EReal))
    (W1 : Fin d → Fin d → EReal) (b1 : Fin d → EReal) (W2 : Fin d → Fin d → EReal) (b2 : Fin d → EReal)
    (gamma beta : Fin d → EReal) (z : Fin n → Fin d → EReal) : Fin n → Fin d → EReal :=
  LayerSpec.normalize (hidden (fun r c => z r c + agg z r c) W1 b1 W2 b2)
    (mean cnt (hidden (fun r c => z r c + agg z r c) W1 b1 W2 b2))
    (invStd eps (varCentered cnt (hidden (fun r c => z r c + agg z r c) W1 b1 W2 b2))) gamma beta

theorem layerMoments_def (cnt eps : EReal) (agg : (Fin n → Fin d → EReal) → (Fin n → Fin d → EReal))
    (W1 : Fin d → Fin d → EReal) (b1 : Fin d → EReal) (W2 : Fin d → Fin d → EReal) (b2 : Fin d → EReal)
    (gamma beta : Fin d → EReal) (z : Fin n → Fin d → EReal) :
    layerMoments cnt eps agg W1 b1 W2 b2 gamma beta z
      = LayerSpec.normalize (hidden (fun r c => z r c + agg z r c) W1 b1 W2 b2)
          (mean cnt (hidden (fun r c => z r c + agg z r c) W1 b1 W2 b2))
          (invStd eps (varMoments cnt (hidden (fun r c => z r c + agg z r c) W1 b1 W2 b2))) gamma beta := rfl

theorem layerCentered_def (cnt eps : EReal) (agg : (Fin n → Fin d → EReal) → (Fin n → Fin d → EReal))
    (W1 : Fin d → Fin d → EReal) (b1 : Fin d → EReal) (W2 : Fin d → Fin d → EReal) (b2 : Fin d → EReal)
    (gamma beta : Fin d → EReal) (z : Fin n → Fin d → EReal) :
    layerCentered cnt eps agg W1 b1 W2 b2 gamma beta z
      = LayerSpec.normalize (hidden (fun r c => z r c + agg z r c) W1 b1 W2 b2)
          (mean cnt (hidden (fun r c => z r c + agg z r c) W1 b1 W2 b2))
          (invStd eps (varCentered cnt (hidden (fun r c => z r c + agg z r c) W1 b1 W2 b2))) gamma beta := rfl

/-- On real data the two spellings of the layer agree, and the layer is real. -/
theorem layer_agree (hn : 0 < n) {eps : ℝ} (heps : 0 < eps)
    (agg : (Fin n → Fin d → EReal) → (Fin n → Fin d → EReal)) (hagg : ∀ z, IsReal z → IsReal (agg z))
    {W1 W2 : Fin d → Fin d → EReal} {b1 b2 gamma beta : Fin d → EReal}
    (hW1 : IsReal W1) (hb1 : IsRealRow b1) (hW2 : IsReal W2) (hb2 : IsRealRow b2)
    (hg : IsRealRow gamma) (hb : IsRealRow beta) {z : Fin n → Fin d → EReal} (hz : IsReal z) :
    layerMoments ((n : ℝ) : EReal) (eps : EReal) agg W1 b1 W2 b2 gamma beta z
        = layerCentered ((n : ℝ) : EReal) (eps : EReal) agg W1 b1 W2 b2 gamma beta z
      ∧ IsReal (layerMoments ((n : ℝ) : EReal) (eps : EReal) agg W1 b1 W2 b2 gamma beta z) := by
  have hh : IsReal (hidden (fun r c => z r c + agg z r c) W1 b1 W2 b2) :=
    hidden_isReal (add_isReal hz (hagg z hz)) hW1 hb1 hW2 hb2
  exact ⟨normalize_moments_eq_centered _ hh hn _ _ _, layer_moments_isReal hh hn heps hg hb⟩

/-- The same over a hundred thousand rows, the count and `eps` spelled as their float words. -/
theorem layer_agree_words
    (agg : (Fin 100000 → Fin d → EReal) → (Fin 100000 → Fin d → EReal)) (hagg : ∀ z, IsReal z → IsReal (agg z))
    {W1 W2 : Fin d → Fin d → EReal} {b1 b2 gamma beta : Fin d → EReal}
    (hW1 : IsReal W1) (hb1 : IsRealRow b1) (hW2 : IsReal W2) (hb2 : IsRealRow b2)
    (hg : IsRealRow gamma) (hb : IsRealRow beta) {z : Fin 100000 → Fin d → EReal} (hz : IsReal z) :
    layerMoments (Ideal.ofBits .f32 0x47C35000#32) (Ideal.ofBits .f32 0x3727C5AC#32) agg W1 b1 W2 b2 gamma beta z
        = layerCentered (Ideal.ofBits .f32 0x47C35000#32) (Ideal.ofBits .f32 0x3727C5AC#32) agg W1 b1 W2 b2 gamma beta z
      ∧ IsReal (layerMoments (Ideal.ofBits .f32 0x47C35000#32) (Ideal.ofBits .f32 0x3727C5AC#32)
          agg W1 b1 W2 b2 gamma beta z) := by
  obtain ⟨e, he, hw⟩ := eps_word
  rw [cnt_word, hw]
  exact layer_agree (by norm_num) he agg hagg hW1 hb1 hW2 hb2 hg hb hz

/-! ### The layer over a given aggregated array -/

/-- The layer with the variance from the two moments, the neighbour sums `a` given as an array. -/
def layerMomentsA (cnt eps : EReal) (W1 : Fin d → Fin d → EReal) (b1 : Fin d → EReal)
    (W2 : Fin d → Fin d → EReal) (b2 gamma beta : Fin d → EReal) (z a : Fin n → Fin d → EReal) :
    Fin n → Fin d → EReal :=
  LayerSpec.normalize (LayerSpec.hidden (fun r k => z r k + a r k) W1 b1 W2 b2)
    (LayerSpec.mean cnt (LayerSpec.hidden (fun r k => z r k + a r k) W1 b1 W2 b2))
    (LayerSpec.invStd eps (LayerSpec.varMoments cnt (LayerSpec.hidden (fun r k => z r k + a r k) W1 b1 W2 b2)))
    gamma beta

/-- The layer with the centred variance, the neighbour sums `a` given as an array. -/
def layerCenteredA (cnt eps : EReal) (W1 : Fin d → Fin d → EReal) (b1 : Fin d → EReal)
    (W2 : Fin d → Fin d → EReal) (b2 gamma beta : Fin d → EReal) (z a : Fin n → Fin d → EReal) :
    Fin n → Fin d → EReal :=
  LayerSpec.normalize (LayerSpec.hidden (fun r k => z r k + a r k) W1 b1 W2 b2)
    (LayerSpec.mean cnt (LayerSpec.hidden (fun r k => z r k + a r k) W1 b1 W2 b2))
    (LayerSpec.invStd eps (LayerSpec.varCentered cnt (LayerSpec.hidden (fun r k => z r k + a r k) W1 b1 W2 b2)))
    gamma beta

theorem layerMomentsA_def (cnt eps : EReal) (W1 : Fin d → Fin d → EReal) (b1 : Fin d → EReal)
    (W2 : Fin d → Fin d → EReal) (b2 gamma beta : Fin d → EReal) (z a : Fin n → Fin d → EReal) :
    layerMomentsA cnt eps W1 b1 W2 b2 gamma beta z a
      = LayerSpec.normalize (LayerSpec.hidden (fun r k => z r k + a r k) W1 b1 W2 b2)
          (LayerSpec.mean cnt (LayerSpec.hidden (fun r k => z r k + a r k) W1 b1 W2 b2))
          (LayerSpec.invStd eps
            (LayerSpec.varMoments cnt (LayerSpec.hidden (fun r k => z r k + a r k) W1 b1 W2 b2)))
          gamma beta := rfl

theorem layerCenteredA_def (cnt eps : EReal) (W1 : Fin d → Fin d → EReal) (b1 : Fin d → EReal)
    (W2 : Fin d → Fin d → EReal) (b2 gamma beta : Fin d → EReal) (z a : Fin n → Fin d → EReal) :
    layerCenteredA cnt eps W1 b1 W2 b2 gamma beta z a
      = LayerSpec.normalize (LayerSpec.hidden (fun r k => z r k + a r k) W1 b1 W2 b2)
          (LayerSpec.mean cnt (LayerSpec.hidden (fun r k => z r k + a r k) W1 b1 W2 b2))
          (LayerSpec.invStd eps
            (LayerSpec.varCentered cnt (LayerSpec.hidden (fun r k => z r k + a r k) W1 b1 W2 b2)))
          gamma beta := rfl

/-- The function-of-`z` spelling is the given-array spelling at `a := agg z`. -/
theorem layerMoments_eq_A (cnt eps : EReal) (agg : (Fin n → Fin d → EReal) → (Fin n → Fin d → EReal))
    (W1 : Fin d → Fin d → EReal) (b1 : Fin d → EReal) (W2 : Fin d → Fin d → EReal) (b2 gamma beta : Fin d → EReal)
    (z : Fin n → Fin d → EReal) :
    layerMoments cnt eps agg W1 b1 W2 b2 gamma beta z = layerMomentsA cnt eps W1 b1 W2 b2 gamma beta z (agg z) := rfl

theorem layerCentered_eq_A (cnt eps : EReal) (agg : (Fin n → Fin d → EReal) → (Fin n → Fin d → EReal))
    (W1 : Fin d → Fin d → EReal) (b1 : Fin d → EReal) (W2 : Fin d → Fin d → EReal) (b2 gamma beta : Fin d → EReal)
    (z : Fin n → Fin d → EReal) :
    layerCentered cnt eps agg W1 b1 W2 b2 gamma beta z = layerCenteredA cnt eps W1 b1 W2 b2 gamma beta z (agg z) := rfl

/-- On real data (features and neighbour sums) the two spellings of the layer agree, and the layer is real. -/
theorem layerA_agree (hn : 0 < n) {eps : ℝ} (heps : 0 < eps)
    {W1 W2 : Fin d → Fin d → EReal} {b1 b2 gamma beta : Fin d → EReal}
    (hW1 : IsReal W1) (hb1 : IsRealRow b1) (hW2 : IsReal W2) (hb2 : IsRealRow b2)
    (hg : IsRealRow gamma) (hb : IsRealRow beta) {z a : Fin n → Fin d → EReal} (hz : IsReal z) (ha : IsReal a) :
    layerMomentsA ((n : ℝ) : EReal) (eps : EReal) W1 b1 W2 b2 gamma beta z a
        = layerCenteredA ((n : ℝ) : EReal) (eps : EReal) W1 b1 W2 b2 gamma beta z a
      ∧ IsReal (layerMomentsA ((n : ℝ) : EReal) (eps : EReal) W1 b1 W2 b2 gamma beta z a) := by
  have hh : IsReal (hidden (fun r k => z r k + a r k) W1 b1 W2 b2) :=
    hidden_isReal (add_isReal hz ha) hW1 hb1 hW2 hb2
  exact ⟨normalize_moments_eq_centered _ hh hn _ _ _, layer_moments_isReal hh hn heps hg hb⟩

/-- The same over a hundred thousand rows, the count and `eps` spelled as their float words. -/
theorem layerA_agree_words {W1 W2 : Fin d → Fin d → EReal} {b1 b2 gamma beta : Fin d → EReal}
    (hW1 : IsReal W1) (hb1 : IsRealRow b1) (hW2 : IsReal W2) (hb2 : IsRealRow b2)
    (hg : IsRealRow gamma) (hb : IsRealRow beta) {z a : Fin 100000 → Fin d → EReal} (hz : IsReal z) (ha : IsReal a) :
    layerMomentsA (Ideal.ofBits .f32 0x47C35000#32) (Ideal.ofBits .f32 0x3727C5AC#32) W1 b1 W2 b2 gamma beta z a
        = layerCenteredA (Ideal.ofBits .f32 0x47C35000#32) (Ideal.ofBits .f32 0x3727C5AC#32) W1 b1 W2 b2 gamma beta z a
      ∧ IsReal (layerMomentsA (Ideal.ofBits .f32 0x47C35000#32) (Ideal.ofBits .f32 0x3727C5AC#32)
          W1 b1 W2 b2 gamma beta z a) := by
  obtain ⟨e, he, hw⟩ := eps_word
  rw [cnt_word, hw]
  exact layerA_agree (by norm_num) he hW1 hb1 hW2 hb2 hg hb hz ha

/-! ### Arrays over an index type and curried functions -/

/-- Reading a rank-2 array at `ix2 r k`, for every `r` and `k`, keeps realness. -/
theorem ix2_isReal {n0 n1 : ℕ} {z : (⟨2, ![n0, n1]⟩ : Shape).Idx → EReal}
    (h : ∀ i, ∃ r : ℝ, z i = (r : EReal)) : IsReal (fun (r : Fin n0) (k : Fin n1) => z (ix2 r k)) :=
  fun r k => h (ix2 r k)

/-- A rank-2 array is real at every index when its curried reading is. -/
theorem isReal_of_ix2 {n0 n1 : ℕ} {z : (⟨2, ![n0, n1]⟩ : Shape).Idx → EReal}
    (h : IsReal (fun (r : Fin n0) (k : Fin n1) => z (ix2 r k))) : ∀ i, ∃ r : ℝ, z i = (r : EReal) := by
  intro i
  rw [eq_ix2 i]
  exact h (i 0) (i 1)

/-- Two rank-2 arrays with the same curried reading are equal. -/
theorem ix2_ext {α : Type} {n0 n1 : ℕ} {z z' : (⟨2, ![n0, n1]⟩ : Shape).Idx → α}
    (h : (fun (r : Fin n0) (k : Fin n1) => z (ix2 r k)) = fun r k => z' (ix2 r k)) : z = z' := by
  funext i
  rw [eq_ix2 i]
  exact congrFun (congrFun h (i 0)) (i 1)

/-- Row `l` of a real rank-2 array is a real row. -/
theorem ix2_row_isRealRow {n0 n1 : ℕ} {b : (⟨2, ![n0, n1]⟩ : Shape).Idx → EReal}
    (h : ∀ i, ∃ r : ℝ, b i = (r : EReal)) (l : Fin n0) : IsRealRow (fun k : Fin n1 => b (ix2 l k)) :=
  fun k => h (ix2 l k)

/-- Slice `l` of a real rank-3 array is a real matrix. -/
theorem ix3_slice_isReal {n0 n1 n2 : ℕ} {W : (⟨3, ![n0, n1, n2]⟩ : Shape).Idx → EReal}
    (h : ∀ i, ∃ r : ℝ, W i = (r : EReal)) (l : Fin n0) :
    IsReal (fun (j : Fin n1) (k : Fin n2) => W (ix3 l j k)) :=
  fun j k => h (ix3 l j k)

/-- The shapes at hand: node features, one parameter row, one weight matrix, three weight matrices, three
    parameter rows. -/
abbrev SN : Shape := ⟨2, ![100000, 64]⟩
abbrev SR : Shape := ⟨2, ![1, 64]⟩
abbrev SW : Shape := ⟨2, ![64, 64]⟩
abbrev S3W : Shape := ⟨3, ![3, 64, 64]⟩
abbrev S3R : Shape := ⟨2, ![3, 64]⟩

/-- The node-feature array as a function of row and column. -/
def mat (z : SN.Idx → EReal) : Fin 100000 → Fin 64 → EReal := fun r k => z (ix2 r k)

theorem mat_apply (z : SN.Idx → EReal) (r : Fin 100000) (k : Fin 64) : mat z r k = z (ix2 r k) := rfl

theorem mat_ext {z z' : SN.Idx → EReal} (h : mat z = mat z') : z = z' := ix2_ext h

theorem mat_isReal {z : SN.Idx → EReal} (h : ∀ i, ∃ r : ℝ, z i = (r : EReal)) : IsReal (mat z) :=
  ix2_isReal h

theorem isReal_of_mat {z : SN.Idx → EReal} (h : IsReal (mat z)) : ∀ i, ∃ r : ℝ, z i = (r : EReal) :=
  isReal_of_ix2 h

/-- Weight matrix `l` of three real weight matrices is real. -/
theorem slice_isReal {W : S3W.Idx → EReal} (h : ∀ i, ∃ r : ℝ, W i = (r : EReal)) (l : Fin 3) :
    IsReal (fun (j : Fin 64) (k : Fin 64) => W (ix3 l j k)) := ix3_slice_isReal h l

/-- Parameter row `l` of three real parameter rows is real. -/
theorem row_isRealRow {b : S3R.Idx → EReal} (h : ∀ i, ∃ r : ℝ, b i = (r : EReal)) (l : Fin 3) :
    IsRealRow (fun k : Fin 64 => b (ix2 l k)) := ix2_row_isRealRow h l

end Cert.LayersAgree

end
-- ==== Proof.KernelIdeal.KernelLayers.lean ====
/-
  The kernel program's three layers read off its run: what each kernel region leaves in its output arrays, chained through
  the host operations between the regions, as the layer function of `Cert.LayersAgree` in its two-moment spelling:
  the hidden rows of a layer are the two-layer perceptron of its input plus the input's neighbour sums, their column sums and
  column sums of squares are accumulated block by block over the twenty grid points, the host turns them into the column means
  and reciprocal deviations, and the second region normalizes the hidden rows with them. The program's result is the pooled,
  concatenated outputs of the three layers.
-/
import proofs.«149905_j3221225472297_1_alg».proof.Proof.KernelIdeal.Segments
import proofs.«149905_j3221225472297_1_alg».proof.Proof.KernelIdeal.HostStagesRest
import proofs.«149905_j3221225472297_1_alg».proof.Proof.KernelIdeal.NormalizeValue
import proofs.«149905_j3221225472297_1_alg».proof.Proof.KernelIdeal.MlpValue0
import proofs.«149905_j3221225472297_1_alg».proof.Proof.KernelIdeal.MlpValue2
import proofs.«149905_j3221225472297_1_alg».proof.Proof.KernelIdeal.MlpValue4
import proofs.«149905_j3221225472297_1_alg».proof.Proof.LayersAgree

set_option maxRecDepth 16384

noncomputable section

namespace Cert.KernelIdeal.Layers

open Cert.KernelIdeal Cert.KernelIdeal.Gen Cert.KernelIdeal.Hand Cert.KernelIdeal.HostStages
open Cert.KernelIdeal.NormalizeValue Cert.KernelIdeal.MlpValue
open Idealize.ShloMosaic Idealize.ShloMosaic.ValueIdx Idealize.ShloMosaic.TcCoe Idealize.SL.Sem
open Cert.LayersAgree

variable (m : (ℓ : Loc nD τ sig) → Buf (Elt Ideal) ℓ) (ρ : Dev nD → PrngReg) (c : Dev nD)

/-- The count of rows and the variance offset, as the two literal words denote them. -/
abbrev cnt : EReal := Ideal.ofBits .f32 0x47C35000#32
abbrev eps : EReal := Ideal.ofBits .f32 0x3727C5AC#32

/-! ## The argument arrays -/

abbrev a0 : S100000x64.Idx → EReal := m ((c : Thread nD τ).loc main_arg0)
abbrev a1 : IVec S2x1600000 32 := m ((c : Thread nD τ).loc main_arg1)
abbrev a2 : IVec S100000 32 := m ((c : Thread nD τ).loc main_arg2)
abbrev a3 : S3x64x64.Idx → EReal := m ((c : Thread nD τ).loc main_arg3)
abbrev a4 : S3x64.Idx → EReal := m ((c : Thread nD τ).loc main_arg4)
abbrev a5 : S3x64x64.Idx → EReal := m ((c : Thread nD τ).loc main_arg5)
abbrev a6 : S3x64.Idx → EReal := m ((c : Thread nD τ).loc main_arg6)
abbrev a7 : S3x64.Idx → EReal := m ((c : Thread nD τ).loc main_arg7)
abbrev a8 : S3x64.Idx → EReal := m ((c : Thread nD τ).loc main_arg8)

/-- The three layers' outputs: what the normalize regions leave in their output arrays. -/
def Z1 : S100000x64.Idx → EReal := B4 m ρ c (Proc.devRef .tc main_v45)
def Z2 : S100000x64.Idx → EReal := B8 m ρ c (Proc.devRef .tc main_v87)
def Z3 : S100000x64.Idx → EReal := B12 m ρ c (Proc.devRef .tc main_v129)

/-- The edges' source and destination vectors stay as the first stretch of host operations wrote them. -/
theorem src_at4 : (B4 m ρ c (Proc.devRef .tc main_v1) : IVec S1600000 32) = srcVec (a1 m c) :=
  ((B4_keep m ρ c main_v1 (by decide)).trans <| (B3_keep m ρ c main_v1 (by decide)).trans <| (B2_keep m ρ c main_v1 (by decide))).trans (after0_v1 (B0 m ρ c))
theorem dst_at4 : (B4 m ρ c (Proc.devRef .tc main_v3) : IVec S1600000 32) = dstVec (a1 m c) :=
  ((B4_keep m ρ c main_v3 (by decide)).trans <| (B3_keep m ρ c main_v3 (by decide)).trans <| (B2_keep m ρ c main_v3 (by decide))).trans (after0_v3 (B0 m ρ c))
theorem src_at8 : (B8 m ρ c (Proc.devRef .tc main_v1) : IVec S1600000 32) = srcVec (a1 m c) :=
  ((B8_keep m ρ c main_v1 (by decide)).trans <| (B7_keep m ρ c main_v1 (by decide)).trans <| (B6_keep m ρ c main_v1 (by decide)).trans <| (B5_keep m ρ c main_v1 (by decide)).trans <| (B4_keep m ρ c main_v1 (by decide)).trans <| (B3_keep m ρ c main_v1 (by decide)).trans <| (B2_keep m ρ c main_v1 (by decide))).trans (after0_v1 (B0 m ρ c))
theorem dst_at8 : (B8 m ρ c (Proc.devRef .tc main_v3) : IVec S1600000 32) = dstVec (a1 m c) :=
  ((B8_keep m ρ c main_v3 (by decide)).trans <| (B7_keep m ρ c main_v3 (by decide)).trans <| (B6_keep m ρ c main_v3 (by decide)).trans <| (B5_keep m ρ c main_v3 (by decide)).trans <| (B4_keep m ρ c main_v3 (by decide)).trans <| (B3_keep m ρ c main_v3 (by decide)).trans <| (B2_keep m ρ c main_v3 (by decide))).trans (after0_v3 (B0 m ρ c))

/-! ## Layer 1 -/

theorem in0 : (E1 m ρ c main_arg0 : S100000x64.Idx → EReal) = (a0 m c) :=
  (B1_keep m ρ c main_arg0 (by decide)).trans rfl
theorem agg0 : (E1 m ρ c main_v18 : S100000x64.Idx → EReal) = Agg (a0 m c) (srcVec (a1 m c)) (dstVec (a1 m c)) :=
  after0_v18 (B0 m ρ c)
theorem w1_0 : (fun (j k : Fin 64) => (E1 m ρ c main_v20 : S64x64.Idx → EReal) (ix2 j k)) = fun j k => a3 m c (ix3 (0 : Fin 3) j k) := by
  funext j k; exact (after0_v20 (B0 m ρ c) j k).trans (congrFun (rfl) _)
theorem b1_0 : (fun (k : Fin 64) => (E1 m ρ c main_v27 : S1x64.Idx → EReal) (ix2 0 k)) = fun k => a4 m c (ix2 (0 : Fin 3) k) := by
  funext k; exact (after0_v27 (B0 m ρ c) 0 k).trans (congrFun (rfl) _)
theorem w2_0 : (fun (j k : Fin 64) => (E1 m ρ c main_v24 : S64x64.Idx → EReal) (ix2 j k)) = fun j k => a5 m c (ix3 (0 : Fin 3) j k) := by
  funext j k; exact (after0_v24 (B0 m ρ c) j k).trans (congrFun (rfl) _)
theorem b2_0 : (fun (k : Fin 64) => (E1 m ρ c main_v28 : S1x64.Idx → EReal) (ix2 0 k)) = fun k => a6 m c (ix2 (0 : Fin 3) k) := by
  funext k; exact (after0_v28 (B0 m ρ c) 0 k).trans (congrFun (rfl) _)

/-- The layer's hidden rows. -/
def H0 : Fin 100000 → Fin 64 → EReal :=
  Cert.LayerSpec.hidden (fun r k => (a0 m c) (ix2 r k) + Agg (a0 m c) (srcVec (a1 m c)) (dstVec (a1 m c)) (ix2 r k))
    (fun j k => a3 m c (ix3 (0 : Fin 3) j k)) (fun k => a4 m c (ix2 (0 : Fin 3) k))
    (fun j k => a5 m c (ix3 (0 : Fin 3) j k)) (fun k => a6 m c (ix2 (0 : Fin 3) k))

theorem hidden_at0 (r : Fin 100000) (q : Fin 64) :
    (B2 m ρ c (Proc.devRef .tc main_v29_0) : S100000x64.Idx → EReal) (ix2 r q) = H0 m c r q := by
  refine (congrFun (B2_arr m ρ c 6) _).trans ?_
  refine (hidden0_of (E1 m ρ) c (in0 m ρ c) (agg0 m ρ c) rfl rfl rfl rfl r q).trans ?_
  unfold H0
  rw [w1_0 m ρ c, b1_0 m ρ c, w2_0 m ρ c, b2_0 m ρ c]
theorem colsum_at0 (q : Fin 64) :
    (B2 m ρ c (Proc.devRef .tc main_v29_1) : S1x64.Idx → EReal) (ix2 0 q) = Cert.LayerSpec.colSum (H0 m c) q := by
  refine (congrFun (B2_arr m ρ c 7) _).trans ?_
  refine (colsum0_of (E1 m ρ) c (in0 m ρ c) (agg0 m ρ c) rfl rfl rfl rfl q).trans ?_
  unfold H0
  rw [w1_0 m ρ c, b1_0 m ρ c, w2_0 m ρ c, b2_0 m ρ c]
theorem colsumsq_at0 (q : Fin 64) :
    (B2 m ρ c (Proc.devRef .tc main_v29_2) : S1x64.Idx → EReal) (ix2 0 q) = Cert.LayerSpec.colSumSq (H0 m c) q := by
  refine (congrFun (B2_arr m ρ c 8) _).trans ?_
  refine (colsumsq0_of (E1 m ρ) c (in0 m ρ c) (agg0 m ρ c) rfl rfl rfl rfl q).trans ?_
  unfold H0
  rw [w1_0 m ρ c, b1_0 m ρ c, w2_0 m ρ c, b2_0 m ρ c]

/-- The statistics the host computes between the layer's two regions. -/
theorem mean_at0 (q : Fin 64) :
    (E3 m ρ c main_v31 : S1x64.Idx → EReal) (ix2 0 q) = Cert.LayerSpec.mean cnt (H0 m c) q := by
  refine (after1_v31 (B2 m ρ c) 0 q).trans ?_
  rw [colsum_at0 m ρ c q]; rfl
theorem inv_at0 (q : Fin 64) :
    (E3 m ρ c main_v38 : S1x64.Idx → EReal) (ix2 0 q)
      = Cert.LayerSpec.invStd eps (Cert.LayerSpec.varMoments cnt (H0 m c)) q := by
  refine (after1_v38 (B2 m ρ c) 0 q).trans ?_
  rw [colsum_at0 m ρ c q, colsumsq_at0 m ρ c q]; rfl
theorem gamma_at0 (q : Fin 64) :
    (E3 m ρ c main_v43 : S1x64.Idx → EReal) (ix2 0 q) = a7 m c (ix2 (0 : Fin 3) q) :=
  (after1_v43 (B2 m ρ c) 0 q).trans (congrFun (((B2_keep m ρ c main_arg7 (by decide)).trans <| (B1_keep m ρ c main_arg7 (by decide))).trans rfl) _)
theorem beta_at0 (q : Fin 64) :
    (E3 m ρ c main_v44 : S1x64.Idx → EReal) (ix2 0 q) = a8 m c (ix2 (0 : Fin 3) q) :=
  (after1_v44 (B2 m ρ c) 0 q).trans (congrFun (((B2_keep m ρ c main_arg8 (by decide)).trans <| (B1_keep m ρ c main_arg8 (by decide))).trans rfl) _)
theorem hiddenE_at0 (r : Fin 100000) (q : Fin 64) : (E3 m ρ c main_v29_0 : S100000x64.Idx → EReal) (ix2 r q) = H0 m c r q :=
  (congrFun (B3_keep m ρ c main_v29_0 (by decide)) _).trans (hidden_at0 m ρ c r q)

/-- The layer's output is the layer function, in its two-moment spelling, of the layer's input. -/
theorem layer0 : mat (Z1 m ρ c) = layerMomentsA cnt eps (fun j k => a3 m c (ix3 (0 : Fin 3) j k)) (fun k => a4 m c (ix2 (0 : Fin 3) k))
    (fun j k => a5 m c (ix3 (0 : Fin 3) j k)) (fun k => a6 m c (ix2 (0 : Fin 3) k))
    (fun k => a7 m c (ix2 (0 : Fin 3) k)) (fun k => a8 m c (ix2 (0 : Fin 3) k))
    (mat (a0 m c)) (mat (Agg (a0 m c) (srcVec (a1 m c)) (dstVec (a1 m c)))) := by
  funext r q
  rw [mat_apply, layerMomentsA_def]
  unfold Z1
  refine (congrFun (B4_arr m ρ c 5) _).trans ?_
  refine (normalized1 (E3 m ρ) c rfl rfl rfl rfl rfl r q).trans ?_
  rw [hiddenE_at0 m ρ c r q, mean_at0 m ρ c q, inv_at0 m ρ c q, gamma_at0 m ρ c q, beta_at0 m ρ c q]
  rfl

/-! ## Layer 2 -/

theorem in1 : (E5 m ρ c main_v45 : S100000x64.Idx → EReal) = (Z1 m ρ c) :=
  (B5_keep m ρ c main_v45 (by decide)).trans (by unfold Z1; rfl)
theorem agg1 : (E5 m ρ c main_v60 : S100000x64.Idx → EReal) = Agg (Z1 m ρ c) (srcVec (a1 m c)) (dstVec (a1 m c)) :=
  (after2_v60 (B4 m ρ c)).trans (by rw [src_at4 m ρ c, dst_at4 m ρ c]; unfold Z1; rfl)
theorem w1_1 : (fun (j k : Fin 64) => (E5 m ρ c main_v62 : S64x64.Idx → EReal) (ix2 j k)) = fun j k => a3 m c (ix3 (1 : Fin 3) j k) := by
  funext j k; exact (after2_v62 (B4 m ρ c) j k).trans (congrFun (((B4_keep m ρ c main_arg3 (by decide)).trans <| (B3_keep m ρ c main_arg3 (by decide)).trans <| (B2_keep m ρ c main_arg3 (by decide)).trans <| (B1_keep m ρ c main_arg3 (by decide))).trans rfl) _)
theorem b1_1 : (fun (k : Fin 64) => (E5 m ρ c main_v69 : S1x64.Idx → EReal) (ix2 0 k)) = fun k => a4 m c (ix2 (1 : Fin 3) k) := by
  funext k; exact (after2_v69 (B4 m ρ c) 0 k).trans (congrFun (((B4_keep m ρ c main_arg4 (by decide)).trans <| (B3_keep m ρ c main_arg4 (by decide)).trans <| (B2_keep m ρ c main_arg4 (by decide)).trans <| (B1_keep m ρ c main_arg4 (by decide))).trans rfl) _)
theorem w2_1 : (fun (j k : Fin 64) => (E5 m ρ c main_v66 : S64x64.Idx → EReal) (ix2 j k)) = fun j k => a5 m c (ix3 (1 : Fin 3) j k) := by
  funext j k; exact (after2_v66 (B4 m ρ c) j k).trans (congrFun (((B4_keep m ρ c main_arg5 (by decide)).trans <| (B3_keep m ρ c main_arg5 (by decide)).trans <| (B2_keep m ρ c main_arg5 (by decide)).trans <| (B1_keep m ρ c main_arg5 (by decide))).trans rfl) _)
theorem b2_1 : (fun (k : Fin 64) => (E5 m ρ c main_v70 : S1x64.Idx → EReal) (ix2 0 k)) = fun k => a6 m c (ix2 (1 : Fin 3) k) := by
  funext k; exact (after2_v70 (B4 m ρ c) 0 k).trans (congrFun (((B4_keep m ρ c main_arg6 (by decide)).trans <| (B3_keep m ρ c main_arg6 (by decide)).trans <| (B2_keep m ρ c main_arg6 (by decide)).trans <| (B1_keep m ρ c main_arg6 (by decide))).trans rfl) _)

/-- The layer's hidden rows. -/
def H1 : Fin 100000 → Fin 64 → EReal :=
  Cert.LayerSpec.hidden (fun r k => (Z1 m ρ c) (ix2 r k) + Agg (Z1 m ρ c) (srcVec (a1 m c)) (dstVec (a1 m c)) (ix2 r k))
    (fun j k => a3 m c (ix3 (1 : Fin 3) j k)) (fun k => a4 m c (ix2 (1 : Fin 3) k))
    (fun j k => a5 m c (ix3 (1 : Fin 3) j k)) (fun k => a6 m c (ix2 (1 : Fin 3) k))

theorem hidden_at1 (r : Fin 100000) (q : Fin 64) :
    (B6 m ρ c (Proc.devRef .tc main_v71_0) : S100000x64.Idx → EReal) (ix2 r q) = H1 m ρ c r q := by
  refine (congrFun (B6_arr m ρ c 6) _).trans ?_
  refine (hidden2_of (E5 m ρ) c (in1 m ρ c) (agg1 m ρ c) rfl rfl rfl rfl r q).trans ?_
  unfold H1
  rw [w1_1 m ρ c, b1_1 m ρ c, w2_1 m ρ c, b2_1 m ρ c]
theorem colsum_at1 (q : Fin 64) :
    (B6 m ρ c (Proc.devRef .tc main_v71_1) : S1x64.Idx → EReal) (ix2 0 q) = Cert.LayerSpec.colSum (H1 m ρ c) q := by
  refine (congrFun (B6_arr m ρ c 7) _).trans ?_
  refine (colsum2_of (E5 m ρ) c (in1 m ρ c) (agg1 m ρ c) rfl rfl rfl rfl q).trans ?_
  unfold H1
  rw [w1_1 m ρ c, b1_1 m ρ c, w2_1 m ρ c, b2_1 m ρ c]
theorem colsumsq_at1 (q : Fin 64) :
    (B6 m ρ c (Proc.devRef .tc main_v71_2) : S1x64.Idx → EReal) (ix2 0 q) = Cert.LayerSpec.colSumSq (H1 m ρ c) q := by
  refine (congrFun (B6_arr m ρ c 8) _).trans ?_
  refine (colsumsq2_of (E5 m ρ) c (in1 m ρ c) (agg1 m ρ c) rfl rfl rfl rfl q).trans ?_
  unfold H1
  rw [w1_1 m ρ c, b1_1 m ρ c, w2_1 m ρ c, b2_1 m ρ c]

/-- The statistics the host computes between the layer's two regions. -/
theorem mean_at1 (q : Fin 64) :
    (E7 m ρ c main_v73 : S1x64.Idx → EReal) (ix2 0 q) = Cert.LayerSpec.mean cnt (H1 m ρ c) q := by
  refine (after3_v73 (B6 m ρ c) 0 q).trans ?_
  rw [colsum_at1 m ρ c q]; rfl
theorem inv_at1 (q : Fin 64) :
    (E7 m ρ c main_v80 : S1x64.Idx → EReal) (ix2 0 q)
      = Cert.LayerSpec.invStd eps (Cert.LayerSpec.varMoments cnt (H1 m ρ c)) q := by
  refine (after3_v80 (B6 m ρ c) 0 q).trans ?_
  rw [colsum_at1 m ρ c q, colsumsq_at1 m ρ c q]; rfl
theorem gamma_at1 (q : Fin 64) :
    (E7 m ρ c main_v85 : S1x64.Idx → EReal) (ix2 0 q) = a7 m c (ix2 (1 : Fin 3) q) :=
  (after3_v85 (B6 m ρ c) 0 q).trans (congrFun (((B6_keep m ρ c main_arg7 (by decide)).trans <| (B5_keep m ρ c main_arg7 (by decide)).trans <| (B4_keep m ρ c main_arg7 (by decide)).trans <| (B3_keep m ρ c main_arg7 (by decide)).trans <| (B2_keep m ρ c main_arg7 (by decide)).trans <| (B1_keep m ρ c main_arg7 (by decide))).trans rfl) _)
theorem beta_at1 (q : Fin 64) :
    (E7 m ρ c main_v86 : S1x64.Idx → EReal) (ix2 0 q) = a8 m c (ix2 (1 : Fin 3) q) :=
  (after3_v86 (B6 m ρ c) 0 q).trans (congrFun (((B6_keep m ρ c main_arg8 (by decide)).trans <| (B5_keep m ρ c main_arg8 (by decide)).trans <| (B4_keep m ρ c main_arg8 (by decide)).trans <| (B3_keep m ρ c main_arg8 (by decide)).trans <| (B2_keep m ρ c main_arg8 (by decide)).trans <| (B1_keep m ρ c main_arg8 (by decide))).trans rfl) _)
theorem hiddenE_at1 (r : Fin 100000) (q : Fin 64) : (E7 m ρ c main_v71_0 : S100000x64.Idx → EReal) (ix2 r q) = H1 m ρ c r q :=
  (congrFun (B7_keep m ρ c main_v71_0 (by decide)) _).trans (hidden_at1 m ρ c r q)

/-- The layer's output is the layer function, in its two-moment spelling, of the layer's input. -/
theorem layer1 : mat (Z2 m ρ c) = layerMomentsA cnt eps (fun j k => a3 m c (ix3 (1 : Fin 3) j k)) (fun k => a4 m c (ix2 (1 : Fin 3) k))
    (fun j k => a5 m c (ix3 (1 : Fin 3) j k)) (fun k => a6 m c (ix2 (1 : Fin 3) k))
    (fun k => a7 m c (ix2 (1 : Fin 3) k)) (fun k => a8 m c (ix2 (1 : Fin 3) k))
    (mat (Z1 m ρ c)) (mat (Agg (Z1 m ρ c) (srcVec (a1 m c)) (dstVec (a1 m c)))) := by
  funext r q
  rw [mat_apply, layerMomentsA_def]
  unfold Z2
  refine (congrFun (B8_arr m ρ c 5) _).trans ?_
  refine (normalized3 (E7 m ρ) c rfl rfl rfl rfl rfl r q).trans ?_
  rw [hiddenE_at1 m ρ c r q, mean_at1 m ρ c q, inv_at1 m ρ c q, gamma_at1 m ρ c q, beta_at1 m ρ c q]
  rfl

/-! ## Layer 3 -/

theorem in2 : (E9 m ρ c main_v87 : S100000x64.Idx → EReal) = (Z2 m ρ c) :=
  (B9_keep m ρ c main_v87 (by decide)).trans (by unfold Z2; rfl)
theorem agg2 : (E9 m ρ c main_v102 : S100000x64.Idx → EReal) = Agg (Z2 m ρ c) (srcVec (a1 m c)) (dstVec (a1 m c)) :=
  (after4_v102 (B8 m ρ c)).trans (by rw [src_at8 m ρ c, dst_at8 m ρ c]; unfold Z2; rfl)
theorem w1_2 : (fun (j k : Fin 64) => (E9 m ρ c main_v104 : S64x64.Idx → EReal) (ix2 j k)) = fun j k => a3 m c (ix3 (2 : Fin 3) j k) := by
  funext j k; exact (after4_v104 (B8 m ρ c) j k).trans (congrFun (((B8_keep m ρ c main_arg3 (by decide)).trans <| (B7_keep m ρ c main_arg3 (by decide)).trans <| (B6_keep m ρ c main_arg3 (by decide)).trans <| (B5_keep m ρ c main_arg3 (by decide)).trans <| (B4_keep m ρ c main_arg3 (by decide)).trans <| (B3_keep m ρ c main_arg3 (by decide)).trans <| (B2_keep m ρ c main_arg3 (by decide)).trans <| (B1_keep m ρ c main_arg3 (by decide))).trans rfl) _)
theorem b1_2 : (fun (k : Fin 64) => (E9 m ρ c main_v111 : S1x64.Idx → EReal) (ix2 0 k)) = fun k => a4 m c (ix2 (2 : Fin 3) k) := by
  funext k; exact (after4_v111 (B8 m ρ c) 0 k).trans (congrFun (((B8_keep m ρ c main_arg4 (by decide)).trans <| (B7_keep m ρ c main_arg4 (by decide)).trans <| (B6_keep m ρ c main_arg4 (by decide)).trans <| (B5_keep m ρ c main_arg4 (by decide)).trans <| (B4_keep m ρ c main_arg4 (by decide)).trans <| (B3_keep m ρ c main_arg4 (by decide)).trans <| (B2_keep m ρ c main_arg4 (by decide)).trans <| (B1_keep m ρ c main_arg4 (by decide))).trans rfl) _)
theorem w2_2 : (fun (j k : Fin 64) => (E9 m ρ c main_v108 : S64x64.Idx → EReal) (ix2 j k)) = fun j k => a5 m c (ix3 (2 : Fin 3) j k) := by
  funext j k; exact (after4_v108 (B8 m ρ c) j k).trans (congrFun (((B8_keep m ρ c main_arg5 (by decide)).trans <| (B7_keep m ρ c main_arg5 (by decide)).trans <| (B6_keep m ρ c main_arg5 (by decide)).trans <| (B5_keep m ρ c main_arg5 (by decide)).trans <| (B4_keep m ρ c main_arg5 (by decide)).trans <| (B3_keep m ρ c main_arg5 (by decide)).trans <| (B2_keep m ρ c main_arg5 (by decide)).trans <| (B1_keep m ρ c main_arg5 (by decide))).trans rfl) _)
theorem b2_2 : (fun (k : Fin 64) => (E9 m ρ c main_v112 : S1x64.Idx → EReal) (ix2 0 k)) = fun k => a6 m c (ix2 (2 : Fin 3) k) := by
  funext k; exact (after4_v112 (B8 m ρ c) 0 k).trans (congrFun (((B8_keep m ρ c main_arg6 (by decide)).trans <| (B7_keep m ρ c main_arg6 (by decide)).trans <| (B6_keep m ρ c main_arg6 (by decide)).trans <| (B5_keep m ρ c main_arg6 (by decide)).trans <| (B4_keep m ρ c main_arg6 (by decide)).trans <| (B3_keep m ρ c main_arg6 (by decide)).trans <| (B2_keep m ρ c main_arg6 (by decide)).trans <| (B1_keep m ρ c main_arg6 (by decide))).trans rfl) _)

/-- The layer's hidden rows. -/
def H2 : Fin 100000 → Fin 64 → EReal :=
  Cert.LayerSpec.hidden (fun r k => (Z2 m ρ c) (ix2 r k) + Agg (Z2 m ρ c) (srcVec (a1 m c)) (dstVec (a1 m c)) (ix2 r k))
    (fun j k => a3 m c (ix3 (2 : Fin 3) j k)) (fun k => a4 m c (ix2 (2 : Fin 3) k))
    (fun j k => a5 m c (ix3 (2 : Fin 3) j k)) (fun k => a6 m c (ix2 (2 : Fin 3) k))

theorem hidden_at2 (r : Fin 100000) (q : Fin 64) :
    (B10 m ρ c (Proc.devRef .tc main_v113_0) : S100000x64.Idx → EReal) (ix2 r q) = H2 m ρ c r q := by
  refine (congrFun (B10_arr m ρ c 6) _).trans ?_
  refine (hidden4_of (E9 m ρ) c (in2 m ρ c) (agg2 m ρ c) rfl rfl rfl rfl r q).trans ?_
  unfold H2
  rw [w1_2 m ρ c, b1_2 m ρ c, w2_2 m ρ c, b2_2 m ρ c]
theorem colsum_at2 (q : Fin 64) :
    (B10 m ρ c (Proc.devRef .tc main_v113_1) : S1x64.Idx → EReal) (ix2 0 q) = Cert.LayerSpec.colSum (H2 m ρ c) q := by
  refine (congrFun (B10_arr m ρ c 7) _).trans ?_
  refine (colsum4_of (E9 m ρ) c (in2 m ρ c) (agg2 m ρ c) rfl rfl rfl rfl q).trans ?_
  unfold H2
  rw [w1_2 m ρ c, b1_2 m ρ c, w2_2 m ρ c, b2_2 m ρ c]
theorem colsumsq_at2 (q : Fin 64) :
    (B10 m ρ c (Proc.devRef .tc main_v113_2) : S1x64.Idx → EReal) (ix2 0 q) = Cert.LayerSpec.colSumSq (H2 m ρ c) q := by
  refine (congrFun (B10_arr m ρ c 8) _).trans ?_
  refine (colsumsq4_of (E9 m ρ) c (in2 m ρ c) (agg2 m ρ c) rfl rfl rfl rfl q).trans ?_
  unfold H2
  rw [w1_2 m ρ c, b1_2 m ρ c, w2_2 m ρ c, b2_2 m ρ c]

/-- The statistics the host computes between the layer's two regions. -/
theorem mean_at2 (q : Fin 64) :
    (E11 m ρ c main_v115 : S1x64.Idx → EReal) (ix2 0 q) = Cert.LayerSpec.mean cnt (H2 m ρ c) q := by
  refine (after5_v115 (B10 m ρ c) 0 q).trans ?_
  rw [colsum_at2 m ρ c q]; rfl
theorem inv_at2 (q : Fin 64) :
    (E11 m ρ c main_v122 : S1x64.Idx → EReal) (ix2 0 q)
      = Cert.LayerSpec.invStd eps (Cert.LayerSpec.varMoments cnt (H2 m ρ c)) q := by
  refine (after5_v122 (B10 m ρ c) 0 q).trans ?_
  rw [colsum_at2 m ρ c q, colsumsq_at2 m ρ c q]; rfl
theorem gamma_at2 (q : Fin 64) :
    (E11 m ρ c main_v127 : S1x64.Idx → EReal) (ix2 0 q) = a7 m c (ix2 (2 : Fin 3) q) :=
  (after5_v127 (B10 m ρ c) 0 q).trans (congrFun (((B10_keep m ρ c main_arg7 (by decide)).trans <| (B9_keep m ρ c main_arg7 (by decide)).trans <| (B8_keep m ρ c main_arg7 (by decide)).trans <| (B7_keep m ρ c main_arg7 (by decide)).trans <| (B6_keep m ρ c main_arg7 (by decide)).trans <| (B5_keep m ρ c main_arg7 (by decide)).trans <| (B4_keep m ρ c main_arg7 (by decide)).trans <| (B3_keep m ρ c main_arg7 (by decide)).trans <| (B2_keep m ρ c main_arg7 (by decide)).trans <| (B1_keep m ρ c main_arg7 (by decide))).trans rfl) _)
theorem beta_at2 (q : Fin 64) :
    (E11 m ρ c main_v128 : S1x64.Idx → EReal) (ix2 0 q) = a8 m c (ix2 (2 : Fin 3) q) :=
  (after5_v128 (B10 m ρ c) 0 q).trans (congrFun (((B10_keep m ρ c main_arg8 (by decide)).trans <| (B9_keep m ρ c main_arg8 (by decide)).trans <| (B8_keep m ρ c main_arg8 (by decide)).trans <| (B7_keep m ρ c main_arg8 (by decide)).trans <| (B6_keep m ρ c main_arg8 (by decide)).trans <| (B5_keep m ρ c main_arg8 (by decide)).trans <| (B4_keep m ρ c main_arg8 (by decide)).trans <| (B3_keep m ρ c main_arg8 (by decide)).trans <| (B2_keep m ρ c main_arg8 (by decide)).trans <| (B1_keep m ρ c main_arg8 (by decide))).trans rfl) _)
theorem hiddenE_at2 (r : Fin 100000) (q : Fin 64) : (E11 m ρ c main_v113_0 : S100000x64.Idx → EReal) (ix2 r q) = H2 m ρ c r q :=
  (congrFun (B11_keep m ρ c main_v113_0 (by decide)) _).trans (hidden_at2 m ρ c r q)

/-- The layer's output is the layer function, in its two-moment spelling, of the layer's input. -/
theorem layer2 : mat (Z3 m ρ c) = layerMomentsA cnt eps (fun j k => a3 m c (ix3 (2 : Fin 3) j k)) (fun k => a4 m c (ix2 (2 : Fin 3) k))
    (fun j k => a5 m c (ix3 (2 : Fin 3) j k)) (fun k => a6 m c (ix2 (2 : Fin 3) k))
    (fun k => a7 m c (ix2 (2 : Fin 3) k)) (fun k => a8 m c (ix2 (2 : Fin 3) k))
    (mat (Z2 m ρ c)) (mat (Agg (Z2 m ρ c) (srcVec (a1 m c)) (dstVec (a1 m c)))) := by
  funext r q
  rw [mat_apply, layerMomentsA_def]
  unfold Z3
  refine (congrFun (B12_arr m ρ c 5) _).trans ?_
  refine (normalized5 (E11 m ρ) c rfl rfl rfl rfl rfl r q).trans ?_
  rw [hiddenE_at2 m ρ c r q, mean_at2 m ρ c q, inv_at2 m ρ c q, gamma_at2 m ρ c q, beta_at2 m ρ c q]
  rfl

/-! ## The result -/

/-- The program's result array at the end of @main: the pooled outputs of the three layers, side by side. -/
theorem result_eq : (B13 m ρ c (Proc.devRef .tc main_v139) : FVec Ideal S512x192 .f32)
    = Pool (Z1 m ρ c) (Z2 m ρ c) (Z3 m ρ c) (a2 m c) := by
  refine (after6_v139 (B12 m ρ c)).trans ?_
  have e1 : (B12 m ρ c (Proc.devRef .tc main_v45) : S100000x64.Idx → EReal) = Z1 m ρ c :=
    ((B12_keep m ρ c main_v45 (by decide)).trans <| (B11_keep m ρ c main_v45 (by decide)).trans <| (B10_keep m ρ c main_v45 (by decide)).trans <| (B9_keep m ρ c main_v45 (by decide)).trans <| (B8_keep m ρ c main_v45 (by decide)).trans <| (B7_keep m ρ c main_v45 (by decide)).trans <| (B6_keep m ρ c main_v45 (by decide)).trans <| (B5_keep m ρ c main_v45 (by decide))).trans (by unfold Z1; rfl)
  have e2 : (B12 m ρ c (Proc.devRef .tc main_v87) : S100000x64.Idx → EReal) = Z2 m ρ c :=
    ((B12_keep m ρ c main_v87 (by decide)).trans <| (B11_keep m ρ c main_v87 (by decide)).trans <| (B10_keep m ρ c main_v87 (by decide)).trans <| (B9_keep m ρ c main_v87 (by decide))).trans (by unfold Z2; rfl)
  have e3 : (B12 m ρ c (Proc.devRef .tc main_v129) : S100000x64.Idx → EReal) = Z3 m ρ c := by unfold Z3; rfl
  have e4 : (B12 m ρ c (Proc.devRef .tc main_arg2) : IVec S100000 32) = a2 m c := ((B12_keep m ρ c main_arg2 (by decide)).trans <| (B11_keep m ρ c main_arg2 (by decide)).trans <| (B10_keep m ρ c main_arg2 (by decide)).trans <| (B9_keep m ρ c main_arg2 (by decide)).trans <| (B8_keep m ρ c main_arg2 (by decide)).trans <| (B7_keep m ρ c main_arg2 (by decide)).trans <| (B6_keep m ρ c main_arg2 (by decide)).trans <| (B5_keep m ρ c main_arg2 (by decide)).trans <| (B4_keep m ρ c main_arg2 (by decide)).trans <| (B3_keep m ρ c main_arg2 (by decide)).trans <| (B2_keep m ρ c main_arg2 (by decide)).trans <| (B1_keep m ρ c main_arg2 (by decide))).trans rfl
  rw [e1, e2, e3, e4]

end Cert.KernelIdeal.Layers

end
-- ==== Proof.LibAfterAppend.lean ====
/-
  A general fact about a straight line of host operations, for any signature and any value type.

  * after_append: the buffer contents after two lines of operations run one after the other are the
    contents after the second line, started from the contents after the first.  It lets a long program be
    read one stretch at a time: the contents at a cut are a valuation like any other.
  * forall_append, forall_cons: a property of every operation of a joined line from the property of the
    parts (the side conditions of a run are stated over the whole line).
-/
import Idealize.ShloMosaic.Lib.StableHlo.Run

namespace Cert.Lib.AfterAppend

open Idealize.ShloMosaic Idealize.ShloMosaic.StableHlo

variable {τ : Topo} {sig : RefSig} {Val : EltTy → Type}

/-- The contents after a joined line are the contents after its second part, from the contents after its first. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A property of every element of a joined list, from the property of each part. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- A property of every element of a list with one more element in front. -/
theorem forall_cons {α : Type} {p : α → Prop} {a : α} {l : List α} (ha : p a) (hl : l.Forall p) :
    (a :: l).Forall p :=
  List.forall_iff_forall_mem.mpr fun x hx =>
    (List.mem_cons.mp hx).elim (fun e => e ▸ ha) (List.forall_iff_forall_mem.mp hl x)

end Cert.Lib.AfterAppend
-- ==== Proof.ReferenceRunByHand.lean ====
/-
  The reference program's @main as a straight line of host operations, cut into four stretches — the three layers and
  the tail that sums each layer's result per graph and joins the three sums —, and its run: every weakly fair execution
  terminates with the result array at the four stretches' folds, one after the other, over the launch contents, and
  with the nine argument arrays unchanged (no operation writes an argument).

  The contents after the whole line are the contents after the tail, from the contents after layer three, from those
  after layer two, from those after layer one: a value proof reads one stretch at a time, the contents at a cut being a
  valuation like any other.
-/
import proofs.«149905_j3221225472297_1_alg».proof.Proof.Gen.ReferenceIdeal
import proofs.«149905_j3221225472297_1_alg».proof.Proof.LibAfterAppend
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.Lib.AfterAppend

variable {F : FTy → Type} [FloatOps F]

/-! ## The program as four stretches of host operations -/

/-- The first layer: the operations writing `%0` … `%66`. -/
abbrev opsL1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S100000x64 ![] bcast_S_S100000x64 : (⟨S_, .f32⟩ : BufTy).Contents (Elt F) → (⟨S100000x64, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v1 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v1 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_arg0 main_v10 main_v11 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_1 (constantI S_ 32 0#32),
    unary main_c_1 main_v12 (broadcastInDim S1600000 ![] bcast_S_S1600000 : (⟨S_, .i32⟩ : BufTy).Contents (Elt F) → (⟨S1600000, .i32⟩ : BufTy).Contents (Elt F)),
    binary main_v3 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v3 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v3 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    ternary main_v4 main_v17 main_v11 main_v18 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v18 main_v19 (addf : (⟨S100000x64, .f32⟩ : BufTy).Contents (Elt F) → (⟨S100000x64, .f32⟩ : BufTy).Contents (Elt F) → (⟨S100000x64, .f32⟩ : BufTy).Contents (Elt F)),
    unary main_arg3 main_v20 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v20 main_v21 rfl shapeCasts_S1x64x64_S64x64,
    binary main_v19 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v23 ((extractStridedSlice S1x64 ![0, 0] · slices_S3x64_S1x64_0_0) : (⟨S3x64, .f32⟩ : BufTy).Contents (Elt F) → (⟨S1x64, .f32⟩ : BufTy).Contents (Elt F)),
    reshape main_v23 main_v24 rfl shapeCasts_S1x64_S64,
    unary main_v24 main_v25 (broadcastInDim S1x64 ![1] bcast_S64_S1x64_1 : (⟨S64, .f32⟩ : BufTy).Contents (Elt F) → (⟨S1x64, .f32⟩ : BufTy).Contents (Elt F)),
    unary main_v25 main_v26 (broadcastInDim S100000x64 ![0, 1] bcast_S1x64_S100000x64_0_1 : (⟨S1x64, .f32⟩ : BufTy).Contents (Elt F) → (⟨S100000x64, .f32⟩ : BufTy).Contents (Elt F)),
    binary main_v22 main_v26 main_v27 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v27) (TRef.of (T := ⟨S100000x64, .f32⟩) main_call0_v0) (TRef.of (T := ⟨S100000x64, .f32⟩) main_v28) maximumf,
    unary main_arg5 main_v29 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v29 main_v30 rfl shapeCasts_S1x64x64_S64x64,
    binary main_v28 main_v30 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v32 ((extractStridedSlice S1x64 ![0, 0] · slices_S3x64_S1x64_0_0) : (⟨S3x64, .f32⟩ : BufTy).Contents (Elt F) → (⟨S1x64, .f32⟩ : BufTy).Contents (Elt F)),
    reshape main_v32 main_v33 rfl shapeCasts_S1x64_S64,
    unary main_v33 main_v34 (broadcastInDim S1x64 ![1] bcast_S64_S1x64_1 : (⟨S64, .f32⟩ : BufTy).Contents (Elt F) → (⟨S1x64, .f32⟩ : BufTy).Contents (Elt F)),
    unary main_v34 main_v35 (broadcastInDim S100000x64 ![0, 1] bcast_S1x64_S100000x64_0_1 : (⟨S1x64, .f32⟩ : BufTy).Contents (Elt F) → (⟨S100000x64, .f32⟩ : BufTy).Contents (Elt F)),
    binary main_v31 main_v35 main_v36 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v36) (TRef.of (T := ⟨S100000x64, .f32⟩) main_call1_v0) (TRef.of (T := ⟨S100000x64, .f32⟩) main_v37) maximumf,
    nullary main_cst_3 (constant S_ .f32 0x00000000#32),
    binary main_v37 main_cst_3 main_v38 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_4 (constant S_ .f32 0x47C35000#32),
    unary main_cst_4 main_v39 (broadcastInDim S64 ![] bcast_S_S64 : (⟨S_, .f32⟩ : BufTy).Contents (Elt F) → (⟨S64, .f32⟩ : BufTy).Contents (Elt F)),
    binary main_v38 main_v39 main_v40 (Host.divf : (⟨S64, .f32⟩ : BufTy).Contents (Elt F) → (⟨S64, .f32⟩ : BufTy).Contents (Elt F) → (⟨S64, .f32⟩ : BufTy).Contents (Elt F)),
    unary main_v40 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v37 main_v42 main_v43 (subf : (⟨S100000x64, .f32⟩ : BufTy).Contents (Elt F) → (⟨S100000x64, .f32⟩ : BufTy).Contents (Elt F) → (⟨S100000x64, .f32⟩ : BufTy).Contents (Elt F)),
    binary main_v43 main_v43 main_v44 (mulf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x00000000#32),
    binary main_v44 main_cst_5 main_v45 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_6 (constant S_ .f32 0x47C35000#32),
    unary main_cst_6 main_v46 (broadcastInDim S64 ![] bcast_S_S64 : (⟨S_, .f32⟩ : BufTy).Contents (Elt F) → (⟨S64, .f32⟩ : BufTy).Contents (Elt F)),
    binary main_v45 main_v46 main_v47 (Host.divf : (⟨S64, .f32⟩ : BufTy).Contents (Elt F) → (⟨S64, .f32⟩ : BufTy).Contents (Elt F) → (⟨S64, .f32⟩ : BufTy).Contents (Elt F)),
    unary main_v40 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v37 main_v49 main_v50 (subf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3727C5AC#32),
    unary main_cst_7 main_v51 (broadcastInDim S64 ![] bcast_S_S64 : (⟨S_, .f32⟩ : BufTy).Contents (Elt F) → (⟨S64, .f32⟩ : BufTy).Contents (Elt F)),
    binary main_v47 main_v51 main_v52 (addf : (⟨S64, .f32⟩ : BufTy).Contents (Elt F) → (⟨S64, .f32⟩ : BufTy).Contents (Elt F) → (⟨S64, .f32⟩ : BufTy).Contents (Elt F)),
    unary main_v52 main_v53 (Host.rsqrt : (⟨S64, .f32⟩ : BufTy).Contents (Elt F) → (⟨S64, .f32⟩ : BufTy).Contents (Elt F)),
    unary main_v53 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v50 main_v55 main_v56 (mulf : (⟨S100000x64, .f32⟩ : BufTy).Contents (Elt F) → (⟨S100000x64, .f32⟩ : BufTy).Contents (Elt F) → (⟨S100000x64, .f32⟩ : BufTy).Contents (Elt F)),
    unary main_arg7 main_v57 ((extractStridedSlice S1x64 ![0, 0] · slices_S3x64_S1x64_0_0) : (⟨S3x64, .f32⟩ : BufTy).Contents (Elt F) → (⟨S1x64, .f32⟩ : BufTy).Contents (Elt F)),
    reshape main_v57 main_v58 rfl shapeCasts_S1x64_S64,
    unary main_v58 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v56 main_v60 main_v61 (mulf : (⟨S100000x64, .f32⟩ : BufTy).Contents (Elt F) → (⟨S100000x64, .f32⟩ : BufTy).Contents (Elt F) → (⟨S100000x64, .f32⟩ : BufTy).Contents (Elt F)),
    unary main_arg8 main_v62 ((extractStridedSlice S1x64 ![0, 0] · slices_S3x64_S1x64_0_0) : (⟨S3x64, .f32⟩ : BufTy).Contents (Elt F) → (⟨S1x64, .f32⟩ : BufTy).Contents (Elt F)),
    reshape main_v62 main_v63 rfl shapeCasts_S1x64_S64,
    unary main_v63 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v61 main_v65 main_v66 (addf : (⟨S100000x64, .f32⟩ : BufTy).Contents (Elt F) → (⟨S100000x64, .f32⟩ : BufTy).Contents (Elt F) → (⟨S100000x64, .f32⟩ : BufTy).Contents (Elt F)) ]

/-- The second layer, over the first layer's result: the operations writing `%67` … `%129`. -/
abbrev opsL2 : List (HloOp τ sig (Elt F)) :=
  [ nullary main_cst_8 (constant S_ .f32 0x00000000#32),
    unary main_cst_8 main_v67 (broadcastInDim S100000x64 ![] bcast_S_S100000x64 : (⟨S_, .f32⟩ : BufTy).Contents (Elt F) → (⟨S100000x64, .f32⟩ : BufTy).Contents (Elt F)),
    nullary main_c_9 (constantI S_ 32 0#32),
    unary main_c_9 main_v68 (broadcastInDim S1600000 ![] bcast_S_S1600000 : (⟨S_, .i32⟩ : BufTy).Contents (Elt F) → (⟨S1600000, .i32⟩ : BufTy).Contents (Elt F)),
    binary main_v1 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v70 (broadcastInDim S1600000 ![] bcast_S_S1600000 : (⟨S_, .i32⟩ : BufTy).Contents (Elt F) → (⟨S1600000, .i32⟩ : BufTy).Contents (Elt F)),
    binary main_v1 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v66 main_v73 main_v74 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_11 (constantI S_ 32 0#32),
    unary main_c_11 main_v75 (broadcastInDim S1600000 ![] bcast_S_S1600000 : (⟨S_, .i32⟩ : BufTy).Contents (Elt F) → (⟨S1600000, .i32⟩ : BufTy).Contents (Elt F)),
    binary main_v3 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v77 (broadcastInDim S1600000 ![] bcast_S_S1600000 : (⟨S_, .i32⟩ : BufTy).Contents (Elt F) → (⟨S1600000, .i32⟩ : BufTy).Contents (Elt F)),
    binary main_v3 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v3 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    ternary main_v67 main_v80 main_v74 main_v81 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v66 main_v81 main_v82 (addf : (⟨S100000x64, .f32⟩ : BufTy).Contents (Elt F) → (⟨S100000x64, .f32⟩ : BufTy).Contents (Elt F) → (⟨S100000x64, .f32⟩ : BufTy).Contents (Elt F)),
    unary main_arg3 main_v83 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v83 main_v84 rfl shapeCasts_S1x64x64_S64x64,
    binary main_v82 main_v84 main_v85 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v86 ((extractStridedSlice S1x64 ![1, 0] · slices_S3x64_S1x64_1_0) : (⟨S3x64, .f32⟩ : BufTy).Contents (Elt F) → (⟨S1x64, .f32⟩ : BufTy).Contents (Elt F)),
    reshape main_v86 main_v87 rfl shapeCasts_S1x64_S64,
    unary main_v87 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v85 main_v89 main_v90 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v90) (TRef.of (T := ⟨S100000x64, .f32⟩) main_call2_v0) (TRef.of (T := ⟨S100000x64, .f32⟩) main_v91) maximumf,
    unary main_arg5 main_v92 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v92 main_v93 rfl shapeCasts_S1x64x64_S64x64,
    binary main_v91 main_v93 main_v94 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v95 ((extractStridedSlice S1x64 ![1, 0] · slices_S3x64_S1x64_1_0) : (⟨S3x64, .f32⟩ : BufTy).Contents (Elt F) → (⟨S1x64, .f32⟩ : BufTy).Contents (Elt F)),
    reshape main_v95 main_v96 rfl shapeCasts_S1x64_S64,
    unary main_v96 main_v97 (broadcastInDim S1x64 ![1] bcast_S64_S1x64_1 : (⟨S64, .f32⟩ : BufTy).Contents (Elt F) → (⟨S1x64, .f32⟩ : BufTy).Contents (Elt F)),
    unary main_v97 main_v98 (broadcastInDim S100000x64 ![0, 1] bcast_S1x64_S100000x64_0_1 : (⟨S1x64, .f32⟩ : BufTy).Contents (Elt F) → (⟨S100000x64, .f32⟩ : BufTy).Contents (Elt F)),
    binary main_v94 main_v98 main_v99 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v99) (TRef.of (T := ⟨S100000x64, .f32⟩) main_call3_v0) (TRef.of (T := ⟨S100000x64, .f32⟩) main_v100) maximumf,
    nullary main_cst_13 (constant S_ .f32 0x00000000#32),
    binary main_v100 main_cst_13 main_v101 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_14 (constant S_ .f32 0x47C35000#32),
    unary main_cst_14 main_v102 (broadcastInDim S64 ![] bcast_S_S64 : (⟨S_, .f32⟩ : BufTy).Contents (Elt F) → (⟨S64, .f32⟩ : BufTy).Contents (Elt F)),
    binary main_v101 main_v102 main_v103 (Host.divf : (⟨S64, .f32⟩ : BufTy).Contents (Elt F) → (⟨S64, .f32⟩ : BufTy).Contents (Elt F) → (⟨S64, .f32⟩ : BufTy).Contents (Elt F)),
    unary main_v103 main_v104 (broadcastInDim S1x64 ![1] bcast_S64_S1x64_1 : (⟨S64, .f32⟩ : BufTy).Contents (Elt F) → (⟨S1x64, .f32⟩ : BufTy).Contents (Elt F)),
    unary main_v104 main_v105 (broadcastInDim S100000x64 ![0, 1] bcast_S1x64_S100000x64_0_1 : (⟨S1x64, .f32⟩ : BufTy).Contents (Elt F) → (⟨S100000x64, .f32⟩ : BufTy).Contents (Elt F)),
    binary main_v100 main_v105 main_v106 (subf : (⟨S100000x64, .f32⟩ : BufTy).Contents (Elt F) → (⟨S100000x64, .f32⟩ : BufTy).Contents (Elt F) → (⟨S100000x64, .f32⟩ : BufTy).Contents (Elt F)),
    binary main_v106 main_v106 main_v107 (mulf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    binary main_v107 main_cst_15 main_v108 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_16 (constant S_ .f32 0x47C35000#32),
    unary main_cst_16 main_v109 (broadcastInDim S64 ![] bcast_S_S64 : (⟨S_, .f32⟩ : BufTy).Contents (Elt F) → (⟨S64, .f32⟩ : BufTy).Contents (Elt F)),
    binary main_v108 main_v109 main_v110 (Host.divf : (⟨S64, .f32⟩ : BufTy).Contents (Elt F) → (⟨S64, .f32⟩ : BufTy).Contents (Elt F) → (⟨S64, .f32⟩ : BufTy).Contents (Elt F)),
    unary main_v103 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v100 main_v112 main_v113 (subf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x3727C5AC#32),
    unary main_cst_17 main_v114 (broadcastInDim S64 ![] bcast_S_S64 : (⟨S_, .f32⟩ : BufTy).Contents (Elt F) → (⟨S64, .f32⟩ : BufTy).Contents (Elt F)),
    binary main_v110 main_v114 main_v115 (addf : (⟨S64, .f32⟩ : BufTy).Contents (Elt F) → (⟨S64, .f32⟩ : BufTy).Contents (Elt F) → (⟨S64, .f32⟩ : BufTy).Contents (Elt F)),
    unary main_v115 main_v116 (Host.rsqrt : (⟨S64, .f32⟩ : BufTy).Contents (Elt F) → (⟨S64, .f32⟩ : BufTy).Contents (Elt F)),
    unary main_v116 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v113 main_v118 main_v119 (mulf : (⟨S100000x64, .f32⟩ : BufTy).Contents (Elt F) → (⟨S100000x64, .f32⟩ : BufTy).Contents (Elt F) → (⟨S100000x64, .f32⟩ : BufTy).Contents (Elt F)),
    unary main_arg7 main_v120 ((extractStridedSlice S1x64 ![1, 0] · slices_S3x64_S1x64_1_0) : (⟨S3x64, .f32⟩ : BufTy).Contents (Elt F) → (⟨S1x64, .f32⟩ : BufTy).Contents (Elt F)),
    reshape main_v120 main_v121 rfl shapeCasts_S1x64_S64,
    unary main_v121 main_v122 (broadcastInDim S1x64 ![1] bcast_S64_S1x64_1 : (⟨S64, .f32⟩ : BufTy).Contents (Elt F) → (⟨S1x64, .f32⟩ : BufTy).Contents (Elt F)),
    unary main_v122 main_v123 (broadcastInDim S100000x64 ![0, 1] bcast_S1x64_S100000x64_0_1 : (⟨S1x64, .f32⟩ : BufTy).Contents (Elt F) → (⟨S100000x64, .f32⟩ : BufTy).Contents (Elt F)),
    binary main_v119 main_v123 main_v124 (mulf : (⟨S100000x64, .f32⟩ : BufTy).Contents (Elt F) → (⟨S100000x64, .f32⟩ : BufTy).Contents (Elt F) → (⟨S100000x64, .f32⟩ : BufTy).Contents (Elt F)),
    unary main_arg8 main_v125 ((extractStridedSlice S1x64 ![1, 0] · slices_S3x64_S1x64_1_0) : (⟨S3x64, .f32⟩ : BufTy).Contents (Elt F) → (⟨S1x64, .f32⟩ : BufTy).Contents (Elt F)),
    reshape main_v125 main_v126 rfl shapeCasts_S1x64_S64,
    unary main_v126 main_v127 (broadcastInDim S1x64 ![1] bcast_S64_S1x64_1 : (⟨S64, .f32⟩ : BufTy).Contents (Elt F) → (⟨S1x64, .f32⟩ : BufTy).Contents (Elt F)),
    unary main_v127 main_v128 (broadcastInDim S100000x64 ![0, 1] bcast_S1x64_S100000x64_0_1 : (⟨S1x64, .f32⟩ : BufTy).Contents (Elt F) → (⟨S100000x64, .f32⟩ : BufTy).Contents (Elt F)),
    binary main_v124 main_v128 main_v129 (addf : (⟨S100000x64, .f32⟩ : BufTy).Contents (Elt F) → (⟨S100000x64, .f32⟩ : BufTy).Contents (Elt F) → (⟨S100000x64, .f32⟩ : BufTy).Contents (Elt F)) ]

/-- The third layer, over the second layer's result: the operations writing `%130` … `%192`. -/
abbrev opsL3 : List (HloOp τ sig (Elt F)) :=
  [ nullary main_cst_18 (constant S_ .f32 0x00000000#32),
    unary main_cst_18 main_v130 (broadcastInDim S100000x64 ![] bcast_S_S100000x64 : (⟨S_, .f32⟩ : BufTy).Contents (Elt F) → (⟨S100000x64, .f32⟩ : BufTy).Contents (Elt F)),
    nullary main_c_19 (constantI S_ 32 0#32),
    unary main_c_19 main_v131 (broadcastInDim S1600000 ![] bcast_S_S1600000 : (⟨S_, .i32⟩ : BufTy).Contents (Elt F) → (⟨S1600000, .i32⟩ : BufTy).Contents (Elt F)),
    binary main_v1 main_v131 main_v132 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v133 (broadcastInDim S1600000 ![] bcast_S_S1600000 : (⟨S_, .i32⟩ : BufTy).Contents (Elt F) → (⟨S1600000, .i32⟩ : BufTy).Contents (Elt F)),
    binary main_v1 main_v133 main_v134 (addi : (⟨S1600000, .i32⟩ : BufTy).Contents (Elt F) → (⟨S1600000, .i32⟩ : BufTy).Contents (Elt F) → (⟨S1600000, .i32⟩ : BufTy).Contents (Elt F)),
    ternary main_v132 main_v134 main_v1 main_v135 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v135 main_v136 (broadcastInDim S1600000x1 ![0] bcast_S1600000_S1600000x1_0 : (⟨S1600000, .i32⟩ : BufTy).Contents (Elt F) → (⟨S1600000x1, .i32⟩ : BufTy).Contents (Elt F)),
    binary main_v129 main_v136 main_v137 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_21 (constantI S_ 32 0#32),
    unary main_c_21 main_v138 (broadcastInDim S1600000 ![] bcast_S_S1600000 : (⟨S_, .i32⟩ : BufTy).Contents (Elt F) → (⟨S1600000, .i32⟩ : BufTy).Contents (Elt F)),
    binary main_v3 main_v138 main_v139 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v140 (broadcastInDim S1600000 ![] bcast_S_S1600000 : (⟨S_, .i32⟩ : BufTy).Contents (Elt F) → (⟨S1600000, .i32⟩ : BufTy).Contents (Elt F)),
    binary main_v3 main_v140 main_v141 (addi : (⟨S1600000, .i32⟩ : BufTy).Contents (Elt F) → (⟨S1600000, .i32⟩ : BufTy).Contents (Elt F) → (⟨S1600000, .i32⟩ : BufTy).Contents (Elt F)),
    ternary main_v139 main_v141 main_v3 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v142 main_v143 (broadcastInDim S1600000x1 ![0] bcast_S1600000_S1600000x1_0 : (⟨S1600000, .i32⟩ : BufTy).Contents (Elt F) → (⟨S1600000x1, .i32⟩ : BufTy).Contents (Elt F)),
    ternary main_v130 main_v143 main_v137 main_v144 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v129 main_v144 main_v145 (addf : (⟨S100000x64, .f32⟩ : BufTy).Contents (Elt F) → (⟨S100000x64, .f32⟩ : BufTy).Contents (Elt F) → (⟨S100000x64, .f32⟩ : BufTy).Contents (Elt F)),
    unary main_arg3 main_v146 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v146 main_v147 rfl shapeCasts_S1x64x64_S64x64,
    binary main_v145 main_v147 main_v148 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v149 ((extractStridedSlice S1x64 ![2, 0] · slices_S3x64_S1x64_2_0) : (⟨S3x64, .f32⟩ : BufTy).Contents (Elt F) → (⟨S1x64, .f32⟩ : BufTy).Contents (Elt F)),
    reshape main_v149 main_v150 rfl shapeCasts_S1x64_S64,
    unary main_v150 main_v151 (broadcastInDim S1x64 ![1] bcast_S64_S1x64_1 : (⟨S64, .f32⟩ : BufTy).Contents (Elt F) → (⟨S1x64, .f32⟩ : BufTy).Contents (Elt F)),
    unary main_v151 main_v152 (broadcastInDim S100000x64 ![0, 1] bcast_S1x64_S100000x64_0_1 : (⟨S1x64, .f32⟩ : BufTy).Contents (Elt F) → (⟨S100000x64, .f32⟩ : BufTy).Contents (Elt F)),
    binary main_v148 main_v152 main_v153 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v153) (TRef.of (T := ⟨S100000x64, .f32⟩) main_call4_v0) (TRef.of (T := ⟨S100000x64, .f32⟩) main_v154) maximumf,
    unary main_arg5 main_v155 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v155 main_v156 rfl shapeCasts_S1x64x64_S64x64,
    binary main_v154 main_v156 main_v157 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v158 ((extractStridedSlice S1x64 ![2, 0] · slices_S3x64_S1x64_2_0) : (⟨S3x64, .f32⟩ : BufTy).Contents (Elt F) → (⟨S1x64, .f32⟩ : BufTy).Contents (Elt F)),
    reshape main_v158 main_v159 rfl shapeCasts_S1x64_S64,
    unary main_v159 main_v160 (broadcastInDim S1x64 ![1] bcast_S64_S1x64_1 : (⟨S64, .f32⟩ : BufTy).Contents (Elt F) → (⟨S1x64, .f32⟩ : BufTy).Contents (Elt F)),
    unary main_v160 main_v161 (broadcastInDim S100000x64 ![0, 1] bcast_S1x64_S100000x64_0_1 : (⟨S1x64, .f32⟩ : BufTy).Contents (Elt F) → (⟨S100000x64, .f32⟩ : BufTy).Contents (Elt F)),
    binary main_v157 main_v161 main_v162 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v162) (TRef.of (T := ⟨S100000x64, .f32⟩) main_call5_v0) (TRef.of (T := ⟨S100000x64, .f32⟩) main_v163) maximumf,
    nullary main_cst_23 (constant S_ .f32 0x00000000#32),
    binary main_v163 main_cst_23 main_v164 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_24 (constant S_ .f32 0x47C35000#32),
    unary main_cst_24 main_v165 (broadcastInDim S64 ![] bcast_S_S64 : (⟨S_, .f32⟩ : BufTy).Contents (Elt F) → (⟨S64, .f32⟩ : BufTy).Contents (Elt F)),
    binary main_v164 main_v165 main_v166 (Host.divf : (⟨S64, .f32⟩ : BufTy).Contents (Elt F) → (⟨S64, .f32⟩ : BufTy).Contents (Elt F) → (⟨S64, .f32⟩ : BufTy).Contents (Elt F)),
    unary main_v166 main_v167 (broadcastInDim S1x64 ![1] bcast_S64_S1x64_1 : (⟨S64, .f32⟩ : BufTy).Contents (Elt F) → (⟨S1x64, .f32⟩ : BufTy).Contents (Elt F)),
    unary main_v167 main_v168 (broadcastInDim S100000x64 ![0, 1] bcast_S1x64_S100000x64_0_1 : (⟨S1x64, .f32⟩ : BufTy).Contents (Elt F) → (⟨S100000x64, .f32⟩ : BufTy).Contents (Elt F)),
    binary main_v163 main_v168 main_v169 (subf : (⟨S100000x64, .f32⟩ : BufTy).Contents (Elt F) → (⟨S100000x64, .f32⟩ : BufTy).Contents (Elt F) → (⟨S100000x64, .f32⟩ : BufTy).Contents (Elt F)),
    binary main_v169 main_v169 main_v170 (mulf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    binary main_v170 main_cst_25 main_v171 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v172 (broadcastInDim S64 ![] bcast_S_S64 : (⟨S_, .f32⟩ : BufTy).Contents (Elt F) → (⟨S64, .f32⟩ : BufTy).Contents (Elt F)),
    binary main_v171 main_v172 main_v173 (Host.divf : (⟨S64, .f32⟩ : BufTy).Contents (Elt F) → (⟨S64, .f32⟩ : BufTy).Contents (Elt F) → (⟨S64, .f32⟩ : BufTy).Contents (Elt F)),
    unary main_v166 main_v174 (broadcastInDim S1x64 ![1] bcast_S64_S1x64_1 : (⟨S64, .f32⟩ : BufTy).Contents (Elt F) → (⟨S1x64, .f32⟩ : BufTy).Contents (Elt F)),
    unary main_v174 main_v175 (broadcastInDim S100000x64 ![0, 1] bcast_S1x64_S100000x64_0_1 : (⟨S1x64, .f32⟩ : BufTy).Contents (Elt F) → (⟨S100000x64, .f32⟩ : BufTy).Contents (Elt F)),
    binary main_v163 main_v175 main_v176 (subf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x3727C5AC#32),
    unary main_cst_27 main_v177 (broadcastInDim S64 ![] bcast_S_S64 : (⟨S_, .f32⟩ : BufTy).Contents (Elt F) → (⟨S64, .f32⟩ : BufTy).Contents (Elt F)),
    binary main_v173 main_v177 main_v178 (addf : (⟨S64, .f32⟩ : BufTy).Contents (Elt F) → (⟨S64, .f32⟩ : BufTy).Contents (Elt F) → (⟨S64, .f32⟩ : BufTy).Contents (Elt F)),
    unary main_v178 main_v179 (Host.rsqrt : (⟨S64, .f32⟩ : BufTy).Contents (Elt F) → (⟨S64, .f32⟩ : BufTy).Contents (Elt F)),
    unary main_v179 main_v180 (broadcastInDim S1x64 ![1] bcast_S64_S1x64_1 : (⟨S64, .f32⟩ : BufTy).Contents (Elt F) → (⟨S1x64, .f32⟩ : BufTy).Contents (Elt F)),
    unary main_v180 main_v181 (broadcastInDim S100000x64 ![0, 1] bcast_S1x64_S100000x64_0_1 : (⟨S1x64, .f32⟩ : BufTy).Contents (Elt F) → (⟨S100000x64, .f32⟩ : BufTy).Contents (Elt F)),
    binary main_v176 main_v181 main_v182 (mulf : (⟨S100000x64, .f32⟩ : BufTy).Contents (Elt F) → (⟨S100000x64, .f32⟩ : BufTy).Contents (Elt F) → (⟨S100000x64, .f32⟩ : BufTy).Contents (Elt F)),
    unary main_arg7 main_v183 ((extractStridedSlice S1x64 ![2, 0] · slices_S3x64_S1x64_2_0) : (⟨S3x64, .f32⟩ : BufTy).Contents (Elt F) → (⟨S1x64, .f32⟩ : BufTy).Contents (Elt F)),
    reshape main_v183 main_v184 rfl shapeCasts_S1x64_S64,
    unary main_v184 main_v185 (broadcastInDim S1x64 ![1] bcast_S64_S1x64_1 : (⟨S64, .f32⟩ : BufTy).Contents (Elt F) → (⟨S1x64, .f32⟩ : BufTy).Contents (Elt F)),
    unary main_v185 main_v186 (broadcastInDim S100000x64 ![0, 1] bcast_S1x64_S100000x64_0_1 : (⟨S1x64, .f32⟩ : BufTy).Contents (Elt F) → (⟨S100000x64, .f32⟩ : BufTy).Contents (Elt F)),
    binary main_v182 main_v186 main_v187 (mulf : (⟨S100000x64, .f32⟩ : BufTy).Contents (Elt F) → (⟨S100000x64, .f32⟩ : BufTy).Contents (Elt F) → (⟨S100000x64, .f32⟩ : BufTy).Contents (Elt F)),
    unary main_arg8 main_v188 ((extractStridedSlice S1x64 ![2, 0] · slices_S3x64_S1x64_2_0) : (⟨S3x64, .f32⟩ : BufTy).Contents (Elt F) → (⟨S1x64, .f32⟩ : BufTy).Contents (Elt F)),
    reshape main_v188 main_v189 rfl shapeCasts_S1x64_S64,
    unary main_v189 main_v190 (broadcastInDim S1x64 ![1] bcast_S64_S1x64_1 : (⟨S64, .f32⟩ : BufTy).Contents (Elt F) → (⟨S1x64, .f32⟩ : BufTy).Contents (Elt F)),
    unary main_v190 main_v191 (broadcastInDim S100000x64 ![0, 1] bcast_S1x64_S100000x64_0_1 : (⟨S1x64, .f32⟩ : BufTy).Contents (Elt F) → (⟨S100000x64, .f32⟩ : BufTy).Contents (Elt F)),
    binary main_v187 main_v191 main_v192 (addf : (⟨S100000x64, .f32⟩ : BufTy).Contents (Elt F) → (⟨S100000x64, .f32⟩ : BufTy).Contents (Elt F) → (⟨S100000x64, .f32⟩ : BufTy).Contents (Elt F)) ]

/-- The tail: each layer's result summed per graph into a `[512,64]` array, and the three joined side by side (`%193` … `%202`). -/
abbrev opsT : List (HloOp τ sig (Elt F)) :=
  [ nullary main_cst_28 (constant S_ .f32 0x00000000#32),
    unary main_cst_28 main_v193 (broadcastInDim S512x64 ![] bcast_S_S512x64 : (⟨S_, .f32⟩ : BufTy).Contents (Elt F) → (⟨S512x64, .f32⟩ : BufTy).Contents (Elt F)),
    unary main_arg2 main_v194 (broadcastInDim S100000x1 ![0] bcast_S100000_S100000x1_0 : (⟨S100000, .i32⟩ : BufTy).Contents (Elt F) → (⟨S100000x1, .i32⟩ : BufTy).Contents (Elt F)),
    ternary main_v193 main_v194 main_v66 main_v195 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    nullary main_cst_29 (constant S_ .f32 0x00000000#32),
    unary main_cst_29 main_v196 (broadcastInDim S512x64 ![] bcast_S_S512x64 : (⟨S_, .f32⟩ : BufTy).Contents (Elt F) → (⟨S512x64, .f32⟩ : BufTy).Contents (Elt F)),
    unary main_arg2 main_v197 (broadcastInDim S100000x1 ![0] bcast_S100000_S100000x1_0 : (⟨S100000, .i32⟩ : BufTy).Contents (Elt F) → (⟨S100000x1, .i32⟩ : BufTy).Contents (Elt F)),
    ternary main_v196 main_v197 main_v129 main_v198 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    nullary main_cst_30 (constant S_ .f32 0x00000000#32),
    unary main_cst_30 main_v199 (broadcastInDim S512x64 ![] bcast_S_S512x64 : (⟨S_, .f32⟩ : BufTy).Contents (Elt F) → (⟨S512x64, .f32⟩ : BufTy).Contents (Elt F)),
    unary main_arg2 main_v200 (broadcastInDim S100000x1 ![0] bcast_S100000_S100000x1_0 : (⟨S100000, .i32⟩ : BufTy).Contents (Elt F) → (⟨S100000x1, .i32⟩ : BufTy).Contents (Elt F)),
    ternary main_v199 main_v200 main_v192 main_v201 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    nary ![main_v195, main_v198, main_v201] main_v202 (fun u => concatenate S512x192 1 [⟨S512x64, u 0⟩, ⟨S512x64, u 1⟩, ⟨S512x64, u 2⟩] concatenates_S512x64_S512x64_S512x64_S512x192_d1) ]

/-- @main's 248 operations, in order. -/
abbrev ops : List (HloOp τ sig (Elt F)) := opsL1 ++ (opsL2 ++ (opsL3 ++ opsT))

set_option maxRecDepth 8192 in
set_option maxHeartbeats 4000000 in
/-- The reference's @main is that line of operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## What each stretch touches, allocates and writes -/

set_option maxRecDepth 8192 in
/-- Every buffer opsL1 touches is a TensorCore reference. -/
theorem opsL1_sub : (opsL1 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

set_option maxRecDepth 8192 in
/-- No operation of opsL1 allocates. -/
theorem opsL1_fresh : (opsL1 : List (HloOp τ sig (Elt F))).Forall fun op => op.fresh = ∅ := by
  simp only [List.Forall]; repeat' constructor

/-- The references opsL1's operations write, in order. -/
abbrev opsL1_W : List (Ref sig .tc) := [main_v0, main_v1, main_v2, main_v3, main_cst, main_v4, main_c, main_v5, main_v6, main_c_0, main_v7, main_v8, main_v9, main_v10, main_v11, main_c_1, main_v12, main_v13, main_c_2, main_v14, main_v15, main_v16, main_v17, main_v18, main_v19, main_v20, main_v21, main_v22, main_v23, main_v24, main_v25, main_v26, main_v27, main_call0_cst, main_call0_v0, main_v28, main_v29, main_v30, main_v31, main_v32, main_v33, main_v34, main_v35, main_v36, main_call1_cst, main_call1_v0, main_v37, main_cst_3, main_v38, main_cst_4, main_v39, main_v40, main_v41, main_v42, main_v43, main_v44, main_cst_5, main_v45, main_cst_6, main_v46, main_v47, main_v48, main_v49, main_v50, main_cst_7, main_v51, main_v52, main_v53, main_v54, main_v55, main_v56, main_v57, main_v58, main_v59, main_v60, main_v61, main_v62, main_v63, main_v64, main_v65, main_v66]

set_option maxRecDepth 8192 in
set_option maxHeartbeats 4000000 in
/-- Each operation of opsL1 writes only references of that list. -/
theorem opsL1_writes : (opsL1 : List (HloOp τ sig (Elt F))).Forall fun op => op.writes ⊆ (opsL1_W.map (Proc.devRef (τ := τ) .tc)).toFinset := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxRecDepth 8192 in
/-- Every buffer opsL2 touches is a TensorCore reference. -/
theorem opsL2_sub : (opsL2 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

set_option maxRecDepth 8192 in
/-- No operation of opsL2 allocates. -/
theorem opsL2_fresh : (opsL2 : List (HloOp τ sig (Elt F))).Forall fun op => op.fresh = ∅ := by
  simp only [List.Forall]; repeat' constructor

/-- The references opsL2's operations write, in order. -/
abbrev opsL2_W : List (Ref sig .tc) := [main_cst_8, main_v67, main_c_9, main_v68, main_v69, main_c_10, main_v70, main_v71, main_v72, main_v73, main_v74, main_c_11, main_v75, main_v76, main_c_12, main_v77, main_v78, main_v79, main_v80, main_v81, main_v82, main_v83, main_v84, main_v85, main_v86, main_v87, main_v88, main_v89, main_v90, main_call2_cst, main_call2_v0, main_v91, main_v92, main_v93, main_v94, main_v95, main_v96, main_v97, main_v98, main_v99, main_call3_cst, main_call3_v0, main_v100, main_cst_13, main_v101, main_cst_14, main_v102, main_v103, main_v104, main_v105, main_v106, main_v107, main_cst_15, main_v108, main_cst_16, main_v109, main_v110, main_v111, main_v112, main_v113, main_cst_17, main_v114, main_v115, main_v116, main_v117, main_v118, main_v119, main_v120, main_v121, main_v122, main_v123, main_v124, main_v125, main_v126, main_v127, main_v128, main_v129]

set_option maxRecDepth 8192 in
set_option maxHeartbeats 4000000 in
/-- Each operation of opsL2 writes only references of that list. -/
theorem opsL2_writes : (opsL2 : List (HloOp τ sig (Elt F))).Forall fun op => op.writes ⊆ (opsL2_W.map (Proc.devRef (τ := τ) .tc)).toFinset := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxRecDepth 8192 in
/-- Every buffer opsL3 touches is a TensorCore reference. -/
theorem opsL3_sub : (opsL3 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

set_option maxRecDepth 8192 in
/-- No operation of opsL3 allocates. -/
theorem opsL3_fresh : (opsL3 : List (HloOp τ sig (Elt F))).Forall fun op => op.fresh = ∅ := by
  simp only [List.Forall]; repeat' constructor

/-- The references opsL3's operations write, in order. -/
abbrev opsL3_W : List (Ref sig .tc) := [main_cst_18, main_v130, main_c_19, main_v131, main_v132, main_c_20, main_v133, main_v134, main_v135, main_v136, main_v137, main_c_21, main_v138, main_v139, main_c_22, main_v140, main_v141, main_v142, main_v143, main_v144, main_v145, main_v146, main_v147, main_v148, main_v149, main_v150, main_v151, main_v152, main_v153, main_call4_cst, main_call4_v0, main_v154, main_v155, main_v156, main_v157, main_v158, main_v159, main_v160, main_v161, main_v162, main_call5_cst, main_call5_v0, main_v163, main_cst_23, main_v164, main_cst_24, main_v165, main_v166, main_v167, main_v168, main_v169, main_v170, main_cst_25, main_v171, main_cst_26, main_v172, main_v173, main_v174, main_v175, main_v176, main_cst_27, main_v177, main_v178, main_v179, main_v180, main_v181, main_v182, main_v183, main_v184, main_v185, main_v186, main_v187, main_v188, main_v189, main_v190, main_v191, main_v192]

set_option maxRecDepth 8192 in
set_option maxHeartbeats 4000000 in
/-- Each operation of opsL3 writes only references of that list. -/
theorem opsL3_writes : (opsL3 : List (HloOp τ sig (Elt F))).Forall fun op => op.writes ⊆ (opsL3_W.map (Proc.devRef (τ := τ) .tc)).toFinset := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxRecDepth 8192 in
/-- Every buffer opsT touches is a TensorCore reference. -/
theorem opsT_sub : (opsT : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nary_bufs_sub ..⟩

set_option maxRecDepth 8192 in
/-- No operation of opsT allocates. -/
theorem opsT_fresh : (opsT : List (HloOp τ sig (Elt F))).Forall fun op => op.fresh = ∅ := by
  simp only [List.Forall]; repeat' constructor

/-- The references opsT's operations write, in order. -/
abbrev opsT_W : List (Ref sig .tc) := [main_cst_28, main_v193, main_v194, main_v195, main_cst_29, main_v196, main_v197, main_v198, main_cst_30, main_v199, main_v200, main_v201, main_v202]

set_option maxRecDepth 8192 in
set_option maxHeartbeats 4000000 in
/-- Each operation of opsT writes only references of that list. -/
theorem opsT_writes : (opsT : List (HloOp τ sig (Elt F))).Forall fun op => op.writes ⊆ (opsT_W.map (Proc.devRef (τ := τ) .tc)).toFinset := by
  simp only [List.Forall]
  repeat' constructor
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The whole line -/

theorem ops_sub : (ops : List (HloOp τ sig (Elt F))).Forall fun op => op.bufs ⊆ tcRefs τ sig :=
  forall_append opsL1_sub (forall_append opsL2_sub (forall_append opsL3_sub opsT_sub))

theorem ops_fresh : (ops : List (HloOp τ sig (Elt F))).Forall fun op => op.fresh = ∅ :=
  forall_append opsL1_fresh (forall_append opsL2_fresh (forall_append opsL3_fresh opsT_fresh))

/-- The contents after the whole line, stretch by stretch. -/
theorem after_ops (V : Valuation τ sig (Elt F)) :
    after ops V = after opsT (after opsL3 (after opsL2 (after opsL1 V))) := by
  show after (opsL1 ++ (opsL2 ++ (opsL3 ++ opsT))) V = _
  rw [after_append, after_append, after_append]

/-- A reference none of the four stretches writes keeps its contents through the whole line. -/
theorem kept (r : Ref sig .tc) (h1 : r ∉ opsL1_W) (h2 : r ∉ opsL2_W) (h3 : r ∉ opsL3_W) (h4 : r ∉ opsT_W)
    (V : Valuation τ sig (Elt F)) :
    after opsT (after opsL3 (after opsL2 (after opsL1 V))) (Proc.devRef .tc r) = V (Proc.devRef .tc r) :=
  (after_of_writes_sub opsT _ opsT_writes h4).trans
    ((after_of_writes_sub opsL3 _ opsL3_writes h3).trans
      ((after_of_writes_sub opsL2 _ opsL2_writes h2).trans (after_of_writes_sub opsL1 _ opsL1_writes h1)))

/-- On every device, for any float values, from any memory with zero counters: every weakly fair execution of
    @main terminates with the result array at the four stretches' folds over the launch contents, and the nine
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v202)
        = after opsT (after opsL3 (after opsL2 (after opsL1 (fun b => m (c, b))))) (Proc.devRef .tc main_v202)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v202).trans (congrFun (after_ops _) _),
      (h c main_arg0).trans ((congrFun (after_ops _) _).trans (kept main_arg0 (by decide) (by decide) (by decide) (by decide) _)),
      (h c main_arg1).trans ((congrFun (after_ops _) _).trans (kept main_arg1 (by decide) (by decide) (by decide) (by decide) _)),
      (h c main_arg2).trans ((congrFun (after_ops _) _).trans (kept main_arg2 (by decide) (by decide) (by decide) (by decide) _)),
      (h c main_arg3).trans ((congrFun (after_ops _) _).trans (kept main_arg3 (by decide) (by decide) (by decide) (by decide) _)),
      (h c main_arg4).trans ((congrFun (after_ops _) _).trans (kept main_arg4 (by decide) (by decide) (by decide) (by decide) _)),
      (h c main_arg5).trans ((congrFun (after_ops _) _).trans (kept main_arg5 (by decide) (by decide) (by decide) (by decide) _)),
      (h c main_arg6).trans ((congrFun (after_ops _) _).trans (kept main_arg6 (by decide) (by decide) (by decide) (by decide) _)),
      (h c main_arg7).trans ((congrFun (after_ops _) _).trans (kept main_arg7 (by decide) (by decide) (by decide) (by decide) _)),
      (h c main_arg8).trans ((congrFun (after_ops _) _).trans (kept main_arg8 (by decide) (by decide) (by decide) (by decide) _))⟩)
    (run_seq scopedRefs_eq scopedSems_eq defs main (fun _ => ops) main_eq (fun _ => ops_sub) m ρ
      (fun _ op hop => List.forall_iff_forall_mem.mp ops_fresh op hop))

end Cert.RefRun

end
-- ==== Proof.ReferenceValueByHand.lean ====
/-
  The reference program's line of operations, read one stretch at a time: the operations of layer 1, of layer 2, of
  layer 3, and the tail that pools the three layers' outputs. From any contents of the buffers, each stretch leaves the
  buffer it ends in at the named stage of the reference's operation-by-operation reading, given that the buffers it reads
  hold the named stages before it; a stretch leaves alone every buffer it does not write. Chained, the four stretches
  leave the result buffer at the stage `val_main_v202` of the launch contents of the nine arguments.
-/
import proofs.«149905_j3221225472297_1_alg».proof.Proof.ReferenceRunByHand
import proofs.«149905_j3221225472297_1_alg».proof.Proof.ReferenceRead

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Cert.RefRun

variable {F : FTy → Type} [FloatOps F]

/-! ### What a stretch does not write, it keeps -/

/-- A buffer the first stretch does not write keeps its contents through it. -/
theorem keep1 (V : Valuation τ sig (Elt F)) {r : Ref sig .tc} (hr : r ∉ opsL1_W) :
    StableHlo.after opsL1 V (Proc.devRef .tc r) = V (Proc.devRef .tc r) :=
  StableHlo.after_of_writes_sub _ V opsL1_writes hr

/-- A buffer the second stretch does not write keeps its contents through it. -/
theorem keep2 (V : Valuation τ sig (Elt F)) {r : Ref sig .tc} (hr : r ∉ opsL2_W) :
    StableHlo.after opsL2 V (Proc.devRef .tc r) = V (Proc.devRef .tc r) :=
  StableHlo.after_of_writes_sub _ V opsL2_writes hr

/-- A buffer the third stretch does not write keeps its contents through it. -/
theorem keep3 (V : Valuation τ sig (Elt F)) {r : Ref sig .tc} (hr : r ∉ opsL3_W) :
    StableHlo.after opsL3 V (Proc.devRef .tc r) = V (Proc.devRef .tc r) :=
  StableHlo.after_of_writes_sub _ V opsL3_writes hr

/-- A buffer the tail does not write keeps its contents through it. -/
theorem keep4 (V : Valuation τ sig (Elt F)) {r : Ref sig .tc} (hr : r ∉ opsT_W) :
    StableHlo.after opsT V (Proc.devRef .tc r) = V (Proc.devRef .tc r) :=
  StableHlo.after_of_writes_sub _ V opsT_writes hr

/-! ### Each stretch's outputs as the named stages -/

/-- Stretch 1 leaves the layer-1 output at its named value of the arguments. -/
theorem stage1_v66 (V : Valuation τ sig (Elt F)) :
    (StableHlo.after opsL1 V (Proc.devRef .tc main_v66) : (⟨S100000x64, .f32⟩ : BufTy).Contents (Elt F)) =
      val_main_v66 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  show StableHlo.after opsL1 V (Proc.devRef .tc main_v66) = _
  after_results_simp
  rfl

/-- Stretch 1 leaves the edges' source vector at its named value. -/
theorem stage1_v1 (V : Valuation τ sig (Elt F)) :
    (StableHlo.after opsL1 V (Proc.devRef .tc main_v1) : (⟨S1600000, .i32⟩ : BufTy).Contents (Elt F)) = val_main_v1 (F := F) (V (Proc.devRef .tc main_arg1)) := by
  show StableHlo.after opsL1 V (Proc.devRef .tc main_v1) = _
  after_results_simp
  rfl

/-- Stretch 1 leaves the edges' target vector at its named value. -/
theorem stage1_v3 (V : Valuation τ sig (Elt F)) :
    (StableHlo.after opsL1 V (Proc.devRef .tc main_v3) : (⟨S1600000, .i32⟩ : BufTy).Contents (Elt F)) = val_main_v3 (F := F) (V (Proc.devRef .tc main_arg1)) := by
  show StableHlo.after opsL1 V (Proc.devRef .tc main_v3) = _
  after_results_simp
  rfl

/-- Stretch 2: from contents whose layer-1 output, edge vectors and parameter arrays are the named values, the layer-2 output is the next named value. -/
theorem stage2_v129 (V : Valuation τ sig (Elt F)) {x0 : (⟨S100000x64, .f32⟩ : BufTy).Contents (Elt F)} {x1 : (⟨S2x1600000, .i32⟩ : BufTy).Contents (Elt F)} {x3 : (⟨S3x64x64, .f32⟩ : BufTy).Contents (Elt F)} {x4 : (⟨S3x64, .f32⟩ : BufTy).Contents (Elt F)} {x5 : (⟨S3x64x64, .f32⟩ : BufTy).Contents (Elt F)} {x6 : (⟨S3x64, .f32⟩ : BufTy).Contents (Elt F)} {x7 : (⟨S3x64, .f32⟩ : BufTy).Contents (Elt F)} {x8 : (⟨S3x64, .f32⟩ : BufTy).Contents (Elt F)}
    (hz : (V (Proc.devRef .tc main_v66) : (⟨S100000x64, .f32⟩ : BufTy).Contents (Elt F)) = val_main_v66 (F := F) x0 x1 x3 x4 x5 x6 x7 x8)
    (h1 : (V (Proc.devRef .tc main_v1) : (⟨S1600000, .i32⟩ : BufTy).Contents (Elt F)) = val_main_v1 (F := F) x1) (h3 : (V (Proc.devRef .tc main_v3) : (⟨S1600000, .i32⟩ : BufTy).Contents (Elt F)) = val_main_v3 (F := F) x1)
    (ha3 : (V (Proc.devRef .tc main_arg3) : (⟨S3x64x64, .f32⟩ : BufTy).Contents (Elt F)) = x3) (ha4 : (V (Proc.devRef .tc main_arg4) : (⟨S3x64, .f32⟩ : BufTy).Contents (Elt F)) = x4) (ha5 : (V (Proc.devRef .tc main_arg5) : (⟨S3x64x64, .f32⟩ : BufTy).Contents (Elt F)) = x5) (ha6 : (V (Proc.devRef .tc main_arg6) : (⟨S3x64, .f32⟩ : BufTy).Contents (Elt F)) = x6) (ha7 : (V (Proc.devRef .tc main_arg7) : (⟨S3x64, .f32⟩ : BufTy).Contents (Elt F)) = x7) (ha8 : (V (Proc.devRef .tc main_arg8) : (⟨S3x64, .f32⟩ : BufTy).Contents (Elt F)) = x8) :
    (StableHlo.after opsL2 V (Proc.devRef .tc main_v129) : (⟨S100000x64, .f32⟩ : BufTy).Contents (Elt F)) = val_main_v129 (F := F) x0 x1 x3 x4 x5 x6 x7 x8 := by
  show StableHlo.after opsL2 V (Proc.devRef .tc main_v129) = _
  after_results_simp
  rw [hz, h1, h3, ha3, ha4, ha5, ha6, ha7, ha8]
  rfl

/-- Stretch 3: from contents whose layer-2 output, edge vectors and parameter arrays are the named values, the layer-3 output is the next named value. -/
theorem stage3_v192 (V : Valuation τ sig (Elt F)) {x0 : (⟨S100000x64, .f32⟩ : BufTy).Contents (Elt F)} {x1 : (⟨S2x1600000, .i32⟩ : BufTy).Contents (Elt F)} {x3 : (⟨S3x64x64, .f32⟩ : BufTy).Contents (Elt F)} {x4 : (⟨S3x64, .f32⟩ : BufTy).Contents (Elt F)} {x5 : (⟨S3x64x64, .f32⟩ : BufTy).Contents (Elt F)} {x6 : (⟨S3x64, .f32⟩ : BufTy).Contents (Elt F)} {x7 : (⟨S3x64, .f32⟩ : BufTy).Contents (Elt F)} {x8 : (⟨S3x64, .f32⟩ : BufTy).Contents (Elt F)}
    (hz : (V (Proc.devRef .tc main_v129) : (⟨S100000x64, .f32⟩ : BufTy).Contents (Elt F)) = val_main_v129 (F := F) x0 x1 x3 x4 x5 x6 x7 x8)
    (h1 : (V (Proc.devRef .tc main_v1) : (⟨S1600000, .i32⟩ : BufTy).Contents (Elt F)) = val_main_v1 (F := F) x1) (h3 : (V (Proc.devRef .tc main_v3) : (⟨S1600000, .i32⟩ : BufTy).Contents (Elt F)) = val_main_v3 (F := F) x1)
    (ha3 : (V (Proc.devRef .tc main_arg3) : (⟨S3x64x64, .f32⟩ : BufTy).Contents (Elt F)) = x3) (ha4 : (V (Proc.devRef .tc main_arg4) : (⟨S3x64, .f32⟩ : BufTy).Contents (Elt F)) = x4) (ha5 : (V (Proc.devRef .tc main_arg5) : (⟨S3x64x64, .f32⟩ : BufTy).Contents (Elt F)) = x5) (ha6 : (V (Proc.devRef .tc main_arg6) : (⟨S3x64, .f32⟩ : BufTy).Contents (Elt F)) = x6) (ha7 : (V (Proc.devRef .tc main_arg7) : (⟨S3x64, .f32⟩ : BufTy).Contents (Elt F)) = x7) (ha8 : (V (Proc.devRef .tc main_arg8) : (⟨S3x64, .f32⟩ : BufTy).Contents (Elt F)) = x8) :
    (StableHlo.after opsL3 V (Proc.devRef .tc main_v192) : (⟨S100000x64, .f32⟩ : BufTy).Contents (Elt F)) = val_main_v192 (F := F) x0 x1 x3 x4 x5 x6 x7 x8 := by
  show StableHlo.after opsL3 V (Proc.devRef .tc main_v192) = _
  after_results_simp
  rw [hz, h1, h3, ha3, ha4, ha5, ha6, ha7, ha8]
  rfl

/-- The tail: from contents holding the three layers' outputs and the segment numbers, the result is its named value:
    each of the three segment sums first, then the three side by side. -/
theorem stageT_v202 (V : Valuation τ sig (Elt F)) {x0 : (⟨S100000x64, .f32⟩ : BufTy).Contents (Elt F)} {x1 : (⟨S2x1600000, .i32⟩ : BufTy).Contents (Elt F)} {x2 : (⟨S100000, .i32⟩ : BufTy).Contents (Elt F)} {x3 : (⟨S3x64x64, .f32⟩ : BufTy).Contents (Elt F)} {x4 : (⟨S3x64, .f32⟩ : BufTy).Contents (Elt F)} {x5 : (⟨S3x64x64, .f32⟩ : BufTy).Contents (Elt F)} {x6 : (⟨S3x64, .f32⟩ : BufTy).Contents (Elt F)} {x7 : (⟨S3x64, .f32⟩ : BufTy).Contents (Elt F)} {x8 : (⟨S3x64, .f32⟩ : BufTy).Contents (Elt F)}
    (h66 : (V (Proc.devRef .tc main_v66) : (⟨S100000x64, .f32⟩ : BufTy).Contents (Elt F)) = val_main_v66 (F := F) x0 x1 x3 x4 x5 x6 x7 x8)
    (h129 : (V (Proc.devRef .tc main_v129) : (⟨S100000x64, .f32⟩ : BufTy).Contents (Elt F)) = val_main_v129 (F := F) x0 x1 x3 x4 x5 x6 x7 x8)
    (h192 : (V (Proc.devRef .tc main_v192) : (⟨S100000x64, .f32⟩ : BufTy).Contents (Elt F)) = val_main_v192 (F := F) x0 x1 x3 x4 x5 x6 x7 x8)
    (ha2 : (V (Proc.devRef .tc main_arg2) : (⟨S100000, .i32⟩ : BufTy).Contents (Elt F)) = x2) :
    (StableHlo.after opsT V (Proc.devRef .tc main_v202) : (⟨S512x192, .f32⟩ : BufTy).Contents (Elt F)) =
      val_main_v202 (F := F) x0 x1 x2 x3 x4 x5 x6 x7 x8 := by
  have e195 : (StableHlo.after (opsT.take 12) V (Proc.devRef .tc main_v195) : (⟨S512x64, .f32⟩ : BufTy).Contents (Elt F)) =
      val_main_v195 (F := F) x0 x1 x2 x3 x4 x5 x6 x7 x8 := by
    show StableHlo.after (opsT.take 12) V (Proc.devRef .tc main_v195) = _
    simp only [List.take]
    after_results_simp
    rw [h66, ha2]
    rfl
  have e198 : (StableHlo.after (opsT.take 12) V (Proc.devRef .tc main_v198) : (⟨S512x64, .f32⟩ : BufTy).Contents (Elt F)) =
      val_main_v198 (F := F) x0 x1 x2 x3 x4 x5 x6 x7 x8 := by
    show StableHlo.after (opsT.take 12) V (Proc.devRef .tc main_v198) = _
    simp only [List.take]
    after_results_simp
    rw [h129, ha2]
    rfl
  have e201 : (StableHlo.after (opsT.take 12) V (Proc.devRef .tc main_v201) : (⟨S512x64, .f32⟩ : BufTy).Contents (Elt F)) =
      val_main_v201 (F := F) x0 x1 x2 x3 x4 x5 x6 x7 x8 := by
    show StableHlo.after (opsT.take 12) V (Proc.devRef .tc main_v201) = _
    simp only [List.take]
    after_results_simp
    rw [h192, ha2]
    rfl
  show StableHlo.after opsT V (Proc.devRef .tc main_v202) = _
  simp only [after_cons, after_nil]
  rw [nary_result]
  show concatenate S512x192 1 [⟨S512x64, StableHlo.after (opsT.take 12) V (Proc.devRef .tc main_v195)⟩,
    ⟨S512x64, StableHlo.after (opsT.take 12) V (Proc.devRef .tc main_v198)⟩,
    ⟨S512x64, StableHlo.after (opsT.take 12) V (Proc.devRef .tc main_v201)⟩] concatenates_S512x64_S512x64_S512x64_S512x192_d1 = _
  rw [e195, e198, e201]
  rfl

/-! ### The whole line -/
/-- From any contents, the four stretches in order leave the result at its named value of the contents' arguments. -/
theorem value_of (V : Valuation τ sig (Elt F)) :
    (StableHlo.after opsT (StableHlo.after opsL3 (StableHlo.after opsL2 (StableHlo.after opsL1 V))) (Proc.devRef .tc main_v202) :
        (⟨S512x192, .f32⟩ : BufTy).Contents (Elt F)) =
      val_main_v202 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have e2 := stage2_v129 (StableHlo.after opsL1 V) (stage1_v66 V) (stage1_v1 V) (stage1_v3 V)
    (keep1 V (by decide)) (keep1 V (by decide)) (keep1 V (by decide)) (keep1 V (by decide)) (keep1 V (by decide)) (keep1 V (by decide))
  have k2 : ∀ {r : Ref sig .tc}, r ∉ opsL2_W → r ∉ opsL1_W →
      StableHlo.after opsL2 (StableHlo.after opsL1 V) (Proc.devRef .tc r) = V (Proc.devRef .tc r) :=
    fun h2 h1 => (keep2 _ h2).trans (keep1 V h1)
  have e3 := stage3_v192 (StableHlo.after opsL2 (StableHlo.after opsL1 V)) e2
    ((keep2 _ (by decide)).trans (stage1_v1 V)) ((keep2 _ (by decide)).trans (stage1_v3 V))
    (k2 (by decide) (by decide)) (k2 (by decide) (by decide)) (k2 (by decide) (by decide)) (k2 (by decide) (by decide))
    (k2 (by decide) (by decide)) (k2 (by decide) (by decide))
  exact stageT_v202 (StableHlo.after opsL3 (StableHlo.after opsL2 (StableHlo.after opsL1 V)))
    ((keep3 _ (by decide)).trans ((keep2 _ (by decide)).trans (stage1_v66 V)))
    ((keep3 _ (by decide)).trans e2) e3
    ((keep3 _ (by decide)).trans (k2 (by decide) (by decide)))

/-- On device `c`, from launch contents `m`: the four stretches leave the result at its named value of the arguments. -/
theorem result_is_val (m : (ℓ : Loc nD τ sig) → Buf (Elt F) ℓ) (c : Dev nD) :
    (StableHlo.after opsT (StableHlo.after opsL3 (StableHlo.after opsL2 (StableHlo.after opsL1 (fun b => m (c, b)))))
        (Proc.devRef .tc main_v202) : (⟨S512x192, .f32⟩ : BufTy).Contents (Elt F)) =
      val_main_v202 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  value_of (fun b => m (c, b))

/-- On every device, for any float values, from any memory with zero counters: every weakly fair execution of @main
    terminates with the result array at its named value of the launch contents of the nine arguments, and the nine
    argument arrays unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v202)
        = val_main_v202 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_is_val m c), (h c).2⟩) (run m ρ)

end Cert.RefValue

end
-- ==== Proof.LibScatterAddReal.lean ====
/-
  Finiteness through an accumulating scatter, over the extended reals.

  At the exact (extended-real) reading, an accumulating float scatter returns, at every index, the operand's
  element plus the finite sum of the update elements that land there. A finite sum of real numbers is a real
  number, so when every operand element and every update element is real, so is every result element.
-/
import Idealize.ShloMosaic.PureOps.Ideal

namespace Cert.LibScatterAddReal

open Idealize.ShloMosaic

/-- The sum of two real numbers, taken in the extended reals, is a real number. -/
theorem add_real {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

/-- A finite sum of real numbers, taken in the extended reals, is a real number. -/
theorem sum_real {ι : Type*} (s : Finset ι) (f : ι → EReal) (hf : ∀ j, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih =>
    rw [Finset.sum_insert ha]
    exact add_real (hf a) ih

/-- An accumulating scatter of real updates into a real operand is real at every index. -/
theorem scatterAdd_real {s si su : Shape} (d : ScatterDims s si su) {w : Nat} {φ : FTy}
    (x : FVec Ideal s φ) (idx : IVec si w) (upd : FVec Ideal su φ)
    (hx : ∀ i, ∃ r : ℝ, x i = (r : EReal)) (hu : ∀ j, ∃ r : ℝ, upd j = (r : EReal)) :
    ∀ i, ∃ r : ℝ, Host.scatterAdd d x idx upd i = (r : EReal) := by
  intro i
  unfold Host.scatterAdd
  rw [Ideal.hostScatterAdd_def]
  unfold Ideal.hostScatterAdd
  exact add_real (hx i) (sum_real _ _ hu)

end Cert.LibScatterAddReal
-- ==== Proof.NeighbourSumReal.lean ====
/-
  The neighbour aggregation keeps real numbers real.

  The aggregation gathers, for every edge, the row of the node table at the edge's source node, and adds each gathered row
  into an all-zero table at the row of the edge's target node. Every gathered entry IS an entry of the node table (a gather
  only selects), zero is a real number, and an accumulating scatter returns at each position the operand's entry plus the
  finite sum of the update entries that land there; a finite sum of real numbers is real. So when every entry of the node
  table is a real number, so is every entry of the aggregated table. The same holds for the pooling scatter, which adds
  node rows into an all-zero table of graph rows.
-/
import proofs.«149905_j3221225472297_1_alg».proof.KernelIdeal
import proofs.«149905_j3221225472297_1_alg».proof.Proof.LibScatterAddReal
import Idealize.ShloMosaic.PureOps.Ideal.Laws

noncomputable section

namespace Cert.NeighbourSumReal

open Idealize.ShloMosaic Cert.KernelIdeal

variable [Cert.KernelIdeal.Facts₀]
open Cert.KernelIdeal.Facts₀

/-- Every entry of a gather is an entry of the gathered table, so gathering from a table of reals gives reals. -/
theorem gather_real {s si t : Shape} {w : Nat} (d : GatherDims s si t) (z : FVec Ideal s .f32) (idx : IVec si w)
    (hz : ∀ i, ∃ r : ℝ, z i = (r : EReal)) : ∀ j, ∃ r : ℝ, Host.gather d z idx j = (r : EReal) :=
  fun j => hz (d.operandIdx j idx)

/-- Every entry of the all-zero table is the real number 0. -/
theorem zeros_real {s : Shape} (hb : S_.BroadcastsInDim s (![] : Fin 0 → Fin s.rank)) :
    ∀ i, ∃ r : ℝ, broadcastInDim s ![] hb (constant (F := Ideal) S_ .f32 0x00000000#32) i = (r : EReal) :=
  fun i => ⟨0, by
    show Ideal.ofBits .f32 0x00000000#32 = ((0 : ℝ) : EReal)
    rw [Ideal.ofBits_zero_f32, EReal.coe_zero]⟩

/-- THE AGGREGATION: rows of a real node table gathered at the edges' source nodes and added, at the edges' target nodes,
    into the all-zero table, give a table of reals. -/
theorem agg_real (z : FVec Ideal S100000x64 .f32) (hz : ∀ i, ∃ r : ℝ, z i = (r : EReal))
    (srcCol dstCol : IVec S1600000x1 32) :
    ∀ i, ∃ r : ℝ,
      Host.scatterAdd (F := Ideal) scatter_S100000x64_S1600000x1_S1600000x64_1_0_0_1
        (broadcastInDim S100000x64 ![] bcast_S_S100000x64 (constant (F := Ideal) S_ .f32 0x00000000#32)) dstCol
        (Host.gather gather_S100000x64_S1600000x1_S1600000x64_1_0_n_n_0_1_164 z srcCol) i = (r : EReal) :=
  Cert.LibScatterAddReal.scatterAdd_real _ _ _ _ (zeros_real bcast_S_S100000x64) (gather_real _ z srcCol hz)

/-- THE POOLING: node rows of a real table added, at each node's graph number, into the all-zero table of graph rows, give a
    table of reals. -/
theorem pool_real (h : FVec Ideal S100000x64 .f32) (hh : ∀ i, ∃ r : ℝ, h i = (r : EReal)) (batchCol : IVec S100000x1 32) :
    ∀ i, ∃ r : ℝ,
      Host.scatterAdd (F := Ideal) scatter_S512x64_S100000x1_S100000x64_1_0_0_1
        (broadcastInDim S512x64 ![] bcast_S_S512x64 (constant (F := Ideal) S_ .f32 0x00000000#32)) batchCol h i = (r : EReal) :=
  Cert.LibScatterAddReal.scatterAdd_real _ _ _ _ (zeros_real bcast_S_S512x64) hh

end Cert.NeighbourSumReal

end
-- ==== Proof.ThreeLayers.lean ====
/-
  Three layers in a row, kernel side against reference side. Each layer's kernel output is, as a function of row
  and column, the layer with the two-moment variance applied to the previous output and its neighbour sums; each
  layer's reference output is the same layer with the centred variance. On real inputs and real parameters the two
  agree layer by layer: the neighbour sums of a real table are real, so the layer law applies, the two outputs are the
  same array, and that array is real again, which feeds the next layer.
-/
import proofs.«149905_j3221225472297_1_alg».proof.Proof.LayersAgree
import proofs.«149905_j3221225472297_1_alg».proof.Proof.KernelIdeal.HostStages
import proofs.«149905_j3221225472297_1_alg».proof.Proof.NeighbourSumReal

noncomputable section

namespace Cert.ThreeLayers

open Idealize.ShloMosaic Idealize.ShloMosaic.ValueIdx
open Cert.LayerSpec Cert.BatchNormLaw Cert.LayersAgree
open Cert.KernelIdeal.HostStages

/-- The count of rows and the small constant, as the float words the programs spell. -/
abbrev cntW : EReal := Ideal.ofBits .f32 0x47C35000#32
abbrev epsW : EReal := Ideal.ofBits .f32 0x3727C5AC#32

/-- The neighbour sums of a real table along any two node vectors are real. -/
theorem Agg_real (z : SN.Idx → EReal) (hz : ∀ i, ∃ r : ℝ, z i = (r : EReal))
    (v1 v3 : IVec Cert.KernelIdeal.S1600000 32) : ∀ i, ∃ r : ℝ, Agg z v1 v3 i = (r : EReal) :=
  Cert.NeighbourSumReal.agg_real z hz (nodeCol v1) (nodeCol v3)

/-- ONE LAYER. If the kernel's output `Z` is the two-moment layer of a real input `zin` and its neighbour sums, and
    the reference's output `R` is the centred layer of the same input and of neighbour sums `aggR zin` that are the
    same table, then `Z = R` and `Z` is real. -/
theorem layer_step (l : Fin 3) {x3 x5 : S3W.Idx → EReal} {x4 x6 x7 x8 : S3R.Idx → EReal}
    (hx3 : ∀ i, ∃ r : ℝ, x3 i = (r : EReal)) (hx4 : ∀ i, ∃ r : ℝ, x4 i = (r : EReal))
    (hx5 : ∀ i, ∃ r : ℝ, x5 i = (r : EReal)) (hx6 : ∀ i, ∃ r : ℝ, x6 i = (r : EReal))
    (hx7 : ∀ i, ∃ r : ℝ, x7 i = (r : EReal)) (hx8 : ∀ i, ∃ r : ℝ, x8 i = (r : EReal))
    (v1 v3 : IVec Cert.KernelIdeal.S1600000 32) (aggR : (SN.Idx → EReal) → (SN.Idx → EReal))
    (hagg : ∀ z, Agg z v1 v3 = aggR z)
    {zin Z R : SN.Idx → EReal} (hzin : ∀ i, ∃ r : ℝ, zin i = (r : EReal))
    (hZ : mat Z = layerMomentsA cntW epsW (fun j k => x3 (ix3 l j k)) (fun k => x4 (ix2 l k))
      (fun j k => x5 (ix3 l j k)) (fun k => x6 (ix2 l k)) (fun k => x7 (ix2 l k)) (fun k => x8 (ix2 l k))
      (mat zin) (mat (Agg zin v1 v3)))
    (hR : ∀ r c, R (ix2 r c) = layerCenteredA cntW epsW (fun j k => x3 (ix3 l j k)) (fun k => x4 (ix2 l k))
      (fun j k => x5 (ix3 l j k)) (fun k => x6 (ix2 l k)) (fun k => x7 (ix2 l k)) (fun k => x8 (ix2 l k))
      (mat zin) (mat (aggR zin)) r c) :
    Z = R ∧ ∀ i, ∃ r : ℝ, Z i = (r : EReal) := by
  have hA : ∀ i, ∃ r : ℝ, Agg zin v1 v3 i = (r : EReal) := Agg_real zin hzin v1 v3
  obtain ⟨e, hreal⟩ := layerA_agree_words (slice_isReal hx3 l) (row_isRealRow hx4 l) (slice_isReal hx5 l)
    (row_isRealRow hx6 l) (row_isRealRow hx7 l) (row_isRealRow hx8 l) (mat_isReal hzin) (mat_isReal hA)
  have hZR : mat Z = mat R := by
    rw [hZ, e, hagg zin]
    funext r c
    exact (hR r c).symm
  refine ⟨mat_ext hZR, isReal_of_mat ?_⟩
  rw [hZ]
  exact hreal

/-- THREE LAYERS. The kernel's three outputs are the reference's three outputs. -/
theorem three_layers {x0 : SN.Idx → EReal} {x3 x5 : S3W.Idx → EReal} {x4 x6 x7 x8 : S3R.Idx → EReal}
    (hx0 : ∀ i, ∃ r : ℝ, x0 i = (r : EReal))
    (hx3 : ∀ i, ∃ r : ℝ, x3 i = (r : EReal)) (hx4 : ∀ i, ∃ r : ℝ, x4 i = (r : EReal))
    (hx5 : ∀ i, ∃ r : ℝ, x5 i = (r : EReal)) (hx6 : ∀ i, ∃ r : ℝ, x6 i = (r : EReal))
    (hx7 : ∀ i, ∃ r : ℝ, x7 i = (r : EReal)) (hx8 : ∀ i, ∃ r : ℝ, x8 i = (r : EReal))
    (v1 v3 : IVec Cert.KernelIdeal.S1600000 32) (aggR : (SN.Idx → EReal) → (SN.Idx → EReal))
    (hagg : ∀ z, Agg z v1 v3 = aggR z)
    {Z1 Z2 Z3 R1 R2 R3 : SN.Idx → EReal}
    (h1 : mat Z1 = layerMomentsA cntW epsW (fun j k => x3 (ix3 (0 : Fin 3) j k)) (fun k => x4 (ix2 (0 : Fin 3) k))
      (fun j k => x5 (ix3 (0 : Fin 3) j k)) (fun k => x6 (ix2 (0 : Fin 3) k)) (fun k => x7 (ix2 (0 : Fin 3) k))
      (fun k => x8 (ix2 (0 : Fin 3) k)) (mat x0) (mat (Agg x0 v1 v3)))
    (h2 : mat Z2 = layerMomentsA cntW epsW (fun j k => x3 (ix3 (1 : Fin 3) j k)) (fun k => x4 (ix2 (1 : Fin 3) k))
      (fun j k => x5 (ix3 (1 : Fin 3) j k)) (fun k => x6 (ix2 (1 : Fin 3) k)) (fun k => x7 (ix2 (1 : Fin 3) k))
      (fun k => x8 (ix2 (1 : Fin 3) k)) (mat Z1) (mat (Agg Z1 v1 v3)))
    (h3 : mat Z3 = layerMomentsA cntW epsW (fun j k => x3 (ix3 (2 : Fin 3) j k)) (fun k => x4 (ix2 (2 : Fin 3) k))
      (fun j k => x5 (ix3 (2 : Fin 3) j k)) (fun k => x6 (ix2 (2 : Fin 3) k)) (fun k => x7 (ix2 (2 : Fin 3) k))
      (fun k => x8 (ix2 (2 : Fin 3) k)) (mat Z2) (mat (Agg Z2 v1 v3)))
    (r1 : ∀ r c, R1 (ix2 r c) = layerCenteredA cntW epsW (fun j k => x3 (ix3 (0 : Fin 3) j k))
      (fun k => x4 (ix2 (0 : Fin 3) k)) (fun j k => x5 (ix3 (0 : Fin 3) j k)) (fun k => x6 (ix2 (0 : Fin 3) k))
      (fun k => x7 (ix2 (0 : Fin 3) k)) (fun k => x8 (ix2 (0 : Fin 3) k)) (mat x0) (mat (aggR x0)) r c)
    (r2 : ∀ r c, R2 (ix2 r c) = layerCenteredA cntW epsW (fun j k => x3 (ix3 (1 : Fin 3) j k))
      (fun k => x4 (ix2 (1 : Fin 3) k)) (fun j k => x5 (ix3 (1 : Fin 3) j k)) (fun k => x6 (ix2 (1 : Fin 3) k))
      (fun k => x7 (ix2 (1 : Fin 3) k)) (fun k => x8 (ix2 (1 : Fin 3) k)) (mat R1) (mat (aggR R1)) r c)
    (r3 : ∀ r c, R3 (ix2 r c) = layerCenteredA cntW epsW (fun j k => x3 (ix3 (2 : Fin 3) j k))
      (fun k => x4 (ix2 (2 : Fin 3) k)) (fun j k => x5 (ix3 (2 : Fin 3) j k)) (fun k => x6 (ix2 (2 : Fin 3) k))
      (fun k => x7 (ix2 (2 : Fin 3) k)) (fun k => x8 (ix2 (2 : Fin 3) k)) (mat R2) (mat (aggR R2)) r c) :
    Z1 = R1 ∧ Z2 = R2 ∧ Z3 = R3 := by
  obtain ⟨e1, real1⟩ := layer_step 0 hx3 hx4 hx5 hx6 hx7 hx8 v1 v3 aggR hagg hx0 h1 r1
  subst e1
  obtain ⟨e2, real2⟩ := layer_step 1 hx3 hx4 hx5 hx6 hx7 hx8 v1 v3 aggR hagg real1 h2 r2
  subst e2
  obtain ⟨e3, _⟩ := layer_step 2 hx3 hx4 hx5 hx6 hx7 hx8 v1 v3 aggR hagg real2 h3 r3
  exact ⟨rfl, rfl, e3⟩

end Cert.ThreeLayers

end
-- ==== Proof.ReferenceLayers.lean ====
/-
  The reference program's three layers read back, stage by stage, as the layer functions of `Cert.LayerSpec`.
  Every buffer of the program is a function of the program's arguments; at the exact extended reals each stage of a
  layer is read at one entry: the parameter slices, the two contractions with their biases and activations, the column
  means and centred variances, the reciprocal root, and the final scale and shift. The neighbour sums and the segment
  sums are kept as named stages.
-/
import proofs.«149905_j3221225472297_1_alg».proof.Proof.ReferenceRead
import proofs.«149905_j3221225472297_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.RefLayers

open Idealize.ShloMosaic Idealize.ShloMosaic.ValueIdx
open Cert.ReferenceIdeal Cert.ReferenceIdeal.Gen Cert.ReferenceIdeal.Read Cert.LayerSpec

/-- Node features: 100000 rows of 64. -/
abbrev Nodes : Type := (⟨S100000x64, .f32⟩ : BufTy).Contents (Elt Ideal)
/-- The edge list: sources in row 0, targets in row 1. -/
abbrev Edges : Type := (⟨S2x1600000, .i32⟩ : BufTy).Contents (Elt Ideal)
/-- The segment of every node. -/
abbrev Seg : Type := (⟨S100000, .i32⟩ : BufTy).Contents (Elt Ideal)
/-- Three 64 by 64 weight matrices. -/
abbrev Mats : Type := (⟨S3x64x64, .f32⟩ : BufTy).Contents (Elt Ideal)
/-- Three rows of 64 parameters. -/
abbrev Rows : Type := (⟨S3x64, .f32⟩ : BufTy).Contents (Elt Ideal)

/-- The number of rows, 100000, as the program's literal. -/
abbrev cnt : EReal := Ideal.ofBits .f32 0x47C35000#32
/-- The small constant added to a variance, as the program's literal. -/
abbrev eps : EReal := Ideal.ofBits .f32 0x3727C5AC#32

/-! ### Layer 1: buffers %18 … %66 -/

/-- The first bias, broadcast down the rows: row 0 of the parameter array. -/
theorem row26 (x4 : Rows) (r : Fin 100000) (c : Fin 64) :
    val_main_v26 (F := Ideal) x4 (ix2 r c) = x4 (ix2 (0 : Fin 3) c) := by
  rw [val_main_v26_apply, val_main_v25_apply, val_main_v24_apply, val_main_v23_apply]
  exact congrArg x4 (funext fun a => Fin.ext (by
    match a with
    | ⟨0, _⟩ => rfl
    | ⟨1, _⟩ => exact Nat.mod_eq_of_lt c.isLt))

/-- The second bias, broadcast down the rows: row 0 of the parameter array. -/
theorem row35 (x6 : Rows) (r : Fin 100000) (c : Fin 64) :
    val_main_v35 (F := Ideal) x6 (ix2 r c) = x6 (ix2 (0 : Fin 3) c) := by
  rw [val_main_v35_apply, val_main_v34_apply, val_main_v33_apply, val_main_v32_apply]
  exact congrArg x6 (funext fun a => Fin.ext (by
    match a with
    | ⟨0, _⟩ => rfl
    | ⟨1, _⟩ => exact Nat.mod_eq_of_lt c.isLt))

/-- The scale, broadcast down the rows: row 0 of the parameter array. -/
theorem row60 (x7 : Rows) (r : Fin 100000) (c : Fin 64) :
    val_main_v60 (F := Ideal) x7 (ix2 r c) = x7 (ix2 (0 : Fin 3) c) := by
  rw [val_main_v60_apply, val_main_v59_apply, val_main_v58_apply, val_main_v57_apply]
  exact congrArg x7 (funext fun a => Fin.ext (by
    match a with
    | ⟨0, _⟩ => rfl
    | ⟨1, _⟩ => exact Nat.mod_eq_of_lt c.isLt))

/-- The shift, broadcast down the rows: row 0 of the parameter array. -/
theorem row65 (x8 : Rows) (r : Fin 100000) (c : Fin 64) :
    val_main_v65 (F := Ideal) x8 (ix2 r c) = x8 (ix2 (0 : Fin 3) c) := by
  rw [val_main_v65_apply, val_main_v64_apply, val_main_v63_apply, val_main_v62_apply]
  exact congrArg x8 (funext fun a => Fin.ext (by
    match a with
    | ⟨0, _⟩ => rfl
    | ⟨1, _⟩ => exact Nat.mod_eq_of_lt c.isLt))

/-- The first weight matrix: slab 0 of the parameter array. -/
theorem w21 (x3 : Mats) (k c : Fin 64) :
    val_main_v21 (F := Ideal) x3 (ix2 k c) = x3 (ix3 (0 : Fin 3) k c) := by
  rw [val_main_v21_apply, val_main_v20_apply]
  exact congrArg x3 (funext fun a => Fin.ext (by
    match a with
    | ⟨0, _⟩ => rfl
    | ⟨1, _⟩ =>
      show (k.val * 64 + c.val) / 64 % 64 = k.val
      have := k.isLt
      have := c.isLt
      omega
    | ⟨2, _⟩ =>
      show (k.val * 64 + c.val) % 64 = c.val
      have := k.isLt
      have := c.isLt
      omega))

/-- The second weight matrix: slab 0 of the parameter array. -/
theorem w30 (x5 : Mats) (k c : Fin 64) :
    val_main_v30 (F := Ideal) x5 (ix2 k c) = x5 (ix3 (0 : Fin 3) k c) := by
  rw [val_main_v30_apply, val_main_v29_apply]
  exact congrArg x5 (funext fun a => Fin.ext (by
    match a with
    | ⟨0, _⟩ => rfl
    | ⟨1, _⟩ =>
      show (k.val * 64 + c.val) / 64 % 64 = k.val
      have := k.isLt
      have := c.isLt
      omega
    | ⟨2, _⟩ =>
      show (k.val * 64 + c.val) % 64 = c.val
      have := k.isLt
      have := c.isLt
      omega))

/-- The layer's input plus its neighbour sums. -/
theorem u19 (x0 : Nodes) (x1 : Edges) (r : Fin 100000) (k : Fin 64) :
    val_main_v19 (F := Ideal) x0 x1 (ix2 r k) = x0 (ix2 r k) + val_main_v18 (F := Ideal) x0 x1 (ix2 r k) := rfl

theorem lidx22 (r : Fin 100000) (c k : Fin 64) : lidx_main_v22 (ix2 r c) k = ix2 r k :=
  funext fun a => Fin.ext (by
    match a with
    | ⟨0, _⟩ => rfl
    | ⟨1, _⟩ => rfl)
theorem ridx22 (r : Fin 100000) (c k : Fin 64) : ridx_main_v22 (ix2 r c) k = ix2 k c :=
  funext fun a => Fin.ext (by
    match a with
    | ⟨0, _⟩ => rfl
    | ⟨1, _⟩ => rfl)
/-- The contraction, entry by entry: row `r` of the left factor against column `c` of the right. -/
theorem dot22 (x0 : Nodes) (x1 : Edges) (x3 : Mats) (r : Fin 100000) (c : Fin 64) :
    val_main_v22 (F := Ideal) x0 x1 x3 (ix2 r c) = ∑ k : Fin 64, val_main_v19 (F := Ideal) x0 x1 (ix2 r k) * val_main_v21 (F := Ideal) x3 (ix2 k c) := by
  rw [val_main_v22_apply]
  refine Finset.sum_congr rfl fun k _ => ?_
  rw [lidx22, ridx22]

/-- The first affine map. -/
theorem aff27 (x0 : Nodes) (x1 : Edges) (x3 : Mats) (x4 : Rows) (r : Fin 100000) (c : Fin 64) :
    val_main_v27 (F := Ideal) x0 x1 x3 x4 (ix2 r c) = affine (fun r k => x0 (ix2 r k) + val_main_v18 (F := Ideal) x0 x1 (ix2 r k)) (fun j k => x3 (ix3 (0 : Fin 3) j k)) (fun k => x4 (ix2 (0 : Fin 3) k)) r c := by
  have hs : ∀ k : Fin 64, val_main_v19 (F := Ideal) x0 x1 (ix2 r k) * val_main_v21 (F := Ideal) x3 (ix2 k c) = (x0 (ix2 r k) + val_main_v18 (F := Ideal) x0 x1 (ix2 r k)) * x3 (ix3 (0 : Fin 3) k c) :=
    fun k => by rw [u19, w21]
  rw [val_main_v27_apply, dot22, row26, Finset.sum_congr rfl fun k _ => hs k, Ideal.addf_def]
  rfl

/-- The first activation. -/
theorem relu28 (x0 : Nodes) (x1 : Edges) (x3 : Mats) (x4 : Rows) (r : Fin 100000) (c : Fin 64) :
    val_main_v28 (F := Ideal) x0 x1 x3 x4 (ix2 r c) = relu (affine (fun r k => x0 (ix2 r k) + val_main_v18 (F := Ideal) x0 x1 (ix2 r k)) (fun j k => x3 (ix3 (0 : Fin 3) j k)) (fun k => x4 (ix2 (0 : Fin 3) k))) r c := by
  rw [val_main_v28_apply, val_main_call0_v0_apply, val_main_call0_cst_apply, aff27, Ideal.maximumf_def, Ideal.ofBits_def, Ideal.ofBits_zero_f32]
  rfl

theorem lidx31 (r : Fin 100000) (c k : Fin 64) : lidx_main_v31 (ix2 r c) k = ix2 r k :=
  funext fun a => Fin.ext (by
    match a with
    | ⟨0, _⟩ => rfl
    | ⟨1, _⟩ => rfl)
theorem ridx31 (r : Fin 100000) (c k : Fin 64) : ridx_main_v31 (ix2 r c) k = ix2 k c :=
  funext fun a => Fin.ext (by
    match a with
    | ⟨0, _⟩ => rfl
    | ⟨1, _⟩ => rfl)
/-- The contraction, entry by entry: row `r` of the left factor against column `c` of the right. -/
theorem dot31 (x0 : Nodes) (x1 : Edges) (x3 : Mats) (x4 : Rows) (x5 : Mats) (r : Fin 100000) (c : Fin 64) :
    val_main_v31 (F := Ideal) x0 x1 x3 x4 x5 (ix2 r c) = ∑ k : Fin 64, val_main_v28 (F := Ideal) x0 x1 x3 x4 (ix2 r k) * val_main_v30 (F := Ideal) x5 (ix2 k c) := by
  rw [val_main_v31_apply]
  refine Finset.sum_congr rfl fun k _ => ?_
  rw [lidx31, ridx31]

/-- The second affine map. -/
theorem aff36 (x0 : Nodes) (x1 : Edges) (x3 : Mats) (x4 : Rows) (x5 : Mats) (x6 : Rows) (r : Fin 100000) (c : Fin 64) :
    val_main_v36 (F := Ideal) x0 x1 x3 x4 x5 x6 (ix2 r c) = affine (relu (affine (fun r k => x0 (ix2 r k) + val_main_v18 (F := Ideal) x0 x1 (ix2 r k)) (fun j k => x3 (ix3 (0 : Fin 3) j k)) (fun k => x4 (ix2 (0 : Fin 3) k)))) (fun j k => x5 (ix3 (0 : Fin 3) j k)) (fun k => x6 (ix2 (0 : Fin 3) k)) r c := by
  have hs : ∀ k : Fin 64, val_main_v28 (F := Ideal) x0 x1 x3 x4 (ix2 r k) * val_main_v30 (F := Ideal) x5 (ix2 k c) = relu (affine (fun r k => x0 (ix2 r k) + val_main_v18 (F := Ideal) x0 x1 (ix2 r k)) (fun j k => x3 (ix3 (0 : Fin 3) j k)) (fun k => x4 (ix2 (0 : Fin 3) k))) r k * x5 (ix3 (0 : Fin 3) k c) :=
    fun k => by rw [relu28, w30]
  rw [val_main_v36_apply, dot31, row35, Finset.sum_congr rfl fun k _ => hs k, Ideal.addf_def]
  rfl

/-- The layer's perceptron output, as a function of the arguments. -/
def H1 (x0 : Nodes) (x1 : Edges) (x3 : Mats) (x4 : Rows) (x5 : Mats) (x6 : Rows) : Fin 100000 → Fin 64 → EReal :=
  hidden (fun r k => x0 (ix2 r k) + val_main_v18 (F := Ideal) x0 x1 (ix2 r k)) (fun j k => x3 (ix3 (0 : Fin 3) j k)) (fun k => x4 (ix2 (0 : Fin 3) k)) (fun j k => x5 (ix3 (0 : Fin 3) j k)) (fun k => x6 (ix2 (0 : Fin 3) k))

/-- The second activation: the perceptron's output. -/
theorem h37 (x0 : Nodes) (x1 : Edges) (x3 : Mats) (x4 : Rows) (x5 : Mats) (x6 : Rows) (r : Fin 100000) (c : Fin 64) :
    val_main_v37 (F := Ideal) x0 x1 x3 x4 x5 x6 (ix2 r c) = H1 x0 x1 x3 x4 x5 x6 r c := by
  rw [val_main_v37_apply, val_main_call1_v0_apply, val_main_call1_cst_apply, aff36, Ideal.maximumf_def, Ideal.ofBits_def, Ideal.ofBits_zero_f32]
  rfl

theorem idx38 (c : Fin 64) (k : Fin 100000) : idx_main_v38 (ix1 c) k = ix2 k c :=
  funext fun a => Fin.ext (by
    match a with
    | ⟨0, _⟩ => rfl
    | ⟨1, _⟩ => rfl)

/-- The column means. -/
theorem mean40 (x0 : Nodes) (x1 : Edges) (x3 : Mats) (x4 : Rows) (x5 : Mats) (x6 : Rows) (H : Fin 100000 → Fin 64 → EReal) (hH : ∀ (r : Fin 100000) (c : Fin 64), val_main_v37 (F := Ideal) x0 x1 x3 x4 x5 x6 (ix2 r c) = H r c) (c : Fin 64) :
    val_main_v40 (F := Ideal) x0 x1 x3 x4 x5 x6 (ix1 c) = mean cnt H c := by
  have hs : ∀ k : Fin 100000, val_main_v37 (F := Ideal) x0 x1 x3 x4 x5 x6 (idx_main_v38 (ix1 c) k) = H k c :=
    fun k => by rw [idx38, hH]
  rw [val_main_v40_apply, val_main_v38_apply, val_main_v39_apply, val_main_cst_4_apply, val_main_cst_3_apply, Finset.sum_congr rfl fun k _ => hs k]
  simp only [Ideal.hostDivf_def, Ideal.ofBits_def, Ideal.ofBits_zero_f32, zero_add]
  rfl

/-- A row of column statistics, broadcast down the rows. -/
theorem bc42 (x0 : Nodes) (x1 : Edges) (x3 : Mats) (x4 : Rows) (x5 : Mats) (x6 : Rows) (r : Fin 100000) (c : Fin 64) :
    val_main_v42 (F := Ideal) x0 x1 x3 x4 x5 x6 (ix2 r c) = val_main_v40 (F := Ideal) x0 x1 x3 x4 x5 x6 (ix1 c) := by
  rw [val_main_v42_apply, val_main_v41_apply]
  exact congrArg (val_main_v40 (F := Ideal) x0 x1 x3 x4 x5 x6) (funext fun a => Fin.ext (by
    match a with
    | ⟨0, _⟩ => rfl))

/-- A row of column statistics, broadcast down the rows. -/
theorem bc49 (x0 : Nodes) (x1 : Edges) (x3 : Mats) (x4 : Rows) (x5 : Mats) (x6 : Rows) (r : Fin 100000) (c : Fin 64) :
    val_main_v49 (F := Ideal) x0 x1 x3 x4 x5 x6 (ix2 r c) = val_main_v40 (F := Ideal) x0 x1 x3 x4 x5 x6 (ix1 c) := by
  rw [val_main_v49_apply, val_main_v48_apply]
  exact congrArg (val_main_v40 (F := Ideal) x0 x1 x3 x4 x5 x6) (funext fun a => Fin.ext (by
    match a with
    | ⟨0, _⟩ => rfl))

theorem idx45 (c : Fin 64) (k : Fin 100000) : idx_main_v45 (ix1 c) k = ix2 k c :=
  funext fun a => Fin.ext (by
    match a with
    | ⟨0, _⟩ => rfl
    | ⟨1, _⟩ => rfl)

/-- The centred column variances. -/
theorem var47 (x0 : Nodes) (x1 : Edges) (x3 : Mats) (x4 : Rows) (x5 : Mats) (x6 : Rows) (H : Fin 100000 → Fin 64 → EReal) (hH : ∀ (r : Fin 100000) (c : Fin 64), val_main_v37 (F := Ideal) x0 x1 x3 x4 x5 x6 (ix2 r c) = H r c) (c : Fin 64) :
    val_main_v47 (F := Ideal) x0 x1 x3 x4 x5 x6 (ix1 c) = varCentered cnt H c := by
  have hs : ∀ k : Fin 100000, val_main_v44 (F := Ideal) x0 x1 x3 x4 x5 x6 (idx_main_v45 (ix1 c) k) = (H k c - mean cnt H c) * (H k c - mean cnt H c) :=
    fun k => by
      rw [idx45, val_main_v44_apply, val_main_v43_apply, bc42, mean40 x0 x1 x3 x4 x5 x6 H hH, hH, Ideal.mulf_def, Ideal.subf_def]
  rw [val_main_v47_apply, val_main_v45_apply, val_main_v46_apply, val_main_cst_6_apply, val_main_cst_5_apply, Finset.sum_congr rfl fun k _ => hs k]
  simp only [Ideal.hostDivf_def, Ideal.ofBits_def, Ideal.ofBits_zero_f32, zero_add]
  rfl

/-- The reciprocal root of variance plus the small constant. -/
theorem inv53 (x0 : Nodes) (x1 : Edges) (x3 : Mats) (x4 : Rows) (x5 : Mats) (x6 : Rows) (H : Fin 100000 → Fin 64 → EReal) (hH : ∀ (r : Fin 100000) (c : Fin 64), val_main_v37 (F := Ideal) x0 x1 x3 x4 x5 x6 (ix2 r c) = H r c) (c : Fin 64) :
    val_main_v53 (F := Ideal) x0 x1 x3 x4 x5 x6 (ix1 c) = invStd eps (varCentered cnt H) c := by
  rw [val_main_v53_apply, val_main_v52_apply, val_main_v51_apply, val_main_cst_7_apply, var47 x0 x1 x3 x4 x5 x6 H hH]
  simp only [Ideal.hostUnary_rsqrt_def, Ideal.addf_def, Ideal.ofBits_def]
  rfl

/-- A row of column statistics, broadcast down the rows. -/
theorem bc55 (x0 : Nodes) (x1 : Edges) (x3 : Mats) (x4 : Rows) (x5 : Mats) (x6 : Rows) (r : Fin 100000) (c : Fin 64) :
    val_main_v55 (F := Ideal) x0 x1 x3 x4 x5 x6 (ix2 r c) = val_main_v53 (F := Ideal) x0 x1 x3 x4 x5 x6 (ix1 c) := by
  rw [val_main_v55_apply, val_main_v54_apply]
  exact congrArg (val_main_v53 (F := Ideal) x0 x1 x3 x4 x5 x6) (funext fun a => Fin.ext (by
    match a with
    | ⟨0, _⟩ => rfl))

/-- The normalized output, for any name `H` of the perceptron's output. -/
theorem z66 (x0 : Nodes) (x1 : Edges) (x3 : Mats) (x4 : Rows) (x5 : Mats) (x6 : Rows) (x7 : Rows) (x8 : Rows) (H : Fin 100000 → Fin 64 → EReal) (hH : ∀ (r : Fin 100000) (c : Fin 64), val_main_v37 (F := Ideal) x0 x1 x3 x4 x5 x6 (ix2 r c) = H r c) (r : Fin 100000) (c : Fin 64) :
    val_main_v66 (F := Ideal) x0 x1 x3 x4 x5 x6 x7 x8 (ix2 r c) = normalize H (mean cnt H) (invStd eps (varCentered cnt H)) (fun k => x7 (ix2 (0 : Fin 3) k)) (fun k => x8 (ix2 (0 : Fin 3) k)) r c := by
  rw [val_main_v66_apply, val_main_v61_apply, val_main_v56_apply, val_main_v50_apply, bc49, bc55, row60, row65,
    mean40 x0 x1 x3 x4 x5 x6 H hH, inv53 x0 x1 x3 x4 x5 x6 H hH, hH]
  simp only [Ideal.addf_def, Ideal.mulf_def, Ideal.subf_def]
  rfl

/-- Layer 1 of the reference, entry by entry. -/
theorem layer1_at (x0 : Nodes) (x1 : Edges) (x3 : Mats) (x4 : Rows) (x5 : Mats) (x6 : Rows) (x7 : Rows) (x8 : Rows) (r : Fin 100000) (c : Fin 64) :
    val_main_v66 (F := Ideal) x0 x1 x3 x4 x5 x6 x7 x8 (ix2 r c) =
      normalize (H1 x0 x1 x3 x4 x5 x6) (mean cnt (H1 x0 x1 x3 x4 x5 x6)) (invStd eps (varCentered cnt (H1 x0 x1 x3 x4 x5 x6))) (fun k => x7 (ix2 (0 : Fin 3) k)) (fun k => x8 (ix2 (0 : Fin 3) k)) r c :=
  z66 x0 x1 x3 x4 x5 x6 x7 x8 (H1 x0 x1 x3 x4 x5 x6) (h37 x0 x1 x3 x4 x5 x6) r c

/-! ### The neighbour sums and the segment sums, as named stages -/

/-- Neighbour sums of node features `z` along the edge list: the rows of `z` at the edges' sources (row 0 of the
    list, a negative entry read from the end), added at the edges' targets (row 1) into an array of zeros. -/
def agg (z : Nodes) (x1 : Edges) : Nodes :=
  Host.scatterAdd (F := Ideal) (φ := .f32) scatter_S100000x64_S1600000x1_S1600000x64_1_0_0_1 (val_main_v4 (F := Ideal)) (val_main_v17 (F := Ideal) x1)
    (Host.gather gather_S100000x64_S1600000x1_S1600000x64_1_0_n_n_0_1_164 z (val_main_v10 (F := Ideal) x1))

/-- Layer 1 sums the neighbours' input features. -/
theorem agg1_def (x0 : Nodes) (x1 : Edges) : val_main_v18 (F := Ideal) x0 x1 = agg x0 x1 := rfl

/-- Layer 2 sums the neighbours' layer-1 outputs: the same function of the previous layer's output. -/
theorem agg2_def (x0 : Nodes) (x1 : Edges) (x3 : Mats) (x4 : Rows) (x5 : Mats) (x6 : Rows) (x7 : Rows) (x8 : Rows) :
    val_main_v81 (F := Ideal) x0 x1 x3 x4 x5 x6 x7 x8 = agg (val_main_v66 (F := Ideal) x0 x1 x3 x4 x5 x6 x7 x8) x1 := rfl

/-- Layer 3 sums the neighbours' layer-2 outputs. -/
theorem agg3_def (x0 : Nodes) (x1 : Edges) (x3 : Mats) (x4 : Rows) (x5 : Mats) (x6 : Rows) (x7 : Rows) (x8 : Rows) :
    val_main_v144 (F := Ideal) x0 x1 x3 x4 x5 x6 x7 x8 = agg (val_main_v129 (F := Ideal) x0 x1 x3 x4 x5 x6 x7 x8) x1 := rfl

/-- Segment sums of node features `z`: every row added, into an array of zeros, at the row its node's segment names. -/
def pool (z : Nodes) (x2 : Seg) : (⟨S512x64, .f32⟩ : BufTy).Contents (Elt Ideal) :=
  Host.scatterAdd (F := Ideal) (φ := .f32) scatter_S512x64_S100000x1_S100000x64_1_0_0_1 (val_main_v193 (F := Ideal)) (val_main_v194 (F := Ideal) x2) z

/-- The result: the three layers' segment sums, side by side. -/
theorem tail_def (x0 : Nodes) (x1 : Edges) (x2 : Seg) (x3 : Mats) (x4 : Rows) (x5 : Mats) (x6 : Rows) (x7 : Rows) (x8 : Rows) :
    val_main_v202 (F := Ideal) x0 x1 x2 x3 x4 x5 x6 x7 x8 =
      concatenate S512x192 1 [⟨S512x64, pool (val_main_v66 (F := Ideal) x0 x1 x3 x4 x5 x6 x7 x8) x2⟩,
        ⟨S512x64, pool (val_main_v129 (F := Ideal) x0 x1 x3 x4 x5 x6 x7 x8) x2⟩,
        ⟨S512x64, pool (val_main_v192 (F := Ideal) x0 x1 x3 x4 x5 x6 x7 x8) x2⟩] concatenates_S512x64_S512x64_S512x64_S512x192_d1 := rfl

/-! ### Layer 2: buffers %81 … %129 -/

/-- The first bias, broadcast down the rows: row 1 of the parameter array. -/
theorem row89 (x4 : Rows) (r : Fin 100000) (c : Fin 64) :
    val_main_v89 (F := Ideal) x4 (ix2 r c) = x4 (ix2 (1 : Fin 3) c) := by
  rw [val_main_v89_apply, val_main_v88_apply, val_main_v87_apply, val_main_v86_apply]
  exact congrArg x4 (funext fun a => Fin.ext (by
    match a with
    | ⟨0, _⟩ => rfl
    | ⟨1, _⟩ => exact Nat.mod_eq_of_lt c.isLt))

/-- The second bias, broadcast down the rows: row 1 of the parameter array. -/
theorem row98 (x6 : Rows) (r : Fin 100000) (c : Fin 64) :
    val_main_v98 (F := Ideal) x6 (ix2 r c) = x6 (ix2 (1 : Fin 3) c) := by
  rw [val_main_v98_apply, val_main_v97_apply, val_main_v96_apply, val_main_v95_apply]
  exact congrArg x6 (funext fun a => Fin.ext (by
    match a with
    | ⟨0, _⟩ => rfl
    | ⟨1, _⟩ => exact Nat.mod_eq_of_lt c.isLt))

/-- The scale, broadcast down the rows: row 1 of the parameter array. -/
theorem row123 (x7 : Rows) (r : Fin 100000) (c : Fin 64) :
    val_main_v123 (F := Ideal) x7 (ix2 r c) = x7 (ix2 (1 : Fin 3) c) := by
  rw [val_main_v123_apply, val_main_v122_apply, val_main_v121_apply, val_main_v120_apply]
  exact congrArg x7 (funext fun a => Fin.ext (by
    match a with
    | ⟨0, _⟩ => rfl
    | ⟨1, _⟩ => exact Nat.mod_eq_of_lt c.isLt))

/-- The shift, broadcast down the rows: row 1 of the parameter array. -/
theorem row128 (x8 : Rows) (r : Fin 100000) (c : Fin 64) :
    val_main_v128 (F := Ideal) x8 (ix2 r c) = x8 (ix2 (1 : Fin 3) c) := by
  rw [val_main_v128_apply, val_main_v127_apply, val_main_v126_apply, val_main_v125_apply]
  exact congrArg x8 (funext fun a => Fin.ext (by
    match a with
    | ⟨0, _⟩ => rfl
    | ⟨1, _⟩ => exact Nat.mod_eq_of_lt c.isLt))

/-- The first weight matrix: slab 1 of the parameter array. -/
theorem w84 (x3 : Mats) (k c : Fin 64) :
    val_main_v84 (F := Ideal) x3 (ix2 k c) = x3 (ix3 (1 : Fin 3) k c) := by
  rw [val_main_v84_apply, val_main_v83_apply]
  exact congrArg x3 (funext fun a => Fin.ext (by
    match a with
    | ⟨0, _⟩ => rfl
    | ⟨1, _⟩ =>
      show (k.val * 64 + c.val) / 64 % 64 = k.val
      have := k.isLt
      have := c.isLt
      omega
    | ⟨2, _⟩ =>
      show (k.val * 64 + c.val) % 64 = c.val
      have := k.isLt
      have := c.isLt
      omega))

/-- The second weight matrix: slab 1 of the parameter array. -/
theorem w93 (x5 : Mats) (k c : Fin 64) :
    val_main_v93 (F := Ideal) x5 (ix2 k c) = x5 (ix3 (1 : Fin 3) k c) := by
  rw [val_main_v93_apply, val_main_v92_apply]
  exact congrArg x5 (funext fun a => Fin.ext (by
    match a with
    | ⟨0, _⟩ => rfl
    | ⟨1, _⟩ =>
      show (k.val * 64 + c.val) / 64 % 64 = k.val
      have := k.isLt
      have := c.isLt
      omega
    | ⟨2, _⟩ =>
      show (k.val * 64 + c.val) % 64 = c.val
      have := k.isLt
      have := c.isLt
      omega))

/-- The layer's input plus its neighbour sums. -/
theorem u82 (x0 : Nodes) (x1 : Edges) (x3 : Mats) (x4 : Rows) (x5 : Mats) (x6 : Rows) (x7 : Rows) (x8 : Rows) (r : Fin 100000) (k : Fin 64) :
    val_main_v82 (F := Ideal) x0 x1 x3 x4 x5 x6 x7 x8 (ix2 r k) = val_main_v66 (F := Ideal) x0 x1 x3 x4 x5 x6 x7 x8 (ix2 r k) + val_main_v81 (F := Ideal) x0 x1 x3 x4 x5 x6 x7 x8 (ix2 r k) := rfl

theorem lidx85 (r : Fin 100000) (c k : Fin 64) : lidx_main_v85 (ix2 r c) k = ix2 r k :=
  funext fun a => Fin.ext (by
    match a with
    | ⟨0, _⟩ => rfl
    | ⟨1, _⟩ => rfl)
theorem ridx85 (r : Fin 100000) (c k : Fin 64) : ridx_main_v85 (ix2 r c) k = ix2 k c :=
  funext fun a => Fin.ext (by
    match a with
    | ⟨0, _⟩ => rfl
    | ⟨1, _⟩ => rfl)
/-- The contraction, entry by entry: row `r` of the left factor against column `c` of the right. -/
theorem dot85 (x0 : Nodes) (x1 : Edges) (x3 : Mats) (x4 : Rows) (x5 : Mats) (x6 : Rows) (x7 : Rows) (x8 : Rows) (r : Fin 100000) (c : Fin 64) :
    val_main_v85 (F := Ideal) x0 x1 x3 x4 x5 x6 x7 x8 (ix2 r c) = ∑ k : Fin 64, val_main_v82 (F := Ideal) x0 x1 x3 x4 x5 x6 x7 x8 (ix2 r k) * val_main_v84 (F := Ideal) x3 (ix2 k c) := by
  rw [val_main_v85_apply]
  refine Finset.sum_congr rfl fun k _ => ?_
  rw [lidx85, ridx85]

/-- The first affine map. -/
theorem aff90 (x0 : Nodes) (x1 : Edges) (x3 : Mats) (x4 : Rows) (x5 : Mats) (x6 : Rows) (x7 : Rows) (x8 : Rows) (r : Fin 100000) (c : Fin 64) :
    val_main_v90 (F := Ideal) x0 x1 x3 x4 x5 x6 x7 x8 (ix2 r c) = affine (fun r k => val_main_v66 (F := Ideal) x0 x1 x3 x4 x5 x6 x7 x8 (ix2 r k) + val_main_v81 (F := Ideal) x0 x1 x3 x4 x5 x6 x7 x8 (ix2 r k)) (fun j k => x3 (ix3 (1 : Fin 3) j k)) (fun k => x4 (ix2 (1 : Fin 3) k)) r c := by
  have hs : ∀ k : Fin 64, val_main_v82 (F := Ideal) x0 x1 x3 x4 x5 x6 x7 x8 (ix2 r k) * val_main_v84 (F := Ideal) x3 (ix2 k c) = (val_main_v66 (F := Ideal) x0 x1 x3 x4 x5 x6 x7 x8 (ix2 r k) + val_main_v81 (F := Ideal) x0 x1 x3 x4 x5 x6 x7 x8 (ix2 r k)) * x3 (ix3 (1 : Fin 3) k c) :=
    fun k => by rw [u82, w84]
  rw [val_main_v90_apply, dot85, row89, Finset.sum_congr rfl fun k _ => hs k, Ideal.addf_def]
  rfl

/-- The first activation. -/
theorem relu91 (x0 : Nodes) (x1 : Edges) (x3 : Mats) (x4 : Rows) (x5 : Mats) (x6 : Rows) (x7 : Rows) (x8 : Rows) (r : Fin 100000) (c : Fin 64) :
    val_main_v91 (F := Ideal) x0 x1 x3 x4 x5 x6 x7 x8 (ix2 r c) = relu (affine (fun r k => val_main_v66 (F := Ideal) x0 x1 x3 x4 x5 x6 x7 x8 (ix2 r k) + val_main_v81 (F := Ideal) x0 x1 x3 x4 x5 x6 x7 x8 (ix2 r k)) (fun j k => x3 (ix3 (1 : Fin 3) j k)) (fun k => x4 (ix2 (1 : Fin 3) k))) r c := by
  rw [val_main_v91_apply, val_main_call2_v0_apply, val_main_call2_cst_apply, aff90, Ideal.maximumf_def, Ideal.ofBits_def, Ideal.ofBits_zero_f32]
  rfl

theorem lidx94 (r : Fin 100000) (c k : Fin 64) : lidx_main_v94 (ix2 r c) k = ix2 r k :=
  funext fun a => Fin.ext (by
    match a with
    | ⟨0, _⟩ => rfl
    | ⟨1, _⟩ => rfl)
theorem ridx94 (r : Fin 100000) (c k : Fin 64) : ridx_main_v94 (ix2 r c) k = ix2 k c :=
  funext fun a => Fin.ext (by
    match a with
    | ⟨0, _⟩ => rfl
    | ⟨1, _⟩ => rfl)
/-- The contraction, entry by entry: row `r` of the left factor against column `c` of the right. -/
theorem dot94 (x0 : Nodes) (x1 : Edges) (x3 : Mats) (x4 : Rows) (x5 : Mats) (x6 : Rows) (x7 : Rows) (x8 : Rows) (r : Fin 100000) (c : Fin 64) :
    val_main_v94 (F := Ideal) x0 x1 x3 x4 x5 x6 x7 x8 (ix2 r c) = ∑ k : Fin 64, val_main_v91 (F := Ideal) x0 x1 x3 x4 x5 x6 x7 x8 (ix2 r k) * val_main_v93 (F := Ideal) x5 (ix2 k c) := by
  rw [val_main_v94_apply]
  refine Finset.sum_congr rfl fun k _ => ?_
  rw [lidx94, ridx94]

/-- The second affine map. -/
theorem aff99 (x0 : Nodes) (x1 : Edges) (x3 : Mats) (x4 : Rows) (x5 : Mats) (x6 : Rows) (x7 : Rows) (x8 : Rows) (r : Fin 100000) (c : Fin 64) :
    val_main_v99 (F := Ideal) x0 x1 x3 x4 x5 x6 x7 x8 (ix2 r c) = affine (relu (affine (fun r k => val_main_v66 (F := Ideal) x0 x1 x3 x4 x5 x6 x7 x8 (ix2 r k) + val_main_v81 (F := Ideal) x0 x1 x3 x4 x5 x6 x7 x8 (ix2 r k)) (fun j k => x3 (ix3 (1 : Fin 3) j k)) (fun k => x4 (ix2 (1 : Fin 3) k)))) (fun j k => x5 (ix3 (1 : Fin 3) j k)) (fun k => x6 (ix2 (1 : Fin 3) k)) r c := by
  have hs : ∀ k : Fin 64, val_main_v91 (F := Ideal) x0 x1 x3 x4 x5 x6 x7 x8 (ix2 r k) * val_main_v93 (F := Ideal) x5 (ix2 k c) = relu (affine (fun r k => val_main_v66 (F := Ideal) x0 x1 x3 x4 x5 x6 x7 x8 (ix2 r k) + val_main_v81 (F := Ideal) x0 x1 x3 x4 x5 x6 x7 x8 (ix2 r k)) (fun j k => x3 (ix3 (1 : Fin 3) j k)) (fun k => x4 (ix2 (1 : Fin 3) k))) r k * x5 (ix3 (1 : Fin 3) k c) :=
    fun k => by rw [relu91, w93]
  rw [val_main_v99_apply, dot94, row98, Finset.sum_congr rfl fun k _ => hs k, Ideal.addf_def]
  rfl

/-- The layer's perceptron output, as a function of the arguments. -/
def H2 (x0 : Nodes) (x1 : Edges) (x3 : Mats) (x4 : Rows) (x5 : Mats) (x6 : Rows) (x7 : Rows) (x8 : Rows) : Fin 100000 → Fin 64 → EReal :=
  hidden (fun r k => val_main_v66 (F := Ideal) x0 x1 x3 x4 x5 x6 x7 x8 (ix2 r k) + val_main_v81 (F := Ideal) x0 x1 x3 x4 x5 x6 x7 x8 (ix2 r k)) (fun j k => x3 (ix3 (1 : Fin 3) j k)) (fun k => x4 (ix2 (1 : Fin 3) k)) (fun j k => x5 (ix3 (1 : Fin 3) j k)) (fun k => x6 (ix2 (1 : Fin 3) k))

/-- The second activation: the perceptron's output. -/
theorem h100 (x0 : Nodes) (x1 : Edges) (x3 : Mats) (x4 : Rows) (x5 : Mats) (x6 : Rows) (x7 : Rows) (x8 : Rows) (r : Fin 100000) (c : Fin 64) :
    val_main_v100 (F := Ideal) x0 x1 x3 x4 x5 x6 x7 x8 (ix2 r c) = H2 x0 x1 x3 x4 x5 x6 x7 x8 r c := by
  rw [val_main_v100_apply, val_main_call3_v0_apply, val_main_call3_cst_apply, aff99, Ideal.maximumf_def, Ideal.ofBits_def, Ideal.ofBits_zero_f32]
  rfl

theorem idx101 (c : Fin 64) (k : Fin 100000) : idx_main_v101 (ix1 c) k = ix2 k c :=
  funext fun a => Fin.ext (by
    match a with
    | ⟨0, _⟩ => rfl
    | ⟨1, _⟩ => rfl)

/-- The column means. -/
theorem mean103 (x0 : Nodes) (x1 : Edges) (x3 : Mats) (x4 : Rows) (x5 : Mats) (x6 : Rows) (x7 : Rows) (x8 : Rows) (H : Fin 100000 → Fin 64 → EReal) (hH : ∀ (r : Fin 100000) (c : Fin 64), val_main_v100 (F := Ideal) x0 x1 x3 x4 x5 x6 x7 x8 (ix2 r c) = H r c) (c : Fin 64) :
    val_main_v103 (F := Ideal) x0 x1 x3 x4 x5 x6 x7 x8 (ix1 c) = mean cnt H c := by
  have hs : ∀ k : Fin 100000, val_main_v100 (F := Ideal) x0 x1 x3 x4 x5 x6 x7 x8 (idx_main_v101 (ix1 c) k) = H k c :=
    fun k => by rw [idx101, hH]
  rw [val_main_v103_apply, val_main_v101_apply, val_main_v102_apply, val_main_cst_14_apply, val_main_cst_13_apply, Finset.sum_congr rfl fun k _ => hs k]
  simp only [Ideal.hostDivf_def, Ideal.ofBits_def, Ideal.ofBits_zero_f32, zero_add]
  rfl

/-- A row of column statistics, broadcast down the rows. -/
theorem bc105 (x0 : Nodes) (x1 : Edges) (x3 : Mats) (x4 : Rows) (x5 : Mats) (x6 : Rows) (x7 : Rows) (x8 : Rows) (r : Fin 100000) (c : Fin 64) :
    val_main_v105 (F := Ideal) x0 x1 x3 x4 x5 x6 x7 x8 (ix2 r c) = val_main_v103 (F := Ideal) x0 x1 x3 x4 x5 x6 x7 x8 (ix1 c) := by
  rw [val_main_v105_apply, val_main_v104_apply]
  exact congrArg (val_main_v103 (F := Ideal) x0 x1 x3 x4 x5 x6 x7 x8) (funext fun a => Fin.ext (by
    match a with
    | ⟨0, _⟩ => rfl))

/-- A row of column statistics, broadcast down the rows. -/
theorem bc112 (x0 : Nodes) (x1 : Edges) (x3 : Mats) (x4 : Rows) (x5 : Mats) (x6 : Rows) (x7 : Rows) (x8 : Rows) (r : Fin 100000) (c : Fin 64) :
    val_main_v112 (F := Ideal) x0 x1 x3 x4 x5 x6 x7 x8 (ix2 r c) = val_main_v103 (F := Ideal) x0 x1 x3 x4 x5 x6 x7 x8 (ix1 c) := by
  rw [val_main_v112_apply, val_main_v111_apply]
  exact congrArg (val_main_v103 (F := Ideal) x0 x1 x3 x4 x5 x6 x7 x8) (funext fun a => Fin.ext (by
    match a with
    | ⟨0, _⟩ => rfl))

theorem idx108 (c : Fin 64) (k : Fin 100000) : idx_main_v108 (ix1 c) k = ix2 k c :=
  funext fun a => Fin.ext (by
    match a with
    | ⟨0, _⟩ => rfl
    | ⟨1, _⟩ => rfl)

/-- The centred column variances. -/
theorem var110 (x0 : Nodes) (x1 : Edges) (x3 : Mats) (x4 : Rows) (x5 : Mats) (x6 : Rows) (x7 : Rows) (x8 : Rows) (H : Fin 100000 → Fin 64 → EReal) (hH : ∀ (r : Fin 100000) (c : Fin 64), val_main_v100 (F := Ideal) x0 x1 x3 x4 x5 x6 x7 x8 (ix2 r c) = H r c) (c : Fin 64) :
    val_main_v110 (F := Ideal) x0 x1 x3 x4 x5 x6 x7 x8 (ix1 c) = varCentered cnt H c := by
  have hs : ∀ k : Fin 100000, val_main_v107 (F := Ideal) x0 x1 x3 x4 x5 x6 x7 x8 (idx_main_v108 (ix1 c) k) = (H k c - mean cnt H c) * (H k c - mean cnt H c) :=
    fun k => by
      rw [idx108, val_main_v107_apply, val_main_v106_apply, bc105, mean103 x0 x1 x3 x4 x5 x6 x7 x8 H hH, hH, Ideal.mulf_def, Ideal.subf_def]
  rw [val_main_v110_apply, val_main_v108_apply, val_main_v109_apply, val_main_cst_16_apply, val_main_cst_15_apply, Finset.sum_congr rfl fun k _ => hs k]
  simp only [Ideal.hostDivf_def, Ideal.ofBits_def, Ideal.ofBits_zero_f32, zero_add]
  rfl

/-- The reciprocal root of variance plus the small constant. -/
theorem inv116 (x0 : Nodes) (x1 : Edges) (x3 : Mats) (x4 : Rows) (x5 : Mats) (x6 : Rows) (x7 : Rows) (x8 : Rows) (H : Fin 100000 → Fin 64 → EReal) (hH : ∀ (r : Fin 100000) (c : Fin 64), val_main_v100 (F := Ideal) x0 x1 x3 x4 x5 x6 x7 x8 (ix2 r c) = H r c) (c : Fin 64) :
    val_main_v116 (F := Ideal) x0 x1 x3 x4 x5 x6 x7 x8 (ix1 c) = invStd eps (varCentered cnt H) c := by
  rw [val_main_v116_apply, val_main_v115_apply, val_main_v114_apply, val_main_cst_17_apply, var110 x0 x1 x3 x4 x5 x6 x7 x8 H hH]
  simp only [Ideal.hostUnary_rsqrt_def, Ideal.addf_def, Ideal.ofBits_def]
  rfl

/-- A row of column statistics, broadcast down the rows. -/
theorem bc118 (x0 : Nodes) (x1 : Edges) (x3 : Mats) (x4 : Rows) (x5 : Mats) (x6 : Rows) (x7 : Rows) (x8 : Rows) (r : Fin 100000) (c : Fin 64) :
    val_main_v118 (F := Ideal) x0 x1 x3 x4 x5 x6 x7 x8 (ix2 r c) = val_main_v116 (F := Ideal) x0 x1 x3 x4 x5 x6 x7 x8 (ix1 c) := by
  rw [val_main_v118_apply, val_main_v117_apply]
  exact congrArg (val_main_v116 (F := Ideal) x0 x1 x3 x4 x5 x6 x7 x8) (funext fun a => Fin.ext (by
    match a with
    | ⟨0, _⟩ => rfl))

/-- The normalized output, for any name `H` of the perceptron's output. -/
theorem z129 (x0 : Nodes) (x1 : Edges) (x3 : Mats) (x4 : Rows) (x5 : Mats) (x6 : Rows) (x7 : Rows) (x8 : Rows) (H : Fin 100000 → Fin 64 → EReal) (hH : ∀ (r : Fin 100000) (c : Fin 64), val_main_v100 (F := Ideal) x0 x1 x3 x4 x5 x6 x7 x8 (ix2 r c) = H r c) (r : Fin 100000) (c : Fin 64) :
    val_main_v129 (F := Ideal) x0 x1 x3 x4 x5 x6 x7 x8 (ix2 r c) = normalize H (mean cnt H) (invStd eps (varCentered cnt H)) (fun k => x7 (ix2 (1 : Fin 3) k)) (fun k => x8 (ix2 (1 : Fin 3) k)) r c := by
  rw [val_main_v129_apply, val_main_v124_apply, val_main_v119_apply, val_main_v113_apply, bc112, bc118, row123, row128,
    mean103 x0 x1 x3 x4 x5 x6 x7 x8 H hH, inv116 x0 x1 x3 x4 x5 x6 x7 x8 H hH, hH]
  simp only [Ideal.addf_def, Ideal.mulf_def, Ideal.subf_def]
  rfl

/-- Layer 2 of the reference, entry by entry. -/
theorem layer2_at (x0 : Nodes) (x1 : Edges) (x3 : Mats) (x4 : Rows) (x5 : Mats) (x6 : Rows) (x7 : Rows) (x8 : Rows) (r : Fin 100000) (c : Fin 64) :
    val_main_v129 (F := Ideal) x0 x1 x3 x4 x5 x6 x7 x8 (ix2 r c) =
      normalize (H2 x0 x1 x3 x4 x5 x6 x7 x8) (mean cnt (H2 x0 x1 x3 x4 x5 x6 x7 x8)) (invStd eps (varCentered cnt (H2 x0 x1 x3 x4 x5 x6 x7 x8))) (fun k => x7 (ix2 (1 : Fin 3) k)) (fun k => x8 (ix2 (1 : Fin 3) k)) r c :=
  z129 x0 x1 x3 x4 x5 x6 x7 x8 (H2 x0 x1 x3 x4 x5 x6 x7 x8) (h100 x0 x1 x3 x4 x5 x6 x7 x8) r c

/-! ### Layer 3: buffers %144 … %192 -/

/-- The first bias, broadcast down the rows: row 2 of the parameter array. -/
theorem row152 (x4 : Rows) (r : Fin 100000) (c : Fin 64) :
    val_main_v152 (F := Ideal) x4 (ix2 r c) = x4 (ix2 (2 : Fin 3) c) := by
  rw [val_main_v152_apply, val_main_v151_apply, val_main_v150_apply, val_main_v149_apply]
  exact congrArg x4 (funext fun a => Fin.ext (by
    match a with
    | ⟨0, _⟩ => rfl
    | ⟨1, _⟩ => exact Nat.mod_eq_of_lt c.isLt))

/-- The second bias, broadcast down the rows: row 2 of the parameter array. -/
theorem row161 (x6 : Rows) (r : Fin 100000) (c : Fin 64) :
    val_main_v161 (F := Ideal) x6 (ix2 r c) = x6 (ix2 (2 : Fin 3) c) := by
  rw [val_main_v161_apply, val_main_v160_apply, val_main_v159_apply, val_main_v158_apply]
  exact congrArg x6 (funext fun a => Fin.ext (by
    match a with
    | ⟨0, _⟩ => rfl
    | ⟨1, _⟩ => exact Nat.mod_eq_of_lt c.isLt))

/-- The scale, broadcast down the rows: row 2 of the parameter array. -/
theorem row186 (x7 : Rows) (r : Fin 100000) (c : Fin 64) :
    val_main_v186 (F := Ideal) x7 (ix2 r c) = x7 (ix2 (2 : Fin 3) c) := by
  rw [val_main_v186_apply, val_main_v185_apply, val_main_v184_apply, val_main_v183_apply]
  exact congrArg x7 (funext fun a => Fin.ext (by
    match a with
    | ⟨0, _⟩ => rfl
    | ⟨1, _⟩ => exact Nat.mod_eq_of_lt c.isLt))

/-- The shift, broadcast down the rows: row 2 of the parameter array. -/
theorem row191 (x8 : Rows) (r : Fin 100000) (c : Fin 64) :
    val_main_v191 (F := Ideal) x8 (ix2 r c) = x8 (ix2 (2 : Fin 3) c) := by
  rw [val_main_v191_apply, val_main_v190_apply, val_main_v189_apply, val_main_v188_apply]
  exact congrArg x8 (funext fun a => Fin.ext (by
    match a with
    | ⟨0, _⟩ => rfl
    | ⟨1, _⟩ => exact Nat.mod_eq_of_lt c.isLt))

/-- The first weight matrix: slab 2 of the parameter array. -/
theorem w147 (x3 : Mats) (k c : Fin 64) :
    val_main_v147 (F := Ideal) x3 (ix2 k c) = x3 (ix3 (2 : Fin 3) k c) := by
  rw [val_main_v147_apply, val_main_v146_apply]
  exact congrArg x3 (funext fun a => Fin.ext (by
    match a with
    | ⟨0, _⟩ => rfl
    | ⟨1, _⟩ =>
      show (k.val * 64 + c.val) / 64 % 64 = k.val
      have := k.isLt
      have := c.isLt
      omega
    | ⟨2, _⟩ =>
      show (k.val * 64 + c.val) % 64 = c.val
      have := k.isLt
      have := c.isLt
      omega))

/-- The second weight matrix: slab 2 of the parameter array. -/
theorem w156 (x5 : Mats) (k c : Fin 64) :
    val_main_v156 (F := Ideal) x5 (ix2 k c) = x5 (ix3 (2 : Fin 3) k c) := by
  rw [val_main_v156_apply, val_main_v155_apply]
  exact congrArg x5 (funext fun a => Fin.ext (by
    match a with
    | ⟨0, _⟩ => rfl
    | ⟨1, _⟩ =>
      show (k.val * 64 + c.val) / 64 % 64 = k.val
      have := k.isLt
      have := c.isLt
      omega
    | ⟨2, _⟩ =>
      show (k.val * 64 + c.val) % 64 = c.val
      have := k.isLt
      have := c.isLt
      omega))

/-- The layer's input plus its neighbour sums. -/
theorem u145 (x0 : Nodes) (x1 : Edges) (x3 : Mats) (x4 : Rows) (x5 : Mats) (x6 : Rows) (x7 : Rows) (x8 : Rows) (r : Fin 100000) (k : Fin 64) :
    val_main_v145 (F := Ideal) x0 x1 x3 x4 x5 x6 x7 x8 (ix2 r k) = val_main_v129 (F := Ideal) x0 x1 x3 x4 x5 x6 x7 x8 (ix2 r k) + val_main_v144 (F := Ideal) x0 x1 x3 x4 x5 x6 x7 x8 (ix2 r k) := rfl

theorem lidx148 (r : Fin 100000) (c k : Fin 64) : lidx_main_v148 (ix2 r c) k = ix2 r k :=
  funext fun a => Fin.ext (by
    match a with
    | ⟨0, _⟩ => rfl
    | ⟨1, _⟩ => rfl)
theorem ridx148 (r : Fin 100000) (c k : Fin 64) : ridx_main_v148 (ix2 r c) k = ix2 k c :=
  funext fun a => Fin.ext (by
    match a with
    | ⟨0, _⟩ => rfl
    | ⟨1, _⟩ => rfl)
/-- The contraction, entry by entry: row `r` of the left factor against column `c` of the right. -/
theorem dot148 (x0 : Nodes) (x1 : Edges) (x3 : Mats) (x4 : Rows) (x5 : Mats) (x6 : Rows) (x7 : Rows) (x8 : Rows) (r : Fin 100000) (c : Fin 64) :
    val_main_v148 (F := Ideal) x0 x1 x3 x4 x5 x6 x7 x8 (ix2 r c) = ∑ k : Fin 64, val_main_v145 (F := Ideal) x0 x1 x3 x4 x5 x6 x7 x8 (ix2 r k) * val_main_v147 (F := Ideal) x3 (ix2 k c) := by
  rw [val_main_v148_apply]
  refine Finset.sum_congr rfl fun k _ => ?_
  rw [lidx148, ridx148]

/-- The first affine map. -/
theorem aff153 (x0 : Nodes) (x1 : Edges) (x3 : Mats) (x4 : Rows) (x5 : Mats) (x6 : Rows) (x7 : Rows) (x8 : Rows) (r : Fin 100000) (c : Fin 64) :
    val_main_v153 (F := Ideal) x0 x1 x3 x4 x5 x6 x7 x8 (ix2 r c) = affine (fun r k => val_main_v129 (F := Ideal) x0 x1 x3 x4 x5 x6 x7 x8 (ix2 r k) + val_main_v144 (F := Ideal) x0 x1 x3 x4 x5 x6 x7 x8 (ix2 r k)) (fun j k => x3 (ix3 (2 : Fin 3) j k)) (fun k => x4 (ix2 (2 : Fin 3) k)) r c := by
  have hs : ∀ k : Fin 64, val_main_v145 (F := Ideal) x0 x1 x3 x4 x5 x6 x7 x8 (ix2 r k) * val_main_v147 (F := Ideal) x3 (ix2 k c) = (val_main_v129 (F := Ideal) x0 x1 x3 x4 x5 x6 x7 x8 (ix2 r k) + val_main_v144 (F := Ideal) x0 x1 x3 x4 x5 x6 x7 x8 (ix2 r k)) * x3 (ix3 (2 : Fin 3) k c) :=
    fun k => by rw [u145, w147]
  rw [val_main_v153_apply, dot148, row152, Finset.sum_congr rfl fun k _ => hs k, Ideal.addf_def]
  rfl

/-- The first activation. -/
theorem relu154 (x0 : Nodes) (x1 : Edges) (x3 : Mats) (x4 : Rows) (x5 : Mats) (x6 : Rows) (x7 : Rows) (x8 : Rows) (r : Fin 100000) (c : Fin 64) :
    val_main_v154 (F := Ideal) x0 x1 x3 x4 x5 x6 x7 x8 (ix2 r c) = relu (affine (fun r k => val_main_v129 (F := Ideal) x0 x1 x3 x4 x5 x6 x7 x8 (ix2 r k) + val_main_v144 (F := Ideal) x0 x1 x3 x4 x5 x6 x7 x8 (ix2 r k)) (fun j k => x3 (ix3 (2 : Fin 3) j k)) (fun k => x4 (ix2 (2 : Fin 3) k))) r c := by
  rw [val_main_v154_apply, val_main_call4_v0_apply, val_main_call4_cst_apply, aff153, Ideal.maximumf_def, Ideal.ofBits_def, Ideal.ofBits_zero_f32]
  rfl

theorem lidx157 (r : Fin 100000) (c k : Fin 64) : lidx_main_v157 (ix2 r c) k = ix2 r k :=
  funext fun a => Fin.ext (by
    match a with
    | ⟨0, _⟩ => rfl
    | ⟨1, _⟩ => rfl)
theorem ridx157 (r : Fin 100000) (c k : Fin 64) : ridx_main_v157 (ix2 r c) k = ix2 k c :=
  funext fun a => Fin.ext (by
    match a with
    | ⟨0, _⟩ => rfl
    | ⟨1, _⟩ => rfl)
/-- The contraction, entry by entry: row `r` of the left factor against column `c` of the right. -/
theorem dot157 (x0 : Nodes) (x1 : Edges) (x3 : Mats) (x4 : Rows) (x5 : Mats) (x6 : Rows) (x7 : Rows) (x8 : Rows) (r : Fin 100000) (c : Fin 64) :
    val_main_v157 (F := Ideal) x0 x1 x3 x4 x5 x6 x7 x8 (ix2 r c) = ∑ k : Fin 64, val_main_v154 (F := Ideal) x0 x1 x3 x4 x5 x6 x7 x8 (ix2 r k) * val_main_v156 (F := Ideal) x5 (ix2 k c) := by
  rw [val_main_v157_apply]
  refine Finset.sum_congr rfl fun k _ => ?_
  rw [lidx157, ridx157]

/-- The second affine map. -/
theorem aff162 (x0 : Nodes) (x1 : Edges) (x3 : Mats) (x4 : Rows) (x5 : Mats) (x6 : Rows) (x7 : Rows) (x8 : Rows) (r : Fin 100000) (c : Fin 64) :
    val_main_v162 (F := Ideal) x0 x1 x3 x4 x5 x6 x7 x8 (ix2 r c) = affine (relu (affine (fun r k => val_main_v129 (F := Ideal) x0 x1 x3 x4 x5 x6 x7 x8 (ix2 r k) + val_main_v144 (F := Ideal) x0 x1 x3 x4 x5 x6 x7 x8 (ix2 r k)) (fun j k => x3 (ix3 (2 : Fin 3) j k)) (fun k => x4 (ix2 (2 : Fin 3) k)))) (fun j k => x5 (ix3 (2 : Fin 3) j k)) (fun k => x6 (ix2 (2 : Fin 3) k)) r c := by
  have hs : ∀ k : Fin 64, val_main_v154 (F := Ideal) x0 x1 x3 x4 x5 x6 x7 x8 (ix2 r k) * val_main_v156 (F := Ideal) x5 (ix2 k c) = relu (affine (fun r k => val_main_v129 (F := Ideal) x0 x1 x3 x4 x5 x6 x7 x8 (ix2 r k) + val_main_v144 (F := Ideal) x0 x1 x3 x4 x5 x6 x7 x8 (ix2 r k)) (fun j k => x3 (ix3 (2 : Fin 3) j k)) (fun k => x4 (ix2 (2 : Fin 3) k))) r k * x5 (ix3 (2 : Fin 3) k c) :=
    fun k => by rw [relu154, w156]
  rw [val_main_v162_apply, dot157, row161, Finset.sum_congr rfl fun k _ => hs k, Ideal.addf_def]
  rfl

/-- The layer's perceptron output, as a function of the arguments. -/
def H3 (x0 : Nodes) (x1 : Edges) (x3 : Mats) (x4 : Rows) (x5 : Mats) (x6 : Rows) (x7 : Rows) (x8 : Rows) : Fin 100000 → Fin 64 → EReal :=
  hidden (fun r k => val_main_v129 (F := Ideal) x0 x1 x3 x4 x5 x6 x7 x8 (ix2 r k) + val_main_v144 (F := Ideal) x0 x1 x3 x4 x5 x6 x7 x8 (ix2 r k)) (fun j k => x3 (ix3 (2 : Fin 3) j k)) (fun k => x4 (ix2 (2 : Fin 3) k)) (fun j k => x5 (ix3 (2 : Fin 3) j k)) (fun k => x6 (ix2 (2 : Fin 3) k))

/-- The second activation: the perceptron's output. -/
theorem h163 (x0 : Nodes) (x1 : Edges) (x3 : Mats) (x4 : Rows) (x5 : Mats) (x6 : Rows) (x7 : Rows) (x8 : Rows) (r : Fin 100000) (c : Fin 64) :
    val_main_v163 (F := Ideal) x0 x1 x3 x4 x5 x6 x7 x8 (ix2 r c) = H3 x0 x1 x3 x4 x5 x6 x7 x8 r c := by
  rw [val_main_v163_apply, val_main_call5_v0_apply, val_main_call5_cst_apply, aff162, Ideal.maximumf_def, Ideal.ofBits_def, Ideal.ofBits_zero_f32]
  rfl

theorem idx164 (c : Fin 64) (k : Fin 100000) : idx_main_v164 (ix1 c) k = ix2 k c :=
  funext fun a => Fin.ext (by
    match a with
    | ⟨0, _⟩ => rfl
    | ⟨1, _⟩ => rfl)

/-- The column means. -/
theorem mean166 (x0 : Nodes) (x1 : Edges) (x3 : Mats) (x4 : Rows) (x5 : Mats) (x6 : Rows) (x7 : Rows) (x8 : Rows) (H : Fin 100000 → Fin 64 → EReal) (hH : ∀ (r : Fin 100000) (c : Fin 64), val_main_v163 (F := Ideal) x0 x1 x3 x4 x5 x6 x7 x8 (ix2 r c) = H r c) (c : Fin 64) :
    val_main_v166 (F := Ideal) x0 x1 x3 x4 x5 x6 x7 x8 (ix1 c) = mean cnt H c := by
  have hs : ∀ k : Fin 100000, val_main_v163 (F := Ideal) x0 x1 x3 x4 x5 x6 x7 x8 (idx_main_v164 (ix1 c) k) = H k c :=
    fun k => by rw [idx164, hH]
  rw [val_main_v166_apply, val_main_v164_apply, val_main_v165_apply, val_main_cst_24_apply, val_main_cst_23_apply, Finset.sum_congr rfl fun k _ => hs k]
  simp only [Ideal.hostDivf_def, Ideal.ofBits_def, Ideal.ofBits_zero_f32, zero_add]
  rfl

/-- A row of column statistics, broadcast down the rows. -/
theorem bc168 (x0 : Nodes) (x1 : Edges) (x3 : Mats) (x4 : Rows) (x5 : Mats) (x6 : Rows) (x7 : Rows) (x8 : Rows) (r : Fin 100000) (c : Fin 64) :
    val_main_v168 (F := Ideal) x0 x1 x3 x4 x5 x6 x7 x8 (ix2 r c) = val_main_v166 (F := Ideal) x0 x1 x3 x4 x5 x6 x7 x8 (ix1 c) := by
  rw [val_main_v168_apply, val_main_v167_apply]
  exact congrArg (val_main_v166 (F := Ideal) x0 x1 x3 x4 x5 x6 x7 x8) (funext fun a => Fin.ext (by
    match a with
    | ⟨0, _⟩ => rfl))

/-- A row of column statistics, broadcast down the rows. -/
theorem bc175 (x0 : Nodes) (x1 : Edges) (x3 : Mats) (x4 : Rows) (x5 : Mats) (x6 : Rows) (x7 : Rows) (x8 : Rows) (r : Fin 100000) (c : Fin 64) :
    val_main_v175 (F := Ideal) x0 x1 x3 x4 x5 x6 x7 x8 (ix2 r c) = val_main_v166 (F := Ideal) x0 x1 x3 x4 x5 x6 x7 x8 (ix1 c) := by
  rw [val_main_v175_apply, val_main_v174_apply]
  exact congrArg (val_main_v166 (F := Ideal) x0 x1 x3 x4 x5 x6 x7 x8) (funext fun a => Fin.ext (by
    match a with
    | ⟨0, _⟩ => rfl))

theorem idx171 (c : Fin 64) (k : Fin 100000) : idx_main_v171 (ix1 c) k = ix2 k c :=
  funext fun a => Fin.ext (by
    match a with
    | ⟨0, _⟩ => rfl
    | ⟨1, _⟩ => rfl)

/-- The centred column variances. -/
theorem var173 (x0 : Nodes) (x1 : Edges) (x3 : Mats) (x4 : Rows) (x5 : Mats) (x6 : Rows) (x7 : Rows) (x8 : Rows) (H : Fin 100000 → Fin 64 → EReal) (hH : ∀ (r : Fin 100000) (c : Fin 64), val_main_v163 (F := Ideal) x0 x1 x3 x4 x5 x6 x7 x8 (ix2 r c) = H r c) (c : Fin 64) :
    val_main_v173 (F := Ideal) x0 x1 x3 x4 x5 x6 x7 x8 (ix1 c) = varCentered cnt H c := by
  have hs : ∀ k : Fin 100000, val_main_v170 (F := Ideal) x0 x1 x3 x4 x5 x6 x7 x8 (idx_main_v171 (ix1 c) k) = (H k c - mean cnt H c) * (H k c - mean cnt H c) :=
    fun k => by
      rw [idx171, val_main_v170_apply, val_main_v169_apply, bc168, mean166 x0 x1 x3 x4 x5 x6 x7 x8 H hH, hH, Ideal.mulf_def, Ideal.subf_def]
  rw [val_main_v173_apply, val_main_v171_apply, val_main_v172_apply, val_main_cst_26_apply, val_main_cst_25_apply, Finset.sum_congr rfl fun k _ => hs k]
  simp only [Ideal.hostDivf_def, Ideal.ofBits_def, Ideal.ofBits_zero_f32, zero_add]
  rfl

/-- The reciprocal root of variance plus the small constant. -/
theorem inv179 (x0 : Nodes) (x1 : Edges) (x3 : Mats) (x4 : Rows) (x5 : Mats) (x6 : Rows) (x7 : Rows) (x8 : Rows) (H : Fin 100000 → Fin 64 → EReal) (hH : ∀ (r : Fin 100000) (c : Fin 64), val_main_v163 (F := Ideal) x0 x1 x3 x4 x5 x6 x7 x8 (ix2 r c) = H r c) (c : Fin 64) :
    val_main_v179 (F := Ideal) x0 x1 x3 x4 x5 x6 x7 x8 (ix1 c) = invStd eps (varCentered cnt H) c := by
  rw [val_main_v179_apply, val_main_v178_apply, val_main_v177_apply, val_main_cst_27_apply, var173 x0 x1 x3 x4 x5 x6 x7 x8 H hH]
  simp only [Ideal.hostUnary_rsqrt_def, Ideal.addf_def, Ideal.ofBits_def]
  rfl

/-- A row of column statistics, broadcast down the rows. -/
theorem bc181 (x0 : Nodes) (x1 : Edges) (x3 : Mats) (x4 : Rows) (x5 : Mats) (x6 : Rows) (x7 : Rows) (x8 : Rows) (r : Fin 100000) (c : Fin 64) :
    val_main_v181 (F := Ideal) x0 x1 x3 x4 x5 x6 x7 x8 (ix2 r c) = val_main_v179 (F := Ideal) x0 x1 x3 x4 x5 x6 x7 x8 (ix1 c) := by
  rw [val_main_v181_apply, val_main_v180_apply]
  exact congrArg (val_main_v179 (F := Ideal) x0 x1 x3 x4 x5 x6 x7 x8) (funext fun a => Fin.ext (by
    match a with
    | ⟨0, _⟩ => rfl))

/-- The normalized output, for any name `H` of the perceptron's output. -/
theorem z192 (x0 : Nodes) (x1 : Edges) (x3 : Mats) (x4 : Rows) (x5 : Mats) (x6 : Rows) (x7 : Rows) (x8 : Rows) (H : Fin 100000 → Fin 64 → EReal) (hH : ∀ (r : Fin 100000) (c : Fin 64), val_main_v163 (F := Ideal) x0 x1 x3 x4 x5 x6 x7 x8 (ix2 r c) = H r c) (r : Fin 100000) (c : Fin 64) :
    val_main_v192 (F := Ideal) x0 x1 x3 x4 x5 x6 x7 x8 (ix2 r c) = normalize H (mean cnt H) (invStd eps (varCentered cnt H)) (fun k => x7 (ix2 (2 : Fin 3) k)) (fun k => x8 (ix2 (2 : Fin 3) k)) r c := by
  rw [val_main_v192_apply, val_main_v187_apply, val_main_v182_apply, val_main_v176_apply, bc175, bc181, row186, row191,
    mean166 x0 x1 x3 x4 x5 x6 x7 x8 H hH, inv179 x0 x1 x3 x4 x5 x6 x7 x8 H hH, hH]
  simp only [Ideal.addf_def, Ideal.mulf_def, Ideal.subf_def]
  rfl

/-- Layer 3 of the reference, entry by entry. -/
theorem layer3_at (x0 : Nodes) (x1 : Edges) (x3 : Mats) (x4 : Rows) (x5 : Mats) (x6 : Rows) (x7 : Rows) (x8 : Rows) (r : Fin 100000) (c : Fin 64) :
    val_main_v192 (F := Ideal) x0 x1 x3 x4 x5 x6 x7 x8 (ix2 r c) =
      normalize (H3 x0 x1 x3 x4 x5 x6 x7 x8) (mean cnt (H3 x0 x1 x3 x4 x5 x6 x7 x8)) (invStd eps (varCentered cnt (H3 x0 x1 x3 x4 x5 x6 x7 x8))) (fun k => x7 (ix2 (2 : Fin 3) k)) (fun k => x8 (ix2 (2 : Fin 3) k)) r c :=
  z192 x0 x1 x3 x4 x5 x6 x7 x8 (H3 x0 x1 x3 x4 x5 x6 x7 x8) (h163 x0 x1 x3 x4 x5 x6 x7 x8) r c

/-! ### The three layers as one function -/

/-- The perceptron of one layer: from the layer's input `z`, the neighbour sums `a` of that input, and slab `l` of
    the weights and biases. -/
def layerH (l : Fin 3) (z a : Fin 100000 → Fin 64 → EReal) (x3 : Mats) (x4 : Rows) (x5 : Mats) (x6 : Rows) :
    Fin 100000 → Fin 64 → EReal :=
  hidden (fun r k => z r k + a r k) (fun j k => x3 (ix3 l j k)) (fun k => x4 (ix2 l k)) (fun j k => x5 (ix3 l j k))
    (fun k => x6 (ix2 l k))

/-- One whole layer: the perceptron's output, every column centred by its mean and scaled by the reciprocal root of
    its centred variance plus the small constant, times row `l` of the scales, plus row `l` of the shifts. -/
def layerZ (l : Fin 3) (z a : Fin 100000 → Fin 64 → EReal) (x3 : Mats) (x4 : Rows) (x5 : Mats) (x6 x7 x8 : Rows) :
    Fin 100000 → Fin 64 → EReal :=
  normalize (layerH l z a x3 x4 x5 x6) (mean cnt (layerH l z a x3 x4 x5 x6))
    (invStd eps (varCentered cnt (layerH l z a x3 x4 x5 x6))) (fun k => x7 (ix2 l k)) (fun k => x8 (ix2 l k))

/-- Layer 1's perceptron output is the one layer function at slab 0, of the layer's input and its neighbour sums. -/
theorem H1_eq (x0 : Nodes) (x1 : Edges) (x3 : Mats) (x4 : Rows) (x5 : Mats) (x6 : Rows) :
    H1 x0 x1 x3 x4 x5 x6 = layerH (0 : Fin 3) (fun r k => x0 (ix2 r k)) (fun r k => val_main_v18 (F := Ideal) x0 x1 (ix2 r k)) x3 x4 x5 x6 := rfl

/-- Layer 1's output is the one layer function at slab 0, of the layer's input and its neighbour sums. -/
theorem layer1_eq (x0 : Nodes) (x1 : Edges) (x3 : Mats) (x4 : Rows) (x5 : Mats) (x6 : Rows) (x7 : Rows) (x8 : Rows) (r : Fin 100000) (c : Fin 64) :
    val_main_v66 (F := Ideal) x0 x1 x3 x4 x5 x6 x7 x8 (ix2 r c) =
      layerZ (0 : Fin 3) (fun r k => x0 (ix2 r k)) (fun r k => val_main_v18 (F := Ideal) x0 x1 (ix2 r k)) x3 x4 x5 x6 x7 x8 r c :=
  layer1_at x0 x1 x3 x4 x5 x6 x7 x8 r c

/-- Layer 2's perceptron output is the one layer function at slab 1, of the layer's input and its neighbour sums. -/
theorem H2_eq (x0 : Nodes) (x1 : Edges) (x3 : Mats) (x4 : Rows) (x5 : Mats) (x6 : Rows) (x7 : Rows) (x8 : Rows) :
    H2 x0 x1 x3 x4 x5 x6 x7 x8 = layerH (1 : Fin 3) (fun r k => val_main_v66 (F := Ideal) x0 x1 x3 x4 x5 x6 x7 x8 (ix2 r k)) (fun r k => val_main_v81 (F := Ideal) x0 x1 x3 x4 x5 x6 x7 x8 (ix2 r k)) x3 x4 x5 x6 := rfl

/-- Layer 2's output is the one layer function at slab 1, of the layer's input and its neighbour sums. -/
theorem layer2_eq (x0 : Nodes) (x1 : Edges) (x3 : Mats) (x4 : Rows) (x5 : Mats) (x6 : Rows) (x7 : Rows) (x8 : Rows) (r : Fin 100000) (c : Fin 64) :
    val_main_v129 (F := Ideal) x0 x1 x3 x4 x5 x6 x7 x8 (ix2 r c) =
      layerZ (1 : Fin 3) (fun r k => val_main_v66 (F := Ideal) x0 x1 x3 x4 x5 x6 x7 x8 (ix2 r k)) (fun r k => val_main_v81 (F := Ideal) x0 x1 x3 x4 x5 x6 x7 x8 (ix2 r k)) x3 x4 x5 x6 x7 x8 r c :=
  layer2_at x0 x1 x3 x4 x5 x6 x7 x8 r c

/-- Layer 3's perceptron output is the one layer function at slab 2, of the layer's input and its neighbour sums. -/
theorem H3_eq (x0 : Nodes) (x1 : Edges) (x3 : Mats) (x4 : Rows) (x5 : Mats) (x6 : Rows) (x7 : Rows) (x8 : Rows) :
    H3 x0 x1 x3 x4 x5 x6 x7 x8 = layerH (2 : Fin 3) (fun r k => val_main_v129 (F := Ideal) x0 x1 x3 x4 x5 x6 x7 x8 (ix2 r k)) (fun r k => val_main_v144 (F := Ideal) x0 x1 x3 x4 x5 x6 x7 x8 (ix2 r k)) x3 x4 x5 x6 := rfl

/-- Layer 3's output is the one layer function at slab 2, of the layer's input and its neighbour sums. -/
theorem layer3_eq (x0 : Nodes) (x1 : Edges) (x3 : Mats) (x4 : Rows) (x5 : Mats) (x6 : Rows) (x7 : Rows) (x8 : Rows) (r : Fin 100000) (c : Fin 64) :
    val_main_v192 (F := Ideal) x0 x1 x3 x4 x5 x6 x7 x8 (ix2 r c) =
      layerZ (2 : Fin 3) (fun r k => val_main_v129 (F := Ideal) x0 x1 x3 x4 x5 x6 x7 x8 (ix2 r k)) (fun r k => val_main_v144 (F := Ideal) x0 x1 x3 x4 x5 x6 x7 x8 (ix2 r k)) x3 x4 x5 x6 x7 x8 r c :=
  layer3_at x0 x1 x3 x4 x5 x6 x7 x8 r c

end Cert.RefLayers

end
-- ==== Proof.ProgramsAgree.lean ====
/-
  The two programs run the same array operations around their layers. The neighbour sums of the one program are the
  neighbour sums of the other, and so are the pooled results, as functions of the node table and of the index arrays.
  Each program states its own copies of the shapes and of the dimension records of its gather and scatter operations;
  the copies are the same literals, and the side conditions they carry are propositions, so the two sides are one term.
-/
import proofs.«149905_j3221225472297_1_alg».proof.Proof.KernelIdeal.HostStagesRest
import proofs.«149905_j3221225472297_1_alg».proof.Proof.ReferenceLayers

noncomputable section

namespace Cert.ProgramsAgree

open Idealize.ShloMosaic

/-- The neighbour sums: the rows of `z` at the edges' sources added at the edges' targets, the edge list cut into its
    two rows. One function of `z` and the edge list in both programs. -/
theorem agg_agree (z : FVec Ideal Cert.KernelIdeal.S100000x64 .f32) (ei : IVec Cert.KernelIdeal.S2x1600000 32) :
    Cert.KernelIdeal.HostStages.Agg z (Cert.KernelIdeal.HostStages.srcVec ei) (Cert.KernelIdeal.HostStages.dstVec ei)
      = Cert.RefLayers.agg z ei := rfl

/-- One layer's segment sums: one function of the node table and the segment numbers in both programs. -/
theorem poolOne_agree (z : FVec Ideal Cert.KernelIdeal.S100000x64 .f32) (batch : IVec Cert.KernelIdeal.S100000 32) :
    Cert.KernelIdeal.HostStages.poolOne z batch = Cert.RefLayers.pool z batch := rfl

/-- The pooled result, the three layers' segment sums side by side: one function of the three node tables and the
    segment numbers in both programs. -/
theorem pool_agree (z1 z2 z3 : FVec Ideal Cert.KernelIdeal.S100000x64 .f32) (batch : IVec Cert.KernelIdeal.S100000 32) :
    Cert.KernelIdeal.HostStages.Pool z1 z2 z3 batch
      = concatenate Cert.ReferenceIdeal.S512x192 1 [⟨Cert.ReferenceIdeal.S512x64, Cert.RefLayers.pool z1 batch⟩,
          ⟨Cert.ReferenceIdeal.S512x64, Cert.RefLayers.pool z2 batch⟩,
          ⟨Cert.ReferenceIdeal.S512x64, Cert.RefLayers.pool z3 batch⟩]
          Cert.ReferenceIdeal.Gen.concatenates_S512x64_S512x64_S512x64_S512x192_d1 := rfl

end Cert.ProgramsAgree

end
-- ==== Proof.ResultsAgree.lean ====
/-
  The two programs' results are the same array. The kernel-side program's three layer outputs are, as functions of
  row and column, the layer with the two-moment variance applied to the previous output and its neighbour sums; the
  reference's three layer outputs are the same layer with the centred variance. On real inputs and real parameters
  the two agree layer by layer; the neighbour sums and the pooled, side-by-side result are one function of the node
  tables and the index arrays in both programs; hence the pooled results agree.
-/
import proofs.«149905_j3221225472297_1_alg».proof.Proof.LayersAgree
import proofs.«149905_j3221225472297_1_alg».proof.Proof.ThreeLayers
import proofs.«149905_j3221225472297_1_alg».proof.Proof.ReferenceLayers
import proofs.«149905_j3221225472297_1_alg».proof.Proof.KernelIdeal.HostStages
import proofs.«149905_j3221225472297_1_alg».proof.Proof.KernelIdeal.HostStagesRest
import proofs.«149905_j3221225472297_1_alg».proof.Proof.NeighbourSumReal
import proofs.«149905_j3221225472297_1_alg».proof.Proof.ProgramsAgree

noncomputable section

namespace Cert.ResultsAgree

open Idealize.ShloMosaic Idealize.ShloMosaic.ValueIdx
open Cert.LayerSpec Cert.LayersAgree Cert.RefLayers
open Cert.KernelIdeal.HostStages
open Cert.ReferenceIdeal.Read

/-- A reference layer is the centred layer over the given input and aggregated arrays, slab `l` of the parameters. -/
theorem layerZ_eq_centeredA (l : Fin 3) (z a : Fin 100000 → Fin 64 → EReal) (x3 : Mats) (x4 : Rows) (x5 : Mats)
    (x6 x7 x8 : Rows) :
    layerZ l z a x3 x4 x5 x6 x7 x8 = layerCenteredA cnt eps (fun j k => x3 (ix3 l j k)) (fun k => x4 (ix2 l k))
      (fun j k => x5 (ix3 l j k)) (fun k => x6 (ix2 l k)) (fun k => x7 (ix2 l k)) (fun k => x8 (ix2 l k)) z a := rfl

/-- The reference's layer-1 output, entry by entry, is the centred layer of the node features and their neighbour
    sums. -/
theorem ref_layer1 (x0 : Nodes) (x1 : Edges) (x3 : Mats) (x4 : Rows) (x5 : Mats) (x6 x7 x8 : Rows)
    (r : Fin 100000) (c : Fin 64) :
    val_main_v66 (F := Ideal) x0 x1 x3 x4 x5 x6 x7 x8 (ix2 r c)
      = layerCenteredA cnt eps (fun j k => x3 (ix3 (0 : Fin 3) j k)) (fun k => x4 (ix2 (0 : Fin 3) k))
      (fun j k => x5 (ix3 (0 : Fin 3) j k)) (fun k => x6 (ix2 (0 : Fin 3) k)) (fun k => x7 (ix2 (0 : Fin 3) k))
      (fun k => x8 (ix2 (0 : Fin 3) k))
        (mat x0) (mat (agg x0 x1)) r c := by
  rw [layer1_eq, agg1_def]
  rfl

/-- The reference's layer-2 output is the centred layer of its layer-1 output and that output's neighbour sums. -/
theorem ref_layer2 (x0 : Nodes) (x1 : Edges) (x3 : Mats) (x4 : Rows) (x5 : Mats) (x6 x7 x8 : Rows)
    (r : Fin 100000) (c : Fin 64) :
    val_main_v129 (F := Ideal) x0 x1 x3 x4 x5 x6 x7 x8 (ix2 r c)
      = layerCenteredA cnt eps (fun j k => x3 (ix3 (1 : Fin 3) j k)) (fun k => x4 (ix2 (1 : Fin 3) k))
      (fun j k => x5 (ix3 (1 : Fin 3) j k)) (fun k => x6 (ix2 (1 : Fin 3) k)) (fun k => x7 (ix2 (1 : Fin 3) k))
      (fun k => x8 (ix2 (1 : Fin 3) k))
        (mat (val_main_v66 (F := Ideal) x0 x1 x3 x4 x5 x6 x7 x8)) (mat (agg (val_main_v66 (F := Ideal) x0 x1 x3 x4 x5 x6 x7 x8) x1)) r c := by
  rw [layer2_eq, agg2_def]
  rfl

/-- The reference's layer-3 output is the centred layer of its layer-2 output and that output's neighbour sums. -/
theorem ref_layer3 (x0 : Nodes) (x1 : Edges) (x3 : Mats) (x4 : Rows) (x5 : Mats) (x6 x7 x8 : Rows)
    (r : Fin 100000) (c : Fin 64) :
    val_main_v192 (F := Ideal) x0 x1 x3 x4 x5 x6 x7 x8 (ix2 r c)
      = layerCenteredA cnt eps (fun j k => x3 (ix3 (2 : Fin 3) j k)) (fun k => x4 (ix2 (2 : Fin 3) k))
      (fun j k => x5 (ix3 (2 : Fin 3) j k)) (fun k => x6 (ix2 (2 : Fin 3) k)) (fun k => x7 (ix2 (2 : Fin 3) k))
      (fun k => x8 (ix2 (2 : Fin 3) k))
        (mat (val_main_v129 (F := Ideal) x0 x1 x3 x4 x5 x6 x7 x8)) (mat (agg (val_main_v129 (F := Ideal) x0 x1 x3 x4 x5 x6 x7 x8) x1)) r c := by
  rw [layer3_eq, agg3_def]
  rfl

/-- The kernel-side layer outputs are the reference's layer outputs. -/
theorem layers_agree (x0 : Nodes) (x1 : Edges) (x3 : Mats) (x4 : Rows) (x5 : Mats) (x6 x7 x8 : Rows)
    (hx0 : ∀ i, ∃ r : ℝ, x0 i = (r : EReal)) (hx3 : ∀ i, ∃ r : ℝ, x3 i = (r : EReal))
    (hx4 : ∀ i, ∃ r : ℝ, x4 i = (r : EReal)) (hx5 : ∀ i, ∃ r : ℝ, x5 i = (r : EReal))
    (hx6 : ∀ i, ∃ r : ℝ, x6 i = (r : EReal)) (hx7 : ∀ i, ∃ r : ℝ, x7 i = (r : EReal))
    (hx8 : ∀ i, ∃ r : ℝ, x8 i = (r : EReal)) (Z1 Z2 Z3 : Nodes)
    (h1 : mat Z1 = layerMomentsA cnt eps (fun j k => x3 (ix3 (0 : Fin 3) j k)) (fun k => x4 (ix2 (0 : Fin 3) k))
      (fun j k => x5 (ix3 (0 : Fin 3) j k)) (fun k => x6 (ix2 (0 : Fin 3) k)) (fun k => x7 (ix2 (0 : Fin 3) k))
      (fun k => x8 (ix2 (0 : Fin 3) k))
        (mat x0) (mat (Agg x0 (srcVec x1) (dstVec x1))))
    (h2 : mat Z2 = layerMomentsA cnt eps (fun j k => x3 (ix3 (1 : Fin 3) j k)) (fun k => x4 (ix2 (1 : Fin 3) k))
      (fun j k => x5 (ix3 (1 : Fin 3) j k)) (fun k => x6 (ix2 (1 : Fin 3) k)) (fun k => x7 (ix2 (1 : Fin 3) k))
      (fun k => x8 (ix2 (1 : Fin 3) k))
        (mat Z1) (mat (Agg Z1 (srcVec x1) (dstVec x1))))
    (h3 : mat Z3 = layerMomentsA cnt eps (fun j k => x3 (ix3 (2 : Fin 3) j k)) (fun k => x4 (ix2 (2 : Fin 3) k))
      (fun j k => x5 (ix3 (2 : Fin 3) j k)) (fun k => x6 (ix2 (2 : Fin 3) k)) (fun k => x7 (ix2 (2 : Fin 3) k))
      (fun k => x8 (ix2 (2 : Fin 3) k))
        (mat Z2) (mat (Agg Z2 (srcVec x1) (dstVec x1)))) :
    Z1 = val_main_v66 (F := Ideal) x0 x1 x3 x4 x5 x6 x7 x8 ∧ Z2 = val_main_v129 (F := Ideal) x0 x1 x3 x4 x5 x6 x7 x8 ∧ Z3 = val_main_v192 (F := Ideal) x0 x1 x3 x4 x5 x6 x7 x8 :=
  Cert.ThreeLayers.three_layers hx0 hx3 hx4 hx5 hx6 hx7 hx8 (srcVec x1) (dstVec x1) (fun z => agg z x1)
    (fun z => Cert.ProgramsAgree.agg_agree z x1) h1 h2 h3
    (ref_layer1 x0 x1 x3 x4 x5 x6 x7 x8) (ref_layer2 x0 x1 x3 x4 x5 x6 x7 x8) (ref_layer3 x0 x1 x3 x4 x5 x6 x7 x8)

/-- THE RESULTS AGREE: the kernel-side pooled result of its three layer outputs is the reference's result. -/
theorem results_agree (x0 : Nodes) (x1 : Edges) (x2 : Seg) (x3 : Mats) (x4 : Rows) (x5 : Mats) (x6 x7 x8 : Rows)
    (hx0 : ∀ i, ∃ r : ℝ, x0 i = (r : EReal)) (hx3 : ∀ i, ∃ r : ℝ, x3 i = (r : EReal))
    (hx4 : ∀ i, ∃ r : ℝ, x4 i = (r : EReal)) (hx5 : ∀ i, ∃ r : ℝ, x5 i = (r : EReal))
    (hx6 : ∀ i, ∃ r : ℝ, x6 i = (r : EReal)) (hx7 : ∀ i, ∃ r : ℝ, x7 i = (r : EReal))
    (hx8 : ∀ i, ∃ r : ℝ, x8 i = (r : EReal)) (Z1 Z2 Z3 : Nodes)
    (h1 : mat Z1 = layerMomentsA cnt eps (fun j k => x3 (ix3 (0 : Fin 3) j k)) (fun k => x4 (ix2 (0 : Fin 3) k))
      (fun j k => x5 (ix3 (0 : Fin 3) j k)) (fun k => x6 (ix2 (0 : Fin 3) k)) (fun k => x7 (ix2 (0 : Fin 3) k))
      (fun k => x8 (ix2 (0 : Fin 3) k))
        (mat x0) (mat (Agg x0 (srcVec x1) (dstVec x1))))
    (h2 : mat Z2 = layerMomentsA cnt eps (fun j k => x3 (ix3 (1 : Fin 3) j k)) (fun k => x4 (ix2 (1 : Fin 3) k))
      (fun j k => x5 (ix3 (1 : Fin 3) j k)) (fun k => x6 (ix2 (1 : Fin 3) k)) (fun k => x7 (ix2 (1 : Fin 3) k))
      (fun k => x8 (ix2 (1 : Fin 3) k))
        (mat Z1) (mat (Agg Z1 (srcVec x1) (dstVec x1))))
    (h3 : mat Z3 = layerMomentsA cnt eps (fun j k => x3 (ix3 (2 : Fin 3) j k)) (fun k => x4 (ix2 (2 : Fin 3) k))
      (fun j k => x5 (ix3 (2 : Fin 3) j k)) (fun k => x6 (ix2 (2 : Fin 3) k)) (fun k => x7 (ix2 (2 : Fin 3) k))
      (fun k => x8 (ix2 (2 : Fin 3) k))
        (mat Z2) (mat (Agg Z2 (srcVec x1) (dstVec x1)))) :
    Pool Z1 Z2 Z3 x2 = val_main_v202 (F := Ideal) x0 x1 x2 x3 x4 x5 x6 x7 x8 := by
  obtain ⟨e1, e2, e3⟩ := layers_agree x0 x1 x3 x4 x5 x6 x7 x8 hx0 hx3 hx4 hx5 hx6 hx7 hx8 Z1 Z2 Z3 h1 h2 h3
  rw [e1, e2, e3, Cert.ProgramsAgree.pool_agree, tail_def]

end Cert.ResultsAgree

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.FiniteInputs.lean ====
/-
  From the finiteness precondition to real numbers.

  The precondition is one bit: the conjunction, over the seven floating-point arguments, of "every entry e of the argument
  satisfies |e| < +∞" (an ordered comparison of max e (-e) against the word 0x7F800000, which denotes +∞, folded over the
  whole array by "and" from 1). If that bit is 1, each of the seven conjuncts is 1; a fold by "and" that came out 1 met a 1
  at every entry; and an extended real whose absolute value is strictly below +∞ is neither +∞ nor -∞, so it is a real number.
-/
import proofs.«149905_j3221225472297_1_alg».proof.Pre_finite_inputs
import proofs.«149905_j3221225472297_1_alg».proof.Proof.LibFiniteEReal
import Idealize.ShloMosaic.Lib.ReduceAll
import Idealize.ShloMosaic.Lib.ValueIdx

noncomputable section

namespace Cert.FiniteInputs

open Idealize.ShloMosaic Cert.Pre_finite_inputs

/-- The shape of a scalar has exactly one index. -/
instance : Subsingleton S_.Idx := ⟨fun a b => funext fun d => d.elim0⟩

/-- One conjunct read back: if the fold by "and" of the entrywise test |e| < +∞ over a whole array is 1, every entry of the
    array is a real number. -/
theorem all_real {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi
          (cmpf .olt (Host.absf v) (broadcastInDim s ![] hb (constant (F := Ideal) S_ .f32 0x7F800000#32)))
          (constantI S_ 1 1#1) hr hu ValueIdx.ix0 = 1#1) :
    ∀ i, ∃ r : ℝ, v i = (r : EReal) := by
  intro i
  have hi := Host.reduce_andi_all _ _ hr hu ValueIdx.ix0 e i
  exact Cert.Lib.FiniteEReal.real_of_abs_lt (v i) hi

variable [Facts]

/-- The precondition decoded: under it every entry of each of the seven floating-point arguments is a real number. -/
theorem real_of_pre (x : FVec Ideal S100000x64 .f32) (ei : IVec S2x1600000 32) (batch : IVec S100000 32)
    (W1 : FVec Ideal S3x64x64 .f32) (b1 : FVec Ideal S3x64 .f32) (W2 : FVec Ideal S3x64x64 .f32)
    (b2 : FVec Ideal S3x64 .f32) (gamma : FVec Ideal S3x64 .f32) (beta : FVec Ideal S3x64 .f32)
    (h : fn (F := Ideal) x ei batch W1 b1 W2 b2 gamma beta = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal))
      ∧ (∀ i, ∃ r : ℝ, gamma i = (r : EReal)) ∧ (∀ i, ∃ r : ℝ, beta i = (r : EReal)) := by
  have e := congrFun h ValueIdx.ix0
  dsimp only [fn, fn_part1] at e
  simp only [andi, IntOp.andi_eq_one] at e
  obtain ⟨⟨⟨⟨⟨⟨h0, h3⟩, h4⟩, h5⟩, h6⟩, h7⟩, h8⟩ := e
  exact ⟨all_real x _ _ _ h0, all_real W1 _ _ _ h3, all_real b1 _ _ _ h4, all_real W2 _ _ _ h5,
    all_real b2 _ _ _ h6, all_real gamma _ _ _ h7, all_real beta _ _ _ h8⟩

end Cert.FiniteInputs

end
-- ==== Proof.lean ====
/-
  Three layers of a graph convolution — neighbour sums by a host scatter-add, a two-layer perceptron, batch normalization
  over the nodes — followed by a per-graph sum of each layer's output, the three sums side by side. The kernel program
  computes each layer in two kernel regions over twenty blocks of 5000 nodes: the first stores the perceptron's rows and
  accumulates their column sums and column sums of squares block by block, the host turns the two moments into a mean and
  `rsqrt (E[h²] - E[h]² + ε)`, the second normalizes the rows. The reference computes `rsqrt (E[(h - E[h])²] + ε)` with
  whole-array host operations.
  The frames of the two kernel programs are the segment runs of Proof/Kernel/Segments.lean and Proof/KernelIdeal/Segments.lean
  (the same argument at the word-level and at the exact instance); the reference's is its run read back with the result dropped.
  Nothing was rewritten between the kernel and its idealization, so `preserves` is `True`. At the exact instance the two
  programs' results are equal: on the extended reals the two variances agree where every entry is a real number
  (`Cert.BatchNormLaw.varMoments_eq_varCentered`), every float input is real by the precondition, the neighbour sum of real
  rows is real, and a layer maps real rows to real rows (the variance is nonnegative and ε is positive, so the reciprocal
  root is real) — so realness and equality are carried through the three layers together (`Cert.ResultsAgree`), and the
  pooled, concatenated results are the same function of equal arrays.
-/
import proofs.«149905_j3221225472297_1_alg».proof.Defs
import proofs.«149905_j3221225472297_1_alg».proof.Proof.Gen.Kernel
import proofs.«149905_j3221225472297_1_alg».proof.Proof.Gen.KernelIdeal
import proofs.«149905_j3221225472297_1_alg».proof.Proof.Gen.ReferenceIdeal
import proofs.«149905_j3221225472297_1_alg».proof.Proof.Gen.Pre_finite_inputs
import proofs.«149905_j3221225472297_1_alg».proof.Proof.Kernel.Segments
import proofs.«149905_j3221225472297_1_alg».proof.Proof.KernelIdeal.Segments
import proofs.«149905_j3221225472297_1_alg».proof.Proof.KernelIdeal.KernelLayers
import proofs.«149905_j3221225472297_1_alg».proof.Proof.ReferenceRunByHand
import proofs.«149905_j3221225472297_1_alg».proof.Proof.ReferenceValueByHand
import proofs.«149905_j3221225472297_1_alg».proof.Proof.ResultsAgree
import proofs.«149905_j3221225472297_1_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel program runs to the end, nothing faulting, its arguments unchanged. -/
theorem frame_k : Cert.frame_Kernel := fun m ρ _ => Cert.Kernel.Hand.frame (F := Bits) m ρ

/-- The same run read at the exact instance. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.RefRun.run (F := Ideal) m ρ)

/-- The idealization rewrote nothing. -/
theorem preserves : Cert.preserves_Kernel_KernelIdeal := trivial

open Cert.KernelIdeal.Hand Cert.KernelIdeal.Layers in
/-- Both programs end with the same result array: the kernel's is the pooled three layers in the two-moment spelling
    (`Layers.result_eq`, `Layers.layer0/1/2`), the reference's the same in the centred spelling, and the two agree on real inputs. -/
theorem algebraic : Cert.algebraic_KernelIdeal_ReferenceIdeal := by
  intro m ρ m' ρ' hpre hagree
  refine ⟨fun c => B13 m ρ c (Proc.devRef .tc Cert.KernelIdeal.main_v139), ?_, ?_⟩
  · refine (θ_run Cert.KernelIdeal.defs _ _).mono (fun r h c => ?_) (Cert.KernelIdeal.Hand.run_all (F := Ideal) m ρ)
    refine ⟨h c _ (mem_uc Cert.KernelIdeal.main_v139 (by decide)), ?_⟩
    exact ⟨(h c _ (mem_uc Cert.KernelIdeal.main_arg0 (by decide))).trans (B13_main_arg0 m ρ c),
      (h c _ (mem_uc Cert.KernelIdeal.main_arg1 (by decide))).trans (B13_main_arg1 m ρ c),
      (h c _ (mem_uc Cert.KernelIdeal.main_arg2 (by decide))).trans (B13_main_arg2 m ρ c),
      (h c _ (mem_uc Cert.KernelIdeal.main_arg3 (by decide))).trans (B13_main_arg3 m ρ c),
      (h c _ (mem_uc Cert.KernelIdeal.main_arg4 (by decide))).trans (B13_main_arg4 m ρ c),
      (h c _ (mem_uc Cert.KernelIdeal.main_arg5 (by decide))).trans (B13_main_arg5 m ρ c),
      (h c _ (mem_uc Cert.KernelIdeal.main_arg6 (by decide))).trans (B13_main_arg6 m ρ c),
      (h c _ (mem_uc Cert.KernelIdeal.main_arg7 (by decide))).trans (B13_main_arg7 m ρ c),
      (h c _ (mem_uc Cert.KernelIdeal.main_arg8 (by decide))).trans (B13_main_arg8 m ρ c)⟩
  · refine (θ_run Cert.ReferenceIdeal.defs _ _).mono (fun _ h c => ⟨(h c).1.trans ?_, (h c).2⟩)
      (Cert.RefValue.run_val (F := Ideal) m' ρ')
    rw [(hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    have hreal := Cert.FiniteInputs.real_of_pre _ _ _ _ _ _ _ _ _ (hpre c)
    refine ((Cert.ResultsAgree.results_agree _ _ _ _ _ _ _ _ _ hreal.1 hreal.2.1 hreal.2.2.1 hreal.2.2.2.1 hreal.2.2.2.2.1
      hreal.2.2.2.2.2.1 hreal.2.2.2.2.2.2 (Z1 m ρ c) (Z2 m ρ c) (Z3 m ρ c) (layer0 m ρ c) (layer1 m ρ c) (layer2 m ρ c)).symm.trans ?_)
    exact (result_eq m ρ c).symm

/-- The certificate: the programs' stated facts are the generated instances; then the five claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
